-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x768 : Shape := ⟨3, ![2, 2048, 768]⟩
abbrev S768x768 : Shape := ⟨2, ![768, 768]⟩
abbrev S768 : Shape := ⟨1, ![768]⟩
abbrev S_ : Shape := ⟨0, ![]⟩

class Facts : Prop where
  bcast_S_S2x2048x768 : S_.BroadcastsInDim S2x2048x768 (![] : Fin 0 → Fin S2x2048x768.rank)
  reducesTo_S2x2048x768_S_d0_1_2 : S2x2048x768.ReducesTo [0, 1, 2] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part2 {F : FTy → Type} [FloatOps F] (main_arg7 : FVec F S768x768 .f32) (main_arg8 : FVec F S768 .f32) (main_v33 : IVec S_ 1) : IVec S_ 1 :=
  let main_v34 : FVec F S768x768 .f32 := Host.absf main_arg7
  let main_cst_12 : FVec F S_ .f32 := constant S_ .f32 0x7F800000#32
  let main_v35 : FVec F S768x768 .f32 := broadcastInDim S768x768 ![] bcast_S_S768x768 main_cst_12
  let main_v36 : IVec S768x768 1 := cmpf .olt main_v34 main_v35
  let main_c_13 : IVec S_ 1 := constantI S_ 1 1#1
  let main_v37 : IVec S_ 1 := (fun x v => Host.reduce IntOp.andi x v reducesTo_S768x768_S_d0_1 h_S_) main_v36 main_c_13
  let main_v38 : IVec S_ 1 := andi main_v33 main_v37
  let main_v39 : FVec F S768 .f32 := Host.absf main_arg8
  let main_cst_14 : FVec F S_ .f32 := constant S_ .f32 0x7F800000#32
  let main_v40 : FVec F S768 .f32 := broadcastInDim S768 ![] bcast_S_S768 main_cst_14
  let main_v41 : IVec S768 1 := cmpf .olt main_v39 main_v40
  let main_c_15 : IVec S_ 1 := constantI S_ 1 1#1
  let main_v42 : IVec S_ 1 := (fun x v => Host.reduce IntOp.andi x v reducesTo_S768_S_d0 h_S_) main_v41 main_c_15
  let main_v43 : IVec S_ 1 := andi main_v38 main_v42
  main_v43

def fn_part1 {F : FTy → Type} [FloatOps F] (main_arg4 : FVec F S768 .f32) (main_arg5 : FVec F S768x768 .f32) (main_arg6 : FVec F S768 .f32) (main_arg7 : FVec F S768x768 .f32) (main_arg8 : FVec F S768 .f32) (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S768x768 .f32 := Host.absf main_arg5
  let main_cst_8 : FVec F S_ .f32 := constant S_ .f32 0x7F800000#32
  let main_v25 : FVec F S768x768 .f32 := broadcastInDim S768x768 ![] bcast_S_S768x768 main_cst_8
  let main_v26 : IVec S768x768 1 := cmpf .olt main_v24 main_v25
  let main_c_9 : IVec S_ 1 := constantI S_ 1 1#1
  let main_v27 : IVec S_ 1 := (fun x v => Host.reduce IntOp.andi x v reducesTo_S768x768_S_d0_1 h_S_) main_v26 main_c_9
  let main_v28 : IVec S_ 1 := andi main_v23 main_v27
  let main_v29 : FVec F S768 .f32 := Host.absf main_arg6
  let main_cst_10 : FVec F S_ .f32 := constant S_ .f32 0x7F800000#32
  let main_v30 : FVec F S768 .f32 := broadcastInDim S768 ![] bcast_S_S768 main_cst_10
  let main_v31 : IVec S768 1 := cmpf .olt main_v29 main_v30
  let main_c_11 : IVec S_ 1 := constantI S_ 1 1#1
  let main_v32 : IVec S_ 1 := (fun x v => Host.reduce IntOp.andi x v reducesTo_S768_S_d0 h_S_) main_v31 main_c_11
  let main_v33 : IVec S_ 1 := andi main_v28 main_v32
  fn_part2 (F := F) main_arg7 main_arg8 main_v33

def fn {F : FTy → Type} [FloatOps F] (main_arg0 : FVec F S2x2048x768 .f32) (main_arg1 : FVec F S768x768 .f32) (main_arg2 : FVec F S768 .f32) (main_arg3 : FVec F S768x768 .f32) (main_arg4 : FVec F S768 .f32) (main_arg5 : FVec F S768x768 .f32) (main_arg6 : FVec F S768 .f32) (main_arg7 : FVec F S768x768 .f32) (main_arg8 : FVec F S768 .f32) : IVec S_ 1 :=
  let main_v0 : FVec F S2x2048x768 .f32 := Host.absf main_arg0
  let main_cst : FVec F S_ .f32 := constant S_ .f32 0x7F800000#32
  let main_v1 : FVec F S2x2048x768 .f32 := broadcastInDim S2x2048x768 ![] bcast_S_S2x2048x768 main_cst
  let main_v2 : IVec S2x2048x768 1 := cmpf .olt main_v0 main_v1
  let main_c : IVec S_ 1 := constantI S_ 1 1#1
  let main_v3 : IVec S_ 1 := (fun x v => Host.reduce IntOp.andi x v reducesTo_S2x2048x768_S_d0_1_2 h_S_) main_v2 main_c
  let main_v4 : FVec F S768x768 .f32 := Host.absf main_arg1
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S768x768 .f32 := Host.absf main_arg3
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_arg4 main_arg5 main_arg6 main_arg7 main_arg8 main_v13 main_v16
-- ==== Kernel.lean ====
abbrev S2x2048x768 : Shape := ⟨3, ![2, 2048, 768]⟩
abbrev S768x768 : Shape := ⟨2, ![768, 768]⟩
abbrev S768 : Shape := ⟨1, ![768]⟩
abbrev S12x64x768 : Shape := ⟨3, ![12, 64, 768]⟩
abbrev S12x768x64 : Shape := ⟨3, ![12, 768, 64]⟩
abbrev S12x1x64 : Shape := ⟨3, ![12, 1, 64]⟩
abbrev S1x768 : Shape := ⟨2, ![1, 768]⟩
abbrev S12x2x2048x64 : Shape := ⟨4, ![12, 2, 2048, 64]⟩
abbrev S2x512x768 : Shape := ⟨3, ![2, 512, 768]⟩
abbrev S1x768x64 : Shape := ⟨3, ![1, 768, 64]⟩
abbrev S1x1x64 : Shape := ⟨3, ![1, 1, 64]⟩
abbrev S1x2x512x64 : Shape := ⟨4, ![1, 2, 512, 64]⟩
abbrev S768x64 : Shape := ⟨2, ![768, 64]⟩
abbrev S1x64 : Shape := ⟨2, ![1, 64]⟩
abbrev S1x512x768 : Shape := ⟨3, ![1, 512, 768]⟩
abbrev S512x768 : Shape := ⟨2, ![512, 768]⟩
abbrev S512x64 : Shape := ⟨2, ![512, 64]⟩
abbrev S1x1x512x64 : Shape := ⟨4, ![1, 1, 512, 64]⟩
abbrev S1x2x2048x64 : Shape := ⟨4, ![1, 2, 2048, 64]⟩
abbrev S1x1x2048x64 : Shape := ⟨4, ![1, 1, 2048, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩
abbrev S1x64x768 : Shape := ⟨3, ![1, 64, 768]⟩
abbrev S64x768 : Shape := ⟨2, ![64, 768]⟩

abbrev nBuf : Space → Nat
  | .hbm => 30
  | .vmem => 36
  | .smem => 0
  | _ => 0

abbrev bufTy : (tb : Table) → Fin (tcTables nBuf tb) → BufTy
  | .hbm, ⟨0, _⟩ => ⟨S2x2048x768, .f32⟩
  | .hbm, ⟨1, _⟩ => ⟨S768x768, .f32⟩
  | .hbm, ⟨2, _⟩ => ⟨S768, .f32⟩
  | .hbm, ⟨3, _⟩ => ⟨S768x768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S768x768, .f32⟩
  | .hbm, ⟨8, _⟩ => ⟨S768, .f32⟩
  | .hbm, ⟨9, _⟩ => ⟨S12x64x768, .f32⟩
  | .hbm, ⟨10, _⟩ => ⟨S12x768x64, .f32⟩
  | .hbm, ⟨11, _⟩ => ⟨S12x768x64, .bf16⟩
  | .hbm, ⟨12, _⟩ => ⟨S12x64x768, .f32⟩
  | .hbm, ⟨13, _⟩ => ⟨S12x768x64, .f32⟩
  | .hbm, ⟨14, _⟩ => ⟨S12x768x64, .bf16⟩
  | .hbm, ⟨15, _⟩ => ⟨S12x64x768, .f32⟩
  | .hbm, ⟨16, _⟩ => ⟨S12x768x64, .f32⟩
  | .hbm, ⟨17, _⟩ => ⟨S12x768x64, .bf16⟩
  | .hbm, ⟨18, _⟩ => ⟨S768x768, .f32⟩
  | .hbm, ⟨19, _⟩ => ⟨S12x64x768, .f32⟩
  | .hbm, ⟨20, _⟩ => ⟨S12x64x768, .bf16⟩
  | .hbm, ⟨21, _⟩ => ⟨S12x1x64, .f32⟩
  | .hbm, ⟨22, _⟩ => ⟨S12x1x64, .f32⟩
  | .hbm, ⟨23, _⟩ => ⟨S12x1x64, .f32⟩
  | .hbm, ⟨24, _⟩ => ⟨S1x768, .f32⟩
  | .hbm, ⟨25, _⟩ => ⟨S12x2x2048x64, .bf16⟩
  | .hbm, ⟨26, _⟩ => ⟨S12x2x2048x64, .bf16⟩
  | .hbm, ⟨27, _⟩ => ⟨S12x2x2048x64, .bf16⟩
  | .hbm, ⟨28, _⟩ => ⟨S12x2x2048x64, .bf16⟩
  | .hbm, ⟨29, _⟩ => ⟨S2x2048x768, .f32⟩
  | .local _ .vmem, ⟨0, _⟩ => ⟨S2x512x768, .f32⟩
  | .local _ .vmem, ⟨1, _⟩ => ⟨S2x512x768, .f32⟩
  | .local _ .vmem, ⟨2, _⟩ => ⟨S1x768x64, .bf16⟩
  | .local _ .vmem, ⟨3, _⟩ => ⟨S1x768x64, .bf16⟩
  | .local _ .vmem, ⟨4, _⟩ => ⟨S1x1x64, .f32⟩
  | .local _ .vmem, ⟨5, _⟩ => ⟨S1x1x64, .f32⟩
  | .local _ .vmem, ⟨6, _⟩ => ⟨S1x768x64, .bf16⟩
  | .local _ .vmem, ⟨7, _⟩ => ⟨S1x768x64, .bf16⟩
  | .local _ .vmem, ⟨8, _⟩ => ⟨S1x1x64, .f32⟩
  | .local _ .vmem, ⟨9, _⟩ => ⟨S1x1x64, .f32⟩
  | .local _ .vmem, ⟨10, _⟩ => ⟨S1x768x64, .bf16⟩
  | .local _ .vmem, ⟨11, _⟩ => ⟨S1x768x64, .bf16⟩
  | .local _ .vmem, ⟨12, _⟩ => ⟨S1x1x64, .f32⟩
  | .local _ .vmem, ⟨13, _⟩ => ⟨S1x1x64, .f32⟩
  | .local _ .vmem, ⟨14, _⟩ => ⟨S1x2x512x64, .bf16⟩
  | .local _ .vmem, ⟨15, _⟩ => ⟨S1x2x512x64, .bf16⟩
  | .local _ .vmem, ⟨16, _⟩ => ⟨S1x2x512x64, .bf16⟩
  | .local _ .vmem, ⟨17, _⟩ => ⟨S1x2x512x64, .bf16⟩
  | .local _ .vmem, ⟨18, _⟩ => ⟨S1x2x512x64, .bf16⟩
  | .local _ .vmem, ⟨19, _⟩ => ⟨S1x2x512x64, .bf16⟩
  | .local _ .vmem, ⟨20, _⟩ => ⟨S1x2x512x64, .bf16⟩
  | .local _ .vmem, ⟨21, _⟩ => ⟨S1x2x512x64, .bf16⟩
  | .local _ .vmem, ⟨22, _⟩ => ⟨S1x2x2048x64, .bf16⟩
  | .local _ .vmem, ⟨23, _⟩ => ⟨S1x2x2048x64, .bf16⟩
  | .local _ .vmem, ⟨24, _⟩ => ⟨S1x2x2048x64, .bf16⟩
  | .local _ .vmem, ⟨25, _⟩ => ⟨S1x2x2048x64, .bf16⟩
  | .local _ .vmem, ⟨26, _⟩ => ⟨S1x2x512x64, .bf16⟩
  | .local _ .vmem, ⟨27, _⟩ => ⟨S1x2x512x64, .bf16⟩
  | .local _ .vmem, ⟨28, _⟩ => ⟨S1x2x512x64, .bf16⟩
  | .local _ .vmem, ⟨29, _⟩ => ⟨S1x2x512x64, .bf16⟩
  | .local _ .vmem, ⟨30, _⟩ => ⟨S1x64x768, .bf16⟩
  | .local _ .vmem, ⟨31, _⟩ => ⟨S1x64x768, .bf16⟩
  | .local _ .vmem, ⟨32, _⟩ => ⟨S1x768, .f32⟩
  | .local _ .vmem, ⟨33, _⟩ => ⟨S2x512x768, .f32⟩
  | .local _ .vmem, ⟨34, _⟩ => ⟨S2x512x768, .f32⟩
  | .local _ .vmem, ⟨35, _⟩ => ⟨S2x512x768, .f32⟩
  | _, _ => ⟨S2x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16_0 : Ref sig .tc := ⟨.hbm, 25, rfl⟩
abbrev main_v16_1 : Ref sig .tc := ⟨.hbm, 26, rfl⟩
abbrev main_v16_2 : Ref sig .tc := ⟨.hbm, 27, rfl⟩
abbrev main_v17 : Ref sig .tc := ⟨.hbm, 28, rfl⟩
abbrev main_v18 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg2_1 : Ref sig .tc := ⟨.vmem, 25, rfl⟩
abbrev cc1_stg3_0 : Ref sig .tc := ⟨.vmem, 26, rfl⟩
abbrev cc1_stg3_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg3_0 : Ref sig .tc := ⟨.vmem, 33, rfl⟩
abbrev cc2_stg3_1 : Ref sig .tc := ⟨.vmem, 34, rfl⟩
abbrev cc2_scratch0 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem2_1 : DmaSem sig := 25
abbrev cc1_sem3_0 : DmaSem sig := 26
abbrev cc1_sem3_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem3_0 : DmaSem sig := 33
abbrev cc2_sem3_1 : DmaSem sig := 34

abbrev nD : Nat := 1
abbrev τ : Topo := Topo.v7x

variable {F : FTy → Type} [FloatOps F]

abbrev grid0 : Pipeline.Grid := ⟨2, ![4, 12], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

abbrev stage0_0 : Fin 2 → Memref sig .tc .vmem S2x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x768x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x768x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x768x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x2x512x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x512x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x512x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev grid1 : Pipeline.Grid := ⟨2, ![12, 4], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage1_0 : Fin 2 → Memref sig .tc .vmem S1x2x512x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x2x512x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![4, 12], ![false, false]⟩

def k2_cond2 (i : grid2.Coords) : BitVec 1 :=
  let arg1 : BitVec 32 := BitVec.ofNat 32 (i 1).val
  let c11_i32 : BitVec 32 := 11#32
  let v23 : BitVec 1 := Scalar.cmpi .eq arg1 c11_i32
  let v24 : BitVec 32 := Scalar.extui v23
  let c0_i32_23 : BitVec 32 := 0#32
  let v25 : BitVec 1 := Scalar.cmpi .ne v24 c0_i32_23
  v25

def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage2_0 : Fin 2 → Memref sig .tc .vmem S1x2x512x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x64x768 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S1x768 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S2x512x768 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

class Facts₀ : Prop where
  shapeCasts_S768x768_S12x64x768 : S768x768.ShapeCasts S12x64x768
  transposes_S12x64x768_S12x768x64_0_2_1 : S12x64x768.Transposes [0, 2, 1] S12x768x64
  bitsLt_bf16_f32 : FTy.bits .bf16 < FTy.bits .f32
  transposes_S768x768_S768x768_1_0 : S768x768.Transposes [1, 0] S768x768
  shapeCasts_S768_S12x1x64 : S768.ShapeCasts S12x1x64
  shapeCasts_S768_S1x768 : S768.ShapeCasts S1x768
  inb_S1x768x64_S1x768x64_0_0_0 : ∀ a, (![0, 0, 0] : Fin 3 → Nat) a + S1x768x64.size a ≤ S1x768x64.size a
  h_S1x768x64 : 0 < S1x768x64.numel
  shapeCasts_S1x768x64_S768x64 : S1x768x64.ShapeCasts S768x64
  inb_S1x1x64_S1x1x64_0_0_0 : ∀ a, (![0, 0, 0] : Fin 3 → Nat) a + S1x1x64.size a ≤ S1x1x64.size a
  h_S1x1x64 : 0 < S1x1x64.numel
  shapeCasts_S1x1x64_S1x64 : S1x1x64.ShapeCasts S1x64
  inb_S2x512x768_S1x512x768_0_0_0 : ∀ a, (![0, 0, 0] : Fin 3 → Nat) a + S1x512x768.size a ≤ S2x512x768.size a
  h_S1x512x768 : 0 < S1x512x768.numel
  shapeCasts_S1x512x768_S512x768 : S1x512x768.ShapeCasts S512x768
  broadcasts_S1x64_S512x64 : S1x64.Broadcasts S512x64
  inb_S1x2x512x64_S1x1x512x64_0_0_0_0 : ∀ a, (![0, 0, 0, 0] : Fin 4 → Nat) a + S1x1x512x64.size a ≤ S1x2x512x64.size a
  h_S1x1x512x64 : 0 < S1x1x512x64.numel
  shapeCasts_S1x1x512x64_S512x64 : S1x1x512x64.ShapeCasts S512x64
  shapeCasts_S512x64_S1x1x512x64 : S512x64.ShapeCasts S1x1x512x64
  packedbf16_S1x2x512x64_S1x1x512x64_0_0_0_0 : (Rect.unit (s := S1x2x512x64) ![0, 0, 0, 0] S1x1x512x64.size inb_S1x2x512x64_S1x1x512x64_0_0_0_0).PackedRows (EltTy.packing .bf16)
  inb_S2x512x768_S1x512x768_1_0_0 : ∀ a, (![1, 0, 0] : Fin 3 → Nat) a + S1x512x768.size a ≤ S2x512x768.size a
  inb_S1x2x512x64_S1x1x512x64_0_1_0_0 : ∀ a, (![0, 1, 0, 0] : Fin 4 → Nat) a + S1x1x512x64.size a ≤ S1x2x512x64.size a
  packedbf16_S1x2x512x64_S1x1x512x64_0_1_0_0 : (Rect.unit (s := S1x2x512x64) ![0, 1, 0, 0] S1x1x512x64.size inb_S1x2x512x64_S1x1x512x64_0_1_0_0).PackedRows (EltTy.packing .bf16)
  inb_S1x2x2048x64_S1x1x2048x64_0_0_0_0 : ∀ a, (![0, 0, 0, 0] : Fin 4 → Nat) a + S1x1x2048x64.size a ≤ S1x2x2048x64.size a
  h_S1x1x2048x64 : 0 < S1x1x2048x64.numel
  shapeCasts_S1x1x2048x64_S2048x64 : S1x1x2048x64.ShapeCasts S2048x64
  reduces_S512x2048_S512 : S512x2048.Reduces [1] S512
  shapeCasts_S512_S512x1 : S512.ShapeCasts S512x1
  broadcasts_S512x1_S512x2048 : S512x1.Broadcasts S512x2048
  inb_S1x2x2048x64_S1x1x2048x64_0_1_0_0 : ∀ a, (![0, 1, 0, 0] : Fin 4 → Nat) a + S1x1x2048x64.size a ≤ S1x2x2048x64.size a
  inb_S2x512x768_S2x512x768_0_0_0 : ∀ a, (![0, 0, 0] : Fin 3 → Nat) a + S2x512x768.size a ≤ S2x512x768.size a
  h_S2x512x768 : 0 < S2x512x768.numel
  shapeCasts_S2x512x768_S2x512x768 : S2x512x768.ShapeCasts S2x512x768
  inb_S1x64x768_S1x64x768_0_0_0 : ∀ a, (![0, 0, 0] : Fin 3 → Nat) a + S1x64x768.size a ≤ S1x64x768.size a
  h_S1x64x768 : 0 < S1x64x768.numel
  shapeCasts_S1x64x768_S64x768 : S1x64x768.ShapeCasts S64x768
  shapeCasts_S512x768_S1x512x768 : S512x768.ShapeCasts S1x512x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S512x768 : S1x768.Broadcasts S512x768
  dot_S512x768_S768x64_S512x64_1_0_0_1_n_n_wf : DotDims.WF S512x768 S768x64 S512x64 [1] [0] [0] [1] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  dot_S512x64_S64x768_S512x768_1_0_0_1_n_n_wf : DotDims.WF S512x64 S64x768 S512x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x512x768.size a ≤ S2x2048x768.size a
  hwx0_0 : ∀ i : grid0.Coords, EltTy.bits .f32 = 32 ∨ (Rect.block (s := S2x2048x768) S2x512x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x768x64.size a ≤ S12x768x64.size a
  hwx0_1 : ∀ i : grid0.Coords, EltTy.bits .bf16 = 32 ∨ (Rect.block (s := S12x768x64) S1x768x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x64.size a ≤ S12x1x64.size a
  hwx0_2 : ∀ i : grid0.Coords, EltTy.bits .f32 = 32 ∨ (Rect.block (s := S12x1x64) S1x1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x768x64.size a ≤ S12x768x64.size a
  hwx0_3 : ∀ i : grid0.Coords, EltTy.bits .bf16 = 32 ∨ (Rect.block (s := S12x768x64) S1x768x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x64.size a ≤ S12x1x64.size a
  hwx0_4 : ∀ i : grid0.Coords, EltTy.bits .f32 = 32 ∨ (Rect.block (s := S12x1x64) S1x1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x768x64.size a ≤ S12x768x64.size a
  hwx0_5 : ∀ i : grid0.Coords, EltTy.bits .bf16 = 32 ∨ (Rect.block (s := S12x768x64) S1x768x64.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x64.size a ≤ S12x1x64.size a
  hwx0_6 : ∀ i : grid0.Coords, EltTy.bits .f32 = 32 ∨ (Rect.block (s := S12x1x64) S1x1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x2x512x64.size a ≤ S12x2x2048x64.size a
  hwx0_7 : ∀ i : grid0.Coords, EltTy.bits .bf16 = 32 ∨ (Rect.block (s := S12x2x2048x64) S1x2x512x64.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x2x512x64.size a ≤ S12x2x2048x64.size a
  hwx0_8 : ∀ i : grid0.Coords, EltTy.bits .bf16 = 32 ∨ (Rect.block (s := S12x2x2048x64) S1x2x512x64.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x2x512x64.size a ≤ S12x2x2048x64.size a
  hwx0_9 : ∀ i : grid0.Coords, EltTy.bits .bf16 = 32 ∨ (Rect.block (s := S12x2x2048x64) S1x2x512x64.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2x512x64.size a ≤ S12x2x2048x64.size a
  hwx1_0 : ∀ i : grid1.Coords, EltTy.bits .bf16 = 32 ∨ (Rect.block (s := S12x2x2048x64) S1x2x512x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2x2048x64.size a ≤ S12x2x2048x64.size a
  hwx1_1 : ∀ i : grid1.Coords, EltTy.bits .bf16 = 32 ∨ (Rect.block (s := S12x2x2048x64) S1x2x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2x2048x64.size a ≤ S12x2x2048x64.size a
  hwx1_2 : ∀ i : grid1.Coords, EltTy.bits .bf16 = 32 ∨ (Rect.block (s := S12x2x2048x64) S1x2x2048x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2x512x64.size a ≤ S12x2x2048x64.size a
  hwx1_3 : ∀ i : grid1.Coords, EltTy.bits .bf16 = 32 ∨ (Rect.block (s := S12x2x2048x64) S1x2x512x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x2x512x64.size a ≤ S12x2x2048x64.size a
  hwx2_0 : ∀ i : grid2.Coords, EltTy.bits .bf16 = 32 ∨ (Rect.block (s := S12x2x2048x64) S1x2x512x64.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x64x768.size a ≤ S12x64x768.size a
  hwx2_1 : ∀ i : grid2.Coords, EltTy.bits .bf16 = 32 ∨ (Rect.block (s := S12x64x768) S1x64x768.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x768.size a ≤ S1x768.size a
  hwx2_2 : ∀ i : grid2.Coords, EltTy.bits .f32 = 32 ∨ (Rect.block (s := S1x768) S1x768.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2x512x768.size a ≤ S2x2048x768.size a
  hwx2_3 : ∀ i : grid2.Coords, EltTy.bits .f32 = 32 ∨ (Rect.block (s := S2x2048x768) S2x512x768.size (cc2_transform_3 i) (hinb2_3 i)).WholeWords (EltTy.packing .f32)

variable [Facts₀]

def dot_S512x768_S768x64_S512x64_1_0_0_1_n_n : DotDims S512x768 S768x64 S512x64 where
  lhsContracting := [1]
  rhsContracting := [0]
  lhsNonContracting := [0]
  rhsNonContracting := [1]
  lhsBatch := []
  rhsBatch := []
  wf := dot_S512x768_S768x64_S512x64_1_0_0_1_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S512x64_S64x768_S512x768_1_0_0_1_n_n : DotDims S512x64 S64x768 S512x768 where
  lhsContracting := [1]
  rhsContracting := [0]
  lhsNonContracting := [0]
  rhsNonContracting := [1]
  lhsBatch := []
  rhsBatch := []
  wf := dot_S512x64_S64x768_S512x768_1_0_0_1_n_n_wf

abbrev win0_0 : Pipeline.Window sig grid0 :=
  Pipeline.Window.ofSpec (Memref.whole main_arg0) S2x512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x768x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x1x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x768x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x1x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x768x64.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v14) S1x1x64.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v16_0) S1x2x512x64.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v16_1) S1x2x512x64.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v16_2) S1x2x512x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v16_0) S1x2x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16_1) S1x2x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16_2) S1x2x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v17) S1x2x512x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v17) S1x2x512x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S1x64x768.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v15) S1x768.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v18) S2x512x768.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S2x2048x768 : Shape := ⟨3, ![2, 2048, 768]⟩
abbrev S768x768 : Shape := ⟨2, ![768, 768]⟩
abbrev S768 : Shape := ⟨1, ![768]⟩
abbrev S1x1x768 : Shape := ⟨3, ![1, 1, 768]⟩
abbrev S2x2048x12x64 : Shape := ⟨4, ![2, 2048, 12, 64]⟩
abbrev S2x12x2048x64 : Shape := ⟨4, ![2, 12, 2048, 64]⟩
abbrev S2x12x2048x2048 : Shape := ⟨4, ![2, 12, 2048, 2048]⟩
abbrev S_ : Shape := ⟨0, ![]⟩
abbrev S2x12x2048 : Shape := ⟨3, ![2, 12, 2048]⟩
abbrev S2x12x2048x1 : Shape := ⟨4, ![2, 12, 2048, 1]⟩

abbrev nBuf : Space → Nat
  | .hbm => 52
  | .vmem => 0
  | .smem => 0
  | _ => 0

abbrev bufTy : (tb : Table) → Fin (tcTables nBuf tb) → BufTy
  | .hbm, ⟨0, _⟩ => ⟨S2x2048x768, .f32⟩
  | .hbm, ⟨1, _⟩ => ⟨S768x768, .f32⟩
  | .hbm, ⟨2, _⟩ => ⟨S768, .f32⟩
  | .hbm, ⟨3, _⟩ => ⟨S768x768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S768x768, .f32⟩
  | .hbm, ⟨8, _⟩ => ⟨S768, .f32⟩
  | .hbm, ⟨9, _⟩ => ⟨S2x2048x768, .f32⟩
  | .hbm, ⟨10, _⟩ => ⟨S1x1x768, .f32⟩
  | .hbm, ⟨11, _⟩ => ⟨S2x2048x768, .f32⟩
  | .hbm, ⟨12, _⟩ => ⟨S2x2048x768, .f32⟩
  | .hbm, ⟨13, _⟩ => ⟨S2x2048x12x64, .f32⟩
  | .hbm, ⟨14, _⟩ => ⟨S2x12x2048x64, .f32⟩
  | .hbm, ⟨15, _⟩ => ⟨S2x2048x768, .f32⟩
  | .hbm, ⟨16, _⟩ => ⟨S1x1x768, .f32⟩
  | .hbm, ⟨17, _⟩ => ⟨S2x2048x768, .f32⟩
  | .hbm, ⟨18, _⟩ => ⟨S2x2048x768, .f32⟩
  | .hbm, ⟨19, _⟩ => ⟨S2x2048x12x64, .f32⟩
  | .hbm, ⟨20, _⟩ => ⟨S2x12x2048x64, .f32⟩
  | .hbm, ⟨21, _⟩ => ⟨S2x2048x768, .f32⟩
  | .hbm, ⟨22, _⟩ => ⟨S1x1x768, .f32⟩
  | .hbm, ⟨23, _⟩ => ⟨S2x2048x768, .f32⟩
  | .hbm, ⟨24, _⟩ => ⟨S2x2048x768, .f32⟩
  | .hbm, ⟨25, _⟩ => ⟨S2x2048x12x64, .f32⟩
  | .hbm, ⟨26, _⟩ => ⟨S2x12x2048x64, .f32⟩
  | .hbm, ⟨27, _⟩ => ⟨S2x12x2048x2048, .f32⟩
  | .hbm, ⟨28, _⟩ => ⟨S_, .f32⟩
  | .hbm, ⟨29, _⟩ => ⟨S2x12x2048x2048, .f32⟩
  | .hbm, ⟨30, _⟩ => ⟨S2x12x2048x2048, .f32⟩
  | .hbm, ⟨31, _⟩ => ⟨S_, .f32⟩
  | .hbm, ⟨32, _⟩ => ⟨S2x12x2048, .f32⟩
  | .hbm, ⟨33, _⟩ => ⟨S_, .f32⟩
  | .hbm, ⟨34, _⟩ => ⟨S2x12x2048, .f32⟩
  | .hbm, ⟨35, _⟩ => ⟨S2x12x2048, .f32⟩
  | .hbm, ⟨36, _⟩ => ⟨S2x12x2048x1, .f32⟩
  | .hbm, ⟨37, _⟩ => ⟨S2x12x2048x2048, .f32⟩
  | .hbm, ⟨38, _⟩ => ⟨S2x12x2048x2048, .f32⟩
  | .hbm, ⟨39, _⟩ => ⟨S2x12x2048x2048, .f32⟩
  | .hbm, ⟨40, _⟩ => ⟨S_, .f32⟩
  | .hbm, ⟨41, _⟩ => ⟨S2x12x2048, .f32⟩
  | .hbm, ⟨42, _⟩ => ⟨S2x12x2048x1, .f32⟩
  | .hbm, ⟨43, _⟩ => ⟨S2x12x2048x2048, .f32⟩
  | .hbm, ⟨44, _⟩ => ⟨S2x12x2048x2048, .f32⟩
  | .hbm, ⟨45, _⟩ => ⟨S2x12x2048x64, .f32⟩
  | .hbm, ⟨46, _⟩ => ⟨S2x2048x12x64, .f32⟩
  | .hbm, ⟨47, _⟩ => ⟨S2x2048x768, .f32⟩
  | .hbm, ⟨48, _⟩ => ⟨S2x2048x768, .f32⟩
  | .hbm, ⟨49, _⟩ => ⟨S1x1x768, .f32⟩
  | .hbm, ⟨50, _⟩ => ⟨S2x2048x768, .f32⟩
  | .hbm, ⟨51, _⟩ => ⟨S2x2048x768, .f32⟩
  | _, _ => ⟨S2x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_cst_0 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]

class Facts₀ : Prop where
  bcast_S768_S1x1x768_2 : S768.BroadcastsInDim S1x1x768 (![2] : Fin 1 → Fin S1x1x768.rank)
  bcast_S1x1x768_S2x2048x768_0_1_2 : S1x1x768.BroadcastsInDim S2x2048x768 (![0, 1, 2] : Fin 3 → Fin S2x2048x768.rank)
  shapeCasts_S2x2048x768_S2x2048x12x64 : S2x2048x768.ShapeCasts S2x2048x12x64
  transposes_S2x2048x12x64_S2x12x2048x64_0_2_1_3 : S2x2048x12x64.Transposes [0, 2, 1, 3] S2x12x2048x64
  bcast_S_S2x12x2048x2048 : S_.BroadcastsInDim S2x12x2048x2048 (![] : Fin 0 → Fin S2x12x2048x2048.rank)
  reducesTo_S2x12x2048x2048_S2x12x2048_d3 : S2x12x2048x2048.ReducesTo [3] S2x12x2048
  h_S_ : 0 < S_.numel
  bcast_S_S2x12x2048 : S_.BroadcastsInDim S2x12x2048 (![] : Fin 0 → Fin S2x12x2048.rank)
  bcast_S2x12x2048_S2x12x2048x1_0_1_2 : S2x12x2048.BroadcastsInDim S2x12x2048x1 (![0, 1, 2] : Fin 3 → Fin S2x12x2048x1.rank)
  bcast_S2x12x2048x1_S2x12x2048x2048_0_1_2_3 : S2x12x2048x1.BroadcastsInDim S2x12x2048x2048 (![0, 1, 2, 3] : Fin 4 → Fin S2x12x2048x2048.rank)
  transposes_S2x12x2048x64_S2x2048x12x64_0_2_1_3 : S2x12x2048x64.Transposes [0, 2, 1, 3] S2x2048x12x64
  shapeCasts_S2x2048x12x64_S2x2048x768 : S2x2048x12x64.ShapeCasts S2x2048x768
  dot_S2x2048x768_S768x768_S2x2048x768_2_1_01_0_n_n_wf : DotDims.WF S2x2048x768 S768x768 S2x2048x768 [2] [1] [0, 1] [0] [] []
  dot_S2x12x2048x64_S2x12x2048x64_S2x12x2048x2048_3_3_2_2_01_01_wf : DotDims.WF S2x12x2048x64 S2x12x2048x64 S2x12x2048x2048 [3] [3] [2] [2] [0, 1] [0, 1]
  dot_S2x12x2048x2048_S2x12x2048x64_S2x12x2048x64_3_2_2_3_01_01_wf : DotDims.WF S2x12x2048x2048 S2x12x2048x64 S2x12x2048x64 [3] [2] [2] [3] [0, 1] [0, 1]

variable [Facts₀]

def dot_S2x2048x768_S768x768_S2x2048x768_2_1_01_0_n_n : DotDims S2x2048x768 S768x768 S2x2048x768 where
  lhsContracting := [2]
  rhsContracting := [1]
  lhsNonContracting := [0, 1]
  rhsNonContracting := [0]
  lhsBatch := []
  rhsBatch := []
  wf := dot_S2x2048x768_S768x768_S2x2048x768_2_1_01_0_n_n_wf
def dot_S2x12x2048x64_S2x12x2048x64_S2x12x2048x2048_3_3_2_2_01_01 : DotDims S2x12x2048x64 S2x12x2048x64 S2x12x2048x2048 where
  lhsContracting := [3]
  rhsContracting := [3]
  lhsNonContracting := [2]
  rhsNonContracting := [2]
  lhsBatch := [0, 1]
  rhsBatch := [0, 1]
  wf := dot_S2x12x2048x64_S2x12x2048x64_S2x12x2048x2048_3_3_2_2_01_01_wf
def dot_S2x12x2048x2048_S2x12x2048x64_S2x12x2048x64_3_2_2_3_01_01 : DotDims S2x12x2048x2048 S2x12x2048x64 S2x12x2048x64 where
  lhsContracting := [3]
  rhsContracting := [2]
  lhsNonContracting := [2]
  rhsNonContracting := [3]
  lhsBatch := [0, 1]
  rhsBatch := [0, 1]
  wf := dot_S2x12x2048x2048_S2x12x2048x64_S2x12x2048x64_3_2_2_3_01_01_wf

class Facts : Prop extends Facts₀ where

variable [Facts]
-- ==== Proof.K.Run.lean ====
/-
  The kernel program's run as four segments — the host prelude that lays the weights out by head, then the three
  kernel regions — with the contents of every unscoped buffer named at each boundary.

  At a boundary core `c` holds every unscoped buffer whole: at the launch contents, then after the prelude's
  operations, then, region by region, with that region's arrays replaced by what its write-backs leave and every
  other buffer untouched. Each region is entered by splitting its arrays out of the buffers and left by putting them
  back; between points its invariant holds the scoped buffers it does not stage and the generator register.
  The regions' proof data, body obligations and invariant facts are parameters here.
-/
import proofs.«113036_j73607149519274_2_alg».proof.Proof.Gen.Kernel.Launch
import proofs.«113036_j73607149519274_2_alg».proof.Proof.Gen.Kernel.Skeleton
import proofs.«113036_j73607149519274_2_alg».proof.Proof.Gen.Kernel.Points
import proofs.«113036_j73607149519274_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Buffer contents of every TensorCore reference on every core: what a region's proof data are stated at. -/
abbrev Conts (F : FTy → Type) [FloatOps F] : Type := (c : Dev nD) → (b : Ref sig .tc) → Buf (Elt F) ((c : Thread nD τ).loc b)

/-- What the run needs of one region's proof data, for every entry contents: the arrays are the entry contents',
    full shares, nothing owed, the body obligation, and the invariant made from (and giving back) the generator
    register and the scoped buffers the region does not stage. -/
structure RegionData (cfg : Cfg sig Λ₀)
    (D : Conts F → (c : Dev nD) → Dat τ (Elt F) Unit ℕ (UR sig nD τ) ℕ cfg c) : Prop where
  hA : ∀ V c w, (D V c).A w = V c (Pipeline.arrRef cfg.spec w)
  hq : ∀ V c w, (D V c).q w = fullShare
  howed : ∀ V c t, (D V c).owed t = 0
  hrec : ∀ V c t, (D V c).recorded t = Set.univ
  hbody : ∀ V c, BodyObligation (D V c) (defs₀ (F := F)) Variants.none () Set.univ
  hin : ∀ V c, (iprop((∃ r, prngReg c r) ∗ Pipeline.scopedRest cfg.spec c) : sProp 𝕄) ⊢ (D V c).Φ 0
  hout : ∀ V c, (D V c).Φ (Fin.last cfg.N) ⊢ (iprop((∃ r, prngReg c r) ∗ Pipeline.scopedRest cfg.spec c) : sProp 𝕄)

section Run

/-- The three regions' proof data families, the launch memory and the generator registers. -/
structure Params (F : FTy → Type) [FloatOps F] where
  D0 : Conts F → (c : Dev nD) → Dat τ (Elt F) Unit ℕ (UR sig nD τ) ℕ cfg0 c
  D1 : Conts F → (c : Dev nD) → Dat τ (Elt F) Unit ℕ (UR sig nD τ) ℕ cfg1 c
  D2 : Conts F → (c : Dev nD) → Dat τ (Elt F) Unit ℕ (UR sig nD τ) ℕ cfg2 c
  m : (ℓ : Loc nD τ sig) → Buf (Elt F) ℓ
  ρ : Dev nD → PrngReg

variable (P : Params F)

/-! ## The buffer contents at each boundary -/

/-- Core `c`'s buffers at launch. -/
abbrev W0 : Dev nD → Valuation τ sig (Elt F) := fun c b => (s₀ P.m P.ρ).mem ((c : Dev nD), b)
/-- After the host prelude (region 0's entry). -/
abbrev W1 : Dev nD → Valuation τ sig (Elt F) := fun c => StableHlo.after hostOps0 (W0 P c)
/-- The same read at the TensorCore's references. -/
abbrev V1 : Conts F := fun c b => W1 P c b

/-- At region 0's exit: its arrays at what the pipeline leaves, every other buffer as entered. -/
def W2 (c : Dev nD) : Valuation τ sig (Elt F) :=
  Pipeline.withArrays spec0 c (W1 P c) fun w => (P.D0 (V1 P) c).arrAt w cfg0.N
theorem W2_arr (c : Dev nD) (w : Fin cfg0.W) :
    W2 P c (Proc.devRef .tc (Pipeline.arrRef spec0 w)) = (P.D0 (V1 P) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 P c (Proc.devRef .tc b) = W1 P c (Proc.devRef .tc b) := by
  unfold W2; exact Pipeline.withArrays_of_ne spec0 c _ _ b hb
/-- The same read at the TensorCore's references. -/
abbrev V2 : Conts F := fun c b => W2 P c b
theorem hF0 (c : Dev nD) (w : Fin cfg0.W) : (P.D0 (V1 P) c).arrAt w cfg0.N = V2 P c (Pipeline.arrRef spec0 w) :=
  (W2_arr P c w).symm
theorem hrest0 (c : Dev nD) : ∀ b, b ∉ Finset.univ.image (Pipeline.arrRef spec0) → V2 P c b = V1 P c b :=
  fun b hb => W2_of_ne P c b fun w e => hb (Finset.mem_image.mpr ⟨w, Finset.mem_univ _, e⟩)

/-- At region 1's exit: its arrays at what the pipeline leaves, every other buffer as entered. -/
def W3 (c : Dev nD) : Valuation τ sig (Elt F) :=
  Pipeline.withArrays spec1 c (W2 P c) fun w => (P.D1 (V2 P) c).arrAt w cfg1.N
theorem W3_arr (c : Dev nD) (w : Fin cfg1.W) :
    W3 P c (Proc.devRef .tc (Pipeline.arrRef spec1 w)) = (P.D1 (V2 P) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 P c (Proc.devRef .tc b) = W2 P c (Proc.devRef .tc b) := by
  unfold W3; exact Pipeline.withArrays_of_ne spec1 c _ _ b hb
/-- The same read at the TensorCore's references. -/
abbrev V3 : Conts F := fun c b => W3 P c b
theorem hF1 (c : Dev nD) (w : Fin cfg1.W) : (P.D1 (V2 P) c).arrAt w cfg1.N = V3 P c (Pipeline.arrRef spec1 w) :=
  (W3_arr P c w).symm
theorem hrest1 (c : Dev nD) : ∀ b, b ∉ Finset.univ.image (Pipeline.arrRef spec1) → V3 P c b = V2 P c b :=
  fun b hb => W3_of_ne P c b fun w e => hb (Finset.mem_image.mpr ⟨w, Finset.mem_univ _, e⟩)

/-- At region 2's exit: its arrays at what the pipeline leaves, every other buffer as entered. -/
def W4 (c : Dev nD) : Valuation τ sig (Elt F) :=
  Pipeline.withArrays spec2 c (W3 P c) fun w => (P.D2 (V3 P) c).arrAt w cfg2.N
theorem W4_arr (c : Dev nD) (w : Fin cfg2.W) :
    W4 P c (Proc.devRef .tc (Pipeline.arrRef spec2 w)) = (P.D2 (V3 P) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 P c (Proc.devRef .tc b) = W3 P c (Proc.devRef .tc b) := by
  unfold W4; exact Pipeline.withArrays_of_ne spec2 c _ _ b hb
/-- The same read at the TensorCore's references. -/
abbrev V4 : Conts F := fun c b => W4 P c b
theorem hF2 (c : Dev nD) (w : Fin cfg2.W) : (P.D2 (V3 P) c).arrAt w cfg2.N = V4 P c (Pipeline.arrRef spec2 w) :=
  (W4_arr P c w).symm
theorem hrest2 (c : Dev nD) : ∀ b, b ∉ Finset.univ.image (Pipeline.arrRef spec2) → V4 P c b = V3 P c b :=
  fun b hb => W4_of_ne P c b fun w e => hb (Finset.mem_image.mpr ⟨w, Finset.mem_univ _, e⟩)

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => P.D0 (V1 P) c
  | ⟨1, _⟩ => fun c => P.D1 (V2 P) c
  | ⟨2, _⟩ => fun c => P.D2 (V3 P) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
/-- The host prelude as a segment over the unscoped references. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 P c) ∗ ∃ r, prngReg c r)

variable (h0 : RegionData cfg0 P.D0) (h1 : RegionData cfg1 P.D1) (h2 : RegionData cfg2 P.D2)

/-! ## The regions as segments -/

set_option backward.isDefEq.respectTransparency.types false in
/-- Region 0 over the thread state: entered from every unscoped buffer at the boundary's contents, its arrays split
    out and put back at what its write-backs leave; the generator register and the scoped buffers into its invariant and
    out; nothing owed; no semaphore of the kernel's own. -/
def reg0 : Pipeline.RegionSeg (pcfgs (F := F)) adm (pdats P) () defs₀ 𝒱₀ L lv 0 where
  win := launch0.win.to₀
  block_pos := launch0.block_pos
  stage_whole := launch0.stage_whole
  K := PEmpty
  osem k := k.elim
  ho := Pipeline.OwnSemFacts.none _
  hbody c := (h0.hbody (V1 P) c).loose
  hwaits := Pipeline.hwaits_of_owed_zero _ _ _ _ L lv 0 fun c t => h0.howed (V1 P) c t
  pre c := iprop(StableHlo.held (c : Thread nD τ) (Pipeline.ucRefs τ sig) (W1 P c) ∗ R c)
  post c := iprop(StableHlo.held (c : Thread nD τ) (Pipeline.ucRefs τ sig) (W2 P c) ∗ R c)
  X c := iprop(∃ r, prngReg c r)
  Y c := iprop(∃ r, prngReg c r)
  Z c := Pipeline.unscopedRest (Ix := Unit) (Name := ℕ) (U := UR sig nD τ) (Lvl := ℕ) spec0 c (V1 P c)
  hentry c := by
    rw [Pipeline.ownSems0_none]
    have hsplit := Pipeline.arrays_of_unscopedBufs (p := 0) (pcfgs (F := F)) adm (pdats P) launch0.win launch0.arr_whole c
      ((pdats P 0 c).share_full fun w => h0.hq (V1 P) c w) (V1 P c) fun w => h0.hA (V1 P) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · have eo : (pdats P 0 c).owed 0 = 0 := h0.howed (V1 P) c 0
      have er : (pdats P 0 c).recorded 0 = Set.univ := h0.hrec (V1 P) c 0
      unfold Pipeline.Dat.owesAt Pipeline.owesWithin
      rw [eo]
      icases HO with ⟨%W, HO⟩; iexists W; isplitr; · ipureintro; exact fun x _ => Or.inl (by rw [er]; exact Set.mem_univ x)
      iexact HO
    isplitl [Hp]; · iexact Hp
    iexact Hrest
  hin c := by
    have e : (iprop((∃ r, prngReg c r) ∗ Pipeline.prefHeld (pcfgs (F := F) 0).pre c (fun _ => fullShare) (adm (F := F) 0).1 ∗ Pipeline.scopedRest spec0 c) : sProp 𝕄)
        ⊢ iprop((∃ r, prngReg c r) ∗ Pipeline.scopedRest spec0 c) := by
      iintro ⟨Hp, -, Hr⟩
      isplitl [Hp]; · iexact Hp
      iexact Hr
    exact e.trans (h0.hin (V1 P) c)
  hout c := by
    rw [Pipeline.ownSems0_none]
    have e : (iprop((∃ r, prngReg c r) ∗ Pipeline.scopedRest spec0 c) : sProp 𝕄)
        ⊢ iprop((∃ r, prngReg c r) ∗ BI.emp ∗ Pipeline.scopedRest spec0 c) := by
      iintro ⟨Hp, Hr⟩
      isplitl [Hp]; · iexact Hp
      isplitr; · iempintro
      iexact Hr
    exact (h0.hout (V1 P) c).trans e
  hexit c := by
    have hjoin := Pipeline.unscopedBufs_of_arrays (p := 0) (pcfgs (F := F)) adm (Ix := Unit) (Name := ℕ) (U := UR sig nD τ) (Lvl := ℕ)
      launch0.win launch0.arr_whole c (pdats P) ((pdats P 0 c).share_full fun w => h0.hq (V1 P) c w)
      (V1 P c) (V2 P c) ((pdats P 0 c).arrAt · cfg0.N) (hF0 P c) (hrest0 P c)
    rw [Pipeline.unscopedBufs_held] at hjoin
    iintro ⟨Ha, HO, HY, Hrest⟩
    imodintro
    isplitl [Ha Hrest]
    · iapply hjoin; isplitl [Ha] <;> iassumption
    isplitl [HY]; · iexact HY
    have eo : (pdats P 0 c).owed (Fin.last (Pipeline.pin (pcfgs (F := F)) adm 0).N) = 0 := h0.howed (V1 P) c _
    unfold Pipeline.Dat.owesAt Pipeline.owesWithin
    rw [eo]
    icases HO with ⟨%W, -, HO⟩; iexists W; iexact HO

set_option backward.isDefEq.respectTransparency.types false in
/-- Region 1 over the thread state: entered from every unscoped buffer at the boundary's contents, its arrays split
    out and put back at what its write-backs leave; the generator register and the scoped buffers into its invariant and
    out; nothing owed; no semaphore of the kernel's own. -/
def reg1 : Pipeline.RegionSeg (pcfgs (F := F)) adm (pdats P) () defs₀ 𝒱₀ L lv 1 where
  win := launch1.win.to₀
  block_pos := launch1.block_pos
  stage_whole := launch1.stage_whole
  K := PEmpty
  osem k := k.elim
  ho := Pipeline.OwnSemFacts.none _
  hbody c := (h1.hbody (V2 P) c).loose
  hwaits := Pipeline.hwaits_of_owed_zero _ _ _ _ L lv 1 fun c t => h1.howed (V2 P) c t
  pre c := iprop(StableHlo.held (c : Thread nD τ) (Pipeline.ucRefs τ sig) (W2 P c) ∗ R c)
  post c := iprop(StableHlo.held (c : Thread nD τ) (Pipeline.ucRefs τ sig) (W3 P c) ∗ R c)
  X c := iprop(∃ r, prngReg c r)
  Y c := iprop(∃ r, prngReg c r)
  Z c := Pipeline.unscopedRest (Ix := Unit) (Name := ℕ) (U := UR sig nD τ) (Lvl := ℕ) spec1 c (V2 P c)
  hentry c := by
    rw [Pipeline.ownSems0_none]
    have hsplit := Pipeline.arrays_of_unscopedBufs (p := 1) (pcfgs (F := F)) adm (pdats P) launch1.win launch1.arr_whole c
      ((pdats P 1 c).share_full fun w => h1.hq (V2 P) c w) (V2 P c) fun w => h1.hA (V2 P) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · have eo : (pdats P 1 c).owed 0 = 0 := h1.howed (V2 P) c 0
      have er : (pdats P 1 c).recorded 0 = Set.univ := h1.hrec (V2 P) c 0
      unfold Pipeline.Dat.owesAt Pipeline.owesWithin
      rw [eo]
      icases HO with ⟨%W, HO⟩; iexists W; isplitr; · ipureintro; exact fun x _ => Or.inl (by rw [er]; exact Set.mem_univ x)
      iexact HO
    isplitl [Hp]; · iexact Hp
    iexact Hrest
  hin c := by
    have e : (iprop((∃ r, prngReg c r) ∗ Pipeline.prefHeld (pcfgs (F := F) 1).pre c (fun _ => fullShare) (adm (F := F) 1).1 ∗ Pipeline.scopedRest spec1 c) : sProp 𝕄)
        ⊢ iprop((∃ r, prngReg c r) ∗ Pipeline.scopedRest spec1 c) := by
      iintro ⟨Hp, -, Hr⟩
      isplitl [Hp]; · iexact Hp
      iexact Hr
    exact e.trans (h1.hin (V2 P) c)
  hout c := by
    rw [Pipeline.ownSems0_none]
    have e : (iprop((∃ r, prngReg c r) ∗ Pipeline.scopedRest spec1 c) : sProp 𝕄)
        ⊢ iprop((∃ r, prngReg c r) ∗ BI.emp ∗ Pipeline.scopedRest spec1 c) := by
      iintro ⟨Hp, Hr⟩
      isplitl [Hp]; · iexact Hp
      isplitr; · iempintro
      iexact Hr
    exact (h1.hout (V2 P) c).trans e
  hexit c := by
    have hjoin := Pipeline.unscopedBufs_of_arrays (p := 1) (pcfgs (F := F)) adm (Ix := Unit) (Name := ℕ) (U := UR sig nD τ) (Lvl := ℕ)
      launch1.win launch1.arr_whole c (pdats P) ((pdats P 1 c).share_full fun w => h1.hq (V2 P) c w)
      (V2 P c) (V3 P c) ((pdats P 1 c).arrAt · cfg1.N) (hF1 P c) (hrest1 P c)
    rw [Pipeline.unscopedBufs_held] at hjoin
    iintro ⟨Ha, HO, HY, Hrest⟩
    imodintro
    isplitl [Ha Hrest]
    · iapply hjoin; isplitl [Ha] <;> iassumption
    isplitl [HY]; · iexact HY
    have eo : (pdats P 1 c).owed (Fin.last (Pipeline.pin (pcfgs (F := F)) adm 1).N) = 0 := h1.howed (V2 P) c _
    unfold Pipeline.Dat.owesAt Pipeline.owesWithin
    rw [eo]
    icases HO with ⟨%W, -, HO⟩; iexists W; iexact HO

set_option backward.isDefEq.respectTransparency.types false in
/-- Region 2 over the thread state: entered from every unscoped buffer at the boundary's contents, its arrays split
    out and put back at what its write-backs leave; the generator register and the scoped buffers into its invariant and
    out; nothing owed; no semaphore of the kernel's own. -/
def reg2 : Pipeline.RegionSeg (pcfgs (F := F)) adm (pdats P) () defs₀ 𝒱₀ L lv 2 where
  win := launch2.win.to₀
  block_pos := launch2.block_pos
  stage_whole := launch2.stage_whole
  K := PEmpty
  osem k := k.elim
  ho := Pipeline.OwnSemFacts.none _
  hbody c := (h2.hbody (V3 P) c).loose
  hwaits := Pipeline.hwaits_of_owed_zero _ _ _ _ L lv 2 fun c t => h2.howed (V3 P) c t
  pre c := iprop(StableHlo.held (c : Thread nD τ) (Pipeline.ucRefs τ sig) (W3 P c) ∗ R c)
  post c := iprop(Tₙ P c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 P c)
  hentry c := by
    rw [Pipeline.ownSems0_none]
    have hsplit := Pipeline.arrays_of_unscopedBufs (p := 2) (pcfgs (F := F)) adm (pdats P) launch2.win launch2.arr_whole c
      ((pdats P 2 c).share_full fun w => h2.hq (V3 P) c w) (V3 P c) fun w => h2.hA (V3 P) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · have eo : (pdats P 2 c).owed 0 = 0 := h2.howed (V3 P) c 0
      have er : (pdats P 2 c).recorded 0 = Set.univ := h2.hrec (V3 P) c 0
      unfold Pipeline.Dat.owesAt Pipeline.owesWithin
      rw [eo]
      icases HO with ⟨%W, HO⟩; iexists W; isplitr; · ipureintro; exact fun x _ => Or.inl (by rw [er]; exact Set.mem_univ x)
      iexact HO
    isplitl [Hp]; · iexact Hp
    iexact Hrest
  hin c := by
    have e : (iprop((∃ r, prngReg c r) ∗ Pipeline.prefHeld (pcfgs (F := F) 2).pre c (fun _ => fullShare) (adm (F := F) 2).1 ∗ Pipeline.scopedRest spec2 c) : sProp 𝕄)
        ⊢ iprop((∃ r, prngReg c r) ∗ Pipeline.scopedRest spec2 c) := by
      iintro ⟨Hp, -, Hr⟩
      isplitl [Hp]; · iexact Hp
      iexact Hr
    exact e.trans (h2.hin (V3 P) c)
  hout c := by
    rw [Pipeline.ownSems0_none]
    have e : (iprop((∃ r, prngReg c r) ∗ Pipeline.scopedRest spec2 c) : sProp 𝕄)
        ⊢ iprop((∃ r, prngReg c r) ∗ BI.emp ∗ Pipeline.scopedRest spec2 c) := by
      iintro ⟨Hp, Hr⟩
      isplitl [Hp]; · iexact Hp
      isplitr; · iempintro
      iexact Hr
    exact (h2.hout (V3 P) c).trans e
  hexit c := by
    have hjoin := Pipeline.unscopedBufs_of_arrays (p := 2) (pcfgs (F := F)) adm (Ix := Unit) (Name := ℕ) (U := UR sig nD τ) (Lvl := ℕ)
      launch2.win launch2.arr_whole c (pdats P) ((pdats P 2 c).share_full fun w => h2.hq (V3 P) c w)
      (V3 P c) (V4 P c) ((pdats P 2 c).arrAt · cfg2.N) (hF2 P c) (hrest2 P c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    have eo : (pdats P 2 c).owed (Fin.last (Pipeline.pin (pcfgs (F := F)) adm 2).N) = 0 := h2.howed (V3 P) c _
    unfold Pipeline.Dat.owesAt Pipeline.owesWithin
    rw [eo]
    icases HO with ⟨%W, -, HO⟩; iexists W; iexact HO

/-! ## @main as segments, and the launch -/

abbrev segs : List (Pipeline.Seg (pcfgs (F := F)) adm (pdats P) () defs₀ 𝒱₀ L lv) :=
  [ .host (hseg hostOps0 hostOps0_sub hostOps0_fresh (W0 P)),
    .region (reg0 P h0),
    .region (reg1 P h1),
    .region (reg2 P h2) ]
theorem main_run (c : Dev nD) : main (F := F) c = Pipeline.Seg.run (segs P h0 h1 h2) := (main_chain c).trans (by chain_rfl)

include h0 h1 h2 in
set_option backward.isDefEq.respectTransparency.types false in
/-- THE RUN: from any memory with zero counters every weakly fair execution of @main terminates, nothing faulting,
    and every final state holds every unscoped buffer at the last boundary's contents. -/
theorem run_all : θ_run defs (onTc (τ := τ) (main (F := F))) ⟨P.m, fun _ => 0, P.ρ⟩ (fun r => ∀ c : Dev nD,
      ∀ b ∈ Pipeline.ucRefs τ sig, r.2.mem (((c : Thread nD τ)).1, b) = W4 P c b) :=
  Pipeline.θ_run_regions_kit (pcfgs (F := F)) adm (pdats P) () cellOf_inj emb₁ defs₀ 𝒱₀ L lv P.m P.ρ main (segs P h0 h1 h2)
    (fun c Q => by rw [main_run P h0 h1 h2 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 P c) ∗ R c)) (Tₙ := Tₙ P)
    (hch := ⟨fun _ => .rfl, fun _ => .rfl, fun _ => .rfl, fun _ => .rfl, fun _ => .rfl⟩)
    (hinit := by
      refine Pipeline.initEach L lv fun c => ?_
      rw [show unscopedBufs c (fun b => P.m ((c : Thread nD τ).loc b)) = StableHlo.held (c : Thread nD τ) (Pipeline.ucRefs τ sig) (W0 P c)
        from Pipeline.unscopedBufs_held c (W0 P c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 P c b)
    (hfin := fun c s' => by
      iintro ⟨⟨Hh, -⟩, HSI⟩
      unfold StableHlo.held
      imodintro
      iapply (pointsTo_read_all (Pipeline.ucRefs τ sig) (fun b => (((c : Thread nD τ)).1, b)) (W4 P c) s')
      isplitl [Hh] <;> iassumption)
    (hQ := fun s h c => h c)

end Run

end Cert.Kernel.Hand

end
-- ==== Proof.K.Reg0.lean ====
/-
  Region 0 of the kernel program: the fused query / key / value projection, one body per grid point (a block of
  512 positions, one head).

  At a point the body holds a [2, 512, 768] block of the input, three [768, 64] weight blocks with their [1, 64]
  biases, and three [1, 2, 512, 64] result blocks. For each of the two batch entries it reads that entry's
  [512, 768] slab of the input block, multiplies it by each weight block, adds the bias row to every row of the
  product, and stores the result as that entry's [512, 64] slab of the matching result block. The two slabs tile a
  result block, so what the body leaves in a result block is a function of the input blocks alone, whatever the
  block held before (the body also reads each result slab just before overwriting it; the value read is unused).

  This module states that function (`out0_7`, `out0_8`, `out0_9`: the two stored slabs, the later one first),
  proves the body's triple, and packages the pipeline's proof data and body obligation for the region, for any
  contents `V` of the core's buffers when the region is entered and any float instance.
-/
import proofs.«113036_j73607149519274_2_alg».proof.Proof.Gen.Kernel.Launch
import proofs.«113036_j73607149519274_2_alg».proof.Proof.Gen.Kernel.Skeleton
import proofs.«113036_j73607149519274_2_alg».proof.Proof.Gen.Kernel.Points
import Idealize.ShloMosaic.Lib.Pipeline.FrameBody
import Idealize.ShloMosaic.Lib.Ring
import Idealize.ShloMosaic.Lib.Tactic

-- membership in a rectangle of these extents is decided structurally, one step per coordinate of the long axes
set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (an unfetched
    window's block index has not moved), for any proof data over the entry contents whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (an unfetched
    window's block index has not moved), for any proof data over the entry contents whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (an unfetched
    window's block index has not moved), for any proof data over the entry contents whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not (an unfetched
    window's block index has not moved), for any proof data over the entry contents whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not (an unfetched
    window's block index has not moved), for any proof data over the entry contents whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not (an unfetched
    window's block index has not moved), for any proof data over the entry contents whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not (an unfetched
    window's block index has not moved), for any proof data over the entry contents whose body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- Batch entry 0's and 1's [1, 512, 768] slabs of the input block. -/
abbrev rX0 : Rect S2x512x768 := Rect.unit (s := S2x512x768) ![0, 0, 0] S1x512x768.size inb_S2x512x768_S1x512x768_0_0_0
abbrev rX1 : Rect S2x512x768 := Rect.unit (s := S2x512x768) ![1, 0, 0] S1x512x768.size inb_S2x512x768_S1x512x768_1_0_0
/-- A weight block and a bias block, whole. -/
abbrev rW : Rect S1x768x64 := Rect.unit (s := S1x768x64) ![0, 0, 0] S1x768x64.size inb_S1x768x64_S1x768x64_0_0_0
abbrev rB : Rect S1x1x64 := Rect.unit (s := S1x1x64) ![0, 0, 0] S1x1x64.size inb_S1x1x64_S1x1x64_0_0_0
/-- Batch entry 0's and 1's [1, 1, 512, 64] slabs of a result block. -/
abbrev rO0 : Rect S1x2x512x64 := Rect.unit (s := S1x2x512x64) ![0, 0, 0, 0] S1x1x512x64.size inb_S1x2x512x64_S1x1x512x64_0_0_0_0
abbrev rO1 : Rect S1x2x512x64 := Rect.unit (s := S1x2x512x64) ![0, 1, 0, 0] S1x1x512x64.size inb_S1x2x512x64_S1x1x512x64_0_1_0_0

/-! ## What the body leaves in each result block -/

/-- The query block after the body: entry 1's slab over entry 0's, each the projection of that entry's input slab. -/
def out0_7 (x0 : Vec F S2x512x768 .f32) (x1 : Vec F S1x768x64 .bf16) (x2 : Vec F S1x1x64 .f32) : Vec F S1x2x512x64 .bf16 :=
  View.canon [⟨rO1, k0_pay15 (k0_pay2 (View.ld x1 rW)) (k0_pay3 (View.ld x2 rB)) (View.ld x0 rX1)⟩,
    ⟨rO0, k0_pay10 (View.ld x1 rW) (View.ld x2 rB) (View.ld x0 rX0)⟩]

/-- The key block after the body. -/
def out0_8 (x0 : Vec F S2x512x768 .f32) (x3 : Vec F S1x768x64 .bf16) (x4 : Vec F S1x1x64 .f32) : Vec F S1x2x512x64 .bf16 :=
  View.canon [⟨rO1, k0_pay16 (k0_pay4 (View.ld x3 rW)) (k0_pay5 (View.ld x4 rB)) (View.ld x0 rX1)⟩,
    ⟨rO0, k0_pay12 (k0_pay11 (View.ld x3 rW) (View.ld x4 rB) (View.ld x0 rX0))⟩]

/-- The value block after the body. -/
def out0_9 (x0 : Vec F S2x512x768 .f32) (x5 : Vec F S1x768x64 .bf16) (x6 : Vec F S1x1x64 .f32) : Vec F S1x2x512x64 .bf16 :=
  View.canon [⟨rO1, k0_pay1 (k0_pay17 (k0_pay6 (View.ld x5 rW)) (k0_pay7 (View.ld x6 rB)) (View.ld x0 rX1))⟩,
    ⟨rO0, k0_pay13 (k0_pay9 (View.ld x5 rW) (View.ld x6 rB) (View.ld x0 rX0))⟩]

/-- The two slabs tile a result block (checked by evaluation), so they cover it. -/
theorem cover0_out (p1 p0 : Vec F S1x1x512x64 .bf16) (y : S1x2x512x64.Idx) :
    ∃ pc ∈ ([⟨rO1, p1⟩, ⟨rO0, p0⟩] : List (View.Piece (Elt F) S1x2x512x64 .bf16)), y ∈ pc.1.set :=
  View.cover_of_tiled [⟨rO1, p1⟩, ⟨rO0, p0⟩] S1x1x512x64.size (by rfl) y

/-! ## The body's triple -/

set_option maxHeartbeats 4000000 in
/-- The body on whole staging memrefs, the inputs' at read contents `x0 … x6` and the results' at anything, runs to the
    continuation holding the inputs' as they were and each result's at `out0_W` of the inputs'. -/
theorem sound_kernel0 (c : Dev nD) (E : Set ℕ) (i : grid0.Coords) (arg2 : Memref sig .tc .vmem S2x512x768 .f32) (harg2 : arg2.IsWhole) (arg3 : Memref sig .tc .vmem S1x768x64 .bf16) (harg3 : arg3.IsWhole) (arg4 : Memref sig .tc .vmem S1x1x64 .f32) (harg4 : arg4.IsWhole) (arg5 : Memref sig .tc .vmem S1x768x64 .bf16) (harg5 : arg5.IsWhole) (arg6 : Memref sig .tc .vmem S1x1x64 .f32) (harg6 : arg6.IsWhole) (arg7 : Memref sig .tc .vmem S1x768x64 .bf16) (harg7 : arg7.IsWhole) (arg8 : Memref sig .tc .vmem S1x1x64 .f32) (harg8 : arg8.IsWhole) (arg9 : Memref sig .tc .vmem S1x2x512x64 .bf16) (harg9 : arg9.IsWhole) (arg10 : Memref sig .tc .vmem S1x2x512x64 .bf16) (harg10 : arg10.IsWhole) (arg11 : Memref sig .tc .vmem S1x2x512x64 .bf16) (harg11 : arg11.IsWhole)
    (x0 : Vec F S2x512x768 .f32) (x1 : Vec F S1x768x64 .bf16) (x2 : Vec F S1x1x64 .f32) (x3 : Vec F S1x768x64 .bf16) (x4 : Vec F S1x1x64 .f32) (x5 : Vec F S1x768x64 .bf16) (x6 : Vec F S1x1x64 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare (out0_7 x0 x1 x2) ∗ owns (c : Thread nD τ) arg10 fullShare (out0_8 x0 x3 x4) ∗ owns (c : Thread nD τ) arg11 fullShare (out0_9 x0 x5 x6)) -∗ K ⟨⟩))
      ⊢ wp frame (wpE (defs₀ (F := F)) Variants.none c none) E (cc0_kernel i arg2 harg2 arg3 harg3 arg4 harg4 arg5 harg5 arg6 harg6 arg7 harg7 arg8 harg8 arg9 harg9 arg10 harg10 arg11 harg11) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0_out _ _)
  isplitl [H8]
  · iexists _; isplitr
    swap; · iexact H8
    ipureintro
    exact View.read_writes_eq_canon _ _ _ (cover0_out _ _)
  iexists _; isplitr
  swap; · iexact H9
  ipureintro
  exact View.read_writes_eq_canon _ _ _ (cover0_out _ _)

/-! ## The pipeline's proof data -/

/-- The proof data of the region on core `c`: the arrays as the region finds them; after the body at point `t` each
    input's buffer at its block and each result's at `out0_W` of the input blocks; the invariant the untouched rest of
    the core's state; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t)
    | ⟨8, _⟩ => out0_8 (iblk0 V c 0 t) (iblk0 V c 3 t) (iblk0 V c 4 t)
    | ⟨9, _⟩ => out0_9 (iblk0 V c 0 t) (iblk0 V c 5 t) (iblk0 V c 6 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) := by dsimp only [dat0]
theorem after0_8 (c : Dev nD) (t : Fin cfg0.N) : (dat0 V c).after 8 t = out0_8 (iblk0 V c 0 t) (iblk0 V c 3 t) (iblk0 V c 4 t) := by dsimp only [dat0]
theorem after0_9 (c : Dev nD) (t : Fin cfg0.N) : (dat0 V c).after 9 t = out0_9 (iblk0 V c 0 t) (iblk0 V c 5 t) (iblk0 V c 6 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 1000000 in
/-- The body at any point: the inputs' memrefs hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
/-
  Region 1 of the kernel program: attention, one head and one block of 512 query positions per grid point.

  The grid is 12 × 4: point (h, qi) is handed head h's block qi of the queries (both batch entries, 512 positions, 64
  coordinates), all of head h's keys and values (both batch entries, 2048 positions), and a block of the output of the
  queries' shape. For each of the two batch entries the body loads the entry's slab of the three inputs, computes the
  slab of the output from them alone, and stores it; the two stores tile the output block. What the block holds after
  the body is therefore a function of the three input blocks only, which is what this module names (its two pieces,
  last store first) and proves of the printed body; the proof data of the region and its body obligation follow.

  Everything here holds at every float instance.
-/
import proofs.«113036_j73607149519274_2_alg».proof.Proof.Gen.Kernel.Launch
import proofs.«113036_j73607149519274_2_alg».proof.Proof.Gen.Kernel.Skeleton
import proofs.«113036_j73607149519274_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: a parameter
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The queries' staging buffer holds their block at every point, for any proof data whose array is the entry contents
    and whose body leaves the block in place: an input window holds its block whether it was fetched at the point or
    at an earlier one with the same block index. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the keys, whose block changes only with the head (it is fetched at every fourth point). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same for the values. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: one slab per batch entry -/

/-- Batch entry 0's slab of a block of 512 positions, -/
abbrev r1_q0 : Rect S1x2x512x64 := Rect.unit (s := S1x2x512x64) ![0, 0, 0, 0] S1x1x512x64.size inb_S1x2x512x64_S1x1x512x64_0_0_0_0
/-- and batch entry 1's. -/
abbrev r1_q1 : Rect S1x2x512x64 := Rect.unit (s := S1x2x512x64) ![0, 1, 0, 0] S1x1x512x64.size inb_S1x2x512x64_S1x1x512x64_0_1_0_0
/-- Batch entry 0's slab of a block of all 2048 positions, -/
abbrev r1_k0 : Rect S1x2x2048x64 := Rect.unit (s := S1x2x2048x64) ![0, 0, 0, 0] S1x1x2048x64.size inb_S1x2x2048x64_S1x1x2048x64_0_0_0_0
/-- and batch entry 1's. -/
abbrev r1_k1 : Rect S1x2x2048x64 := Rect.unit (s := S1x2x2048x64) ![0, 1, 0, 0] S1x1x2048x64.size inb_S1x2x2048x64_S1x1x2048x64_0_1_0_0

/-! ## What the body leaves in the output block -/

/-- The output window's staging buffer after the body, from the three input blocks: its two stores as pieces, the last
    first. Batch entry 1's slab is the second payload of the entry's query, key and value slabs (the first two reach
    it through a plain change of shape); batch entry 0's is the first payload of entry 0's slabs. -/
def out1_3 (xq : Vec F S1x2x512x64 .bf16) (xk xv : Vec F S1x2x2048x64 .bf16) : Vec F S1x2x512x64 .bf16 :=
  View.canon [⟨r1_q1, k1_pay1 (k1_pay3 (View.ld xq r1_q1)) (k1_pay4 (View.ld xk r1_k1)) (View.ld xv r1_k1)⟩,
    ⟨r1_q0, k1_pay2 (View.ld xq r1_q0) (View.ld xk r1_k0) (View.ld xv r1_k0)⟩]

/-- The two slabs tile the block, so they cover it. -/
theorem cover1_3 (p1 p0 : Vec F S1x1x512x64 .bf16) (y : S1x2x512x64.Idx) :
    ∃ pc ∈ ([⟨r1_q1, p1⟩, ⟨r1_q0, p0⟩] : List (View.Piece (Elt F) S1x2x512x64 .bf16)), y ∈ pc.1.set :=
  View.cover_of_tiled [⟨r1_q1, p1⟩, ⟨r1_q0, p0⟩] S1x1x512x64.size (by rfl) y

/-! ## The body's triple -/

set_option maxHeartbeats 1000000 in
/-- The kernel body on whole staging memrefs, the inputs' at contents xq, xk, xv and the output's at anything, runs to
    the continuation holding the inputs' as they were and the output's at out1_3 of the inputs': the body reads the
    output's slabs before it overwrites them, and uses nothing of what it read. -/
theorem sound_kernel1 (c : Dev nD) (E : Set ℕ) (i : grid1.Coords)
    (arg0 : Memref sig .tc .vmem S1x2x512x64 .bf16) (harg0 : arg0.IsWhole) (arg1 : Memref sig .tc .vmem S1x2x2048x64 .bf16) (harg1 : arg1.IsWhole)
    (arg2 : Memref sig .tc .vmem S1x2x2048x64 .bf16) (harg2 : arg2.IsWhole) (arg3 : Memref sig .tc .vmem S1x2x512x64 .bf16) (harg3 : arg3.IsWhole)
    (xq : Vec F S1x2x512x64 .bf16) (xk xv : Vec F S1x2x2048x64 .bf16) (K : PUnit → sProp 𝕄) :
    iprop(owns (c : Thread nD τ) arg0 fullShare xq ∗ owns (c : Thread nD τ) arg1 fullShare xk ∗ owns (c : Thread nD τ) arg2 fullShare xv
        ∗ (∃ d, owns (c : Thread nD τ) arg3 fullShare d)
        ∗ (iprop(owns (c : Thread nD τ) arg0 fullShare xq ∗ owns (c : Thread nD τ) arg1 fullShare xk ∗ owns (c : Thread nD τ) arg2 fullShare xv
            ∗ owns (c : Thread nD τ) arg3 fullShare (out1_3 xq xk xv)) -∗ K ⟨⟩))
      ⊢ wp frame (wpE (defs₀ (F := F)) Variants.none c none) E (cc1_kernel i arg0 harg0 arg1 harg1 arg2 harg2 arg3 harg3) K := by
  simp only [cc1_kernel_eq_skeleton]; unfold cc1_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _ _)

/-! ## The region's proof data -/

/-- The proof data of the region on core c: the arrays as the region finds them; after the body at point t each
    input's buffer at its block and the output's at out1_3 of the three input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg2.lean ====
/-
  Region 2 of the kernel program: the output projection, accumulated over the twelve heads in a scratch buffer the
  kernel carries from one grid point to the next.

  The grid is 4 × 12, a point is (row block, head) with the head running fastest. At a point the body adds, to each
  of the two batch slabs of the scratch, the product of the head's context slab [512, 64] with the head's weight
  block [64, 768]; at head 0 it first fills the scratch with zeros; at head 11 it then stores scratch plus bias into
  the output block, which is written back there and is idle everywhere else. So there are three control cases over
  the grid — first head, middle heads, last head — and the scratch after a point is a recursion on the point.

  Everything here is generic in the float instance.
-/
import proofs.«113036_j73607149519274_2_alg».proof.Proof.Gen.Kernel.Launch
import proofs.«113036_j73607149519274_2_alg».proof.Proof.Gen.Kernel.Skeleton
import proofs.«113036_j73607149519274_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (unfetched, the
    block index has not moved), for any proof data whose array is `V`'s and whose body leaves the block in place:
    the context window, -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- the weight window, -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- and the bias window (one block, fetched once). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's two conditions, in closed form over the grid -/

/-- "This is the first head": the condition under which the body zeroes the scratch. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 12 = 0 :=
  (by decide +kernel : ∀ t : Fin grid2.N, cond2_0 (grid2.coords t) ↔ t.val % 12 = 0)

/-- "This is the last head": the condition under which the body stores the output block. -/
abbrev cond2_1 (i : grid2.Coords) : Prop := k2_cond2 i = 1#1
theorem hcond2_1 : ∀ t : Fin cfg2.N, cond2_1 (grid2.coords t) ↔ t.val % 12 = 11 :=
  (by decide +kernel : ∀ t : Fin grid2.N, cond2_1 (grid2.coords t) ↔ t.val % 12 = 11)

/-- The inputs are live at every point; -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- the output is idle, and not written back, away from the last head; -/
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
/-- and live at the last head. -/
theorem liveAt2_3 : ∀ t : Fin cfg2.N, cond2_1 (grid2.coords t) → cfg2.idle 3 (grid2.coords t) = false := by decide +kernel

/-! ## The body's accesses -/

/-- The whole weight block, -/
abbrev r2W : Rect S1x64x768 := Rect.unit (s := S1x64x768) ![0, 0, 0] S1x64x768.size inb_S1x64x768_S1x64x768_0_0_0
/-- the two batch slabs of the context block, -/
abbrev r2C0 : Rect S1x2x512x64 := Rect.unit (s := S1x2x512x64) ![0, 0, 0, 0] S1x1x512x64.size inb_S1x2x512x64_S1x1x512x64_0_0_0_0
abbrev r2C1 : Rect S1x2x512x64 := Rect.unit (s := S1x2x512x64) ![0, 1, 0, 0] S1x1x512x64.size inb_S1x2x512x64_S1x1x512x64_0_1_0_0
/-- the two batch slabs of the scratch (and of the output block, which has the scratch's shape), -/
abbrev r2S0 : Rect S2x512x768 := Rect.unit (s := S2x512x768) ![0, 0, 0] S1x512x768.size inb_S2x512x768_S1x512x768_0_0_0
abbrev r2S1 : Rect S2x512x768 := Rect.unit (s := S2x512x768) ![1, 0, 0] S1x512x768.size inb_S2x512x768_S1x512x768_1_0_0
/-- the whole scratch, -/
abbrev r2Sw : Rect S2x512x768 := Rect.unit (s := S2x512x768) ![0, 0, 0] S2x512x768.size inb_S2x512x768_S2x512x768_0_0_0
/-- the bias block. -/
abbrev r2B : Rect S1x768 := Rect.unit (s := S1x768) ![0, 0] S1x768.size inb_S1x768_S1x768_0_0

/-! ## What the body leaves, case by case, as functions of the blocks it is handed

  Stores as pieces, last first; a load that reads back the body's own stores reads the pieces' canonical contents. -/

/-- A middle (or last) head: each scratch slab becomes itself plus the head's product. From the context block `x0`,
    the weight block `x1` and the scratch contents `xs` the point before left. -/
def pieces2S (x0 : Vec F S1x2x512x64 .bf16) (x1 : Vec F S1x64x768 .bf16) (xs : Vec F S2x512x768 .f32) :
    List (View.Piece (Elt F) S2x512x768 .f32) :=
  [⟨r2S1, k2_pay7 (View.ld x1 r2W) (View.ld x0 r2C1) (View.ld xs r2S1)⟩,
   ⟨r2S0, k2_pay6 (View.ld x1 r2W) (View.ld x0 r2C0) (View.ld xs r2S0)⟩]
def step2S (x0 : Vec F S1x2x512x64 .bf16) (x1 : Vec F S1x64x768 .bf16) (xs : Vec F S2x512x768 .f32) : Vec F S2x512x768 .f32 :=
  View.canon (pieces2S x0 x1 xs)

/-- The first head: the scratch is filled with zeros, then each slab, read back from that fill, gets the head's product. -/
def pieces2A1 : List (View.Piece (Elt F) S2x512x768 .f32) := [⟨r2Sw, k2_pay4⟩]
def pieces2A2 (x0 : Vec F S1x2x512x64 .bf16) (x1 : Vec F S1x64x768 .bf16) : List (View.Piece (Elt F) S2x512x768 .f32) :=
  ⟨r2S0, k2_pay6 (View.ld x1 r2W) (View.ld x0 r2C0) (View.ld (View.canon (pieces2A1 (F := F))) r2S0)⟩ :: pieces2A1
def pieces2A3 (x0 : Vec F S1x2x512x64 .bf16) (x1 : Vec F S1x64x768 .bf16) : List (View.Piece (Elt F) S2x512x768 .f32) :=
  ⟨r2S1, k2_pay7 (View.ld x1 r2W) (View.ld x0 r2C1) (View.ld (View.canon (pieces2A2 x0 x1)) r2S1)⟩ :: pieces2A2 x0 x1
def step2A (x0 : Vec F S1x2x512x64 .bf16) (x1 : Vec F S1x64x768 .bf16) : Vec F S2x512x768 .f32 :=
  View.canon (pieces2A3 x0 x1)

/-- The last head's epilogue: each output slab is the scratch slab (as the accumulation just left it, `s`) plus the bias
    block `x2` broadcast along the rows. -/
def pieces2O (x2 : Vec F S1x768 .f32) (s : Vec F S2x512x768 .f32) : List (View.Piece (Elt F) S2x512x768 .f32) :=
  [⟨r2S1, k2_pay3 (View.ld x2 r2B) (View.ld s r2S1)⟩,
   ⟨r2S0, k2_pay2 (View.ld x2 r2B) (View.ld s r2S0)⟩]
def out2O (x2 : Vec F S1x768 .f32) (s : Vec F S2x512x768 .f32) : Vec F S2x512x768 .f32 :=
  View.canon (pieces2O x2 s)

/-- Two slab stores tile the buffer, so they cover it, -/
theorem cover2S (p1 : r2S1.shape.Idx → Elt F .f32) (p0 : r2S0.shape.Idx → Elt F .f32) (y : S2x512x768.Idx) :
    ∃ pc ∈ ([⟨r2S1, p1⟩, ⟨r2S0, p0⟩] : List (View.Piece (Elt F) S2x512x768 .f32)), y ∈ pc.1.set :=
  View.cover_of_tiled [⟨r2S1, p1⟩, ⟨r2S0, p0⟩] S1x512x768.size (by rfl) y
/-- whatever was stored before them. -/
theorem cover2S' (p1 : r2S1.shape.Idx → Elt F .f32) (p0 : r2S0.shape.Idx → Elt F .f32) (L : List (View.Piece (Elt F) S2x512x768 .f32)) (y : S2x512x768.Idx) :
    ∃ pc ∈ (⟨r2S1, p1⟩ :: ⟨r2S0, p0⟩ :: L : List (View.Piece (Elt F) S2x512x768 .f32)), y ∈ pc.1.set := by
  obtain ⟨pc, hm, hy⟩ := cover2S p1 p0 y
  exact ⟨pc, List.mem_append_left L hm, hy⟩

/-! ## The body's triple, case by case

  On whole staging memrefs — the inputs' at read contents, an idle output's at contents handed back untouched, a stored
  output's at anything, the scratch at what the point before left (at anything where the body overwrites it first) —
  the body runs to the continuation holding the inputs' as they were, the scratch at the case's step, and a stored
  output at the epilogue's value. Each `scf.if` is decided by the case's hypotheses. -/

set_option maxHeartbeats 1000000 in
/-- The first head. -/
theorem run2A (c : Dev nD) (E : Set ℕ) (i : grid2.Coords)
    (arg2 : Memref sig .tc .vmem S1x2x512x64 .bf16) (harg2 : arg2.IsWhole) (arg3 : Memref sig .tc .vmem S1x64x768 .bf16) (harg3 : arg3.IsWhole)
    (arg4 : Memref sig .tc .vmem S1x768 .f32) (harg4 : arg4.IsWhole) (arg5 : Memref sig .tc .vmem S2x512x768 .f32) (harg5 : arg5.IsWhole)
    (arg6 : Memref sig .tc .vmem S2x512x768 .f32) (harg6 : arg6.IsWhole) (hc0 : cond2_0 i) (hc1 : ¬cond2_1 i)
    (x0 : Vec F S1x2x512x64 .bf16) (x1 : Vec F S1x64x768 .bf16) (x2 : Vec F S1x768 .f32) (xi3 : Vec F S2x512x768 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare (step2A x0 x1)) -∗ K ⟨⟩))
      ⊢ wp frame (wpE (defs₀ (F := F)) Variants.none c none) E (cc2_kernel i arg2 harg2 arg3 harg3 arg4 harg4 arg5 harg5 arg6 harg6) K := by
  simp only [cc2_kernel_eq_skeleton]; unfold cc2_kernel_skel
  simp only [k2_part1_eq_skeleton]
  unfold owns
  iintro ⟨⟨%f0, %hf0, H0⟩, ⟨%f1, %hf1, H1⟩, ⟨%f2, %hf2, H2⟩, H3, ⟨%ds, %fs, -, HS⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]; · iexact H3
  iexists _; isplitr
  swap; · iexact HS
  ipureintro
  refine (View.read_writes_eq_canon _ _ _ (cover2S' _ _ _)).trans ?_
  unfold step2A pieces2A3 pieces2A2 pieces2A1
  sl_unfold_run_names
  simp only [View.readCov_eq_canon']
  rfl

set_option maxHeartbeats 1000000 in
/-- A middle head. -/
theorem run2B (c : Dev nD) (E : Set ℕ) (i : grid2.Coords)
    (arg2 : Memref sig .tc .vmem S1x2x512x64 .bf16) (harg2 : arg2.IsWhole) (arg3 : Memref sig .tc .vmem S1x64x768 .bf16) (harg3 : arg3.IsWhole)
    (arg4 : Memref sig .tc .vmem S1x768 .f32) (harg4 : arg4.IsWhole) (arg5 : Memref sig .tc .vmem S2x512x768 .f32) (harg5 : arg5.IsWhole)
    (arg6 : Memref sig .tc .vmem S2x512x768 .f32) (harg6 : arg6.IsWhole) (hc0 : ¬cond2_0 i) (hc1 : ¬cond2_1 i)
    (x0 : Vec F S1x2x512x64 .bf16) (x1 : Vec F S1x64x768 .bf16) (x2 : Vec F S1x768 .f32) (xi3 : Vec F S2x512x768 .f32) (xs : Vec F S2x512x768 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare (step2S x0 x1 xs)) -∗ K ⟨⟩))
      ⊢ wp frame (wpE (defs₀ (F := F)) Variants.none c none) E (cc2_kernel i arg2 harg2 arg3 harg3 arg4 harg4 arg5 harg5 arg6 harg6) K := by
  simp only [cc2_kernel_eq_skeleton]; unfold cc2_kernel_skel
  simp only [k2_part1_eq_skeleton]
  unfold owns
  iintro ⟨⟨%f0, %hf0, H0⟩, ⟨%f1, %hf1, H1⟩, ⟨%f2, %hf2, H2⟩, H3, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]; · iexact H3
  iexists _; isplitr
  swap; · iexact HS
  ipureintro
  refine (View.read_writes_eq_canon _ _ _ (cover2S _ _)).trans ?_
  unfold step2S pieces2S
  sl_unfold_run_names
  rfl

set_option maxHeartbeats 1000000 in
/-- The last head. -/
theorem run2C (c : Dev nD) (E : Set ℕ) (i : grid2.Coords)
    (arg2 : Memref sig .tc .vmem S1x2x512x64 .bf16) (harg2 : arg2.IsWhole) (arg3 : Memref sig .tc .vmem S1x64x768 .bf16) (harg3 : arg3.IsWhole)
    (arg4 : Memref sig .tc .vmem S1x768 .f32) (harg4 : arg4.IsWhole) (arg5 : Memref sig .tc .vmem S2x512x768 .f32) (harg5 : arg5.IsWhole)
    (arg6 : Memref sig .tc .vmem S2x512x768 .f32) (harg6 : arg6.IsWhole) (hc0 : ¬cond2_0 i) (hc1 : cond2_1 i)
    (x0 : Vec F S1x2x512x64 .bf16) (x1 : Vec F S1x64x768 .bf16) (x2 : Vec F S1x768 .f32) (xs : Vec F S2x512x768 .f32)
    (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
        ∗ owns (c : Thread nD τ) arg5 fullShare (out2O x2 (step2S x0 x1 xs)) ∗ owns (c : Thread nD τ) arg6 fullShare (step2S x0 x1 xs)) -∗ K ⟨⟩))
      ⊢ wp frame (wpE (defs₀ (F := F)) Variants.none c none) E (cc2_kernel i arg2 harg2 arg3 harg3 arg4 harg4 arg5 harg5 arg6 harg6) K := by
  simp only [cc2_kernel_eq_skeleton]; unfold cc2_kernel_skel
  simp only [k2_part1_eq_skeleton]
  unfold owns
  iintro ⟨⟨%f0, %hf0, H0⟩, ⟨%f1, %hf1, H1⟩, ⟨%f2, %hf2, H2⟩, ⟨%d3, %f3, -, H3⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ (cover2S _ _)).trans ?_
    unfold out2O pieces2O step2S pieces2S
    sl_unfold_run_names
    simp only [View.readCov_eq_canon']
    rfl
  iexists _; isplitr
  swap; · iexact HS
  ipureintro
  sl_unfold_run_names
  refine (View.read_writes_eq_canon _ _ _ (cover2S _ _)).trans ?_
  unfold step2S pieces2S
  rfl

/-! ## The accumulation: what the scratch holds after each point -/

/-- The scratch after the body at position `n`: at a first head the zero fill plus that head's product (nothing of
    what it held before), at any other head what position `n - 1` left plus this head's product. -/
def acc2 (c : Dev nD) : (n : ℕ) → n < cfg2.N → Vec F S2x512x768 .f32
  | 0, hn => step2A (iblk2 V c 0 ⟨0, hn⟩) (iblk2 V c 1 ⟨0, hn⟩)
  | n + 1, hn =>
    if (n + 1) % 12 = 0 then step2A (iblk2 V c 0 ⟨n + 1, hn⟩) (iblk2 V c 1 ⟨n + 1, hn⟩)
    else step2S (iblk2 V c 0 ⟨n + 1, hn⟩) (iblk2 V c 1 ⟨n + 1, hn⟩) (acc2 c n (Nat.lt_of_succ_lt hn))

theorem acc2_first (c : Dev nD) (t : Fin cfg2.N) (h0 : t.val % 12 = 0) :
    acc2 V c t.val t.isLt = step2A (iblk2 V c 0 t) (iblk2 V c 1 t) := by
  obtain ⟨n, hn⟩ := t
  cases n with
  | zero => rfl
  | succ n =>
    have h0' : (n + 1) % 12 = 0 := h0
    show acc2 V c (n + 1) hn = _
    rw [acc2, if_pos h0']

theorem acc2_next (c : Dev nD) (t : Fin cfg2.N) (h0 : ¬t.val % 12 = 0) :
    acc2 V c t.val t.isLt = step2S (iblk2 V c 0 t) (iblk2 V c 1 t) (acc2 V c (t.val - 1) (Nat.lt_of_le_of_lt (Nat.sub_le _ _) t.isLt)) := by
  obtain ⟨n, hn⟩ := t
  cases n with
  | zero => exact absurd (Nat.zero_mod _) h0
  | succ n =>
    have h0' : ¬(n + 1) % 12 = 0 := h0
    show acc2 V c (n + 1) hn = _
    rw [acc2, if_neg h0']; rfl

/-! ## The region's invariant -/

/-- The kernel's scratch operand: a whole scoped buffer of its own. -/
abbrev scM2 : Memref sig .tc .vmem S2x512x768 .f32 := Memref.whole cc2_scratch0

/-- Before position `n`: at the region's entry the generator register and every scoped buffer that is no staging buffer
    at some contents (the scratch among them, at anything); afterwards the scratch at what the point before left, the
    other such buffers at some contents, and the register. -/
def Phi2 (c : Dev nD) : (n : ℕ) → n ≤ cfg2.N → sProp 𝕄
  | 0, _ => iprop((∃ r, prngReg c r) ∗ Pipeline.scopedRest spec2 c)
  | n + 1, hn => iprop(owns (c : Thread nD τ) scM2 fullShare (acc2 V c n hn) ∗ Pipeline.scopedRestBut spec2 c [cc2_scratch0] ∗ (∃ r, prngReg c r))

theorem Phi2_zero (c : Dev nD) (n : ℕ) (h : n ≤ cfg2.N) (hz : n = 0) :
    Phi2 V c n h = iprop((∃ r, prngReg c r) ∗ Pipeline.scopedRest spec2 c) := by
  subst hz; rfl

theorem Phi2_succ (c : Dev nD) (n : ℕ) (hn : n < cfg2.N) :
    Phi2 V c (n + 1) hn = iprop(owns (c : Thread nD τ) scM2 fullShare (acc2 V c n hn) ∗ Pipeline.scopedRestBut spec2 c [cc2_scratch0] ∗ (∃ r, prngReg c r)) := rfl

theorem Phi2_pos (c : Dev nD) (n : ℕ) (h : n ≤ cfg2.N) (hz : n ≠ 0) :
    Phi2 V c n h = iprop(owns (c : Thread nD τ) scM2 fullShare (acc2 V c (n - 1) (by omega)) ∗ Pipeline.scopedRestBut spec2 c [cc2_scratch0] ∗ (∃ r, prngReg c r)) := by
  cases n with
  | zero => exact absurd rfl hz
  | succ n => rfl

/-- The entry invariant with the scratch split off, as a memref owned at some contents. -/
theorem Phi2In_eq (c : Dev nD) :
    (iprop((∃ r, prngReg c r) ∗ Pipeline.scopedRest spec2 c) : sProp 𝕄)
      = iprop((∃ r, prngReg c r) ∗ (∃ d, owns (c : Thread nD τ) scM2 fullShare d) ∗ Pipeline.scopedRestBut spec2 c [cc2_scratch0]) := by
  rw [scopedRest2_split]; simp only [scM2, owns_whole]; try rfl

/-! ## The pipeline's proof data -/

/-- The proof data of this region on core `c`: the arrays as the region finds them; after the body each input's
    buffer at its block, the output's at the epilogue of the accumulation so far (read only where the block is
    written back, at the last heads); the invariant above; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2O (iblk2 V c 2 t) (acc2 V c t.val t.isLt)
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem Phi2_castSucc (c : Dev nD) (t : Fin cfg2.N) :
    (dat2 V c).Φ t.castSucc = Phi2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2O (iblk2 V c 2 t) (acc2 V c t.val t.isLt) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point. The inputs' buffers hold their blocks; the closed forms say which case the point is in; the
    invariant hands the body the scratch at what the point before left (at anything at the very first point, where
    the first-head case overwrites it before reading) and takes it back at this point's accumulation; away from the
    last head the output's buffer is handed back as it was found, at the last head it is left at the epilogue's
    value; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = Phi2 V c (t.val + 1) t.isLt from rfl, Phi2_succ]
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  rw [show (dat2 V c).leavesExact 2 t = owns (c : Thread nD τ) (st2_2 t) fullShare ((dat2 V c).after 2 t) from by
    unfold Dat.leavesExact; rw [liveAt2_2 t], after2_2]
  have hN : t.val < 48 := lt_of_lt_of_eq t.isLt (show cfg2.N = 48 from N_2)
  by_cases h1 : t.val % 12 = 11
  · have h0 : ¬t.val % 12 = 0 := by omega
    have hz : t.val ≠ 0 := by omega
    rw [show (dat2 V c).leavesExact 3 t = owns (c : Thread nD τ) (st2_3 t) fullShare ((dat2 V c).after 3 t) from by
      unfold Dat.leavesExact; rw [liveAt2_3 t ((hcond2_1 t).mpr h1)], after2_3]
    rw [acc2_next V c t h0]
    rw [Phi2_castSucc V c t, Phi2_pos V c _ _ hz]
    iintro ⟨⟨HS, HR, Hg⟩, Ho, ⟨%d0, H0⟩, ⟨%d1, H1⟩, ⟨%d2, H2⟩, ⟨%d3, H3⟩⟩
    iapply (run2C c Set.univ (grid2.coords t) _ _ _ _ _ _ _ _ _ _ (fun h => h0 ((hcond2_0 t).mp h)) ((hcond2_1 t).mpr h1) (iblk2 V c 0 t) (iblk2 V c 1 t) (iblk2 V c 2 t) _ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    iexact H3
  · rw [Dat.leavesExact_idle (dat2 V c) 3 t (idleAt2_3 t (fun h => h1 ((hcond2_1 t).mp h))) (noFlush2_3 t (fun h => h1 ((hcond2_1 t).mp h)))]
    by_cases h0 : t.val % 12 = 0
    · rw [acc2_first V c t h0]
      by_cases hz : t.val = 0
      · rw [Phi2_castSucc V c t, Phi2_zero V c _ _ hz, Phi2In_eq]
        iintro ⟨⟨Hg, HS, HR⟩, Ho, ⟨%d0, H0⟩, ⟨%d1, H1⟩, ⟨%d2, H2⟩, ⟨%d3, H3⟩⟩
        iapply (run2A c Set.univ (grid2.coords t) _ _ _ _ _ _ _ _ _ _ ((hcond2_0 t).mpr h0) (fun h => h1 ((hcond2_1 t).mp h)) (iblk2 V c 0 t) (iblk2 V c 1 t) (iblk2 V c 2 t) ((dat2 V c).before 3 t d3) _)
        isplitl [H0]; · iexact H0
        isplitl [H1]; · iexact H1
        isplitl [H2]; · iexact H2
        isplitl [H3]; · iexact H3
        isplitl [HS]; · iexact HS
        iintro ⟨H0, H1, H2, H3, HS⟩
        isplitl [HS HR Hg]
        · isplitl [HS]; · iexact HS
          isplitl [HR]; · iexact HR
          iexact Hg
        isplitl [Ho]; · iexact Ho
        isplitl [H0]; · iexact H0
        isplitl [H1]; · iexact H1
        isplitl [H2]; · iexact H2
        iexists _; iexact H3
      · rw [Phi2_castSucc V c t, Phi2_pos V c _ _ hz]
        iintro ⟨⟨HS, HR, Hg⟩, Ho, ⟨%d0, H0⟩, ⟨%d1, H1⟩, ⟨%d2, H2⟩, ⟨%d3, H3⟩⟩
        iapply (run2A c Set.univ (grid2.coords t) _ _ _ _ _ _ _ _ _ _ ((hcond2_0 t).mpr h0) (fun h => h1 ((hcond2_1 t).mp h)) (iblk2 V c 0 t) (iblk2 V c 1 t) (iblk2 V c 2 t) ((dat2 V c).before 3 t d3) _)
        isplitl [H0]; · iexact H0
        isplitl [H1]; · iexact H1
        isplitl [H2]; · iexact H2
        isplitl [H3]; · iexact H3
        isplitl [HS]; · iexists _; iexact HS
        iintro ⟨H0, H1, H2, H3, HS⟩
        isplitl [HS HR Hg]
        · isplitl [HS]; · iexact HS
          isplitl [HR]; · iexact HR
          iexact Hg
        isplitl [Ho]; · iexact Ho
        isplitl [H0]; · iexact H0
        isplitl [H1]; · iexact H1
        isplitl [H2]; · iexact H2
        iexists _; iexact H3
    · have hz : t.val ≠ 0 := fun e => h0 (by rw [e])
      rw [acc2_next V c t h0]
      rw [Phi2_castSucc V c t, Phi2_pos V c _ _ hz]
      iintro ⟨⟨HS, HR, Hg⟩, Ho, ⟨%d0, H0⟩, ⟨%d1, H1⟩, ⟨%d2, H2⟩, ⟨%d3, H3⟩⟩
      iapply (run2B c Set.univ (grid2.coords t) _ _ _ _ _ _ _ _ _ _ (fun h => h0 ((hcond2_0 t).mp h)) (fun h => h1 ((hcond2_1 t).mp h)) (iblk2 V c 0 t) (iblk2 V c 1 t) (iblk2 V c 2 t) ((dat2 V c).before 3 t d3) _ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the region is entered with is the invariant before the first point. -/
theorem Phi2_in (c : Dev nD) : (iprop((∃ r, prngReg c r) ∗ Pipeline.scopedRest spec2 c) : sProp 𝕄) ⊢ (dat2 V c).Φ 0 := by
  rw [show (dat2 V c).Φ 0 = Phi2 V c 0 (Nat.zero_le _) from rfl, Phi2_zero V c 0 _ rfl]
  try exact Idealize.SL.BI.Entails.refl _

/-- After the last point the invariant gives it back: the scratch's named contents are forgotten. -/
theorem Phi2_out (c : Dev nD) : (dat2 V c).Φ (Fin.last cfg2.N) ⊢ (iprop((∃ r, prngReg c r) ∗ Pipeline.scopedRest spec2 c) : sProp 𝕄) := by
  have hN : cfg2.N = 48 := N_2
  rw [show (dat2 V c).Φ (Fin.last cfg2.N) = Phi2 V c (Fin.last cfg2.N).val (Nat.le_of_lt_succ (Fin.last cfg2.N).isLt) from rfl,
    Phi2_pos V c _ _ (by rw [Fin.val_last]; omega), Phi2In_eq]
  iintro ⟨HS, HR, Hg⟩
  isplitl [Hg]; · iexact Hg
  isplitl [HS]; · iexists _; iexact HS
  iexact HR

end Cert.Kernel.Hand

end
-- ==== Proof.K.Data.lean ====
/-
  The three regions' proof data meet what the run asks of them: their arrays are the entry contents', they hold full
  shares and owe nothing, their bodies meet the obligation, and their invariants are made from, and give back, the
  generator register and the scoped buffers the region does not stage.
-/
import proofs.«113036_j73607149519274_2_alg».proof.Proof.K.Run
import proofs.«113036_j73607149519274_2_alg».proof.Proof.K.Reg0
import proofs.«113036_j73607149519274_2_alg».proof.Proof.K.Reg1
import proofs.«113036_j73607149519274_2_alg».proof.Proof.K.Reg2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Region 0: its invariant is the scoped rest and the generator register, as handed over. -/
theorem rd0 : RegionData cfg0 (fun V c => dat0 (F := F) V c) where
  hA V c w := A_eq0 V c w
  hq _ _ _ := rfl
  howed _ _ _ := rfl
  hrec _ _ _ := rfl
  hbody V c := body_obligation0 V c
  hin V c := by
    rw [show (dat0 (F := F) V c).Φ 0 = Pipeline.ΦA spec0 c from rfl]; unfold Pipeline.ΦA
    iintro ⟨Hp, Hr⟩
    isplitl [Hr]; · iexact Hr
    iexact Hp
  hout V c := by
    rw [show (dat0 (F := F) V c).Φ (Fin.last cfg0.N) = Pipeline.ΦA spec0 c from rfl]; unfold Pipeline.ΦA
    iintro ⟨Hr, Hp⟩
    isplitl [Hp]; · iexact Hp
    iexact Hr

/-- Region 1: its invariant is the scoped rest and the generator register, as handed over. -/
theorem rd1 : RegionData cfg1 (fun V c => dat1 (F := F) V c) where
  hA V c w := A_eq1 V c w
  hq _ _ _ := rfl
  howed _ _ _ := rfl
  hrec _ _ _ := rfl
  hbody V c := body_obligation1 V c
  hin V c := by
    rw [show (dat1 (F := F) V c).Φ 0 = Pipeline.ΦA spec1 c from rfl]; unfold Pipeline.ΦA
    iintro ⟨Hp, Hr⟩
    isplitl [Hr]; · iexact Hr
    iexact Hp
  hout V c := by
    rw [show (dat1 (F := F) V c).Φ (Fin.last cfg1.N) = Pipeline.ΦA spec1 c from rfl]; unfold Pipeline.ΦA
    iintro ⟨Hr, Hp⟩
    isplitl [Hp]; · iexact Hp
    iexact Hr

/-- Region 2: its invariant carries the accumulator scratch; it is made from the scoped rest and the generator
    register, and gives them back. -/
theorem rd2 : RegionData cfg2 (fun V c => dat2 (F := F) V c) where
  hA V c w := A_eq2 V c w
  hq _ _ _ := rfl
  howed _ _ _ := rfl
  hrec _ _ _ := rfl
  hbody V c := body_obligation2 V c
  hin V c := Phi2_in V c
  hout V c := Phi2_out V c

/-- The run's parameters at the three regions' proof data. -/
abbrev params (m : (ℓ : Loc nD τ sig) → Buf (Elt F) ℓ) (ρ : Dev nD → PrngReg) : Params F :=
  ⟨fun V c => dat0 V c, fun V c => dat1 V c, fun V c => dat2 V c, m, ρ⟩

end Cert.Kernel.Hand

end
-- ==== Proof.K.Args.lean ====
/-
  The argument arrays come out of the run as they went in: no operation of the host prelude writes one, the first
  region only reads the input through a window, and no other region touches any of them.
-/
import proofs.«113036_j73607149519274_2_alg».proof.Proof.K.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (P : Params F)

/-- The host prelude leaves a buffer it does not write as it found it. -/
theorem W1_of (c : Dev nD) (r : Ref sig .tc) (h : r ∉ hostOps0_W) : W1 P c (Proc.devRef .tc r) = W0 P c (Proc.devRef .tc r) :=
  StableHlo.after_of_writes_sub hostOps0 _ hostOps0_writes h

/-- The input array, staged by the first region through a window it only reads. -/
theorem W4_main_arg0 (h0 : RegionData cfg0 P.D0) (c : Dev nD) : W4 P c (Proc.devRef .tc main_arg0) = P.m ((c : Thread nD τ).loc main_arg0) :=
  calc W4 P c (Proc.devRef .tc main_arg0)
    _ = W3 P c (Proc.devRef .tc main_arg0) := W4_of_ne P c main_arg0 (by decide)
    _ = W2 P c (Proc.devRef .tc main_arg0) := W3_of_ne P c main_arg0 (by decide)
    _ = W1 P c (Proc.devRef .tc main_arg0) := (W2_arr P c 0).trans (((P.D0 (V1 P) c).arrAt_in 0 rfl _).trans (h0.hA (V1 P) c 0))
    _ = W0 P c (Proc.devRef .tc main_arg0) := W1_of P c main_arg0 (by decide)
    _ = P.m ((c : Thread nD τ).loc main_arg0) := rfl

theorem W4_main_arg1 (c : Dev nD) : W4 P c (Proc.devRef .tc main_arg1) = P.m ((c : Thread nD τ).loc main_arg1) :=
  calc W4 P c (Proc.devRef .tc main_arg1)
    _ = W3 P c (Proc.devRef .tc main_arg1) := W4_of_ne P c main_arg1 (by decide)
    _ = W2 P c (Proc.devRef .tc main_arg1) := W3_of_ne P c main_arg1 (by decide)
    _ = W1 P c (Proc.devRef .tc main_arg1) := W2_of_ne P c main_arg1 (by decide)
    _ = W0 P c (Proc.devRef .tc main_arg1) := W1_of P c main_arg1 (by decide)
    _ = P.m ((c : Thread nD τ).loc main_arg1) := rfl

theorem W4_main_arg2 (c : Dev nD) : W4 P c (Proc.devRef .tc main_arg2) = P.m ((c : Thread nD τ).loc main_arg2) :=
  calc W4 P c (Proc.devRef .tc main_arg2)
    _ = W3 P c (Proc.devRef .tc main_arg2) := W4_of_ne P c main_arg2 (by decide)
    _ = W2 P c (Proc.devRef .tc main_arg2) := W3_of_ne P c main_arg2 (by decide)
    _ = W1 P c (Proc.devRef .tc main_arg2) := W2_of_ne P c main_arg2 (by decide)
    _ = W0 P c (Proc.devRef .tc main_arg2) := W1_of P c main_arg2 (by decide)
    _ = P.m ((c : Thread nD τ).loc main_arg2) := rfl

theorem W4_main_arg3 (c : Dev nD) : W4 P c (Proc.devRef .tc main_arg3) = P.m ((c : Thread nD τ).loc main_arg3) :=
  calc W4 P c (Proc.devRef .tc main_arg3)
    _ = W3 P c (Proc.devRef .tc main_arg3) := W4_of_ne P c main_arg3 (by decide)
    _ = W2 P c (Proc.devRef .tc main_arg3) := W3_of_ne P c main_arg3 (by decide)
    _ = W1 P c (Proc.devRef .tc main_arg3) := W2_of_ne P c main_arg3 (by decide)
    _ = W0 P c (Proc.devRef .tc main_arg3) := W1_of P c main_arg3 (by decide)
    _ = P.m ((c : Thread nD τ).loc main_arg3) := rfl

theorem W4_main_arg4 (c : Dev nD) : W4 P c (Proc.devRef .tc main_arg4) = P.m ((c : Thread nD τ).loc main_arg4) :=
  calc W4 P c (Proc.devRef .tc main_arg4)
    _ = W3 P c (Proc.devRef .tc main_arg4) := W4_of_ne P c main_arg4 (by decide)
    _ = W2 P c (Proc.devRef .tc main_arg4) := W3_of_ne P c main_arg4 (by decide)
    _ = W1 P c (Proc.devRef .tc main_arg4) := W2_of_ne P c main_arg4 (by decide)
    _ = W0 P c (Proc.devRef .tc main_arg4) := W1_of P c main_arg4 (by decide)
    _ = P.m ((c : Thread nD τ).loc main_arg4) := rfl

theorem W4_main_arg5 (c : Dev nD) : W4 P c (Proc.devRef .tc main_arg5) = P.m ((c : Thread nD τ).loc main_arg5) :=
  calc W4 P c (Proc.devRef .tc main_arg5)
    _ = W3 P c (Proc.devRef .tc main_arg5) := W4_of_ne P c main_arg5 (by decide)
    _ = W2 P c (Proc.devRef .tc main_arg5) := W3_of_ne P c main_arg5 (by decide)
    _ = W1 P c (Proc.devRef .tc main_arg5) := W2_of_ne P c main_arg5 (by decide)
    _ = W0 P c (Proc.devRef .tc main_arg5) := W1_of P c main_arg5 (by decide)
    _ = P.m ((c : Thread nD τ).loc main_arg5) := rfl

theorem W4_main_arg6 (c : Dev nD) : W4 P c (Proc.devRef .tc main_arg6) = P.m ((c : Thread nD τ).loc main_arg6) :=
  calc W4 P c (Proc.devRef .tc main_arg6)
    _ = W3 P c (Proc.devRef .tc main_arg6) := W4_of_ne P c main_arg6 (by decide)
    _ = W2 P c (Proc.devRef .tc main_arg6) := W3_of_ne P c main_arg6 (by decide)
    _ = W1 P c (Proc.devRef .tc main_arg6) := W2_of_ne P c main_arg6 (by decide)
    _ = W0 P c (Proc.devRef .tc main_arg6) := W1_of P c main_arg6 (by decide)
    _ = P.m ((c : Thread nD τ).loc main_arg6) := rfl

theorem W4_main_arg7 (c : Dev nD) : W4 P c (Proc.devRef .tc main_arg7) = P.m ((c : Thread nD τ).loc main_arg7) :=
  calc W4 P c (Proc.devRef .tc main_arg7)
    _ = W3 P c (Proc.devRef .tc main_arg7) := W4_of_ne P c main_arg7 (by decide)
    _ = W2 P c (Proc.devRef .tc main_arg7) := W3_of_ne P c main_arg7 (by decide)
    _ = W1 P c (Proc.devRef .tc main_arg7) := W2_of_ne P c main_arg7 (by decide)
    _ = W0 P c (Proc.devRef .tc main_arg7) := W1_of P c main_arg7 (by decide)
    _ = P.m ((c : Thread nD τ).loc main_arg7) := rfl

theorem W4_main_arg8 (c : Dev nD) : W4 P c (Proc.devRef .tc main_arg8) = P.m ((c : Thread nD τ).loc main_arg8) :=
  calc W4 P c (Proc.devRef .tc main_arg8)
    _ = W3 P c (Proc.devRef .tc main_arg8) := W4_of_ne P c main_arg8 (by decide)
    _ = W2 P c (Proc.devRef .tc main_arg8) := W3_of_ne P c main_arg8 (by decide)
    _ = W1 P c (Proc.devRef .tc main_arg8) := W2_of_ne P c main_arg8 (by decide)
    _ = W0 P c (Proc.devRef .tc main_arg8) := W1_of P c main_arg8 (by decide)
    _ = P.m ((c : Thread nD τ).loc main_arg8) := rfl

include P in
/-- THE FRAME, from the run: every argument array ends as launched. -/
theorem frame_of_run (h0 : RegionData cfg0 P.D0) (h1 : RegionData cfg1 P.D1) (h2 : RegionData cfg2 P.D2) :
    θ_run defs (onTc (τ := τ) (main (F := F))) ⟨P.m, fun _ => 0, P.ρ⟩ (fun r => ∀ c : Dev nD,
      r.2.mem ((c.tc : Thread nD τ).loc main_arg0) = P.m ((c.tc : Thread nD τ).loc main_arg0)
      ∧ r.2.mem ((c.tc : Thread nD τ).loc main_arg1) = P.m ((c.tc : Thread nD τ).loc main_arg1)
      ∧ r.2.mem ((c.tc : Thread nD τ).loc main_arg2) = P.m ((c.tc : Thread nD τ).loc main_arg2)
      ∧ r.2.mem ((c.tc : Thread nD τ).loc main_arg3) = P.m ((c.tc : Thread nD τ).loc main_arg3)
      ∧ r.2.mem ((c.tc : Thread nD τ).loc main_arg4) = P.m ((c.tc : Thread nD τ).loc main_arg4)
      ∧ r.2.mem ((c.tc : Thread nD τ).loc main_arg5) = P.m ((c.tc : Thread nD τ).loc main_arg5)
      ∧ r.2.mem ((c.tc : Thread nD τ).loc main_arg6) = P.m ((c.tc : Thread nD τ).loc main_arg6)
      ∧ r.2.mem ((c.tc : Thread nD τ).loc main_arg7) = P.m ((c.tc : Thread nD τ).loc main_arg7)
      ∧ r.2.mem ((c.tc : Thread nD τ).loc main_arg8) = P.m ((c.tc : Thread nD τ).loc main_arg8)) :=
  (θ_run defs _ _).mono (fun r h c =>
    ⟨(h c _ (mem_uc main_arg0 (by decide))).trans (W4_main_arg0 P h0 c),
     (h c _ (mem_uc main_arg1 (by decide))).trans (W4_main_arg1 P c),
     (h c _ (mem_uc main_arg2 (by decide))).trans (W4_main_arg2 P c),
     (h c _ (mem_uc main_arg3 (by decide))).trans (W4_main_arg3 P c),
     (h c _ (mem_uc main_arg4 (by decide))).trans (W4_main_arg4 P c),
     (h c _ (mem_uc main_arg5 (by decide))).trans (W4_main_arg5 P c),
     (h c _ (mem_uc main_arg6 (by decide))).trans (W4_main_arg6 P c),
     (h c _ (mem_uc main_arg7 (by decide))).trans (W4_main_arg7 P c),
     (h c _ (mem_uc main_arg8 (by decide))).trans (W4_main_arg8 P c)⟩)
    (run_all P h0 h1 h2)

end Cert.Kernel.Hand

end
-- ==== Proof.KI.Run.lean ====
/-
  The kernel program's run as four segments — the host prelude that lays the weights out by head, then the three
  kernel regions — with the contents of every unscoped buffer named at each boundary.

  At a boundary core `c` holds every unscoped buffer whole: at the launch contents, then after the prelude's
  operations, then, region by region, with that region's arrays replaced by what its write-backs leave and every
  other buffer untouched. Each region is entered by splitting its arrays out of the buffers and left by putting them
  back; between points its invariant holds the scoped buffers it does not stage and the generator register.
  The regions' proof data, body obligations and invariant facts are parameters here.
-/
import proofs.«113036_j73607149519274_2_alg».proof.Proof.Gen.KernelIdeal.Launch
import proofs.«113036_j73607149519274_2_alg».proof.Proof.Gen.KernelIdeal.Skeleton
import proofs.«113036_j73607149519274_2_alg».proof.Proof.Gen.KernelIdeal.Points
import proofs.«113036_j73607149519274_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Buffer contents of every TensorCore reference on every core: what a region's proof data are stated at. -/
abbrev Conts (F : FTy → Type) [FloatOps F] : Type := (c : Dev nD) → (b : Ref sig .tc) → Buf (Elt F) ((c : Thread nD τ).loc b)

/-- What the run needs of one region's proof data, for every entry contents: the arrays are the entry contents',
    full shares, nothing owed, the body obligation, and the invariant made from (and giving back) the generator
    register and the scoped buffers the region does not stage. -/
structure RegionData (cfg : Cfg sig Λ₀)
    (D : Conts F → (c : Dev nD) → Dat τ (Elt F) Unit ℕ (UR sig nD τ) ℕ cfg c) : Prop where
  hA : ∀ V c w, (D V c).A w = V c (Pipeline.arrRef cfg.spec w)
  hq : ∀ V c w, (D V c).q w = fullShare
  howed : ∀ V c t, (D V c).owed t = 0
  hrec : ∀ V c t, (D V c).recorded t = Set.univ
  hbody : ∀ V c, BodyObligation (D V c) (defs₀ (F := F)) Variants.none () Set.univ
  hin : ∀ V c, (iprop((∃ r, prngReg c r) ∗ Pipeline.scopedRest cfg.spec c) : sProp 𝕄) ⊢ (D V c).Φ 0
  hout : ∀ V c, (D V c).Φ (Fin.last cfg.N) ⊢ (iprop((∃ r, prngReg c r) ∗ Pipeline.scopedRest cfg.spec c) : sProp 𝕄)

section Run

/-- The three regions' proof data families, the launch memory and the generator registers. -/
structure Params (F : FTy → Type) [FloatOps F] where
  D0 : Conts F → (c : Dev nD) → Dat τ (Elt F) Unit ℕ (UR sig nD τ) ℕ cfg0 c
  D1 : Conts F → (c : Dev nD) → Dat τ (Elt F) Unit ℕ (UR sig nD τ) ℕ cfg1 c
  D2 : Conts F → (c : Dev nD) → Dat τ (Elt F) Unit ℕ (UR sig nD τ) ℕ cfg2 c
  m : (ℓ : Loc nD τ sig) → Buf (Elt F) ℓ
  ρ : Dev nD → PrngReg

variable (P : Params F)

/-! ## The buffer contents at each boundary -/

/-- Core `c`'s buffers at launch. -/
abbrev W0 : Dev nD → Valuation τ sig (Elt F) := fun c b => (s₀ P.m P.ρ).mem ((c : Dev nD), b)
/-- After the host prelude (region 0's entry). -/
abbrev W1 : Dev nD → Valuation τ sig (Elt F) := fun c => StableHlo.after hostOps0 (W0 P c)
/-- The same read at the TensorCore's references. -/
abbrev V1 : Conts F := fun c b => W1 P c b

/-- At region 0's exit: its arrays at what the pipeline leaves, every other buffer as entered. -/
def W2 (c : Dev nD) : Valuation τ sig (Elt F) :=
  Pipeline.withArrays spec0 c (W1 P c) fun w => (P.D0 (V1 P) c).arrAt w cfg0.N
theorem W2_arr (c : Dev nD) (w : Fin cfg0.W) :
    W2 P c (Proc.devRef .tc (Pipeline.arrRef spec0 w)) = (P.D0 (V1 P) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 P c (Proc.devRef .tc b) = W1 P c (Proc.devRef .tc b) := by
  unfold W2; exact Pipeline.withArrays_of_ne spec0 c _ _ b hb
/-- The same read at the TensorCore's references. -/
abbrev V2 : Conts F := fun c b => W2 P c b
theorem hF0 (c : Dev nD) (w : Fin cfg0.W) : (P.D0 (V1 P) c).arrAt w cfg0.N = V2 P c (Pipeline.arrRef spec0 w) :=
  (W2_arr P c w).symm
theorem hrest0 (c : Dev nD) : ∀ b, b ∉ Finset.univ.image (Pipeline.arrRef spec0) → V2 P c b = V1 P c b :=
  fun b hb => W2_of_ne P c b fun w e => hb (Finset.mem_image.mpr ⟨w, Finset.mem_univ _, e⟩)

/-- At region 1's exit: its arrays at what the pipeline leaves, every other buffer as entered. -/
def W3 (c : Dev nD) : Valuation τ sig (Elt F) :=
  Pipeline.withArrays spec1 c (W2 P c) fun w => (P.D1 (V2 P) c).arrAt w cfg1.N
theorem W3_arr (c : Dev nD) (w : Fin cfg1.W) :
    W3 P c (Proc.devRef .tc (Pipeline.arrRef spec1 w)) = (P.D1 (V2 P) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 P c (Proc.devRef .tc b) = W2 P c (Proc.devRef .tc b) := by
  unfold W3; exact Pipeline.withArrays_of_ne spec1 c _ _ b hb
/-- The same read at the TensorCore's references. -/
abbrev V3 : Conts F := fun c b => W3 P c b
theorem hF1 (c : Dev nD) (w : Fin cfg1.W) : (P.D1 (V2 P) c).arrAt w cfg1.N = V3 P c (Pipeline.arrRef spec1 w) :=
  (W3_arr P c w).symm
theorem hrest1 (c : Dev nD) : ∀ b, b ∉ Finset.univ.image (Pipeline.arrRef spec1) → V3 P c b = V2 P c b :=
  fun b hb => W3_of_ne P c b fun w e => hb (Finset.mem_image.mpr ⟨w, Finset.mem_univ _, e⟩)

/-- At region 2's exit: its arrays at what the pipeline leaves, every other buffer as entered. -/
def W4 (c : Dev nD) : Valuation τ sig (Elt F) :=
  Pipeline.withArrays spec2 c (W3 P c) fun w => (P.D2 (V3 P) c).arrAt w cfg2.N
theorem W4_arr (c : Dev nD) (w : Fin cfg2.W) :
    W4 P c (Proc.devRef .tc (Pipeline.arrRef spec2 w)) = (P.D2 (V3 P) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 P c (Proc.devRef .tc b) = W3 P c (Proc.devRef .tc b) := by
  unfold W4; exact Pipeline.withArrays_of_ne spec2 c _ _ b hb
/-- The same read at the TensorCore's references. -/
abbrev V4 : Conts F := fun c b => W4 P c b
theorem hF2 (c : Dev nD) (w : Fin cfg2.W) : (P.D2 (V3 P) c).arrAt w cfg2.N = V4 P c (Pipeline.arrRef spec2 w) :=
  (W4_arr P c w).symm
theorem hrest2 (c : Dev nD) : ∀ b, b ∉ Finset.univ.image (Pipeline.arrRef spec2) → V4 P c b = V3 P c b :=
  fun b hb => W4_of_ne P c b fun w e => hb (Finset.mem_image.mpr ⟨w, Finset.mem_univ _, e⟩)

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => P.D0 (V1 P) c
  | ⟨1, _⟩ => fun c => P.D1 (V2 P) c
  | ⟨2, _⟩ => fun c => P.D2 (V3 P) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
/-- The host prelude as a segment over the unscoped references. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 P c) ∗ ∃ r, prngReg c r)

variable (h0 : RegionData cfg0 P.D0) (h1 : RegionData cfg1 P.D1) (h2 : RegionData cfg2 P.D2)

/-! ## The regions as segments -/

set_option backward.isDefEq.respectTransparency.types false in
/-- Region 0 over the thread state: entered from every unscoped buffer at the boundary's contents, its arrays split
    out and put back at what its write-backs leave; the generator register and the scoped buffers into its invariant and
    out; nothing owed; no semaphore of the kernel's own. -/
def reg0 : Pipeline.RegionSeg (pcfgs (F := F)) adm (pdats P) () defs₀ 𝒱₀ L lv 0 where
  win := launch0.win.to₀
  block_pos := launch0.block_pos
  stage_whole := launch0.stage_whole
  K := PEmpty
  osem k := k.elim
  ho := Pipeline.OwnSemFacts.none _
  hbody c := (h0.hbody (V1 P) c).loose
  hwaits := Pipeline.hwaits_of_owed_zero _ _ _ _ L lv 0 fun c t => h0.howed (V1 P) c t
  pre c := iprop(StableHlo.held (c : Thread nD τ) (Pipeline.ucRefs τ sig) (W1 P c) ∗ R c)
  post c := iprop(StableHlo.held (c : Thread nD τ) (Pipeline.ucRefs τ sig) (W2 P c) ∗ R c)
  X c := iprop(∃ r, prngReg c r)
  Y c := iprop(∃ r, prngReg c r)
  Z c := Pipeline.unscopedRest (Ix := Unit) (Name := ℕ) (U := UR sig nD τ) (Lvl := ℕ) spec0 c (V1 P c)
  hentry c := by
    rw [Pipeline.ownSems0_none]
    have hsplit := Pipeline.arrays_of_unscopedBufs (p := 0) (pcfgs (F := F)) adm (pdats P) launch0.win launch0.arr_whole c
      ((pdats P 0 c).share_full fun w => h0.hq (V1 P) c w) (V1 P c) fun w => h0.hA (V1 P) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · have eo : (pdats P 0 c).owed 0 = 0 := h0.howed (V1 P) c 0
      have er : (pdats P 0 c).recorded 0 = Set.univ := h0.hrec (V1 P) c 0
      unfold Pipeline.Dat.owesAt Pipeline.owesWithin
      rw [eo]
      icases HO with ⟨%W, HO⟩; iexists W; isplitr; · ipureintro; exact fun x _ => Or.inl (by rw [er]; exact Set.mem_univ x)
      iexact HO
    isplitl [Hp]; · iexact Hp
    iexact Hrest
  hin c := by
    have e : (iprop((∃ r, prngReg c r) ∗ Pipeline.prefHeld (pcfgs (F := F) 0).pre c (fun _ => fullShare) (adm (F := F) 0).1 ∗ Pipeline.scopedRest spec0 c) : sProp 𝕄)
        ⊢ iprop((∃ r, prngReg c r) ∗ Pipeline.scopedRest spec0 c) := by
      iintro ⟨Hp, -, Hr⟩
      isplitl [Hp]; · iexact Hp
      iexact Hr
    exact e.trans (h0.hin (V1 P) c)
  hout c := by
    rw [Pipeline.ownSems0_none]
    have e : (iprop((∃ r, prngReg c r) ∗ Pipeline.scopedRest spec0 c) : sProp 𝕄)
        ⊢ iprop((∃ r, prngReg c r) ∗ BI.emp ∗ Pipeline.scopedRest spec0 c) := by
      iintro ⟨Hp, Hr⟩
      isplitl [Hp]; · iexact Hp
      isplitr; · iempintro
      iexact Hr
    exact (h0.hout (V1 P) c).trans e
  hexit c := by
    have hjoin := Pipeline.unscopedBufs_of_arrays (p := 0) (pcfgs (F := F)) adm (Ix := Unit) (Name := ℕ) (U := UR sig nD τ) (Lvl := ℕ)
      launch0.win launch0.arr_whole c (pdats P) ((pdats P 0 c).share_full fun w => h0.hq (V1 P) c w)
      (V1 P c) (V2 P c) ((pdats P 0 c).arrAt · cfg0.N) (hF0 P c) (hrest0 P c)
    rw [Pipeline.unscopedBufs_held] at hjoin
    iintro ⟨Ha, HO, HY, Hrest⟩
    imodintro
    isplitl [Ha Hrest]
    · iapply hjoin; isplitl [Ha] <;> iassumption
    isplitl [HY]; · iexact HY
    have eo : (pdats P 0 c).owed (Fin.last (Pipeline.pin (pcfgs (F := F)) adm 0).N) = 0 := h0.howed (V1 P) c _
    unfold Pipeline.Dat.owesAt Pipeline.owesWithin
    rw [eo]
    icases HO with ⟨%W, -, HO⟩; iexists W; iexact HO

set_option backward.isDefEq.respectTransparency.types false in
/-- Region 1 over the thread state: entered from every unscoped buffer at the boundary's contents, its arrays split
    out and put back at what its write-backs leave; the generator register and the scoped buffers into its invariant and
    out; nothing owed; no semaphore of the kernel's own. -/
def reg1 : Pipeline.RegionSeg (pcfgs (F := F)) adm (pdats P) () defs₀ 𝒱₀ L lv 1 where
  win := launch1.win.to₀
  block_pos := launch1.block_pos
  stage_whole := launch1.stage_whole
  K := PEmpty
  osem k := k.elim
  ho := Pipeline.OwnSemFacts.none _
  hbody c := (h1.hbody (V2 P) c).loose
  hwaits := Pipeline.hwaits_of_owed_zero _ _ _ _ L lv 1 fun c t => h1.howed (V2 P) c t
  pre c := iprop(StableHlo.held (c : Thread nD τ) (Pipeline.ucRefs τ sig) (W2 P c) ∗ R c)
  post c := iprop(StableHlo.held (c : Thread nD τ) (Pipeline.ucRefs τ sig) (W3 P c) ∗ R c)
  X c := iprop(∃ r, prngReg c r)
  Y c := iprop(∃ r, prngReg c r)
  Z c := Pipeline.unscopedRest (Ix := Unit) (Name := ℕ) (U := UR sig nD τ) (Lvl := ℕ) spec1 c (V2 P c)
  hentry c := by
    rw [Pipeline.ownSems0_none]
    have hsplit := Pipeline.arrays_of_unscopedBufs (p := 1) (pcfgs (F := F)) adm (pdats P) launch1.win launch1.arr_whole c
      ((pdats P 1 c).share_full fun w => h1.hq (V2 P) c w) (V2 P c) fun w => h1.hA (V2 P) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · have eo : (pdats P 1 c).owed 0 = 0 := h1.howed (V2 P) c 0
      have er : (pdats P 1 c).recorded 0 = Set.univ := h1.hrec (V2 P) c 0
      unfold Pipeline.Dat.owesAt Pipeline.owesWithin
      rw [eo]
      icases HO with ⟨%W, HO⟩; iexists W; isplitr; · ipureintro; exact fun x _ => Or.inl (by rw [er]; exact Set.mem_univ x)
      iexact HO
    isplitl [Hp]; · iexact Hp
    iexact Hrest
  hin c := by
    have e : (iprop((∃ r, prngReg c r) ∗ Pipeline.prefHeld (pcfgs (F := F) 1).pre c (fun _ => fullShare) (adm (F := F) 1).1 ∗ Pipeline.scopedRest spec1 c) : sProp 𝕄)
        ⊢ iprop((∃ r, prngReg c r) ∗ Pipeline.scopedRest spec1 c) := by
      iintro ⟨Hp, -, Hr⟩
      isplitl [Hp]; · iexact Hp
      iexact Hr
    exact e.trans (h1.hin (V2 P) c)
  hout c := by
    rw [Pipeline.ownSems0_none]
    have e : (iprop((∃ r, prngReg c r) ∗ Pipeline.scopedRest spec1 c) : sProp 𝕄)
        ⊢ iprop((∃ r, prngReg c r) ∗ BI.emp ∗ Pipeline.scopedRest spec1 c) := by
      iintro ⟨Hp, Hr⟩
      isplitl [Hp]; · iexact Hp
      isplitr; · iempintro
      iexact Hr
    exact (h1.hout (V2 P) c).trans e
  hexit c := by
    have hjoin := Pipeline.unscopedBufs_of_arrays (p := 1) (pcfgs (F := F)) adm (Ix := Unit) (Name := ℕ) (U := UR sig nD τ) (Lvl := ℕ)
      launch1.win launch1.arr_whole c (pdats P) ((pdats P 1 c).share_full fun w => h1.hq (V2 P) c w)
      (V2 P c) (V3 P c) ((pdats P 1 c).arrAt · cfg1.N) (hF1 P c) (hrest1 P c)
    rw [Pipeline.unscopedBufs_held] at hjoin
    iintro ⟨Ha, HO, HY, Hrest⟩
    imodintro
    isplitl [Ha Hrest]
    · iapply hjoin; isplitl [Ha] <;> iassumption
    isplitl [HY]; · iexact HY
    have eo : (pdats P 1 c).owed (Fin.last (Pipeline.pin (pcfgs (F := F)) adm 1).N) = 0 := h1.howed (V2 P) c _
    unfold Pipeline.Dat.owesAt Pipeline.owesWithin
    rw [eo]
    icases HO with ⟨%W, -, HO⟩; iexists W; iexact HO

set_option backward.isDefEq.respectTransparency.types false in
/-- Region 2 over the thread state: entered from every unscoped buffer at the boundary's contents, its arrays split
    out and put back at what its write-backs leave; the generator register and the scoped buffers into its invariant and
    out; nothing owed; no semaphore of the kernel's own. -/
def reg2 : Pipeline.RegionSeg (pcfgs (F := F)) adm (pdats P) () defs₀ 𝒱₀ L lv 2 where
  win := launch2.win.to₀
  block_pos := launch2.block_pos
  stage_whole := launch2.stage_whole
  K := PEmpty
  osem k := k.elim
  ho := Pipeline.OwnSemFacts.none _
  hbody c := (h2.hbody (V3 P) c).loose
  hwaits := Pipeline.hwaits_of_owed_zero _ _ _ _ L lv 2 fun c t => h2.howed (V3 P) c t
  pre c := iprop(StableHlo.held (c : Thread nD τ) (Pipeline.ucRefs τ sig) (W3 P c) ∗ R c)
  post c := iprop(Tₙ P c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 P c)
  hentry c := by
    rw [Pipeline.ownSems0_none]
    have hsplit := Pipeline.arrays_of_unscopedBufs (p := 2) (pcfgs (F := F)) adm (pdats P) launch2.win launch2.arr_whole c
      ((pdats P 2 c).share_full fun w => h2.hq (V3 P) c w) (V3 P c) fun w => h2.hA (V3 P) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · have eo : (pdats P 2 c).owed 0 = 0 := h2.howed (V3 P) c 0
      have er : (pdats P 2 c).recorded 0 = Set.univ := h2.hrec (V3 P) c 0
      unfold Pipeline.Dat.owesAt Pipeline.owesWithin
      rw [eo]
      icases HO with ⟨%W, HO⟩; iexists W; isplitr; · ipureintro; exact fun x _ => Or.inl (by rw [er]; exact Set.mem_univ x)
      iexact HO
    isplitl [Hp]; · iexact Hp
    iexact Hrest
  hin c := by
    have e : (iprop((∃ r, prngReg c r) ∗ Pipeline.prefHeld (pcfgs (F := F) 2).pre c (fun _ => fullShare) (adm (F := F) 2).1 ∗ Pipeline.scopedRest spec2 c) : sProp 𝕄)
        ⊢ iprop((∃ r, prngReg c r) ∗ Pipeline.scopedRest spec2 c) := by
      iintro ⟨Hp, -, Hr⟩
      isplitl [Hp]; · iexact Hp
      iexact Hr
    exact e.trans (h2.hin (V3 P) c)
  hout c := by
    rw [Pipeline.ownSems0_none]
    have e : (iprop((∃ r, prngReg c r) ∗ Pipeline.scopedRest spec2 c) : sProp 𝕄)
        ⊢ iprop((∃ r, prngReg c r) ∗ BI.emp ∗ Pipeline.scopedRest spec2 c) := by
      iintro ⟨Hp, Hr⟩
      isplitl [Hp]; · iexact Hp
      isplitr; · iempintro
      iexact Hr
    exact (h2.hout (V3 P) c).trans e
  hexit c := by
    have hjoin := Pipeline.unscopedBufs_of_arrays (p := 2) (pcfgs (F := F)) adm (Ix := Unit) (Name := ℕ) (U := UR sig nD τ) (Lvl := ℕ)
      launch2.win launch2.arr_whole c (pdats P) ((pdats P 2 c).share_full fun w => h2.hq (V3 P) c w)
      (V3 P c) (V4 P c) ((pdats P 2 c).arrAt · cfg2.N) (hF2 P c) (hrest2 P c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    have eo : (pdats P 2 c).owed (Fin.last (Pipeline.pin (pcfgs (F := F)) adm 2).N) = 0 := h2.howed (V3 P) c _
    unfold Pipeline.Dat.owesAt Pipeline.owesWithin
    rw [eo]
    icases HO with ⟨%W, -, HO⟩; iexists W; iexact HO

/-! ## @main as segments, and the launch -/

abbrev segs : List (Pipeline.Seg (pcfgs (F := F)) adm (pdats P) () defs₀ 𝒱₀ L lv) :=
  [ .host (hseg hostOps0 hostOps0_sub hostOps0_fresh (W0 P)),
    .region (reg0 P h0),
    .region (reg1 P h1),
    .region (reg2 P h2) ]
theorem main_run (c : Dev nD) : main (F := F) c = Pipeline.Seg.run (segs P h0 h1 h2) := (main_chain c).trans (by chain_rfl)

include h0 h1 h2 in
set_option backward.isDefEq.respectTransparency.types false in
/-- THE RUN: from any memory with zero counters every weakly fair execution of @main terminates, nothing faulting,
    and every final state holds every unscoped buffer at the last boundary's contents. -/
theorem run_all : θ_run defs (onTc (τ := τ) (main (F := F))) ⟨P.m, fun _ => 0, P.ρ⟩ (fun r => ∀ c : Dev nD,
      ∀ b ∈ Pipeline.ucRefs τ sig, r.2.mem (((c : Thread nD τ)).1, b) = W4 P c b) :=
  Pipeline.θ_run_regions_kit (pcfgs (F := F)) adm (pdats P) () cellOf_inj emb₁ defs₀ 𝒱₀ L lv P.m P.ρ main (segs P h0 h1 h2)
    (fun c Q => by rw [main_run P h0 h1 h2 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 P c) ∗ R c)) (Tₙ := Tₙ P)
    (hch := ⟨fun _ => .rfl, fun _ => .rfl, fun _ => .rfl, fun _ => .rfl, fun _ => .rfl⟩)
    (hinit := by
      refine Pipeline.initEach L lv fun c => ?_
      rw [show unscopedBufs c (fun b => P.m ((c : Thread nD τ).loc b)) = StableHlo.held (c : Thread nD τ) (Pipeline.ucRefs τ sig) (W0 P c)
        from Pipeline.unscopedBufs_held c (W0 P c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 P c b)
    (hfin := fun c s' => by
      iintro ⟨⟨Hh, -⟩, HSI⟩
      unfold StableHlo.held
      imodintro
      iapply (pointsTo_read_all (Pipeline.ucRefs τ sig) (fun b => (((c : Thread nD τ)).1, b)) (W4 P c) s')
      isplitl [Hh] <;> iassumption)
    (hQ := fun s h c => h c)

end Run

end Cert.KernelIdeal.Hand

end
-- ==== Proof.KI.Reg0.lean ====
/-
  Region 0 of the kernel program: the fused query / key / value projection, one body per grid point (a block of
  512 positions, one head).

  At a point the body holds a [2, 512, 768] block of the input, three [768, 64] weight blocks with their [1, 64]
  biases, and three [1, 2, 512, 64] result blocks. For each of the two batch entries it reads that entry's
  [512, 768] slab of the input block, multiplies it by each weight block, adds the bias row to every row of the
  product, and stores the result as that entry's [512, 64] slab of the matching result block. The two slabs tile a
  result block, so what the body leaves in a result block is a function of the input blocks alone, whatever the
  block held before (the body also reads each result slab just before overwriting it; the value read is unused).

  This module states that function (`out0_7`, `out0_8`, `out0_9`: the two stored slabs, the later one first),
  proves the body's triple, and packages the pipeline's proof data and body obligation for the region, for any
  contents `V` of the core's buffers when the region is entered and any float instance.
-/
import proofs.«113036_j73607149519274_2_alg».proof.Proof.Gen.KernelIdeal.Launch
import proofs.«113036_j73607149519274_2_alg».proof.Proof.Gen.KernelIdeal.Skeleton
import proofs.«113036_j73607149519274_2_alg».proof.Proof.Gen.KernelIdeal.Points
import Idealize.ShloMosaic.Lib.Pipeline.FrameBody
import Idealize.ShloMosaic.Lib.Ring
import Idealize.ShloMosaic.Lib.Tactic

-- membership in a rectangle of these extents is decided structurally, one step per coordinate of the long axes
set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (an unfetched
    window's block index has not moved), for any proof data over the entry contents whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (an unfetched
    window's block index has not moved), for any proof data over the entry contents whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (an unfetched
    window's block index has not moved), for any proof data over the entry contents whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not (an unfetched
    window's block index has not moved), for any proof data over the entry contents whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not (an unfetched
    window's block index has not moved), for any proof data over the entry contents whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not (an unfetched
    window's block index has not moved), for any proof data over the entry contents whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not (an unfetched
    window's block index has not moved), for any proof data over the entry contents whose body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- Batch entry 0's and 1's [1, 512, 768] slabs of the input block. -/
abbrev rX0 : Rect S2x512x768 := Rect.unit (s := S2x512x768) ![0, 0, 0] S1x512x768.size inb_S2x512x768_S1x512x768_0_0_0
abbrev rX1 : Rect S2x512x768 := Rect.unit (s := S2x512x768) ![1, 0, 0] S1x512x768.size inb_S2x512x768_S1x512x768_1_0_0
/-- A weight block and a bias block, whole. -/
abbrev rW : Rect S1x768x64 := Rect.unit (s := S1x768x64) ![0, 0, 0] S1x768x64.size inb_S1x768x64_S1x768x64_0_0_0
abbrev rB : Rect S1x1x64 := Rect.unit (s := S1x1x64) ![0, 0, 0] S1x1x64.size inb_S1x1x64_S1x1x64_0_0_0
/-- Batch entry 0's and 1's [1, 1, 512, 64] slabs of a result block. -/
abbrev rO0 : Rect S1x2x512x64 := Rect.unit (s := S1x2x512x64) ![0, 0, 0, 0] S1x1x512x64.size inb_S1x2x512x64_S1x1x512x64_0_0_0_0
abbrev rO1 : Rect S1x2x512x64 := Rect.unit (s := S1x2x512x64) ![0, 1, 0, 0] S1x1x512x64.size inb_S1x2x512x64_S1x1x512x64_0_1_0_0

/-! ## What the body leaves in each result block -/

/-- The query block after the body: entry 1's slab over entry 0's, each the projection of that entry's input slab. -/
def out0_7 (x0 : Vec F S2x512x768 .f32) (x1 : Vec F S1x768x64 .bf16) (x2 : Vec F S1x1x64 .f32) : Vec F S1x2x512x64 .bf16 :=
  View.canon [⟨rO1, k0_pay15 (k0_pay2 (View.ld x1 rW)) (k0_pay3 (View.ld x2 rB)) (View.ld x0 rX1)⟩,
    ⟨rO0, k0_pay10 (View.ld x1 rW) (View.ld x2 rB) (View.ld x0 rX0)⟩]

/-- The key block after the body. -/
def out0_8 (x0 : Vec F S2x512x768 .f32) (x3 : Vec F S1x768x64 .bf16) (x4 : Vec F S1x1x64 .f32) : Vec F S1x2x512x64 .bf16 :=
  View.canon [⟨rO1, k0_pay16 (k0_pay4 (View.ld x3 rW)) (k0_pay5 (View.ld x4 rB)) (View.ld x0 rX1)⟩,
    ⟨rO0, k0_pay12 (k0_pay11 (View.ld x3 rW) (View.ld x4 rB) (View.ld x0 rX0))⟩]

/-- The value block after the body. -/
def out0_9 (x0 : Vec F S2x512x768 .f32) (x5 : Vec F S1x768x64 .bf16) (x6 : Vec F S1x1x64 .f32) : Vec F S1x2x512x64 .bf16 :=
  View.canon [⟨rO1, k0_pay1 (k0_pay17 (k0_pay6 (View.ld x5 rW)) (k0_pay7 (View.ld x6 rB)) (View.ld x0 rX1))⟩,
    ⟨rO0, k0_pay13 (k0_pay9 (View.ld x5 rW) (View.ld x6 rB) (View.ld x0 rX0))⟩]

/-- The two slabs tile a result block (checked by evaluation), so they cover it. -/
theorem cover0_out (p1 p0 : Vec F S1x1x512x64 .bf16) (y : S1x2x512x64.Idx) :
    ∃ pc ∈ ([⟨rO1, p1⟩, ⟨rO0, p0⟩] : List (View.Piece (Elt F) S1x2x512x64 .bf16)), y ∈ pc.1.set :=
  View.cover_of_tiled [⟨rO1, p1⟩, ⟨rO0, p0⟩] S1x1x512x64.size (by rfl) y

/-! ## The body's triple -/

set_option maxHeartbeats 4000000 in
/-- The body on whole staging memrefs, the inputs' at read contents `x0 … x6` and the results' at anything, runs to the
    continuation holding the inputs' as they were and each result's at `out0_W` of the inputs'. -/
theorem sound_kernel0 (c : Dev nD) (E : Set ℕ) (i : grid0.Coords) (arg2 : Memref sig .tc .vmem S2x512x768 .f32) (harg2 : arg2.IsWhole) (arg3 : Memref sig .tc .vmem S1x768x64 .bf16) (harg3 : arg3.IsWhole) (arg4 : Memref sig .tc .vmem S1x1x64 .f32) (harg4 : arg4.IsWhole) (arg5 : Memref sig .tc .vmem S1x768x64 .bf16) (harg5 : arg5.IsWhole) (arg6 : Memref sig .tc .vmem S1x1x64 .f32) (harg6 : arg6.IsWhole) (arg7 : Memref sig .tc .vmem S1x768x64 .bf16) (harg7 : arg7.IsWhole) (arg8 : Memref sig .tc .vmem S1x1x64 .f32) (harg8 : arg8.IsWhole) (arg9 : Memref sig .tc .vmem S1x2x512x64 .bf16) (harg9 : arg9.IsWhole) (arg10 : Memref sig .tc .vmem S1x2x512x64 .bf16) (harg10 : arg10.IsWhole) (arg11 : Memref sig .tc .vmem S1x2x512x64 .bf16) (harg11 : arg11.IsWhole)
    (x0 : Vec F S2x512x768 .f32) (x1 : Vec F S1x768x64 .bf16) (x2 : Vec F S1x1x64 .f32) (x3 : Vec F S1x768x64 .bf16) (x4 : Vec F S1x1x64 .f32) (x5 : Vec F S1x768x64 .bf16) (x6 : Vec F S1x1x64 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare (out0_7 x0 x1 x2) ∗ owns (c : Thread nD τ) arg10 fullShare (out0_8 x0 x3 x4) ∗ owns (c : Thread nD τ) arg11 fullShare (out0_9 x0 x5 x6)) -∗ K ⟨⟩))
      ⊢ wp frame (wpE (defs₀ (F := F)) Variants.none c none) E (cc0_kernel i arg2 harg2 arg3 harg3 arg4 harg4 arg5 harg5 arg6 harg6 arg7 harg7 arg8 harg8 arg9 harg9 arg10 harg10 arg11 harg11) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0_out _ _)
  isplitl [H8]
  · iexists _; isplitr
    swap; · iexact H8
    ipureintro
    exact View.read_writes_eq_canon _ _ _ (cover0_out _ _)
  iexists _; isplitr
  swap; · iexact H9
  ipureintro
  exact View.read_writes_eq_canon _ _ _ (cover0_out _ _)

/-! ## The pipeline's proof data -/

/-- The proof data of the region on core `c`: the arrays as the region finds them; after the body at point `t` each
    input's buffer at its block and each result's at `out0_W` of the input blocks; the invariant the untouched rest of
    the core's state; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t)
    | ⟨8, _⟩ => out0_8 (iblk0 V c 0 t) (iblk0 V c 3 t) (iblk0 V c 4 t)
    | ⟨9, _⟩ => out0_9 (iblk0 V c 0 t) (iblk0 V c 5 t) (iblk0 V c 6 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) := by dsimp only [dat0]
theorem after0_8 (c : Dev nD) (t : Fin cfg0.N) : (dat0 V c).after 8 t = out0_8 (iblk0 V c 0 t) (iblk0 V c 3 t) (iblk0 V c 4 t) := by dsimp only [dat0]
theorem after0_9 (c : Dev nD) (t : Fin cfg0.N) : (dat0 V c).after 9 t = out0_9 (iblk0 V c 0 t) (iblk0 V c 5 t) (iblk0 V c 6 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 1000000 in
/-- The body at any point: the inputs' memrefs hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
/-
  Region 1 of the kernel program: attention, one head and one block of 512 query positions per grid point.

  The grid is 12 × 4: point (h, qi) is handed head h's block qi of the queries (both batch entries, 512 positions, 64
  coordinates), all of head h's keys and values (both batch entries, 2048 positions), and a block of the output of the
  queries' shape. For each of the two batch entries the body loads the entry's slab of the three inputs, computes the
  slab of the output from them alone, and stores it; the two stores tile the output block. What the block holds after
  the body is therefore a function of the three input blocks only, which is what this module names (its two pieces,
  last store first) and proves of the printed body; the proof data of the region and its body obligation follow.

  Everything here holds at every float instance.
-/
import proofs.«113036_j73607149519274_2_alg».proof.Proof.Gen.KernelIdeal.Launch
import proofs.«113036_j73607149519274_2_alg».proof.Proof.Gen.KernelIdeal.Skeleton
import proofs.«113036_j73607149519274_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: a parameter
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The queries' staging buffer holds their block at every point, for any proof data whose array is the entry contents
    and whose body leaves the block in place: an input window holds its block whether it was fetched at the point or
    at an earlier one with the same block index. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the keys, whose block changes only with the head (it is fetched at every fourth point). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same for the values. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: one slab per batch entry -/

/-- Batch entry 0's slab of a block of 512 positions, -/
abbrev r1_q0 : Rect S1x2x512x64 := Rect.unit (s := S1x2x512x64) ![0, 0, 0, 0] S1x1x512x64.size inb_S1x2x512x64_S1x1x512x64_0_0_0_0
/-- and batch entry 1's. -/
abbrev r1_q1 : Rect S1x2x512x64 := Rect.unit (s := S1x2x512x64) ![0, 1, 0, 0] S1x1x512x64.size inb_S1x2x512x64_S1x1x512x64_0_1_0_0
/-- Batch entry 0's slab of a block of all 2048 positions, -/
abbrev r1_k0 : Rect S1x2x2048x64 := Rect.unit (s := S1x2x2048x64) ![0, 0, 0, 0] S1x1x2048x64.size inb_S1x2x2048x64_S1x1x2048x64_0_0_0_0
/-- and batch entry 1's. -/
abbrev r1_k1 : Rect S1x2x2048x64 := Rect.unit (s := S1x2x2048x64) ![0, 1, 0, 0] S1x1x2048x64.size inb_S1x2x2048x64_S1x1x2048x64_0_1_0_0

/-! ## What the body leaves in the output block -/

/-- The output window's staging buffer after the body, from the three input blocks: its two stores as pieces, the last
    first. Batch entry 1's slab is the second payload of the entry's query, key and value slabs (the first two reach
    it through a plain change of shape); batch entry 0's is the first payload of entry 0's slabs. -/
def out1_3 (xq : Vec F S1x2x512x64 .bf16) (xk xv : Vec F S1x2x2048x64 .bf16) : Vec F S1x2x512x64 .bf16 :=
  View.canon [⟨r1_q1, k1_pay1 (k1_pay3 (View.ld xq r1_q1)) (k1_pay4 (View.ld xk r1_k1)) (View.ld xv r1_k1)⟩,
    ⟨r1_q0, k1_pay2 (View.ld xq r1_q0) (View.ld xk r1_k0) (View.ld xv r1_k0)⟩]

/-- The two slabs tile the block, so they cover it. -/
theorem cover1_3 (p1 p0 : Vec F S1x1x512x64 .bf16) (y : S1x2x512x64.Idx) :
    ∃ pc ∈ ([⟨r1_q1, p1⟩, ⟨r1_q0, p0⟩] : List (View.Piece (Elt F) S1x2x512x64 .bf16)), y ∈ pc.1.set :=
  View.cover_of_tiled [⟨r1_q1, p1⟩, ⟨r1_q0, p0⟩] S1x1x512x64.size (by rfl) y

/-! ## The body's triple -/

set_option maxHeartbeats 1000000 in
/-- The kernel body on whole staging memrefs, the inputs' at contents xq, xk, xv and the output's at anything, runs to
    the continuation holding the inputs' as they were and the output's at out1_3 of the inputs': the body reads the
    output's slabs before it overwrites them, and uses nothing of what it read. -/
theorem sound_kernel1 (c : Dev nD) (E : Set ℕ) (i : grid1.Coords)
    (arg0 : Memref sig .tc .vmem S1x2x512x64 .bf16) (harg0 : arg0.IsWhole) (arg1 : Memref sig .tc .vmem S1x2x2048x64 .bf16) (harg1 : arg1.IsWhole)
    (arg2 : Memref sig .tc .vmem S1x2x2048x64 .bf16) (harg2 : arg2.IsWhole) (arg3 : Memref sig .tc .vmem S1x2x512x64 .bf16) (harg3 : arg3.IsWhole)
    (xq : Vec F S1x2x512x64 .bf16) (xk xv : Vec F S1x2x2048x64 .bf16) (K : PUnit → sProp 𝕄) :
    iprop(owns (c : Thread nD τ) arg0 fullShare xq ∗ owns (c : Thread nD τ) arg1 fullShare xk ∗ owns (c : Thread nD τ) arg2 fullShare xv
        ∗ (∃ d, owns (c : Thread nD τ) arg3 fullShare d)
        ∗ (iprop(owns (c : Thread nD τ) arg0 fullShare xq ∗ owns (c : Thread nD τ) arg1 fullShare xk ∗ owns (c : Thread nD τ) arg2 fullShare xv
            ∗ owns (c : Thread nD τ) arg3 fullShare (out1_3 xq xk xv)) -∗ K ⟨⟩))
      ⊢ wp frame (wpE (defs₀ (F := F)) Variants.none c none) E (cc1_kernel i arg0 harg0 arg1 harg1 arg2 harg2 arg3 harg3) K := by
  simp only [cc1_kernel_eq_skeleton]; unfold cc1_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _ _)

/-! ## The region's proof data -/

/-- The proof data of the region on core c: the arrays as the region finds them; after the body at point t each
    input's buffer at its block and the output's at out1_3 of the three input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
/-
  Region 2 of the kernel program: the output projection, accumulated over the twelve heads in a scratch buffer the
  kernel carries from one grid point to the next.

  The grid is 4 × 12, a point is (row block, head) with the head running fastest. At a point the body adds, to each
  of the two batch slabs of the scratch, the product of the head's context slab [512, 64] with the head's weight
  block [64, 768]; at head 0 it first fills the scratch with zeros; at head 11 it then stores scratch plus bias into
  the output block, which is written back there and is idle everywhere else. So there are three control cases over
  the grid — first head, middle heads, last head — and the scratch after a point is a recursion on the point.

  Everything here is generic in the float instance.
-/
import proofs.«113036_j73607149519274_2_alg».proof.Proof.Gen.KernelIdeal.Launch
import proofs.«113036_j73607149519274_2_alg».proof.Proof.Gen.KernelIdeal.Skeleton
import proofs.«113036_j73607149519274_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (unfetched, the
    block index has not moved), for any proof data whose array is `V`'s and whose body leaves the block in place:
    the context window, -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- the weight window, -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- and the bias window (one block, fetched once). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's two conditions, in closed form over the grid -/

/-- "This is the first head": the condition under which the body zeroes the scratch. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 12 = 0 :=
  (by decide +kernel : ∀ t : Fin grid2.N, cond2_0 (grid2.coords t) ↔ t.val % 12 = 0)

/-- "This is the last head": the condition under which the body stores the output block. -/
abbrev cond2_1 (i : grid2.Coords) : Prop := k2_cond2 i = 1#1
theorem hcond2_1 : ∀ t : Fin cfg2.N, cond2_1 (grid2.coords t) ↔ t.val % 12 = 11 :=
  (by decide +kernel : ∀ t : Fin grid2.N, cond2_1 (grid2.coords t) ↔ t.val % 12 = 11)

/-- The inputs are live at every point; -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- the output is idle, and not written back, away from the last head; -/
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
/-- and live at the last head. -/
theorem liveAt2_3 : ∀ t : Fin cfg2.N, cond2_1 (grid2.coords t) → cfg2.idle 3 (grid2.coords t) = false := by decide +kernel

/-! ## The body's accesses -/

/-- The whole weight block, -/
abbrev r2W : Rect S1x64x768 := Rect.unit (s := S1x64x768) ![0, 0, 0] S1x64x768.size inb_S1x64x768_S1x64x768_0_0_0
/-- the two batch slabs of the context block, -/
abbrev r2C0 : Rect S1x2x512x64 := Rect.unit (s := S1x2x512x64) ![0, 0, 0, 0] S1x1x512x64.size inb_S1x2x512x64_S1x1x512x64_0_0_0_0
abbrev r2C1 : Rect S1x2x512x64 := Rect.unit (s := S1x2x512x64) ![0, 1, 0, 0] S1x1x512x64.size inb_S1x2x512x64_S1x1x512x64_0_1_0_0
/-- the two batch slabs of the scratch (and of the output block, which has the scratch's shape), -/
abbrev r2S0 : Rect S2x512x768 := Rect.unit (s := S2x512x768) ![0, 0, 0] S1x512x768.size inb_S2x512x768_S1x512x768_0_0_0
abbrev r2S1 : Rect S2x512x768 := Rect.unit (s := S2x512x768) ![1, 0, 0] S1x512x768.size inb_S2x512x768_S1x512x768_1_0_0
/-- the whole scratch, -/
abbrev r2Sw : Rect S2x512x768 := Rect.unit (s := S2x512x768) ![0, 0, 0] S2x512x768.size inb_S2x512x768_S2x512x768_0_0_0
/-- the bias block. -/
abbrev r2B : Rect S1x768 := Rect.unit (s := S1x768) ![0, 0] S1x768.size inb_S1x768_S1x768_0_0

/-! ## What the body leaves, case by case, as functions of the blocks it is handed

  Stores as pieces, last first; a load that reads back the body's own stores reads the pieces' canonical contents. -/

/-- A middle (or last) head: each scratch slab becomes itself plus the head's product. From the context block `x0`,
    the weight block `x1` and the scratch contents `xs` the point before left. -/
def pieces2S (x0 : Vec F S1x2x512x64 .bf16) (x1 : Vec F S1x64x768 .bf16) (xs : Vec F S2x512x768 .f32) :
    List (View.Piece (Elt F) S2x512x768 .f32) :=
  [⟨r2S1, k2_pay7 (View.ld x1 r2W) (View.ld x0 r2C1) (View.ld xs r2S1)⟩,
   ⟨r2S0, k2_pay6 (View.ld x1 r2W) (View.ld x0 r2C0) (View.ld xs r2S0)⟩]
def step2S (x0 : Vec F S1x2x512x64 .bf16) (x1 : Vec F S1x64x768 .bf16) (xs : Vec F S2x512x768 .f32) : Vec F S2x512x768 .f32 :=
  View.canon (pieces2S x0 x1 xs)

/-- The first head: the scratch is filled with zeros, then each slab, read back from that fill, gets the head's product. -/
def pieces2A1 : List (View.Piece (Elt F) S2x512x768 .f32) := [⟨r2Sw, k2_pay4⟩]
def pieces2A2 (x0 : Vec F S1x2x512x64 .bf16) (x1 : Vec F S1x64x768 .bf16) : List (View.Piece (Elt F) S2x512x768 .f32) :=
  ⟨r2S0, k2_pay6 (View.ld x1 r2W) (View.ld x0 r2C0) (View.ld (View.canon (pieces2A1 (F := F))) r2S0)⟩ :: pieces2A1
def pieces2A3 (x0 : Vec F S1x2x512x64 .bf16) (x1 : Vec F S1x64x768 .bf16) : List (View.Piece (Elt F) S2x512x768 .f32) :=
  ⟨r2S1, k2_pay7 (View.ld x1 r2W) (View.ld x0 r2C1) (View.ld (View.canon (pieces2A2 x0 x1)) r2S1)⟩ :: pieces2A2 x0 x1
def step2A (x0 : Vec F S1x2x512x64 .bf16) (x1 : Vec F S1x64x768 .bf16) : Vec F S2x512x768 .f32 :=
  View.canon (pieces2A3 x0 x1)

/-- The last head's epilogue: each output slab is the scratch slab (as the accumulation just left it, `s`) plus the bias
    block `x2` broadcast along the rows. -/
def pieces2O (x2 : Vec F S1x768 .f32) (s : Vec F S2x512x768 .f32) : List (View.Piece (Elt F) S2x512x768 .f32) :=
  [⟨r2S1, k2_pay3 (View.ld x2 r2B) (View.ld s r2S1)⟩,
   ⟨r2S0, k2_pay2 (View.ld x2 r2B) (View.ld s r2S0)⟩]
def out2O (x2 : Vec F S1x768 .f32) (s : Vec F S2x512x768 .f32) : Vec F S2x512x768 .f32 :=
  View.canon (pieces2O x2 s)

/-- Two slab stores tile the buffer, so they cover it, -/
theorem cover2S (p1 : r2S1.shape.Idx → Elt F .f32) (p0 : r2S0.shape.Idx → Elt F .f32) (y : S2x512x768.Idx) :
    ∃ pc ∈ ([⟨r2S1, p1⟩, ⟨r2S0, p0⟩] : List (View.Piece (Elt F) S2x512x768 .f32)), y ∈ pc.1.set :=
  View.cover_of_tiled [⟨r2S1, p1⟩, ⟨r2S0, p0⟩] S1x512x768.size (by rfl) y
/-- whatever was stored before them. -/
theorem cover2S' (p1 : r2S1.shape.Idx → Elt F .f32) (p0 : r2S0.shape.Idx → Elt F .f32) (L : List (View.Piece (Elt F) S2x512x768 .f32)) (y : S2x512x768.Idx) :
    ∃ pc ∈ (⟨r2S1, p1⟩ :: ⟨r2S0, p0⟩ :: L : List (View.Piece (Elt F) S2x512x768 .f32)), y ∈ pc.1.set := by
  obtain ⟨pc, hm, hy⟩ := cover2S p1 p0 y
  exact ⟨pc, List.mem_append_left L hm, hy⟩

/-! ## The body's triple, case by case

  On whole staging memrefs — the inputs' at read contents, an idle output's at contents handed back untouched, a stored
  output's at anything, the scratch at what the point before left (at anything where the body overwrites it first) —
  the body runs to the continuation holding the inputs' as they were, the scratch at the case's step, and a stored
  output at the epilogue's value. Each `scf.if` is decided by the case's hypotheses. -/

set_option maxHeartbeats 1000000 in
/-- The first head. -/
theorem run2A (c : Dev nD) (E : Set ℕ) (i : grid2.Coords)
    (arg2 : Memref sig .tc .vmem S1x2x512x64 .bf16) (harg2 : arg2.IsWhole) (arg3 : Memref sig .tc .vmem S1x64x768 .bf16) (harg3 : arg3.IsWhole)
    (arg4 : Memref sig .tc .vmem S1x768 .f32) (harg4 : arg4.IsWhole) (arg5 : Memref sig .tc .vmem S2x512x768 .f32) (harg5 : arg5.IsWhole)
    (arg6 : Memref sig .tc .vmem S2x512x768 .f32) (harg6 : arg6.IsWhole) (hc0 : cond2_0 i) (hc1 : ¬cond2_1 i)
    (x0 : Vec F S1x2x512x64 .bf16) (x1 : Vec F S1x64x768 .bf16) (x2 : Vec F S1x768 .f32) (xi3 : Vec F S2x512x768 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare (step2A x0 x1)) -∗ K ⟨⟩))
      ⊢ wp frame (wpE (defs₀ (F := F)) Variants.none c none) E (cc2_kernel i arg2 harg2 arg3 harg3 arg4 harg4 arg5 harg5 arg6 harg6) K := by
  simp only [cc2_kernel_eq_skeleton]; unfold cc2_kernel_skel
  simp only [k2_part1_eq_skeleton]
  unfold owns
  iintro ⟨⟨%f0, %hf0, H0⟩, ⟨%f1, %hf1, H1⟩, ⟨%f2, %hf2, H2⟩, H3, ⟨%ds, %fs, -, HS⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]; · iexact H3
  iexists _; isplitr
  swap; · iexact HS
  ipureintro
  refine (View.read_writes_eq_canon _ _ _ (cover2S' _ _ _)).trans ?_
  unfold step2A pieces2A3 pieces2A2 pieces2A1
  sl_unfold_run_names
  simp only [View.readCov_eq_canon']
  rfl

set_option maxHeartbeats 1000000 in
/-- A middle head. -/
theorem run2B (c : Dev nD) (E : Set ℕ) (i : grid2.Coords)
    (arg2 : Memref sig .tc .vmem S1x2x512x64 .bf16) (harg2 : arg2.IsWhole) (arg3 : Memref sig .tc .vmem S1x64x768 .bf16) (harg3 : arg3.IsWhole)
    (arg4 : Memref sig .tc .vmem S1x768 .f32) (harg4 : arg4.IsWhole) (arg5 : Memref sig .tc .vmem S2x512x768 .f32) (harg5 : arg5.IsWhole)
    (arg6 : Memref sig .tc .vmem S2x512x768 .f32) (harg6 : arg6.IsWhole) (hc0 : ¬cond2_0 i) (hc1 : ¬cond2_1 i)
    (x0 : Vec F S1x2x512x64 .bf16) (x1 : Vec F S1x64x768 .bf16) (x2 : Vec F S1x768 .f32) (xi3 : Vec F S2x512x768 .f32) (xs : Vec F S2x512x768 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare (step2S x0 x1 xs)) -∗ K ⟨⟩))
      ⊢ wp frame (wpE (defs₀ (F := F)) Variants.none c none) E (cc2_kernel i arg2 harg2 arg3 harg3 arg4 harg4 arg5 harg5 arg6 harg6) K := by
  simp only [cc2_kernel_eq_skeleton]; unfold cc2_kernel_skel
  simp only [k2_part1_eq_skeleton]
  unfold owns
  iintro ⟨⟨%f0, %hf0, H0⟩, ⟨%f1, %hf1, H1⟩, ⟨%f2, %hf2, H2⟩, H3, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]; · iexact H3
  iexists _; isplitr
  swap; · iexact HS
  ipureintro
  refine (View.read_writes_eq_canon _ _ _ (cover2S _ _)).trans ?_
  unfold step2S pieces2S
  sl_unfold_run_names
  rfl

set_option maxHeartbeats 1000000 in
/-- The last head. -/
theorem run2C (c : Dev nD) (E : Set ℕ) (i : grid2.Coords)
    (arg2 : Memref sig .tc .vmem S1x2x512x64 .bf16) (harg2 : arg2.IsWhole) (arg3 : Memref sig .tc .vmem S1x64x768 .bf16) (harg3 : arg3.IsWhole)
    (arg4 : Memref sig .tc .vmem S1x768 .f32) (harg4 : arg4.IsWhole) (arg5 : Memref sig .tc .vmem S2x512x768 .f32) (harg5 : arg5.IsWhole)
    (arg6 : Memref sig .tc .vmem S2x512x768 .f32) (harg6 : arg6.IsWhole) (hc0 : ¬cond2_0 i) (hc1 : cond2_1 i)
    (x0 : Vec F S1x2x512x64 .bf16) (x1 : Vec F S1x64x768 .bf16) (x2 : Vec F S1x768 .f32) (xs : Vec F S2x512x768 .f32)
    (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
        ∗ owns (c : Thread nD τ) arg5 fullShare (out2O x2 (step2S x0 x1 xs)) ∗ owns (c : Thread nD τ) arg6 fullShare (step2S x0 x1 xs)) -∗ K ⟨⟩))
      ⊢ wp frame (wpE (defs₀ (F := F)) Variants.none c none) E (cc2_kernel i arg2 harg2 arg3 harg3 arg4 harg4 arg5 harg5 arg6 harg6) K := by
  simp only [cc2_kernel_eq_skeleton]; unfold cc2_kernel_skel
  simp only [k2_part1_eq_skeleton]
  unfold owns
  iintro ⟨⟨%f0, %hf0, H0⟩, ⟨%f1, %hf1, H1⟩, ⟨%f2, %hf2, H2⟩, ⟨%d3, %f3, -, H3⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ (cover2S _ _)).trans ?_
    unfold out2O pieces2O step2S pieces2S
    sl_unfold_run_names
    simp only [View.readCov_eq_canon']
    rfl
  iexists _; isplitr
  swap; · iexact HS
  ipureintro
  sl_unfold_run_names
  refine (View.read_writes_eq_canon _ _ _ (cover2S _ _)).trans ?_
  unfold step2S pieces2S
  rfl

/-! ## The accumulation: what the scratch holds after each point -/

/-- The scratch after the body at position `n`: at a first head the zero fill plus that head's product (nothing of
    what it held before), at any other head what position `n - 1` left plus this head's product. -/
def acc2 (c : Dev nD) : (n : ℕ) → n < cfg2.N → Vec F S2x512x768 .f32
  | 0, hn => step2A (iblk2 V c 0 ⟨0, hn⟩) (iblk2 V c 1 ⟨0, hn⟩)
  | n + 1, hn =>
    if (n + 1) % 12 = 0 then step2A (iblk2 V c 0 ⟨n + 1, hn⟩) (iblk2 V c 1 ⟨n + 1, hn⟩)
    else step2S (iblk2 V c 0 ⟨n + 1, hn⟩) (iblk2 V c 1 ⟨n + 1, hn⟩) (acc2 c n (Nat.lt_of_succ_lt hn))

theorem acc2_first (c : Dev nD) (t : Fin cfg2.N) (h0 : t.val % 12 = 0) :
    acc2 V c t.val t.isLt = step2A (iblk2 V c 0 t) (iblk2 V c 1 t) := by
  obtain ⟨n, hn⟩ := t
  cases n with
  | zero => rfl
  | succ n =>
    have h0' : (n + 1) % 12 = 0 := h0
    show acc2 V c (n + 1) hn = _
    rw [acc2, if_pos h0']

theorem acc2_next (c : Dev nD) (t : Fin cfg2.N) (h0 : ¬t.val % 12 = 0) :
    acc2 V c t.val t.isLt = step2S (iblk2 V c 0 t) (iblk2 V c 1 t) (acc2 V c (t.val - 1) (Nat.lt_of_le_of_lt (Nat.sub_le _ _) t.isLt)) := by
  obtain ⟨n, hn⟩ := t
  cases n with
  | zero => exact absurd (Nat.zero_mod _) h0
  | succ n =>
    have h0' : ¬(n + 1) % 12 = 0 := h0
    show acc2 V c (n + 1) hn = _
    rw [acc2, if_neg h0']; rfl

/-! ## The region's invariant -/

/-- The kernel's scratch operand: a whole scoped buffer of its own. -/
abbrev scM2 : Memref sig .tc .vmem S2x512x768 .f32 := Memref.whole cc2_scratch0

/-- Before position `n`: at the region's entry the generator register and every scoped buffer that is no staging buffer
    at some contents (the scratch among them, at anything); afterwards the scratch at what the point before left, the
    other such buffers at some contents, and the register. -/
def Phi2 (c : Dev nD) : (n : ℕ) → n ≤ cfg2.N → sProp 𝕄
  | 0, _ => iprop((∃ r, prngReg c r) ∗ Pipeline.scopedRest spec2 c)
  | n + 1, hn => iprop(owns (c : Thread nD τ) scM2 fullShare (acc2 V c n hn) ∗ Pipeline.scopedRestBut spec2 c [cc2_scratch0] ∗ (∃ r, prngReg c r))

theorem Phi2_zero (c : Dev nD) (n : ℕ) (h : n ≤ cfg2.N) (hz : n = 0) :
    Phi2 V c n h = iprop((∃ r, prngReg c r) ∗ Pipeline.scopedRest spec2 c) := by
  subst hz; rfl

theorem Phi2_succ (c : Dev nD) (n : ℕ) (hn : n < cfg2.N) :
    Phi2 V c (n + 1) hn = iprop(owns (c : Thread nD τ) scM2 fullShare (acc2 V c n hn) ∗ Pipeline.scopedRestBut spec2 c [cc2_scratch0] ∗ (∃ r, prngReg c r)) := rfl

theorem Phi2_pos (c : Dev nD) (n : ℕ) (h : n ≤ cfg2.N) (hz : n ≠ 0) :
    Phi2 V c n h = iprop(owns (c : Thread nD τ) scM2 fullShare (acc2 V c (n - 1) (by omega)) ∗ Pipeline.scopedRestBut spec2 c [cc2_scratch0] ∗ (∃ r, prngReg c r)) := by
  cases n with
  | zero => exact absurd rfl hz
  | succ n => rfl

/-- The entry invariant with the scratch split off, as a memref owned at some contents. -/
theorem Phi2In_eq (c : Dev nD) :
    (iprop((∃ r, prngReg c r) ∗ Pipeline.scopedRest spec2 c) : sProp 𝕄)
      = iprop((∃ r, prngReg c r) ∗ (∃ d, owns (c : Thread nD τ) scM2 fullShare d) ∗ Pipeline.scopedRestBut spec2 c [cc2_scratch0]) := by
  rw [scopedRest2_split]; simp only [scM2, owns_whole]; try rfl

/-! ## The pipeline's proof data -/

/-- The proof data of this region on core `c`: the arrays as the region finds them; after the body each input's
    buffer at its block, the output's at the epilogue of the accumulation so far (read only where the block is
    written back, at the last heads); the invariant above; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2O (iblk2 V c 2 t) (acc2 V c t.val t.isLt)
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem Phi2_castSucc (c : Dev nD) (t : Fin cfg2.N) :
    (dat2 V c).Φ t.castSucc = Phi2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2O (iblk2 V c 2 t) (acc2 V c t.val t.isLt) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point. The inputs' buffers hold their blocks; the closed forms say which case the point is in; the
    invariant hands the body the scratch at what the point before left (at anything at the very first point, where
    the first-head case overwrites it before reading) and takes it back at this point's accumulation; away from the
    last head the output's buffer is handed back as it was found, at the last head it is left at the epilogue's
    value; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = Phi2 V c (t.val + 1) t.isLt from rfl, Phi2_succ]
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  rw [show (dat2 V c).leavesExact 2 t = owns (c : Thread nD τ) (st2_2 t) fullShare ((dat2 V c).after 2 t) from by
    unfold Dat.leavesExact; rw [liveAt2_2 t], after2_2]
  have hN : t.val < 48 := lt_of_lt_of_eq t.isLt (show cfg2.N = 48 from N_2)
  by_cases h1 : t.val % 12 = 11
  · have h0 : ¬t.val % 12 = 0 := by omega
    have hz : t.val ≠ 0 := by omega
    rw [show (dat2 V c).leavesExact 3 t = owns (c : Thread nD τ) (st2_3 t) fullShare ((dat2 V c).after 3 t) from by
      unfold Dat.leavesExact; rw [liveAt2_3 t ((hcond2_1 t).mpr h1)], after2_3]
    rw [acc2_next V c t h0]
    rw [Phi2_castSucc V c t, Phi2_pos V c _ _ hz]
    iintro ⟨⟨HS, HR, Hg⟩, Ho, ⟨%d0, H0⟩, ⟨%d1, H1⟩, ⟨%d2, H2⟩, ⟨%d3, H3⟩⟩
    iapply (run2C c Set.univ (grid2.coords t) _ _ _ _ _ _ _ _ _ _ (fun h => h0 ((hcond2_0 t).mp h)) ((hcond2_1 t).mpr h1) (iblk2 V c 0 t) (iblk2 V c 1 t) (iblk2 V c 2 t) _ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    iexact H3
  · rw [Dat.leavesExact_idle (dat2 V c) 3 t (idleAt2_3 t (fun h => h1 ((hcond2_1 t).mp h))) (noFlush2_3 t (fun h => h1 ((hcond2_1 t).mp h)))]
    by_cases h0 : t.val % 12 = 0
    · rw [acc2_first V c t h0]
      by_cases hz : t.val = 0
      · rw [Phi2_castSucc V c t, Phi2_zero V c _ _ hz, Phi2In_eq]
        iintro ⟨⟨Hg, HS, HR⟩, Ho, ⟨%d0, H0⟩, ⟨%d1, H1⟩, ⟨%d2, H2⟩, ⟨%d3, H3⟩⟩
        iapply (run2A c Set.univ (grid2.coords t) _ _ _ _ _ _ _ _ _ _ ((hcond2_0 t).mpr h0) (fun h => h1 ((hcond2_1 t).mp h)) (iblk2 V c 0 t) (iblk2 V c 1 t) (iblk2 V c 2 t) ((dat2 V c).before 3 t d3) _)
        isplitl [H0]; · iexact H0
        isplitl [H1]; · iexact H1
        isplitl [H2]; · iexact H2
        isplitl [H3]; · iexact H3
        isplitl [HS]; · iexact HS
        iintro ⟨H0, H1, H2, H3, HS⟩
        isplitl [HS HR Hg]
        · isplitl [HS]; · iexact HS
          isplitl [HR]; · iexact HR
          iexact Hg
        isplitl [Ho]; · iexact Ho
        isplitl [H0]; · iexact H0
        isplitl [H1]; · iexact H1
        isplitl [H2]; · iexact H2
        iexists _; iexact H3
      · rw [Phi2_castSucc V c t, Phi2_pos V c _ _ hz]
        iintro ⟨⟨HS, HR, Hg⟩, Ho, ⟨%d0, H0⟩, ⟨%d1, H1⟩, ⟨%d2, H2⟩, ⟨%d3, H3⟩⟩
        iapply (run2A c Set.univ (grid2.coords t) _ _ _ _ _ _ _ _ _ _ ((hcond2_0 t).mpr h0) (fun h => h1 ((hcond2_1 t).mp h)) (iblk2 V c 0 t) (iblk2 V c 1 t) (iblk2 V c 2 t) ((dat2 V c).before 3 t d3) _)
        isplitl [H0]; · iexact H0
        isplitl [H1]; · iexact H1
        isplitl [H2]; · iexact H2
        isplitl [H3]; · iexact H3
        isplitl [HS]; · iexists _; iexact HS
        iintro ⟨H0, H1, H2, H3, HS⟩
        isplitl [HS HR Hg]
        · isplitl [HS]; · iexact HS
          isplitl [HR]; · iexact HR
          iexact Hg
        isplitl [Ho]; · iexact Ho
        isplitl [H0]; · iexact H0
        isplitl [H1]; · iexact H1
        isplitl [H2]; · iexact H2
        iexists _; iexact H3
    · have hz : t.val ≠ 0 := fun e => h0 (by rw [e])
      rw [acc2_next V c t h0]
      rw [Phi2_castSucc V c t, Phi2_pos V c _ _ hz]
      iintro ⟨⟨HS, HR, Hg⟩, Ho, ⟨%d0, H0⟩, ⟨%d1, H1⟩, ⟨%d2, H2⟩, ⟨%d3, H3⟩⟩
      iapply (run2B c Set.univ (grid2.coords t) _ _ _ _ _ _ _ _ _ _ (fun h => h0 ((hcond2_0 t).mp h)) (fun h => h1 ((hcond2_1 t).mp h)) (iblk2 V c 0 t) (iblk2 V c 1 t) (iblk2 V c 2 t) ((dat2 V c).before 3 t d3) _ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the region is entered with is the invariant before the first point. -/
theorem Phi2_in (c : Dev nD) : (iprop((∃ r, prngReg c r) ∗ Pipeline.scopedRest spec2 c) : sProp 𝕄) ⊢ (dat2 V c).Φ 0 := by
  rw [show (dat2 V c).Φ 0 = Phi2 V c 0 (Nat.zero_le _) from rfl, Phi2_zero V c 0 _ rfl]
  try exact Idealize.SL.BI.Entails.refl _

/-- After the last point the invariant gives it back: the scratch's named contents are forgotten. -/
theorem Phi2_out (c : Dev nD) : (dat2 V c).Φ (Fin.last cfg2.N) ⊢ (iprop((∃ r, prngReg c r) ∗ Pipeline.scopedRest spec2 c) : sProp 𝕄) := by
  have hN : cfg2.N = 48 := N_2
  rw [show (dat2 V c).Φ (Fin.last cfg2.N) = Phi2 V c (Fin.last cfg2.N).val (Nat.le_of_lt_succ (Fin.last cfg2.N).isLt) from rfl,
    Phi2_pos V c _ _ (by rw [Fin.val_last]; omega), Phi2In_eq]
  iintro ⟨HS, HR, Hg⟩
  isplitl [Hg]; · iexact Hg
  isplitl [HS]; · iexists _; iexact HS
  iexact HR

end Cert.KernelIdeal.Hand

end
-- ==== Proof.KI.Data.lean ====
/-
  The three regions' proof data meet what the run asks of them: their arrays are the entry contents', they hold full
  shares and owe nothing, their bodies meet the obligation, and their invariants are made from, and give back, the
  generator register and the scoped buffers the region does not stage.
-/
import proofs.«113036_j73607149519274_2_alg».proof.Proof.KI.Run
import proofs.«113036_j73607149519274_2_alg».proof.Proof.KI.Reg0
import proofs.«113036_j73607149519274_2_alg».proof.Proof.KI.Reg1
import proofs.«113036_j73607149519274_2_alg».proof.Proof.KI.Reg2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Region 0: its invariant is the scoped rest and the generator register, as handed over. -/
theorem rd0 : RegionData cfg0 (fun V c => dat0 (F := F) V c) where
  hA V c w := A_eq0 V c w
  hq _ _ _ := rfl
  howed _ _ _ := rfl
  hrec _ _ _ := rfl
  hbody V c := body_obligation0 V c
  hin V c := by
    rw [show (dat0 (F := F) V c).Φ 0 = Pipeline.ΦA spec0 c from rfl]; unfold Pipeline.ΦA
    iintro ⟨Hp, Hr⟩
    isplitl [Hr]; · iexact Hr
    iexact Hp
  hout V c := by
    rw [show (dat0 (F := F) V c).Φ (Fin.last cfg0.N) = Pipeline.ΦA spec0 c from rfl]; unfold Pipeline.ΦA
    iintro ⟨Hr, Hp⟩
    isplitl [Hp]; · iexact Hp
    iexact Hr

/-- Region 1: its invariant is the scoped rest and the generator register, as handed over. -/
theorem rd1 : RegionData cfg1 (fun V c => dat1 (F := F) V c) where
  hA V c w := A_eq1 V c w
  hq _ _ _ := rfl
  howed _ _ _ := rfl
  hrec _ _ _ := rfl
  hbody V c := body_obligation1 V c
  hin V c := by
    rw [show (dat1 (F := F) V c).Φ 0 = Pipeline.ΦA spec1 c from rfl]; unfold Pipeline.ΦA
    iintro ⟨Hp, Hr⟩
    isplitl [Hr]; · iexact Hr
    iexact Hp
  hout V c := by
    rw [show (dat1 (F := F) V c).Φ (Fin.last cfg1.N) = Pipeline.ΦA spec1 c from rfl]; unfold Pipeline.ΦA
    iintro ⟨Hr, Hp⟩
    isplitl [Hp]; · iexact Hp
    iexact Hr

/-- Region 2: its invariant carries the accumulator scratch; it is made from the scoped rest and the generator
    register, and gives them back. -/
theorem rd2 : RegionData cfg2 (fun V c => dat2 (F := F) V c) where
  hA V c w := A_eq2 V c w
  hq _ _ _ := rfl
  howed _ _ _ := rfl
  hrec _ _ _ := rfl
  hbody V c := body_obligation2 V c
  hin V c := Phi2_in V c
  hout V c := Phi2_out V c

/-- The run's parameters at the three regions' proof data. -/
abbrev params (m : (ℓ : Loc nD τ sig) → Buf (Elt F) ℓ) (ρ : Dev nD → PrngReg) : Params F :=
  ⟨fun V c => dat0 V c, fun V c => dat1 V c, fun V c => dat2 V c, m, ρ⟩

end Cert.KernelIdeal.Hand

end
-- ==== Proof.KI.Args.lean ====
/-
  The argument arrays come out of the run as they went in: no operation of the host prelude writes one, the first
  region only reads the input through a window, and no other region touches any of them.
-/
import proofs.«113036_j73607149519274_2_alg».proof.Proof.KI.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (P : Params F)

/-- The host prelude leaves a buffer it does not write as it found it. -/
theorem W1_of (c : Dev nD) (r : Ref sig .tc) (h : r ∉ hostOps0_W) : W1 P c (Proc.devRef .tc r) = W0 P c (Proc.devRef .tc r) :=
  StableHlo.after_of_writes_sub hostOps0 _ hostOps0_writes h

/-- The input array, staged by the first region through a window it only reads. -/
theorem W4_main_arg0 (h0 : RegionData cfg0 P.D0) (c : Dev nD) : W4 P c (Proc.devRef .tc main_arg0) = P.m ((c : Thread nD τ).loc main_arg0) :=
  calc W4 P c (Proc.devRef .tc main_arg0)
    _ = W3 P c (Proc.devRef .tc main_arg0) := W4_of_ne P c main_arg0 (by decide)
    _ = W2 P c (Proc.devRef .tc main_arg0) := W3_of_ne P c main_arg0 (by decide)
    _ = W1 P c (Proc.devRef .tc main_arg0) := (W2_arr P c 0).trans (((P.D0 (V1 P) c).arrAt_in 0 rfl _).trans (h0.hA (V1 P) c 0))
    _ = W0 P c (Proc.devRef .tc main_arg0) := W1_of P c main_arg0 (by decide)
    _ = P.m ((c : Thread nD τ).loc main_arg0) := rfl

theorem W4_main_arg1 (c : Dev nD) : W4 P c (Proc.devRef .tc main_arg1) = P.m ((c : Thread nD τ).loc main_arg1) :=
  calc W4 P c (Proc.devRef .tc main_arg1)
    _ = W3 P c (Proc.devRef .tc main_arg1) := W4_of_ne P c main_arg1 (by decide)
    _ = W2 P c (Proc.devRef .tc main_arg1) := W3_of_ne P c main_arg1 (by decide)
    _ = W1 P c (Proc.devRef .tc main_arg1) := W2_of_ne P c main_arg1 (by decide)
    _ = W0 P c (Proc.devRef .tc main_arg1) := W1_of P c main_arg1 (by decide)
    _ = P.m ((c : Thread nD τ).loc main_arg1) := rfl

theorem W4_main_arg2 (c : Dev nD) : W4 P c (Proc.devRef .tc main_arg2) = P.m ((c : Thread nD τ).loc main_arg2) :=
  calc W4 P c (Proc.devRef .tc main_arg2)
    _ = W3 P c (Proc.devRef .tc main_arg2) := W4_of_ne P c main_arg2 (by decide)
    _ = W2 P c (Proc.devRef .tc main_arg2) := W3_of_ne P c main_arg2 (by decide)
    _ = W1 P c (Proc.devRef .tc main_arg2) := W2_of_ne P c main_arg2 (by decide)
    _ = W0 P c (Proc.devRef .tc main_arg2) := W1_of P c main_arg2 (by decide)
    _ = P.m ((c : Thread nD τ).loc main_arg2) := rfl

theorem W4_main_arg3 (c : Dev nD) : W4 P c (Proc.devRef .tc main_arg3) = P.m ((c : Thread nD τ).loc main_arg3) :=
  calc W4 P c (Proc.devRef .tc main_arg3)
    _ = W3 P c (Proc.devRef .tc main_arg3) := W4_of_ne P c main_arg3 (by decide)
    _ = W2 P c (Proc.devRef .tc main_arg3) := W3_of_ne P c main_arg3 (by decide)
    _ = W1 P c (Proc.devRef .tc main_arg3) := W2_of_ne P c main_arg3 (by decide)
    _ = W0 P c (Proc.devRef .tc main_arg3) := W1_of P c main_arg3 (by decide)
    _ = P.m ((c : Thread nD τ).loc main_arg3) := rfl

theorem W4_main_arg4 (c : Dev nD) : W4 P c (Proc.devRef .tc main_arg4) = P.m ((c : Thread nD τ).loc main_arg4) :=
  calc W4 P c (Proc.devRef .tc main_arg4)
    _ = W3 P c (Proc.devRef .tc main_arg4) := W4_of_ne P c main_arg4 (by decide)
    _ = W2 P c (Proc.devRef .tc main_arg4) := W3_of_ne P c main_arg4 (by decide)
    _ = W1 P c (Proc.devRef .tc main_arg4) := W2_of_ne P c main_arg4 (by decide)
    _ = W0 P c (Proc.devRef .tc main_arg4) := W1_of P c main_arg4 (by decide)
    _ = P.m ((c : Thread nD τ).loc main_arg4) := rfl

theorem W4_main_arg5 (c : Dev nD) : W4 P c (Proc.devRef .tc main_arg5) = P.m ((c : Thread nD τ).loc main_arg5) :=
  calc W4 P c (Proc.devRef .tc main_arg5)
    _ = W3 P c (Proc.devRef .tc main_arg5) := W4_of_ne P c main_arg5 (by decide)
    _ = W2 P c (Proc.devRef .tc main_arg5) := W3_of_ne P c main_arg5 (by decide)
    _ = W1 P c (Proc.devRef .tc main_arg5) := W2_of_ne P c main_arg5 (by decide)
    _ = W0 P c (Proc.devRef .tc main_arg5) := W1_of P c main_arg5 (by decide)
    _ = P.m ((c : Thread nD τ).loc main_arg5) := rfl

theorem W4_main_arg6 (c : Dev nD) : W4 P c (Proc.devRef .tc main_arg6) = P.m ((c : Thread nD τ).loc main_arg6) :=
  calc W4 P c (Proc.devRef .tc main_arg6)
    _ = W3 P c (Proc.devRef .tc main_arg6) := W4_of_ne P c main_arg6 (by decide)
    _ = W2 P c (Proc.devRef .tc main_arg6) := W3_of_ne P c main_arg6 (by decide)
    _ = W1 P c (Proc.devRef .tc main_arg6) := W2_of_ne P c main_arg6 (by decide)
    _ = W0 P c (Proc.devRef .tc main_arg6) := W1_of P c main_arg6 (by decide)
    _ = P.m ((c : Thread nD τ).loc main_arg6) := rfl

theorem W4_main_arg7 (c : Dev nD) : W4 P c (Proc.devRef .tc main_arg7) = P.m ((c : Thread nD τ).loc main_arg7) :=
  calc W4 P c (Proc.devRef .tc main_arg7)
    _ = W3 P c (Proc.devRef .tc main_arg7) := W4_of_ne P c main_arg7 (by decide)
    _ = W2 P c (Proc.devRef .tc main_arg7) := W3_of_ne P c main_arg7 (by decide)
    _ = W1 P c (Proc.devRef .tc main_arg7) := W2_of_ne P c main_arg7 (by decide)
    _ = W0 P c (Proc.devRef .tc main_arg7) := W1_of P c main_arg7 (by decide)
    _ = P.m ((c : Thread nD τ).loc main_arg7) := rfl

theorem W4_main_arg8 (c : Dev nD) : W4 P c (Proc.devRef .tc main_arg8) = P.m ((c : Thread nD τ).loc main_arg8) :=
  calc W4 P c (Proc.devRef .tc main_arg8)
    _ = W3 P c (Proc.devRef .tc main_arg8) := W4_of_ne P c main_arg8 (by decide)
    _ = W2 P c (Proc.devRef .tc main_arg8) := W3_of_ne P c main_arg8 (by decide)
    _ = W1 P c (Proc.devRef .tc main_arg8) := W2_of_ne P c main_arg8 (by decide)
    _ = W0 P c (Proc.devRef .tc main_arg8) := W1_of P c main_arg8 (by decide)
    _ = P.m ((c : Thread nD τ).loc main_arg8) := rfl

include P in
/-- THE FRAME, from the run: every argument array ends as launched. -/
theorem frame_of_run (h0 : RegionData cfg0 P.D0) (h1 : RegionData cfg1 P.D1) (h2 : RegionData cfg2 P.D2) :
    θ_run defs (onTc (τ := τ) (main (F := F))) ⟨P.m, fun _ => 0, P.ρ⟩ (fun r => ∀ c : Dev nD,
      r.2.mem ((c.tc : Thread nD τ).loc main_arg0) = P.m ((c.tc : Thread nD τ).loc main_arg0)
      ∧ r.2.mem ((c.tc : Thread nD τ).loc main_arg1) = P.m ((c.tc : Thread nD τ).loc main_arg1)
      ∧ r.2.mem ((c.tc : Thread nD τ).loc main_arg2) = P.m ((c.tc : Thread nD τ).loc main_arg2)
      ∧ r.2.mem ((c.tc : Thread nD τ).loc main_arg3) = P.m ((c.tc : Thread nD τ).loc main_arg3)
      ∧ r.2.mem ((c.tc : Thread nD τ).loc main_arg4) = P.m ((c.tc : Thread nD τ).loc main_arg4)
      ∧ r.2.mem ((c.tc : Thread nD τ).loc main_arg5) = P.m ((c.tc : Thread nD τ).loc main_arg5)
      ∧ r.2.mem ((c.tc : Thread nD τ).loc main_arg6) = P.m ((c.tc : Thread nD τ).loc main_arg6)
      ∧ r.2.mem ((c.tc : Thread nD τ).loc main_arg7) = P.m ((c.tc : Thread nD τ).loc main_arg7)
      ∧ r.2.mem ((c.tc : Thread nD τ).loc main_arg8) = P.m ((c.tc : Thread nD τ).loc main_arg8)) :=
  (θ_run defs _ _).mono (fun r h c =>
    ⟨(h c _ (mem_uc main_arg0 (by decide))).trans (W4_main_arg0 P h0 c),
     (h c _ (mem_uc main_arg1 (by decide))).trans (W4_main_arg1 P c),
     (h c _ (mem_uc main_arg2 (by decide))).trans (W4_main_arg2 P c),
     (h c _ (mem_uc main_arg3 (by decide))).trans (W4_main_arg3 P c),
     (h c _ (mem_uc main_arg4 (by decide))).trans (W4_main_arg4 P c),
     (h c _ (mem_uc main_arg5 (by decide))).trans (W4_main_arg5 P c),
     (h c _ (mem_uc main_arg6 (by decide))).trans (W4_main_arg6 P c),
     (h c _ (mem_uc main_arg7 (by decide))).trans (W4_main_arg7 P c),
     (h c _ (mem_uc main_arg8 (by decide))).trans (W4_main_arg8 P c)⟩)
    (run_all P h0 h1 h2)

end Cert.KernelIdeal.Hand

end
-- ==== Proof.LibMatProd.lean ====
/-
  GENERAL LEMMAS: a plain matrix product, written two ways, read at the ideal values.

  The product of an `R × K` matrix `X` with a `K × N` matrix `W` has entry `(r, q)` equal to
  `∑ k, X (r, k) · W (k, q)`, a sum of `K` products of extended reals (`matProd`).
  Both ways a program can write that product read, at `Ideal`, as this same sum:

  * a matrix unit's `matmul` accumulated into a zero splat (`matmul_zero_eq`), and
  * the host's `dot_general` (`dotGeneral_eq`),

  for ANY dimension record that contracts the left operand's axis 1 with the right operand's axis 0 and keeps
  the other two axes in order, whatever the operands' float formats, precision and schedule. That the record does
  so is stated as four equations of coordinate values (`Contracts`), which a literal record proves by unfolding
  (two by `DotDims.lhsIdx_val_of_single` / `rhsIdx_val_of_single`, two by `dif_neg` / `dif_pos` on its literal
  axis lists). Nothing here needs a finiteness hypothesis: the two sides are the same sum of the same products,
  term by term. Imports the library only.
-/
import Idealize.ShloMosaic.PureOps.Ideal.Laws
import Idealize.ShloMosaic.Lib.ValueIdx

noncomputable section

open scoped BigOperators

namespace Cert.Linear

open Idealize.ShloMosaic Idealize.ShloMosaic.ValueIdx

/-- The shape of a matrix of `a` rows and `b` columns. -/
abbrev Mat (a b : Nat) : Shape := ⟨2, ![a, b]⟩

/-- `X · W`, entry by entry: row `r` of `X` against column `q` of `W`. -/
def matProd {R K N : Nat} (X : (Mat R K).Idx → EReal) (W : (Mat K N).Idx → EReal) : (Mat R N).Idx → EReal :=
  fun i => ∑ k : Fin K, X (ix2 (n0 := R) (n1 := K) (i 0) k) * W (ix2 (n0 := K) (n1 := N) k (i 1))

/-- A dimension record for `[R,K] × [K,N] → [R,N]` that contracts the left operand's columns with the right
    operand's rows: one contracted axis of extent `K`, and at result index `i` and contraction index `q` the left
    operand is read at `(i 0, q)` and the right one at `(q, i 1)`. -/
structure Contracts {R K N : Nat} (d : DotDims (Mat R K) (Mat K N) (Mat R N)) : Prop where
  rank : d.contr.rank = 1
  size : d.contr.size ⟨0, by omega⟩ = K
  lhs0 : ∀ (i : (Mat R N).Idx) (q : d.contr.Idx), (d.lhsIdx i q 0).val = (i 0).val
  lhs1 : ∀ (i : (Mat R N).Idx) (q : d.contr.Idx), (d.lhsIdx i q 1).val = (q ⟨0, by omega⟩).val
  rhs0 : ∀ (i : (Mat R N).Idx) (q : d.contr.Idx), (d.rhsIdx i q 0).val = (q ⟨0, by omega⟩).val
  rhs1 : ∀ (i : (Mat R N).Idx) (q : d.contr.Idx), (d.rhsIdx i q 1).val = (i 1).val

/-- The sum over such a record's contraction index of the operands' products is the sum over `k < K` of
    `X (i 0, k) · W (k, i 1)`: the contraction index is its one coordinate. -/
theorem contraction_sum {R K N : Nat} {d : DotDims (Mat R K) (Mat K N) (Mat R N)} (h : Contracts d)
    (X : (Mat R K).Idx → EReal) (W : (Mat K N).Idx → EReal) (i : (Mat R N).Idx) :
    ∑ q : d.contr.Idx, X (d.lhsIdx i q) * W (d.rhsIdx i q) = matProd X W i := by
  unfold matProd
  rw [← Equiv.sum_comp (contrEquiv1 d K h.rank h.size).symm]
  refine Finset.sum_congr rfl fun k _ => ?_
  have hk := contrEquiv1_symm_val d K h.rank h.size k
  have el : d.lhsIdx i ((contrEquiv1 d K h.rank h.size).symm k) = ix2 (n0 := R) (n1 := K) (i 0) k :=
    funext fun a => Fin.ext (by
      match a with
      | ⟨0, _⟩ => exact h.lhs0 _ _
      | ⟨1, _⟩ => exact (h.lhs1 _ _).trans hk)
  have er : d.rhsIdx i ((contrEquiv1 d K h.rank h.size).symm k) = ix2 (n0 := K) (n1 := N) k (i 1) :=
    funext fun a => Fin.ext (by
      match a with
      | ⟨0, _⟩ => exact (h.rhs0 _ _).trans hk
      | ⟨1, _⟩ => exact h.rhs1 _ _)
  rw [el, er]

/-- A matrix unit's product accumulated into the zero splat is `X · W`, whatever the operands' float formats. -/
theorem matmul_zero_eq {R K N : Nat} {φ₁ φ₂ : FTy} {d : DotDims (Mat R K) (Mat K N) (Mat R N)} (h : Contracts d)
    (prec : Option ContractPrecision) (X : FVec Ideal (Mat R K) φ₁) (W : FVec Ideal (Mat K N) φ₂) :
    FloatOps.matmul d prec X W (constant (F := Ideal) (Mat R N) .f32 0x00000000#32) = matProd X W :=
  funext fun i => (Ideal.matmul_constant_zero_apply d prec X W i).trans (contraction_sum h X W i)

/-- The host's `dot_general` is `X · W`, whatever its precision and schedule. -/
theorem dotGeneral_eq {R K N : Nat} {φ₁ φ₂ : FTy} {d : DotDims (Mat R K) (Mat K N) (Mat R N)} (h : Contracts d)
    (prec : Option ContractPrecision) (sched : HostSchedule) (X : FVec Ideal (Mat R K) φ₁) (W : FVec Ideal (Mat K N) φ₂) :
    FloatOps.dotGeneral d prec sched X W = matProd X W :=
  funext fun i => (Ideal.dotGeneral_apply d prec sched X W i).trans (contraction_sum h X W i)

end Cert.Linear

end
-- ==== Proof.LibUnitAxes.lean ====
/-
  GENERAL LEMMAS: a matrix stored as a block with two leading unit axes.

  A `[a, b]` array cast to `[1, 1, a, b]` has the same elements in the same row-major order; read at
  `(u, v, i, j)` (where `u` and `v` can only be `0`) it is the operand at `(i, j)`. Imports the library only.
-/
import Idealize.ShloMosaic.Lib.Pipeline.Value
import Idealize.ShloMosaic.Lib.ValueIdx

noncomputable section

namespace Cert.LibUnitAxes

open Idealize.ShloMosaic Idealize.ShloMosaic.ValueIdx

/-- An `[a, b]` array cast to `[1, 1, a, b]` reads, at `(u, v, i, j)`, the operand at `(i, j)`. -/
theorem shapeCast_ab_11ab_apply {α : Type} {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    simp only [hu, hv, Nat.zero_mul, Nat.zero_add])

end Cert.LibUnitAxes

end
-- ==== Proof.KI.Val0Pay.lean ====
/-
  One slab of a projection, read entry by entry at the ideal values.

  Every one of the body's six stores holds the same function of three loaded values — a [1, 512, 768] slab `x` of the
  input block, a [1, 768, 64] weight block `w` and a [1, 1, 64] bias block `b`: drop the unit axes, multiply the
  512 × 768 matrix by the 768 × 64 one into a zero accumulator, add the bias row to every row, and put two unit axes
  back (the changes of float format are the identity on the extended reals). Entry `(0, 0, r, d)` of the result is
  `∑ k, x (0, r, k) · w (0, k, d) + b (0, 0, d)`.
-/
import proofs.«113036_j73607149519274_2_alg».proof.Proof.Gen.KernelIdeal.Skeleton
import proofs.«113036_j73607149519274_2_alg».proof.Proof.LibMatProd
import proofs.«113036_j73607149519274_2_alg».proof.Proof.LibUnitAxes
import Idealize.ShloMosaic.Lib.ValueLayout

noncomputable section

open scoped BigOperators

namespace Cert.KernelIdeal.Hand.R0

open Cert.KernelIdeal Cert.KernelIdeal.Gen Cert.Linear Cert.LibUnitAxes

open Idealize.ShloMosaic Idealize.ShloMosaic.ValueIdx

/-- The body's products contract the left operand's columns with the right operand's rows. -/
theorem contracts_proj : Contracts (R := 512) (K := 768) (N := 64) dot_S512x768_S768x64_S512x64_1_0_0_1_n_n where
  rank := rfl
  size := rfl
  lhs0 := fun i q => by
    unfold DotDims.lhsIdx
    rw [dif_neg (show ¬(0 : Fin S512x768.rank) ∈ dot_S512x768_S768x64_S512x64_1_0_0_1_n_n.lhsBatch by decide),
      dif_pos (show (0 : Fin S512x768.rank) ∈ dot_S512x768_S768x64_S512x64_1_0_0_1_n_n.lhsNonContracting by decide)]
    rfl
  lhs1 := fun i q => dot_S512x768_S768x64_S512x64_1_0_0_1_n_n.lhsIdx_val_of_single rfl i q
  rhs0 := fun i q => dot_S512x768_S768x64_S512x64_1_0_0_1_n_n.rhsIdx_val_of_single rfl i q
  rhs1 := fun i q => by
    unfold DotDims.rhsIdx
    rw [dif_neg (show ¬(1 : Fin S768x64.rank) ∈ dot_S512x768_S768x64_S512x64_1_0_0_1_n_n.rhsBatch by decide),
      dif_pos (show (1 : Fin S768x64.rank) ∈ dot_S512x768_S768x64_S512x64_1_0_0_1_n_n.rhsNonContracting by decide)]
    rfl

/-- One stored slab, from the input slab, the weight block and the bias block it is computed from. -/
def slab (x : Vec Ideal S1x512x768 .f32) (w : Vec Ideal S1x768x64 .bf16) (b : Vec Ideal S1x1x64 .f32) : FVec Ideal S1x1x512x64 .bf16 :=
  shapeCast S1x1x512x64
    (truncf .bf16
      (addf
        (matmul dot_S512x768_S768x64_S512x64_1_0_0_1_n_n none
          (truncf .bf16 (shapeCast S512x768 x shapeCasts_S1x512x768_S512x768 : FVec Ideal S512x768 .f32) bitsLt_bf16_f32 : FVec Ideal S512x768 .bf16)
          (shapeCast S768x64 w shapeCasts_S1x768x64_S768x64 : FVec Ideal S768x64 .bf16)
          (constant S512x64 .f32 0x00000000#32 : FVec Ideal S512x64 .f32) : FVec Ideal S512x64 .f32)
        (broadcastTo S512x64 (shapeCast S1x64 b shapeCasts_S1x1x64_S1x64 : FVec Ideal S1x64 .f32) broadcasts_S1x64_S512x64 : FVec Ideal S512x64 .f32)
        : FVec Ideal S512x64 .f32)
      bitsLt_bf16_f32 : FVec Ideal S512x64 .bf16)
    shapeCasts_S512x64_S1x1x512x64

/-- Each of the six stored payloads is that slab (the payloads' definitions unfolded). -/
theorem pay10_eq (w : Vec Ideal S1x768x64 .bf16) (b : Vec Ideal S1x1x64 .f32) (x : Vec Ideal S1x512x768 .f32) :
    k0_pay10 w b x = slab x w b := rfl
theorem pay15_eq (w : Vec Ideal S1x768x64 .bf16) (b : Vec Ideal S1x1x64 .f32) (x : Vec Ideal S1x512x768 .f32) :
    k0_pay15 (k0_pay2 w) (k0_pay3 b) x = slab x w b := rfl
theorem pay12_eq (w : Vec Ideal S1x768x64 .bf16) (b : Vec Ideal S1x1x64 .f32) (x : Vec Ideal S1x512x768 .f32) :
    k0_pay12 (k0_pay11 w b x) = slab x w b := rfl
theorem pay16_eq (w : Vec Ideal S1x768x64 .bf16) (b : Vec Ideal S1x1x64 .f32) (x : Vec Ideal S1x512x768 .f32) :
    k0_pay16 (k0_pay4 w) (k0_pay5 b) x = slab x w b := rfl
theorem pay13_eq (w : Vec Ideal S1x768x64 .bf16) (b : Vec Ideal S1x1x64 .f32) (x : Vec Ideal S1x512x768 .f32) :
    k0_pay13 (k0_pay9 w b x) = slab x w b := rfl
theorem pay1_eq (w : Vec Ideal S1x768x64 .bf16) (b : Vec Ideal S1x1x64 .f32) (x : Vec Ideal S1x512x768 .f32) :
    k0_pay1 (k0_pay17 (k0_pay6 w) (k0_pay7 b) x) = slab x w b := rfl

/-- The slab at `(0, 0, r, d)`: row `r` of the input slab against column `d` of the weight block, plus the bias at `d`. -/
theorem slab_apply (x : Vec Ideal S1x512x768 .f32) (w : Vec Ideal S1x768x64 .bf16) (b : Vec Ideal S1x1x64 .f32)
    (r : Fin 512) (d : Fin 64) :
    slab x w b (ix4 (0 : Fin 1) (0 : Fin 1) r d)
      = (∑ k : Fin 768, x (ix3 (0 : Fin 1) r k) * w (ix3 (0 : Fin 1) k d)) + b (ix3 (0 : Fin 1) (0 : Fin 1) d) := by
  unfold slab
  refine (shapeCast_ab_11ab_apply _ shapeCasts_S512x64_S1x1x512x64 0 0 r d).trans ?_
  show FloatOps.matmul dot_S512x768_S768x64_S512x64_1_0_0_1_n_n none
        (truncf .bf16 (shapeCast S512x768 x shapeCasts_S1x512x768_S512x768) bitsLt_bf16_f32)
        (shapeCast S768x64 w shapeCasts_S1x768x64_S768x64) (constant (F := Ideal) S512x64 .f32 0x00000000#32) (ix2 r d)
      + broadcastTo S512x64 (shapeCast S1x64 b shapeCasts_S1x1x64_S1x64) broadcasts_S1x64_S512x64 (ix2 r d) = _
  refine congrArg₂ (· + ·) ?_ ?_
  · refine (congrFun (matmul_zero_eq contracts_proj none _ _) (ix2 r d)).trans ?_
    show (∑ k : Fin 768, shapeCast S512x768 x shapeCasts_S1x512x768_S512x768 (ix2 r k)
        * shapeCast S768x64 w shapeCasts_S1x768x64_S768x64 (ix2 k d)) = _
    refine Finset.sum_congr rfl fun k _ => ?_
    exact congrArg₂ (· * ·) (shapeCast_1ab_ab_apply x shapeCasts_S1x512x768_S512x768 r k)
      (shapeCast_1ab_ab_apply w shapeCasts_S1x768x64_S768x64 k d)
  · refine (broadcastTo_1b_ab_apply _ broadcasts_S1x64_S512x64 r d).trans ?_
    exact shapeCast_1ab_ab_apply b shapeCasts_S1x1x64_S1x64 (0 : Fin 1) d

end Cert.KernelIdeal.Hand.R0

end
-- ==== Proof.KI.Val0Out.lean ====
/-
  What the body leaves in a result block, entry by entry, at the ideal values.

  A result block [1, 2, 512, 64] is filled by two stores: batch entry 0's slab and batch entry 1's slab. Entry
  `(0, b, r, d)` of the block lies in slab `b` at `(0, 0, r, d)`, and that slab is the projection of slab `b` of the input
  block. So the entry is `∑ k, x (b, r, k) · w (0, k, d) + bias (0, 0, d)`, for `x`, `w`, `bias` the point's input, weight and
  bias blocks.
-/
import proofs.«113036_j73607149519274_2_alg».proof.Proof.KI.Reg0
import proofs.«113036_j73607149519274_2_alg».proof.Proof.KI.Val0Pay
import Idealize.ShloMosaic.Lib.Pipeline.Value

set_option maxRecDepth 16384

noncomputable section

open scoped BigOperators

namespace Cert.KernelIdeal.Hand.R0

open Cert.KernelIdeal Cert.KernelIdeal.Gen

open Idealize.ShloMosaic Idealize.ShloMosaic.TcCoe Idealize.ShloMosaic.ValueIdx
open Idealize.SL.Sem
open Idealize.ShloMosaic.Pipeline (Dat)

theorem hz3 : (![0, 0, 0] : Fin 3 → Nat) = fun _ => 0 := funext fun a => by fin_cases a <;> rfl

/-- Slab 0 of the input block at `(0, r, k)` is the block at `(0, r, k)`; -/
theorem ld_rX0 (x0 : Vec Ideal S2x512x768 .f32) (r : Fin 512) (k : Fin 768) :
    View.ld x0 rX0 (ix3 (0 : Fin 1) r k) = x0 (ix3 (0 : Fin 2) r k) :=
  congrArg x0 (funext fun a => Fin.ext (by
    match a with
    | ⟨0, _⟩ => show (0 : ℕ) + 1 * 0 = 0; rfl
    | ⟨1, _⟩ => show (0 : ℕ) + 1 * r.val = r.val; omega
    | ⟨2, _⟩ => show (0 : ℕ) + 1 * k.val = k.val; omega))

/-- slab 1 at `(0, r, k)` is the block at `(1, r, k)`. -/
theorem ld_rX1 (x0 : Vec Ideal S2x512x768 .f32) (r : Fin 512) (k : Fin 768) :
    View.ld x0 rX1 (ix3 (0 : Fin 1) r k) = x0 (ix3 (1 : Fin 2) r k) :=
  congrArg x0 (funext fun a => Fin.ext (by
    match a with
    | ⟨0, _⟩ => show (1 : ℕ) + 1 * 0 = 1; rfl
    | ⟨1, _⟩ => show (0 : ℕ) + 1 * r.val = r.val; omega
    | ⟨2, _⟩ => show (0 : ℕ) + 1 * k.val = k.val; omega))

/-- Where the two stored slabs sit in a result block. -/
theorem emb_rO0 (r : Fin 512) (d : Fin 64) :
    rO0.emb (ix4 (0 : Fin 1) (0 : Fin 1) r d) = ix4 (0 : Fin 1) (0 : Fin 2) r d :=
  funext fun a => Fin.ext (by
    match a with
    | ⟨0, _⟩ => show (0 : ℕ) + 1 * 0 = 0; rfl
    | ⟨1, _⟩ => show (0 : ℕ) + 1 * 0 = 0; rfl
    | ⟨2, _⟩ => show (0 : ℕ) + 1 * r.val = r.val; omega
    | ⟨3, _⟩ => show (0 : ℕ) + 1 * d.val = d.val; omega)

theorem emb_rO1 (r : Fin 512) (d : Fin 64) :
    rO1.emb (ix4 (0 : Fin 1) (0 : Fin 1) r d) = ix4 (0 : Fin 1) (1 : Fin 2) r d :=
  funext fun a => Fin.ext (by
    match a with
    | ⟨0, _⟩ => show (0 : ℕ) + 1 * 0 = 0; rfl
    | ⟨1, _⟩ => show (1 : ℕ) + 1 * 0 = 1; rfl
    | ⟨2, _⟩ => show (0 : ℕ) + 1 * r.val = r.val; omega
    | ⟨3, _⟩ => show (0 : ℕ) + 1 * d.val = d.val; omega)

/-- An entry of batch entry 0 is not in batch entry 1's slab. -/
theorem not_mem_rO1 (r : Fin 512) (d : Fin 64) : ix4 (0 : Fin 1) (0 : Fin 2) r d ∉ rO1.set := by
  rw [Rect.mem_set_unit]
  intro h
  have h1 : (1 : ℕ) ≤ 0 := (h 1).1
  omega

/-- The block two slab stores leave, at an entry of batch entry 1: the later store's payload; -/
theorem canon_entry1 (p1 p0 : Vec Ideal S1x1x512x64 .bf16) (r : Fin 512) (d : Fin 64) :
    View.canon ([⟨rO1, p1⟩, ⟨rO0, p0⟩] : List (View.Piece (Elt Ideal) S1x2x512x64 .bf16)) (ix4 (0 : Fin 1) (1 : Fin 2) r d)
      = p1 (ix4 (0 : Fin 1) (0 : Fin 1) r d) := by
  rw [← emb_rO1 r d]
  exact View.canon_cons_emb rO1 p1 _ _

/-- at an entry of batch entry 0: the earlier store's. -/
theorem canon_entry0 (p1 p0 : Vec Ideal S1x1x512x64 .bf16) (r : Fin 512) (d : Fin 64) :
    View.canon ([⟨rO1, p1⟩, ⟨rO0, p0⟩] : List (View.Piece (Elt Ideal) S1x2x512x64 .bf16)) (ix4 (0 : Fin 1) (0 : Fin 2) r d)
      = p0 (ix4 (0 : Fin 1) (0 : Fin 1) r d) := by
  refine (View.canon_cons_of_not_mem (⟨rO1, p1⟩ : View.Piece (Elt Ideal) S1x2x512x64 .bf16) [⟨rO0, p0⟩]
    (y := ix4 (0 : Fin 1) (0 : Fin 2) r d) (not_mem_rO1 r d)).trans ?_
  rw [← emb_rO0 r d]
  exact View.canon_cons_emb rO0 p0 _ _

/-- The block left by the two slabs of one projection, at `(0, b, r, d)`: row `(b, r)` of the input block against
    column `d` of the weight block, plus the bias at `d`. -/
theorem blockOfSlabs_apply (x0 : Vec Ideal S2x512x768 .f32) (xw : Vec Ideal S1x768x64 .bf16) (xb : Vec Ideal S1x1x64 .f32)
    (b : Fin 2) (r : Fin 512) (d : Fin 64) :
    View.canon ([⟨rO1, slab (View.ld x0 rX1) (View.ld xw rW) (View.ld xb rB)⟩,
        ⟨rO0, slab (View.ld x0 rX0) (View.ld xw rW) (View.ld xb rB)⟩] : List (View.Piece (Elt Ideal) S1x2x512x64 .bf16))
        (ix4 (0 : Fin 1) b r d)
      = (∑ k : Fin 768, x0 (ix3 b r k) * xw (ix3 (0 : Fin 1) k d)) + xb (ix3 (0 : Fin 1) (0 : Fin 1) d) := by
  rw [View.ld_unit_zero (S := S1x768x64) hz3, View.ld_unit_zero (S := S1x1x64) hz3]
  match b with
  | ⟨0, _⟩ =>
    refine (canon_entry0 _ _ r d).trans ?_
    refine (slab_apply _ _ _ r d).trans ?_
    exact congrArg₂ (· + ·) (Finset.sum_congr rfl fun k _ => congrArg₂ (· * ·) (ld_rX0 x0 r k) rfl) rfl
  | ⟨1, _⟩ =>
    refine (canon_entry1 _ _ r d).trans ?_
    refine (slab_apply _ _ _ r d).trans ?_
    exact congrArg₂ (· + ·) (Finset.sum_congr rfl fun k _ => congrArg₂ (· * ·) (ld_rX1 x0 r k) rfl) rfl

/-- Result block 7 after the body, at `(0, b, r, d)`. -/
theorem out0_7_apply (x0 : Vec Ideal S2x512x768 .f32) (xw : Vec Ideal S1x768x64 .bf16) (xb : Vec Ideal S1x1x64 .f32)
    (b : Fin 2) (r : Fin 512) (d : Fin 64) :
    out0_7 x0 xw xb (ix4 (0 : Fin 1) b r d)
      = (∑ k : Fin 768, x0 (ix3 b r k) * xw (ix3 (0 : Fin 1) k d)) + xb (ix3 (0 : Fin 1) (0 : Fin 1) d) := by
  unfold out0_7
  rw [pay15_eq, pay10_eq]
  exact blockOfSlabs_apply x0 xw xb b r d

/-- Result block 8 after the body, at `(0, b, r, d)`. -/
theorem out0_8_apply (x0 : Vec Ideal S2x512x768 .f32) (xw : Vec Ideal S1x768x64 .bf16) (xb : Vec Ideal S1x1x64 .f32)
    (b : Fin 2) (r : Fin 512) (d : Fin 64) :
    out0_8 x0 xw xb (ix4 (0 : Fin 1) b r d)
      = (∑ k : Fin 768, x0 (ix3 b r k) * xw (ix3 (0 : Fin 1) k d)) + xb (ix3 (0 : Fin 1) (0 : Fin 1) d) := by
  unfold out0_8
  rw [pay16_eq, pay12_eq]
  exact blockOfSlabs_apply x0 xw xb b r d

/-- Result block 9 after the body, at `(0, b, r, d)`. -/
theorem out0_9_apply (x0 : Vec Ideal S2x512x768 .f32) (xw : Vec Ideal S1x768x64 .bf16) (xb : Vec Ideal S1x1x64 .f32)
    (b : Fin 2) (r : Fin 512) (d : Fin 64) :
    out0_9 x0 xw xb (ix4 (0 : Fin 1) b r d)
      = (∑ k : Fin 768, x0 (ix3 b r k) * xw (ix3 (0 : Fin 1) k d)) + xb (ix3 (0 : Fin 1) (0 : Fin 1) d) := by
  unfold out0_9
  rw [pay1_eq, pay13_eq]
  exact blockOfSlabs_apply x0 xw xb b r d

end Cert.KernelIdeal.Hand.R0

end
-- ==== Proof.LibRowMax.lean ====
/-
  Row maxima of a rank-2 float array, read at the extended reals with indices given by coordinates.

  The maximum of an `a × b` array along its second axis, taken from a starting value, is at row `r` the maximum of
  that value and the `b` entries `(r, c)` of the row — written here as the fold of `max` from the starting value
  over the columns `c`, for a vector reduction (whose starting value is its accumulator word) and for a host
  reduction (whose starting value is its scalar operand).  Indices are written with the literal-size constructors
  `ix1`, `ix2`, so that each lemma applies to a printed operation by unification.
-/
import Idealize.ShloMosaic.Lib.ValueIdx
import Idealize.ShloMosaic.PureOps.Ideal.Laws

namespace Cert.LibRowMax

open Idealize.ShloMosaic Idealize.ShloMosaic.ValueIdx

variable {φ : FTy}

/-- Inserting column `c` into the rank-1 index `r` at the second axis gives the index `(r, c)`. -/
theorem lift_rows {a b : ℕ} (h : (⟨2, ![a, b]⟩ : Shape).Reduces [1] ⟨1, ![a]⟩) (r : Fin a) (c : Fin b) :
    h.lift (ix1 r) c = ix2 r c :=
  funext fun ax => Fin.ext (by
    refine (h.lift_val (ix1 r) c ax).trans ?_
    unfold Shape.Reduces.liftVal
    match ax with
    | ⟨0, _⟩ => rfl
    | ⟨1, _⟩ => rfl)

/-- ROW MAXIMA of a vector reduction: at row `r`, the fold of `max` from the accumulator's value over the columns. -/
theorem multiReduction_maximumf_rows {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) (fun c => src (ix2 r c)) := by
  refine (Ideal.multiReduction_maximumf_single src acc h hφ hacc (ix1 r)).trans ?_
  exact congrArg (fun f => (Finset.univ : Finset (Fin b)).fold max (Ideal.ofBits φ acc) f)
    (funext fun c => congrArg src (lift_rows h r c))

/-- ROW MAXIMA of a host reduction with a `maximum` body: at row `r`, the fold of `max` from the initial value over
    the columns. -/
theorem hostReduce_maximumf_rows {a b : ℕ} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := φ)) x init h' hu (ix1 r)
      = (Finset.univ : Finset (Fin b)).fold max (init (Shape.Idx.first hu)) (fun c => x (ix2 r c)) := by
  refine (Host.reduce_eq_fold_single (FloatOps.maximumf (F := Ideal) (φ := φ)) x init h' h hu (ix1 r)).trans ?_
  exact congrArg (fun f => (Finset.univ : Finset (Fin b)).fold max (init (Shape.Idx.first hu)) f)
    (funext fun c => congrArg x (lift_rows h r c))

end Cert.LibRowMax
-- ==== Proof.LibKeepdims.lean ====
/-
  Layout operations of a `keepdims` reduction, read at an index given by coordinates, and a rank-2 float sum along one
  axis read at the extended reals.

  A vector of `a` entries viewed as an `a × 1` column holds entry `i` at `(i, 0)`; an `a × 1` column broadcast to
  `a × b` holds, at `(p, c)`, the column's entry `(p, 0)`; the sum of an `a × b` array along its second axis is, at
  row `r`, the sum over the `b` columns of the entries of that row, and along its first axis, at column `c`, the sum
  over the `a` rows of the entries of that column.  Indices are written with the literal-size constructors
  `ix1`, `ix2`, so that each lemma applies to a printed operation by unification.
-/
import Idealize.ShloMosaic.Lib.Pipeline.Value
import Idealize.ShloMosaic.Lib.ValueIdx
import Idealize.ShloMosaic.PureOps.Ideal.Laws

open scoped BigOperators

namespace Cert.LibKeepdims

open Idealize.ShloMosaic Idealize.ShloMosaic.ValueIdx

variable {α : Type}

/-- A vector cast to a column, `[a] → [a, 1]`, reads entry `i` at `(i, 0)`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along its unit axis, `[a, 1] → [a, b]`, reads at `(p, c)` the column's entry `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

variable {φ : FTy}

/-- ROW SUMS. At the extended reals the float sum of an `a × b` array along its second axis is, at row `r`, the sum
    over the columns `c` of the entries `(r, c)`. -/
theorem multiReduction_add_rows {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ c : Fin b, src (ix2 r c) := by
  refine (Ideal.multiReduction_add_single src acc h hφ hacc (ix1 r)).trans ?_
  refine Finset.sum_congr rfl fun c _ => congrArg src (funext fun ax => Fin.ext ?_)
  rw [h.lift_val]
  unfold Shape.Reduces.liftVal
  match ax with
  | ⟨0, _⟩ => rfl
  | ⟨1, _⟩ => rfl

/-- COLUMN SUMS. Along its first axis the sum is, at column `c`, the sum over the rows `r` of the entries `(r, c)`. -/
theorem multiReduction_add_cols {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (c : Fin b) :
    multiReduction .add [0] ⟨1, ![b]⟩ src acc h hφ hacc (ix1 c) = ∑ r : Fin a, src (ix2 r c) := by
  refine (Ideal.multiReduction_add_single src acc h hφ hacc (ix1 c)).trans ?_
  refine Finset.sum_congr rfl fun r _ => congrArg src (funext fun ax => Fin.ext ?_)
  rw [h.lift_val]
  unfold Shape.Reduces.liftVal
  match ax with
  | ⟨0, _⟩ => rfl
  | ⟨1, _⟩ => rfl

end Cert.LibKeepdims
-- ==== Proof.LibRowSoftmax.lean ====
/-
  ROW SOFTMAX, read at an index, over the extended reals.

  A kernel that takes a softmax along the last axis of an `a x b` array of scores spells it with vector operations:
  a row maximum (a `maximumf` reduction from the word minus infinity), kept as a column and spread back over the row;
  a subtraction; exponentials; a row sum (an `add` reduction from the zero word), kept as a column and spread back;
  a quotient. Read at row `r` and column `i`, that chain only ever looks along row `r`: it is the one-row formula
  `soft` of the row's scores. Stated for any `a` and `b`, and for whatever side-condition proofs the printed
  operations carry.
-/
import proofs.«113036_j73607149519274_2_alg».proof.Proof.LibRowMax
import proofs.«113036_j73607149519274_2_alg».proof.Proof.LibKeepdims
import Idealize.ShloMosaic.Lib.Pipeline.Value
import Idealize.ShloMosaic.Lib.ValueIdx
import Idealize.ShloMosaic.PureOps.Ideal.Laws

noncomputable section

namespace Cert.LibRowSoftmax

open Idealize.ShloMosaic Idealize.ShloMosaic.ValueIdx
open Cert.LibRowMax Cert.LibKeepdims

/-- The largest of a row of scores, folded from minus infinity. -/
def rowMax {M : ℕ} (s : Fin M → EReal) : EReal := (Finset.univ : Finset (Fin M)).fold max (Ideal.ofBits .f32 0xFF800000#32) s

/-- The softmax weights of a row of scores: exponentials of the scores shifted by their maximum, over their sum. -/
def soft {M : ℕ} (s : Fin M → EReal) (i : Fin M) : EReal :=
  Ideal.div (Ideal.exp (s i - rowMax s)) (∑ k : Fin M, Ideal.exp (s k - rowMax s))

/-- A row maximum kept as a column and spread back over the row reads, at `(r, i)`, the fold of `max` over row `r`. -/
theorem keepMax_apply {a b : ℕ} (s : FVec Ideal ⟨2, ![a, b]⟩ .f32) (acc : BitVec 32)
    (hred : (⟨2, ![a, b]⟩ : Shape).Reduces [1] ⟨1, ![a]⟩) (hφ : FKind.Formats .f32) (hacc : acc = FKind.maximumf.neutral .f32 hφ)
    (hc : (⟨1, ![a]⟩ : Shape).ShapeCasts ⟨2, ![a, 1]⟩) (hb : (⟨2, ![a, 1]⟩ : Shape).Broadcasts ⟨2, ![a, b]⟩) (r : Fin a) (i : Fin b) :
    broadcastTo ⟨2, ![a, b]⟩ (shapeCast ⟨2, ![a, 1]⟩ (multiReduction .maximumf [1] ⟨1, ![a]⟩ s acc hred hφ hacc) hc) hb (ix2 r i)
      = (Finset.univ : Finset (Fin b)).fold max (Ideal.ofBits .f32 acc) (fun c => s (ix2 r c)) :=
  (broadcastTo_a1_ab_apply _ hb r i).trans ((shapeCast_a_a1_apply _ hc r 0).trans (multiReduction_maximumf_rows s acc hred hφ hacc r))

/-- A row sum kept as a column and spread back reads, at `(r, i)`, the sum over row `r`. -/
theorem keepSum_apply {a b : ℕ} (s : FVec Ideal ⟨2, ![a, b]⟩ .f32) (acc : BitVec 32)
    (hred : (⟨2, ![a, b]⟩ : Shape).Reduces [1] ⟨1, ![a]⟩) (hφ : FKind.Formats .f32) (hacc : acc = FKind.add.neutral .f32 hφ)
    (hc : (⟨1, ![a]⟩ : Shape).ShapeCasts ⟨2, ![a, 1]⟩) (hb : (⟨2, ![a, 1]⟩ : Shape).Broadcasts ⟨2, ![a, b]⟩) (r : Fin a) (i : Fin b) :
    broadcastTo ⟨2, ![a, b]⟩ (shapeCast ⟨2, ![a, 1]⟩ (multiReduction .add [1] ⟨1, ![a]⟩ s acc hred hφ hacc) hc) hb (ix2 r i)
      = ∑ c : Fin b, s (ix2 r c) :=
  (broadcastTo_a1_ab_apply _ hb r i).trans ((shapeCast_a_a1_apply _ hc r 0).trans (multiReduction_add_rows s acc hred hφ hacc r))

/-- THE SOFTMAX CHAIN at `(r, i)`: the one-row formula of row `r`. -/
theorem softChain_apply {a b : ℕ} (s : FVec Ideal ⟨2, ![a, b]⟩ .f32)
    (hred : (⟨2, ![a, b]⟩ : Shape).Reduces [1] ⟨1, ![a]⟩) (hφ : FKind.Formats .f32)
    (hm : (0xFF800000#32 : BitVec 32) = FKind.maximumf.neutral .f32 hφ) (ha : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, b]⟩) (r : Fin a) (i : Fin b) :
    divf (exp (subf s (broadcastTo ⟨2, ![a, b]⟩ (shapeCast ⟨2, ![a, 1]⟩ (multiReduction .maximumf [1] ⟨1, ![a]⟩ s 0xFF800000#32 hred hφ hm) hc) hb)))
        (broadcastTo ⟨2, ![a, b]⟩ (shapeCast ⟨2, ![a, 1]⟩ (multiReduction .add [1] ⟨1, ![a]⟩
          (exp (subf s (broadcastTo ⟨2, ![a, b]⟩ (shapeCast ⟨2, ![a, 1]⟩ (multiReduction .maximumf [1] ⟨1, ![a]⟩ s 0xFF800000#32 hred hφ hm) hc) hb)))
          0x00000000#32 hred hφ ha) hc) hb) (ix2 r i)
      = soft (fun c => s (ix2 r c)) i := by
  have hE : ∀ c : Fin b, exp (subf s (broadcastTo ⟨2, ![a, b]⟩ (shapeCast ⟨2, ![a, 1]⟩ (multiReduction .maximumf [1] ⟨1, ![a]⟩ s 0xFF800000#32 hred hφ hm) hc) hb)) (ix2 r c)
      = Ideal.exp (s (ix2 r c) - rowMax (fun c' => s (ix2 r c'))) := fun c =>
    congrArg (fun z => Ideal.exp (s (ix2 r c) - z)) (keepMax_apply s _ hred hφ hm hc hb r c)
  refine (congrArg₂ Ideal.div (hE i) ((keepSum_apply _ _ hred hφ ha hc hb r i).trans (Finset.sum_congr rfl fun c _ => hE c))).trans ?_
  rfl

end Cert.LibRowSoftmax

end
-- ==== Proof.Spec.lean ====
/-
  The mathematics both programs compute, as functions of the argument arrays over the extended reals.

  Multi-head attention with 12 heads of width 64 over a model width of 768, a batch of 2 and 2048 positions:
  three affine projections of the input (queries, keys, values), split by head; per head, batch entry and query
  position a softmax over the 2048 key positions of the scaled inner products; the weighted sum of the values; and a
  last affine projection that contracts head and in-head coordinate together.

  Arrays are curried functions of their coordinates. Column `j` of a 768-wide axis belongs to head `j / 64` at in-head
  coordinate `j % 64`; `hd h d` is that column.
-/
import proofs.«113036_j73607149519274_2_alg».proof.Proof.LibRowSoftmax

noncomputable section

namespace Cert.Spec

open Idealize.ShloMosaic Cert.LibRowSoftmax

/-- Column `h * 64 + d` of a 768-wide axis: in-head coordinate `d` of head `h`. -/
def hd (h : Fin 12) (d : Fin 64) : Fin 768 := ⟨h.val * 64 + d.val, by omega⟩

/-- The scale of the scores, one eighth (the float word of 0.125). -/
def scale : EReal := Ideal.ofBits .f32 0x3E000000#32

/-- A projection already split by head: entry `(h, b, s, d)` is the inner product of row `(b, s)` of the input with
    column `d` of head `h`'s weight block, plus that head's bias at `d`. -/
def projH (x : Fin 2 → Fin 2048 → Fin 768 → EReal) (wh : Fin 12 → Fin 768 → Fin 64 → EReal) (bh : Fin 12 → Fin 64 → EReal)
    (h : Fin 12) (b : Fin 2) (s : Fin 2048) (d : Fin 64) : EReal :=
  (∑ k : Fin 768, x b s k * wh h k d) + bh h d

/-- The scaled score of query position `i` against key position `j`, for head `h` and batch entry `b`. -/
def score (q k : Fin 12 → Fin 2 → Fin 2048 → Fin 64 → EReal) (h : Fin 12) (b : Fin 2) (i j : Fin 2048) : EReal :=
  (∑ e : Fin 64, q h b i e * k h b j e) * scale

/-- Attention: the softmax of a query's scores over the key positions, applied to the values. -/
def attn (q k v : Fin 12 → Fin 2 → Fin 2048 → Fin 64 → EReal) (h : Fin 12) (b : Fin 2) (i : Fin 2048) (d : Fin 64) : EReal :=
  ∑ j : Fin 2048, soft (fun j' => score q k h b i j') j * v h b j d

/-- The output projection over head-major operands: contract head and in-head coordinate, add the bias. -/
def outH (c : Fin 12 → Fin 2 → Fin 2048 → Fin 64 → EReal) (woh : Fin 12 → Fin 64 → Fin 768 → EReal) (bo : Fin 768 → EReal)
    (b : Fin 2) (s : Fin 2048) (e : Fin 768) : EReal :=
  (∑ h : Fin 12, ∑ d : Fin 64, c h b s d * woh h d e) + bo e

/-- A square input weight `w (out, in)` split by head: block `h` holds, at `(k, d)`, the weight from input `k` to output `hd h d`. -/
def headW (w : Fin 768 → Fin 768 → EReal) (h : Fin 12) (k : Fin 768) (d : Fin 64) : EReal := w (hd h d) k
/-- A bias split by head. -/
def headB (b : Fin 768 → EReal) (h : Fin 12) (d : Fin 64) : EReal := b (hd h d)
/-- The output weight `w (out, in)` split by head along its input axis. -/
def headWo (w : Fin 768 → Fin 768 → EReal) (h : Fin 12) (d : Fin 64) (e : Fin 768) : EReal := w e (hd h d)

/-- The whole computation, from the nine argument arrays. -/
def whole (x : Fin 2 → Fin 2048 → Fin 768 → EReal) (wq : Fin 768 → Fin 768 → EReal) (bq : Fin 768 → EReal)
    (wk : Fin 768 → Fin 768 → EReal) (bk : Fin 768 → EReal) (wv : Fin 768 → Fin 768 → EReal) (bv : Fin 768 → EReal)
    (wo : Fin 768 → Fin 768 → EReal) (bo : Fin 768 → EReal) : Fin 2 → Fin 2048 → Fin 768 → EReal :=
  outH (attn (projH x (headW wq) (headB bq)) (projH x (headW wk) (headB bk)) (projH x (headW wv) (headB bv))) (headWo wo) bo

end Cert.Spec

end
-- ==== Proof.KI.Val0.lean ====
/-
  What region 0 leaves in its three result arrays, entry by entry, for any contents of the core's buffers when the
  region is entered.

  Grid point `t` works on one head `h` and one block of 512 positions: its result block is rows
  `512·sb … 512·sb + 511` of head `h` (both batch entries), its input block the same rows of the input, its weight and
  bias blocks those of head `h`. What the point writes back is therefore the block at `t` of ONE function of the array
  index — the head-split projection `Cert.Spec.projH` of the input by that result's weights and bias — and since every
  index of a result array lies in the block of the point with `h` its head and `sb` its position divided by 512, the
  array ends holding that function everywhere.
-/
import proofs.«113036_j73607149519274_2_alg».proof.Proof.KI.Val0Out
import proofs.«113036_j73607149519274_2_alg».proof.Proof.Spec
import Idealize.ShloMosaic.Lib.Pipeline.Value

set_option maxRecDepth 16384

noncomputable section

open scoped BigOperators

namespace Cert.KernelIdeal.Hand.R0

open Cert.KernelIdeal Cert.KernelIdeal.Gen

open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-! ## The index maps, decided over the grid -/

/-- The input block moves with a result block's position block and spans both batch entries and the whole width. -/
theorem idx_facts_x : ∀ t : Fin cfg0.N,
    win0_0.index t (0 : Fin 3) = 0 ∧ win0_0.index t (1 : Fin 3) = win0_7.index t (2 : Fin 4) ∧ win0_0.index t (2 : Fin 3) = 0 :=
  (by decide +kernel : ∀ t : Fin grid0.N, _)

/-- The three result windows move together: head on axis 0, position block on axis 2, nothing on axes 1 and 3. -/
theorem idx_facts_o : ∀ t : Fin cfg0.N,
    win0_7.index t (0 : Fin 4) < 12 ∧ win0_7.index t (1 : Fin 4) = 0 ∧ win0_7.index t (2 : Fin 4) < 4 ∧ win0_7.index t (3 : Fin 4) = 0
    ∧ win0_8.index t (0 : Fin 4) = win0_7.index t (0 : Fin 4) ∧ win0_8.index t (1 : Fin 4) = 0
    ∧ win0_8.index t (2 : Fin 4) = win0_7.index t (2 : Fin 4) ∧ win0_8.index t (3 : Fin 4) = 0
    ∧ win0_9.index t (0 : Fin 4) = win0_7.index t (0 : Fin 4) ∧ win0_9.index t (1 : Fin 4) = 0
    ∧ win0_9.index t (2 : Fin 4) = win0_7.index t (2 : Fin 4) ∧ win0_9.index t (3 : Fin 4) = 0 :=
  (by decide +kernel : ∀ t : Fin grid0.N, _)

/-- Input block at a point: rows `512·sb + r` of the input, both batch entries, every column. -/
theorem xblk_apply (c : Dev nD) (t : Fin cfg0.N) (b : Fin 2) (r : Fin 512) (k : Fin 768) (s : Fin 2048)
    (hs : s.val = win0_7.index t (2 : Fin 4) * 512 + r.val) :
    (iblk0 V c 0 t : Vec Ideal S2x512x768 .f32) (ix3 b r k) = (V c main_arg0 : S2x2048x768.Idx → EReal) (ix3 b s k) := by
  obtain ⟨e0, e1, e2⟩ := idx_facts_x t
  show (V c main_arg0 : S2x2048x768.Idx → EReal) (((cfg0.win 0).blk t).view.emb (ix3 b r k)) = _
  refine congrArg _ (funext fun a => Fin.ext ?_)
  match a with
  | ⟨0, _⟩ => show win0_0.index t (0 : Fin 3) * 2 + 1 * b.val = b.val; omega
  | ⟨1, _⟩ => show win0_0.index t (1 : Fin 3) * 512 + 1 * r.val = s.val; omega
  | ⟨2, _⟩ => show win0_0.index t (2 : Fin 3) * 768 + 1 * k.val = k.val; omega

/-! ## Result window 7 -/

/-- Its weight and bias windows move with its head. -/
theorem idx_facts_w7 : ∀ t : Fin cfg0.N,
    win0_1.index t (0 : Fin 3) = win0_7.index t (0 : Fin 4) ∧ win0_1.index t (1 : Fin 3) = 0 ∧ win0_1.index t (2 : Fin 3) = 0
    ∧ win0_2.index t (0 : Fin 3) = win0_7.index t (0 : Fin 4) ∧ win0_2.index t (1 : Fin 3) = 0 ∧ win0_2.index t (2 : Fin 3) = 0 :=
  (by decide +kernel : ∀ t : Fin grid0.N, _)

/-- Every (head, position block) is some point's. -/
theorem idx_onto7 : ∀ (h : Fin 12) (sb : Fin 4), ∃ t : Fin cfg0.N, win0_7.index t = ![h.val, 0, sb.val, 0] :=
  (by decide +kernel : ∀ (h : Fin 12) (sb : Fin 4), ∃ t : Fin grid0.N, win0_7.index t = ![h.val, 0, sb.val, 0])

/-- Its weight block at a point is head `h`'s block of the weights; -/
theorem wblk7_apply (c : Dev nD) (t : Fin cfg0.N) (k : Fin 768) (d : Fin 64) (h : Fin 12)
    (hh : h.val = win0_7.index t (0 : Fin 4)) :
    (iblk0 V c 1 t : Vec Ideal S1x768x64 .bf16) (ix3 (0 : Fin 1) k d) = (V c main_v2 : S12x768x64.Idx → EReal) (ix3 h k d) := by
  obtain ⟨e0, e1, e2, -⟩ := idx_facts_w7 t
  show (V c main_v2 : S12x768x64.Idx → EReal) (((cfg0.win 1).blk t).view.emb (ix3 (0 : Fin 1) k d)) = _
  refine congrArg _ (funext fun a => Fin.ext ?_)
  match a with
  | ⟨0, _⟩ => show win0_1.index t (0 : Fin 3) * 1 + 1 * 0 = h.val; omega
  | ⟨1, _⟩ => show win0_1.index t (1 : Fin 3) * 768 + 1 * k.val = k.val; omega
  | ⟨2, _⟩ => show win0_1.index t (2 : Fin 3) * 64 + 1 * d.val = d.val; omega

/-- its bias block, head `h`'s row of the biases. -/
theorem bblk7_apply (c : Dev nD) (t : Fin cfg0.N) (d : Fin 64) (h : Fin 12)
    (hh : h.val = win0_7.index t (0 : Fin 4)) :
    (iblk0 V c 2 t : Vec Ideal S1x1x64 .f32) (ix3 (0 : Fin 1) (0 : Fin 1) d) = (V c main_v12 : S12x1x64.Idx → EReal) (ix3 h (0 : Fin 1) d) := by
  obtain ⟨-, -, -, e0, e1, e2⟩ := idx_facts_w7 t
  show (V c main_v12 : S12x1x64.Idx → EReal) (((cfg0.win 2).blk t).view.emb (ix3 (0 : Fin 1) (0 : Fin 1) d)) = _
  refine congrArg _ (funext fun a => Fin.ext ?_)
  match a with
  | ⟨0, _⟩ => show win0_2.index t (0 : Fin 3) * 1 + 1 * 0 = h.val; omega
  | ⟨1, _⟩ => show win0_2.index t (1 : Fin 3) * 1 + 1 * 0 = 0; omega
  | ⟨2, _⟩ => show win0_2.index t (2 : Fin 3) * 64 + 1 * d.val = d.val; omega

/-- What the array ends holding: the head-split projection of the input by this result's weights and bias. -/
def G7 (c : Dev nD) : S12x2x2048x64.Idx → EReal := fun i =>
  Cert.Spec.projH (fun b s k => (V c main_arg0 : S2x2048x768.Idx → EReal) (ix3 b s k))
    (fun h k d => (V c main_v2 : S12x768x64.Idx → EReal) (ix3 h k d))
    (fun h d => (V c main_v12 : S12x1x64.Idx → EReal) (ix3 h (0 : Fin 1) d)) (i 0) (i 1) (i 2) (i 3)

/-- What point `t` writes back is its block of that function. -/
theorem flushed7_eq (c : Dev nD) (t : Fin cfg0.N) :
    (dat0 V c).flushed 7 t = ((cfg0.win 7).blk t).view.read (Elt Ideal) (G7 V c) := by
  show (cfg0.win 7).cut (grid0.coords t) ((dat0 V c).after 7 t) = _
  rw [after0_7]
  obtain ⟨o0, o1, o2, o3, p0, p1, p2, p3, q0, q1, q2, q3⟩ := idx_facts_o t
  funext y
  obtain ⟨u, b, r, d, rfl⟩ : ∃ (u : Fin 1) (b : Fin 2) (r : Fin 512) (d : Fin 64), y = ix4 u b r d :=
    ⟨y 0, y 1, y 2, y 3, eq_ix4 (n0 := 1) (n1 := 2) (n2 := 512) (n3 := 64) y⟩
  obtain rfl : u = 0 := Subsingleton.elim _ _
  show out0_7 (iblk0 V c 0 t) (iblk0 V c 1 t) (iblk0 V c 2 t) (ix4 (0 : Fin 1) b r d)
    = G7 V c (((cfg0.win 7).blk t).view.emb (ix4 (0 : Fin 1) b r d))
  refine (out0_7_apply (iblk0 V c 0 t) (iblk0 V c 1 t) (iblk0 V c 2 t) b r d).trans ?_
  have hs : win0_7.index t (2 : Fin 4) * 512 + r.val < 2048 := by have := r.isLt; omega
  have he : ((cfg0.win 7).blk t).view.emb (ix4 (0 : Fin 1) b r d)
      = ix4 (⟨win0_7.index t (0 : Fin 4), o0⟩ : Fin 12) b (⟨win0_7.index t (2 : Fin 4) * 512 + r.val, hs⟩ : Fin 2048) d := by
    funext a; apply Fin.ext
    match a with
    | ⟨0, _⟩ => show win0_7.index t (0 : Fin 4) * 1 + 1 * 0 = win0_7.index t (0 : Fin 4); omega
    | ⟨1, _⟩ => show win0_7.index t (1 : Fin 4) * 2 + 1 * b.val = b.val; omega
    | ⟨2, _⟩ => show win0_7.index t (2 : Fin 4) * 512 + 1 * r.val = win0_7.index t (2 : Fin 4) * 512 + r.val; omega
    | ⟨3, _⟩ => show win0_7.index t (3 : Fin 4) * 64 + 1 * d.val = d.val; omega
  rw [he]
  unfold G7 Cert.Spec.projH
  refine congrArg₂ (· + ·) (Finset.sum_congr rfl fun k _ => congrArg₂ (· * ·) ?_ ?_) ?_
  · exact xblk_apply V c t b r k _ rfl
  · exact wblk7_apply V c t k d _ rfl
  · exact bblk7_apply V c t d _ rfl

/-- An index of the array is in point `t`'s block iff each coordinate is in the block's range on its axis. -/
theorem mem_blk7 (t : Fin cfg0.N) (i : S12x2x2048x64.Idx) :
    i ∈ ((cfg0.win 7).blk t).view.set ↔ ∀ a : Fin 4, win0_7.index t a * S1x2x512x64.size a ≤ (i a).val
      ∧ (i a).val < win0_7.index t a * S1x2x512x64.size a + S1x2x512x64.size a := by
  show i ∈ ((View.whole main_v16_0).slice (win0_7.rect t)).set ↔ _
  rw [View.set_slice_whole, Rect.mem_set_unit]
  exact Iff.rfl

/-- Every index of the array is in the block of the point with its head and its position block. -/
theorem cover7 (i : S12x2x2048x64.Idx) :
    ∃ t : Fin cfg0.N, (cfg0.win 7).flush t = true ∧ i ∈ ((cfg0.win 7).blk t).view.set := by
  have hi0 : (i 0).val < 12 := (i 0).isLt
  have hi1 : (i 1).val < 2 := (i 1).isLt
  have hi2 : (i 2).val < 2048 := (i 2).isLt
  have hi3 : (i 3).val < 64 := (i 3).isLt
  obtain ⟨t, ht⟩ := idx_onto7 ⟨(i 0).val, hi0⟩ ⟨(i 2).val / 512, by omega⟩
  have q0 : win0_7.index t (0 : Fin 4) = (i 0).val := congrFun ht 0
  have q1 : win0_7.index t (1 : Fin 4) = 0 := congrFun ht 1
  have q2 : win0_7.index t (2 : Fin 4) = (i 2).val / 512 := congrFun ht 2
  have q3 : win0_7.index t (3 : Fin 4) = 0 := congrFun ht 3
  refine ⟨t, flush0_7 t, ?_⟩
  rw [mem_blk7]
  intro a
  match a with
  | ⟨0, _⟩ => show win0_7.index t (0 : Fin 4) * 1 ≤ (i 0).val ∧ (i 0).val < win0_7.index t (0 : Fin 4) * 1 + 1; omega
  | ⟨1, _⟩ => show win0_7.index t (1 : Fin 4) * 2 ≤ (i 1).val ∧ (i 1).val < win0_7.index t (1 : Fin 4) * 2 + 2; omega
  | ⟨2, _⟩ => show win0_7.index t (2 : Fin 4) * 512 ≤ (i 2).val ∧ (i 2).val < win0_7.index t (2 : Fin 4) * 512 + 512; omega
  | ⟨3, _⟩ => show win0_7.index t (3 : Fin 4) * 64 ≤ (i 3).val ∧ (i 3).val < win0_7.index t (3 : Fin 4) * 64 + 64; omega

/-- So the array ends holding that function. -/
theorem final0_7 (c : Dev nD) : (dat0 (F := Ideal) V c).arrAt 7 cfg0.N = G7 V c :=
  (dat0 V c).arrAt_eq_of_cover 7 (G7 V c) (fun t _ => flushed7_eq V c t) (cover7)

/-! ## Result window 8 -/

/-- Its weight and bias windows move with its head. -/
theorem idx_facts_w8 : ∀ t : Fin cfg0.N,
    win0_3.index t (0 : Fin 3) = win0_7.index t (0 : Fin 4) ∧ win0_3.index t (1 : Fin 3) = 0 ∧ win0_3.index t (2 : Fin 3) = 0
    ∧ win0_4.index t (0 : Fin 3) = win0_7.index t (0 : Fin 4) ∧ win0_4.index t (1 : Fin 3) = 0 ∧ win0_4.index t (2 : Fin 3) = 0 :=
  (by decide +kernel : ∀ t : Fin grid0.N, _)

/-- Every (head, position block) is some point's. -/
theorem idx_onto8 : ∀ (h : Fin 12) (sb : Fin 4), ∃ t : Fin cfg0.N, win0_8.index t = ![h.val, 0, sb.val, 0] :=
  (by decide +kernel : ∀ (h : Fin 12) (sb : Fin 4), ∃ t : Fin grid0.N, win0_8.index t = ![h.val, 0, sb.val, 0])

/-- Its weight block at a point is head `h`'s block of the weights; -/
theorem wblk8_apply (c : Dev nD) (t : Fin cfg0.N) (k : Fin 768) (d : Fin 64) (h : Fin 12)
    (hh : h.val = win0_7.index t (0 : Fin 4)) :
    (iblk0 V c 3 t : Vec Ideal S1x768x64 .bf16) (ix3 (0 : Fin 1) k d) = (V c main_v5 : S12x768x64.Idx → EReal) (ix3 h k d) := by
  obtain ⟨e0, e1, e2, -⟩ := idx_facts_w8 t
  show (V c main_v5 : S12x768x64.Idx → EReal) (((cfg0.win 3).blk t).view.emb (ix3 (0 : Fin 1) k d)) = _
  refine congrArg _ (funext fun a => Fin.ext ?_)
  match a with
  | ⟨0, _⟩ => show win0_3.index t (0 : Fin 3) * 1 + 1 * 0 = h.val; omega
  | ⟨1, _⟩ => show win0_3.index t (1 : Fin 3) * 768 + 1 * k.val = k.val; omega
  | ⟨2, _⟩ => show win0_3.index t (2 : Fin 3) * 64 + 1 * d.val = d.val; omega

/-- its bias block, head `h`'s row of the biases. -/
theorem bblk8_apply (c : Dev nD) (t : Fin cfg0.N) (d : Fin 64) (h : Fin 12)
    (hh : h.val = win0_7.index t (0 : Fin 4)) :
    (iblk0 V c 4 t : Vec Ideal S1x1x64 .f32) (ix3 (0 : Fin 1) (0 : Fin 1) d) = (V c main_v13 : S12x1x64.Idx → EReal) (ix3 h (0 : Fin 1) d) := by
  obtain ⟨-, -, -, e0, e1, e2⟩ := idx_facts_w8 t
  show (V c main_v13 : S12x1x64.Idx → EReal) (((cfg0.win 4).blk t).view.emb (ix3 (0 : Fin 1) (0 : Fin 1) d)) = _
  refine congrArg _ (funext fun a => Fin.ext ?_)
  match a with
  | ⟨0, _⟩ => show win0_4.index t (0 : Fin 3) * 1 + 1 * 0 = h.val; omega
  | ⟨1, _⟩ => show win0_4.index t (1 : Fin 3) * 1 + 1 * 0 = 0; omega
  | ⟨2, _⟩ => show win0_4.index t (2 : Fin 3) * 64 + 1 * d.val = d.val; omega

/-- What the array ends holding: the head-split projection of the input by this result's weights and bias. -/
def G8 (c : Dev nD) : S12x2x2048x64.Idx → EReal := fun i =>
  Cert.Spec.projH (fun b s k => (V c main_arg0 : S2x2048x768.Idx → EReal) (ix3 b s k))
    (fun h k d => (V c main_v5 : S12x768x64.Idx → EReal) (ix3 h k d))
    (fun h d => (V c main_v13 : S12x1x64.Idx → EReal) (ix3 h (0 : Fin 1) d)) (i 0) (i 1) (i 2) (i 3)

/-- What point `t` writes back is its block of that function. -/
theorem flushed8_eq (c : Dev nD) (t : Fin cfg0.N) :
    (dat0 V c).flushed 8 t = ((cfg0.win 8).blk t).view.read (Elt Ideal) (G8 V c) := by
  show (cfg0.win 8).cut (grid0.coords t) ((dat0 V c).after 8 t) = _
  rw [after0_8]
  obtain ⟨o0, o1, o2, o3, p0, p1, p2, p3, q0, q1, q2, q3⟩ := idx_facts_o t
  funext y
  obtain ⟨u, b, r, d, rfl⟩ : ∃ (u : Fin 1) (b : Fin 2) (r : Fin 512) (d : Fin 64), y = ix4 u b r d :=
    ⟨y 0, y 1, y 2, y 3, eq_ix4 (n0 := 1) (n1 := 2) (n2 := 512) (n3 := 64) y⟩
  obtain rfl : u = 0 := Subsingleton.elim _ _
  show out0_8 (iblk0 V c 0 t) (iblk0 V c 3 t) (iblk0 V c 4 t) (ix4 (0 : Fin 1) b r d)
    = G8 V c (((cfg0.win 8).blk t).view.emb (ix4 (0 : Fin 1) b r d))
  refine (out0_8_apply (iblk0 V c 0 t) (iblk0 V c 3 t) (iblk0 V c 4 t) b r d).trans ?_
  have hs : win0_7.index t (2 : Fin 4) * 512 + r.val < 2048 := by have := r.isLt; omega
  have he : ((cfg0.win 8).blk t).view.emb (ix4 (0 : Fin 1) b r d)
      = ix4 (⟨win0_7.index t (0 : Fin 4), o0⟩ : Fin 12) b (⟨win0_7.index t (2 : Fin 4) * 512 + r.val, hs⟩ : Fin 2048) d := by
    funext a; apply Fin.ext
    match a with
    | ⟨0, _⟩ => show win0_8.index t (0 : Fin 4) * 1 + 1 * 0 = win0_7.index t (0 : Fin 4); omega
    | ⟨1, _⟩ => show win0_8.index t (1 : Fin 4) * 2 + 1 * b.val = b.val; omega
    | ⟨2, _⟩ => show win0_8.index t (2 : Fin 4) * 512 + 1 * r.val = win0_7.index t (2 : Fin 4) * 512 + r.val; omega
    | ⟨3, _⟩ => show win0_8.index t (3 : Fin 4) * 64 + 1 * d.val = d.val; omega
  rw [he]
  unfold G8 Cert.Spec.projH
  refine congrArg₂ (· + ·) (Finset.sum_congr rfl fun k _ => congrArg₂ (· * ·) ?_ ?_) ?_
  · exact xblk_apply V c t b r k _ rfl
  · exact wblk8_apply V c t k d _ rfl
  · exact bblk8_apply V c t d _ rfl

/-- An index of the array is in point `t`'s block iff each coordinate is in the block's range on its axis. -/
theorem mem_blk8 (t : Fin cfg0.N) (i : S12x2x2048x64.Idx) :
    i ∈ ((cfg0.win 8).blk t).view.set ↔ ∀ a : Fin 4, win0_8.index t a * S1x2x512x64.size a ≤ (i a).val
      ∧ (i a).val < win0_8.index t a * S1x2x512x64.size a + S1x2x512x64.size a := by
  show i ∈ ((View.whole main_v16_1).slice (win0_8.rect t)).set ↔ _
  rw [View.set_slice_whole, Rect.mem_set_unit]
  exact Iff.rfl

/-- Every index of the array is in the block of the point with its head and its position block. -/
theorem cover8 (i : S12x2x2048x64.Idx) :
    ∃ t : Fin cfg0.N, (cfg0.win 8).flush t = true ∧ i ∈ ((cfg0.win 8).blk t).view.set := by
  have hi0 : (i 0).val < 12 := (i 0).isLt
  have hi1 : (i 1).val < 2 := (i 1).isLt
  have hi2 : (i 2).val < 2048 := (i 2).isLt
  have hi3 : (i 3).val < 64 := (i 3).isLt
  obtain ⟨t, ht⟩ := idx_onto8 ⟨(i 0).val, hi0⟩ ⟨(i 2).val / 512, by omega⟩
  have q0 : win0_8.index t (0 : Fin 4) = (i 0).val := congrFun ht 0
  have q1 : win0_8.index t (1 : Fin 4) = 0 := congrFun ht 1
  have q2 : win0_8.index t (2 : Fin 4) = (i 2).val / 512 := congrFun ht 2
  have q3 : win0_8.index t (3 : Fin 4) = 0 := congrFun ht 3
  refine ⟨t, flush0_8 t, ?_⟩
  rw [mem_blk8]
  intro a
  match a with
  | ⟨0, _⟩ => show win0_8.index t (0 : Fin 4) * 1 ≤ (i 0).val ∧ (i 0).val < win0_8.index t (0 : Fin 4) * 1 + 1; omega
  | ⟨1, _⟩ => show win0_8.index t (1 : Fin 4) * 2 ≤ (i 1).val ∧ (i 1).val < win0_8.index t (1 : Fin 4) * 2 + 2; omega
  | ⟨2, _⟩ => show win0_8.index t (2 : Fin 4) * 512 ≤ (i 2).val ∧ (i 2).val < win0_8.index t (2 : Fin 4) * 512 + 512; omega
  | ⟨3, _⟩ => show win0_8.index t (3 : Fin 4) * 64 ≤ (i 3).val ∧ (i 3).val < win0_8.index t (3 : Fin 4) * 64 + 64; omega

/-- So the array ends holding that function. -/
theorem final0_8 (c : Dev nD) : (dat0 (F := Ideal) V c).arrAt 8 cfg0.N = G8 V c :=
  (dat0 V c).arrAt_eq_of_cover 8 (G8 V c) (fun t _ => flushed8_eq V c t) (cover8)

/-! ## Result window 9 -/

/-- Its weight and bias windows move with its head. -/
theorem idx_facts_w9 : ∀ t : Fin cfg0.N,
    win0_5.index t (0 : Fin 3) = win0_7.index t (0 : Fin 4) ∧ win0_5.index t (1 : Fin 3) = 0 ∧ win0_5.index t (2 : Fin 3) = 0
    ∧ win0_6.index t (0 : Fin 3) = win0_7.index t (0 : Fin 4) ∧ win0_6.index t (1 : Fin 3) = 0 ∧ win0_6.index t (2 : Fin 3) = 0 :=
  (by decide +kernel : ∀ t : Fin grid0.N, _)

/-- Every (head, position block) is some point's. -/
theorem idx_onto9 : ∀ (h : Fin 12) (sb : Fin 4), ∃ t : Fin cfg0.N, win0_9.index t = ![h.val, 0, sb.val, 0] :=
  (by decide +kernel : ∀ (h : Fin 12) (sb : Fin 4), ∃ t : Fin grid0.N, win0_9.index t = ![h.val, 0, sb.val, 0])

/-- Its weight block at a point is head `h`'s block of the weights; -/
theorem wblk9_apply (c : Dev nD) (t : Fin cfg0.N) (k : Fin 768) (d : Fin 64) (h : Fin 12)
    (hh : h.val = win0_7.index t (0 : Fin 4)) :
    (iblk0 V c 5 t : Vec Ideal S1x768x64 .bf16) (ix3 (0 : Fin 1) k d) = (V c main_v8 : S12x768x64.Idx → EReal) (ix3 h k d) := by
  obtain ⟨e0, e1, e2, -⟩ := idx_facts_w9 t
  show (V c main_v8 : S12x768x64.Idx → EReal) (((cfg0.win 5).blk t).view.emb (ix3 (0 : Fin 1) k d)) = _
  refine congrArg _ (funext fun a => Fin.ext ?_)
  match a with
  | ⟨0, _⟩ => show win0_5.index t (0 : Fin 3) * 1 + 1 * 0 = h.val; omega
  | ⟨1, _⟩ => show win0_5.index t (1 : Fin 3) * 768 + 1 * k.val = k.val; omega
  | ⟨2, _⟩ => show win0_5.index t (2 : Fin 3) * 64 + 1 * d.val = d.val; omega

/-- its bias block, head `h`'s row of the biases. -/
theorem bblk9_apply (c : Dev nD) (t : Fin cfg0.N) (d : Fin 64) (h : Fin 12)
    (hh : h.val = win0_7.index t (0 : Fin 4)) :
    (iblk0 V c 6 t : Vec Ideal S1x1x64 .f32) (ix3 (0 : Fin 1) (0 : Fin 1) d) = (V c main_v14 : S12x1x64.Idx → EReal) (ix3 h (0 : Fin 1) d) := by
  obtain ⟨-, -, -, e0, e1, e2⟩ := idx_facts_w9 t
  show (V c main_v14 : S12x1x64.Idx → EReal) (((cfg0.win 6).blk t).view.emb (ix3 (0 : Fin 1) (0 : Fin 1) d)) = _
  refine congrArg _ (funext fun a => Fin.ext ?_)
  match a with
  | ⟨0, _⟩ => show win0_6.index t (0 : Fin 3) * 1 + 1 * 0 = h.val; omega
  | ⟨1, _⟩ => show win0_6.index t (1 : Fin 3) * 1 + 1 * 0 = 0; omega
  | ⟨2, _⟩ => show win0_6.index t (2 : Fin 3) * 64 + 1 * d.val = d.val; omega

/-- What the array ends holding: the head-split projection of the input by this result's weights and bias. -/
def G9 (c : Dev nD) : S12x2x2048x64.Idx → EReal := fun i =>
  Cert.Spec.projH (fun b s k => (V c main_arg0 : S2x2048x768.Idx → EReal) (ix3 b s k))
    (fun h k d => (V c main_v8 : S12x768x64.Idx → EReal) (ix3 h k d))
    (fun h d => (V c main_v14 : S12x1x64.Idx → EReal) (ix3 h (0 : Fin 1) d)) (i 0) (i 1) (i 2) (i 3)

/-- What point `t` writes back is its block of that function. -/
theorem flushed9_eq (c : Dev nD) (t : Fin cfg0.N) :
    (dat0 V c).flushed 9 t = ((cfg0.win 9).blk t).view.read (Elt Ideal) (G9 V c) := by
  show (cfg0.win 9).cut (grid0.coords t) ((dat0 V c).after 9 t) = _
  rw [after0_9]
  obtain ⟨o0, o1, o2, o3, p0, p1, p2, p3, q0, q1, q2, q3⟩ := idx_facts_o t
  funext y
  obtain ⟨u, b, r, d, rfl⟩ : ∃ (u : Fin 1) (b : Fin 2) (r : Fin 512) (d : Fin 64), y = ix4 u b r d :=
    ⟨y 0, y 1, y 2, y 3, eq_ix4 (n0 := 1) (n1 := 2) (n2 := 512) (n3 := 64) y⟩
  obtain rfl : u = 0 := Subsingleton.elim _ _
  show out0_9 (iblk0 V c 0 t) (iblk0 V c 5 t) (iblk0 V c 6 t) (ix4 (0 : Fin 1) b r d)
    = G9 V c (((cfg0.win 9).blk t).view.emb (ix4 (0 : Fin 1) b r d))
  refine (out0_9_apply (iblk0 V c 0 t) (iblk0 V c 5 t) (iblk0 V c 6 t) b r d).trans ?_
  have hs : win0_7.index t (2 : Fin 4) * 512 + r.val < 2048 := by have := r.isLt; omega
  have he : ((cfg0.win 9).blk t).view.emb (ix4 (0 : Fin 1) b r d)
      = ix4 (⟨win0_7.index t (0 : Fin 4), o0⟩ : Fin 12) b (⟨win0_7.index t (2 : Fin 4) * 512 + r.val, hs⟩ : Fin 2048) d := by
    funext a; apply Fin.ext
    match a with
    | ⟨0, _⟩ => show win0_9.index t (0 : Fin 4) * 1 + 1 * 0 = win0_7.index t (0 : Fin 4); omega
    | ⟨1, _⟩ => show win0_9.index t (1 : Fin 4) * 2 + 1 * b.val = b.val; omega
    | ⟨2, _⟩ => show win0_9.index t (2 : Fin 4) * 512 + 1 * r.val = win0_7.index t (2 : Fin 4) * 512 + r.val; omega
    | ⟨3, _⟩ => show win0_9.index t (3 : Fin 4) * 64 + 1 * d.val = d.val; omega
  rw [he]
  unfold G9 Cert.Spec.projH
  refine congrArg₂ (· + ·) (Finset.sum_congr rfl fun k _ => congrArg₂ (· * ·) ?_ ?_) ?_
  · exact xblk_apply V c t b r k _ rfl
  · exact wblk9_apply V c t k d _ rfl
  · exact bblk9_apply V c t d _ rfl

/-- An index of the array is in point `t`'s block iff each coordinate is in the block's range on its axis. -/
theorem mem_blk9 (t : Fin cfg0.N) (i : S12x2x2048x64.Idx) :
    i ∈ ((cfg0.win 9).blk t).view.set ↔ ∀ a : Fin 4, win0_9.index t a * S1x2x512x64.size a ≤ (i a).val
      ∧ (i a).val < win0_9.index t a * S1x2x512x64.size a + S1x2x512x64.size a := by
  show i ∈ ((View.whole main_v16_2).slice (win0_9.rect t)).set ↔ _
  rw [View.set_slice_whole, Rect.mem_set_unit]
  exact Iff.rfl

/-- Every index of the array is in the block of the point with its head and its position block. -/
theorem cover9 (i : S12x2x2048x64.Idx) :
    ∃ t : Fin cfg0.N, (cfg0.win 9).flush t = true ∧ i ∈ ((cfg0.win 9).blk t).view.set := by
  have hi0 : (i 0).val < 12 := (i 0).isLt
  have hi1 : (i 1).val < 2 := (i 1).isLt
  have hi2 : (i 2).val < 2048 := (i 2).isLt
  have hi3 : (i 3).val < 64 := (i 3).isLt
  obtain ⟨t, ht⟩ := idx_onto9 ⟨(i 0).val, hi0⟩ ⟨(i 2).val / 512, by omega⟩
  have q0 : win0_9.index t (0 : Fin 4) = (i 0).val := congrFun ht 0
  have q1 : win0_9.index t (1 : Fin 4) = 0 := congrFun ht 1
  have q2 : win0_9.index t (2 : Fin 4) = (i 2).val / 512 := congrFun ht 2
  have q3 : win0_9.index t (3 : Fin 4) = 0 := congrFun ht 3
  refine ⟨t, flush0_9 t, ?_⟩
  rw [mem_blk9]
  intro a
  match a with
  | ⟨0, _⟩ => show win0_9.index t (0 : Fin 4) * 1 ≤ (i 0).val ∧ (i 0).val < win0_9.index t (0 : Fin 4) * 1 + 1; omega
  | ⟨1, _⟩ => show win0_9.index t (1 : Fin 4) * 2 ≤ (i 1).val ∧ (i 1).val < win0_9.index t (1 : Fin 4) * 2 + 2; omega
  | ⟨2, _⟩ => show win0_9.index t (2 : Fin 4) * 512 ≤ (i 2).val ∧ (i 2).val < win0_9.index t (2 : Fin 4) * 512 + 512; omega
  | ⟨3, _⟩ => show win0_9.index t (3 : Fin 4) * 64 ≤ (i 3).val ∧ (i 3).val < win0_9.index t (3 : Fin 4) * 64 + 64; omega

/-- So the array ends holding that function. -/
theorem final0_9 (c : Dev nD) : (dat0 (F := Ideal) V c).arrAt 9 cfg0.N = G9 V c :=
  (dat0 V c).arrAt_eq_of_cover 9 (G9 V c) (fun t _ => flushed9_eq V c t) (cover9)

end Cert.KernelIdeal.Hand.R0

namespace Cert.KernelIdeal.Hand

open Cert.KernelIdeal Cert.KernelIdeal.Gen
open Idealize.ShloMosaic Idealize.ShloMosaic.TcCoe Idealize.ShloMosaic.ValueIdx
open Idealize.SL.Sem

variable (V : (c : Dev nD) → (b : Ref sig .tc) → Buf (Elt Ideal) ((c : Thread nD τ).loc b))

/-- Result array 0 after the region, entry by entry: the head-split projection of the input (the queries). -/
theorem final0_7_apply (c : Dev nD) (h : Fin 12) (b : Fin 2) (s : Fin 2048) (d : Fin 64) :
    (dat0 (F := Ideal) V c).arrAt 7 cfg0.N (ix4 h b s d)
      = Cert.Spec.projH (fun b s k => (V c main_arg0 : S2x2048x768.Idx → EReal) (ix3 b s k))
          (fun h k d => (V c main_v2 : S12x768x64.Idx → EReal) (ix3 h k d))
          (fun h d => (V c main_v12 : S12x1x64.Idx → EReal) (ix3 h (0 : Fin 1) d)) h b s d :=
  (congrFun (R0.final0_7 V c) (ix4 h b s d)).trans (by unfold R0.G7; rfl)

/-- Result array 1 after the region, entry by entry: the head-split projection of the input (the keys). -/
theorem final0_8_apply (c : Dev nD) (h : Fin 12) (b : Fin 2) (s : Fin 2048) (d : Fin 64) :
    (dat0 (F := Ideal) V c).arrAt 8 cfg0.N (ix4 h b s d)
      = Cert.Spec.projH (fun b s k => (V c main_arg0 : S2x2048x768.Idx → EReal) (ix3 b s k))
          (fun h k d => (V c main_v5 : S12x768x64.Idx → EReal) (ix3 h k d))
          (fun h d => (V c main_v13 : S12x1x64.Idx → EReal) (ix3 h (0 : Fin 1) d)) h b s d :=
  (congrFun (R0.final0_8 V c) (ix4 h b s d)).trans (by unfold R0.G8; rfl)

/-- Result array 2 after the region, entry by entry: the head-split projection of the input (the values). -/
theorem final0_9_apply (c : Dev nD) (h : Fin 12) (b : Fin 2) (s : Fin 2048) (d : Fin 64) :
    (dat0 (F := Ideal) V c).arrAt 9 cfg0.N (ix4 h b s d)
      = Cert.Spec.projH (fun b s k => (V c main_arg0 : S2x2048x768.Idx → EReal) (ix3 b s k))
          (fun h k d => (V c main_v8 : S12x768x64.Idx → EReal) (ix3 h k d))
          (fun h d => (V c main_v14 : S12x1x64.Idx → EReal) (ix3 h (0 : Fin 1) d)) h b s d :=
  (congrFun (R0.final0_9 V c) (ix4 h b s d)).trans (by unfold R0.G9; rfl)

end Cert.KernelIdeal.Hand

end
-- ==== Proof.LibSlabCast.lean ====
/-
  GENERAL LEMMAS: two leading unit axes dropped from, or added to, a matrix by a change of shape.

  A kernel that works on one slab of a rank-4 block loads it as a [1, 1, a, b] array, casts it to the
  matrix [a, b], and casts its result back before storing. Both casts keep the row-major order, so entry (i, j) of
  the matrix is entry (0, 0, i, j) of the slab, whatever the two unit coordinates are called.
  Imports the library only.
-/
import Idealize.ShloMosaic.Lib.Pipeline.Value
import Idealize.ShloMosaic.Lib.ValueIdx

noncomputable section

namespace Cert.LibSlabCast

open Idealize.ShloMosaic Idealize.ShloMosaic.ValueIdx

variable {α : Type}

/-- A [1, 1, a, b] array cast to [a, b] reads, at (i, j), the operand at (0, 0, i, j). -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add, Nat.mul_one, Nat.add_zero])

/-- An [a, b] array cast to [1, 1, a, b] reads, at (u, v, i, j), the operand at (i, j), whatever the unit
    coordinates u and v. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add, Nat.mul_one, Nat.add_zero])

end Cert.LibSlabCast

end
-- ==== Proof.KI.Pay1.lean ====
/-
  Region 1's arithmetic, read at an index over the extended reals.

  For one batch entry the body multiplies the entry's 512 × 64 query slab by the transpose of its 2048 × 64 key slab,
  scales the 512 × 2048 scores by one eighth, turns each row into softmax weights (subtract the row's maximum,
  exponentiate, divide by the row's sum), and multiplies the weights by the 2048 × 64 value slab. Entry (r, d) of
  the result depends on row r of the queries only: it is the softmax of that row's scaled inner products with all
  the keys, applied to column d of the values. Changes of float format are the identity here, a product accumulated
  into a zero splat is the plain sum of products, and the score matrix is never evaluated: every step is read at a
  symbolic row and column.
-/
import proofs.«113036_j73607149519274_2_alg».proof.Proof.Gen.KernelIdeal.Skeleton
import proofs.«113036_j73607149519274_2_alg».proof.Proof.LibMatProd
import proofs.«113036_j73607149519274_2_alg».proof.Proof.LibRowSoftmax
import proofs.«113036_j73607149519274_2_alg».proof.Proof.LibSlabCast
import proofs.«113036_j73607149519274_2_alg».proof.Proof.Spec

noncomputable section

open scoped BigOperators

namespace Cert.KernelIdeal.Hand.R1

open Cert.KernelIdeal Cert.KernelIdeal.Gen
open Idealize.ShloMosaic Idealize.ShloMosaic.ValueIdx
open Cert.Linear Cert.LibRowSoftmax Cert.LibSlabCast

/-- The dimension record of queries times keys transposed: [512,64] × [2048,64] → [512,2048], contracting both
    operands' axis 1. -/
abbrev dQK : DotDims S512x64 S2048x64 S512x2048 := dot_S512x64_S2048x64_S512x2048_1_1_0_0_n_n
/-- The dimension record of weights times values: [512,2048] × [2048,64] → [512,64]. -/
abbrev dPV : DotDims S512x2048 S2048x64 S512x64 := dot_S512x2048_S2048x64_S512x64_1_0_0_1_n_n

/-! ## The two records' index maps -/

theorem dQK_lhs0 (i : S512x2048.Idx) (q : dQK.contr.Idx) : (dQK.lhsIdx i q 0).val = (i 0).val := by
  unfold DotDims.lhsIdx
  rw [dif_neg (show ¬(0 : Fin S512x64.rank) ∈ dQK.lhsBatch by decide), dif_pos (show (0 : Fin S512x64.rank) ∈ dQK.lhsNonContracting by decide)]
  rfl
theorem dQK_lhs1 (i : S512x2048.Idx) (q : dQK.contr.Idx) : (dQK.lhsIdx i q 1).val = (q ⟨0, by decide⟩).val :=
  dQK.lhsIdx_val_of_single rfl i q
theorem dQK_rhs0 (i : S512x2048.Idx) (q : dQK.contr.Idx) : (dQK.rhsIdx i q 0).val = (i 1).val := by
  unfold DotDims.rhsIdx
  rw [dif_neg (show ¬(0 : Fin S2048x64.rank) ∈ dQK.rhsBatch by decide), dif_pos (show (0 : Fin S2048x64.rank) ∈ dQK.rhsNonContracting by decide)]
  rfl
theorem dQK_rhs1 (i : S512x2048.Idx) (q : dQK.contr.Idx) : (dQK.rhsIdx i q 1).val = (q ⟨0, by decide⟩).val :=
  dQK.rhsIdx_val_of_single rfl i q

/-- The second record contracts the left operand's columns with the right operand's rows. -/
theorem dPV_contracts : Contracts (R := 512) (K := 2048) (N := 64) dPV where
  rank := rfl
  size := rfl
  lhs0 := fun i q => by
    unfold DotDims.lhsIdx
    rw [dif_neg (show ¬(0 : Fin S512x2048.rank) ∈ dPV.lhsBatch by decide), dif_pos (show (0 : Fin S512x2048.rank) ∈ dPV.lhsNonContracting by decide)]
    rfl
  lhs1 := fun i q => dPV.lhsIdx_val_of_single rfl i q
  rhs0 := fun i q => dPV.rhsIdx_val_of_single rfl i q
  rhs1 := fun i q => by
    unfold DotDims.rhsIdx
    rw [dif_neg (show ¬(1 : Fin S2048x64.rank) ∈ dPV.rhsBatch by decide), dif_pos (show (1 : Fin S2048x64.rank) ∈ dPV.rhsNonContracting by decide)]
    rfl

/-! ## The chain of operations on one batch entry's slabs -/

/-- The scaled scores: queries times keys transposed, times one eighth. -/
def scoreM (q : FVec Ideal S512x64 .bf16) (k : FVec Ideal S2048x64 .bf16) : FVec Ideal S512x2048 .f32 :=
  mulf (matmul dQK none q k (constant (F := Ideal) S512x2048 .f32 0x00000000#32)) (broadcast S512x2048 (Scalar.ofBits (F := Ideal) .f32 0x3E000000#32))

/-- The row softmax as the body writes it. -/
def probM (s : FVec Ideal S512x2048 .f32) : FVec Ideal S512x2048 .f32 :=
  divf (exp (subf s (broadcastTo S512x2048 (shapeCast S512x1 (multiReduction .maximumf [1] S512 s 0xFF800000#32 reduces_S512x2048_S512 (.inl rfl) rfl) shapeCasts_S512_S512x1) broadcasts_S512x1_S512x2048)))
    (broadcastTo S512x2048 (shapeCast S512x1 (multiReduction .add [1] S512
      (exp (subf s (broadcastTo S512x2048 (shapeCast S512x1 (multiReduction .maximumf [1] S512 s 0xFF800000#32 reduces_S512x2048_S512 (.inl rfl) rfl) shapeCasts_S512_S512x1) broadcasts_S512x1_S512x2048)))
      0x00000000#32 reduces_S512x2048_S512 (.inl rfl) rfl) shapeCasts_S512_S512x1) broadcasts_S512x1_S512x2048)

/-- One batch entry's output slab from its query, key and value slabs. -/
def coreOut (q : FVec Ideal S512x64 .bf16) (k v : FVec Ideal S2048x64 .bf16) : FVec Ideal S512x64 .bf16 :=
  truncf .bf16 (matmul dPV none (truncf .bf16 (probM (scoreM q k)) bitsLt_bf16_f32) v (constant (F := Ideal) S512x64 .f32 0x00000000#32)) bitsLt_bf16_f32

/-- The first payload (batch entry 0) is that chain on the three loaded slabs, cast to matrices and back. -/
theorem k1_pay2_eq (v0 : Vec Ideal S1x1x512x64 .bf16) (v2 v4 : Vec Ideal S1x1x2048x64 .bf16) :
    k1_pay2 v0 v2 v4 = shapeCast S1x1x512x64 (coreOut (shapeCast S512x64 v0 shapeCasts_S1x1x512x64_S512x64)
      (shapeCast S2048x64 v2 shapeCasts_S1x1x2048x64_S2048x64) (shapeCast S2048x64 v4 shapeCasts_S1x1x2048x64_S2048x64)) shapeCasts_S512x64_S1x1x512x64 := rfl

/-- The second payload (batch entry 1) is the same chain; its query and key slabs arrive already cast. -/
theorem k1_pay1_eq (v25 : FVec Ideal S512x64 .bf16) (v27 : FVec Ideal S2048x64 .bf16) (v28 : Vec Ideal S1x1x2048x64 .bf16) :
    k1_pay1 v25 v27 v28 = shapeCast S1x1x512x64 (coreOut v25 v27 (shapeCast S2048x64 v28 shapeCasts_S1x1x2048x64_S2048x64)) shapeCasts_S512x64_S1x1x512x64 := rfl

/-! ## The chain at an index -/

/-- Attention for one query row: the softmax of the row's scaled inner products with every key, applied to column d
    of the values. -/
def rowAttn (qrow : Fin 64 → EReal) (k v : Fin 2048 → Fin 64 → EReal) (d : Fin 64) : EReal :=
  ∑ j : Fin 2048, soft (fun j' => (∑ e : Fin 64, qrow e * k j' e) * Cert.Spec.scale) j * v j d

/-- The specification's attention is that row formula at the query's row. -/
theorem attn_eq_rowAttn (q k v : Fin 12 → Fin 2 → Fin 2048 → Fin 64 → EReal) (h : Fin 12) (b : Fin 2) (i : Fin 2048) (d : Fin 64) :
    Cert.Spec.attn q k v h b i d = rowAttn (q h b i) (k h b) (v h b) d := rfl

/-- A score: the inner product of query row r with key row c, scaled. -/
theorem scoreM_apply (q : FVec Ideal S512x64 .bf16) (k : FVec Ideal S2048x64 .bf16) (r : Fin 512) (c : Fin 2048) :
    scoreM q k (ix2 r c) = (∑ e : Fin 64, q (ix2 r e) * k (ix2 c e)) * Cert.Spec.scale := by
  refine congrArg (· * Cert.Spec.scale) ((Ideal.matmul_constant_zero_apply dQK none q k (ix2 r c)).trans ?_)
  rw [← Equiv.sum_comp (contrEquiv1 dQK 64 rfl rfl).symm]
  refine Finset.sum_congr rfl fun e _ => ?_
  have hk := contrEquiv1_symm_val dQK 64 rfl rfl e
  have el : dQK.lhsIdx (ix2 r c) ((contrEquiv1 dQK 64 rfl rfl).symm e) = ix2 r e := funext fun a => Fin.ext (by
    match a with
    | ⟨0, _⟩ => exact dQK_lhs0 _ _
    | ⟨1, _⟩ => exact (dQK_lhs1 _ _).trans hk)
  have er : dQK.rhsIdx (ix2 r c) ((contrEquiv1 dQK 64 rfl rfl).symm e) = ix2 c e := funext fun a => Fin.ext (by
    match a with
    | ⟨0, _⟩ => exact dQK_rhs0 _ _
    | ⟨1, _⟩ => exact (dQK_rhs1 _ _).trans hk)
  rw [el, er]

/-- The output slab at (r, d): the row formula of query row r. -/
theorem coreOut_apply (q : FVec Ideal S512x64 .bf16) (k v : FVec Ideal S2048x64 .bf16) (r : Fin 512) (d : Fin 64) :
    coreOut q k v (ix2 r d) = rowAttn (fun e => q (ix2 r e)) (fun j e => k (ix2 j e)) (fun j e => v (ix2 j e)) d := by
  have hs : (fun c : Fin 2048 => scoreM q k (ix2 r c)) = fun c => (∑ e : Fin 64, q (ix2 r e) * k (ix2 c e)) * Cert.Spec.scale :=
    funext fun c => scoreM_apply q k r c
  refine (congrFun (matmul_zero_eq (R := 512) (K := 2048) (N := 64) dPV_contracts none (truncf .bf16 (probM (scoreM q k)) bitsLt_bf16_f32) v) (ix2 r d)).trans ?_
  unfold rowAttn
  rw [← hs]
  refine Finset.sum_congr rfl fun j _ => congrArg (· * v (ix2 j d)) ?_
  exact softChain_apply (a := 512) (b := 2048) (scoreM q k) reduces_S512x2048_S512 (.inl rfl) rfl rfl shapeCasts_S512_S512x1 broadcasts_S512x1_S512x2048 r j

end Cert.KernelIdeal.Hand.R1

end
-- ==== Proof.KI.Val1.lean ====
/-
  The value of region 1's output array, over the extended reals, for any entry contents.

  At point (h, qi) the output block is rows 512·qi … 512·qi + 511 of head h, both batch entries; the query block is
  the same rows of the queries, and the key and value blocks are all of head h. Entry (b, r, d) of what the point
  writes back is the one-row attention formula on query row r of batch entry b against that entry's keys and values: read
  through the blocks' positions in their arrays, it is the specification's attention at (h, b, 512·qi + r, d). The 48
  blocks tile the array (the point that covers (h, ·, i, ·) is 4·h + i / 512), so the array ends holding attention
  everywhere.
-/
import proofs.«113036_j73607149519274_2_alg».proof.Proof.KI.Reg1
import proofs.«113036_j73607149519274_2_alg».proof.Proof.KI.Pay1
import Idealize.ShloMosaic.Lib.Pipeline.Value

set_option maxRecDepth 16384

noncomputable section

open scoped BigOperators

namespace Cert.KernelIdeal.Hand.R1

open Cert.KernelIdeal Cert.KernelIdeal.Gen
open Idealize.ShloMosaic Idealize.ShloMosaic.TcCoe Idealize.SL.Sem Idealize.ShloMosaic.ValueIdx
open Idealize.ShloMosaic.Pipeline (Dat)
open Cert.LibRowSoftmax

/-! ## The row formula depends on its operands entry by entry -/

theorem rowAttn_congr {q q' : Fin 64 → EReal} {k k' v v' : Fin 2048 → Fin 64 → EReal}
    (hq : ∀ e, q e = q' e) (hk : ∀ j e, k j e = k' j e) (hv : ∀ j e, v j e = v' j e) (d : Fin 64) :
    rowAttn q k v d = rowAttn q' k' v' d := by
  obtain rfl : q = q' := funext hq
  obtain rfl : k = k' := funext fun j => funext (hk j)
  obtain rfl : v = v' := funext fun j => funext (hv j)
  rfl

/-! ## The slabs' positions in their blocks -/

theorem rq0_idx (u0 u1 : Fin 1) (r : Fin 512) (e : Fin 64) : r1_q0.idx (ix4 u0 u1 r e) = ix4 (0 : Fin 1) (0 : Fin 2) r e :=
  funext fun a => Fin.ext (by
    match a with
    | ⟨0, _⟩ => show 0 + 1 * u0.val = 0; omega
    | ⟨1, _⟩ => show 0 + 1 * u1.val = 0; omega
    | ⟨2, _⟩ => show 0 + 1 * r.val = r.val; omega
    | ⟨3, _⟩ => show 0 + 1 * e.val = e.val; omega)
theorem rq1_idx (u0 u1 : Fin 1) (r : Fin 512) (e : Fin 64) : r1_q1.idx (ix4 u0 u1 r e) = ix4 (0 : Fin 1) (1 : Fin 2) r e :=
  funext fun a => Fin.ext (by
    match a with
    | ⟨0, _⟩ => show 0 + 1 * u0.val = 0; omega
    | ⟨1, _⟩ => show 1 + 1 * u1.val = 1; omega
    | ⟨2, _⟩ => show 0 + 1 * r.val = r.val; omega
    | ⟨3, _⟩ => show 0 + 1 * e.val = e.val; omega)
theorem rk0_idx (u0 u1 : Fin 1) (j : Fin 2048) (e : Fin 64) : r1_k0.idx (ix4 u0 u1 j e) = ix4 (0 : Fin 1) (0 : Fin 2) j e :=
  funext fun a => Fin.ext (by
    match a with
    | ⟨0, _⟩ => show 0 + 1 * u0.val = 0; omega
    | ⟨1, _⟩ => show 0 + 1 * u1.val = 0; omega
    | ⟨2, _⟩ => show 0 + 1 * j.val = j.val; omega
    | ⟨3, _⟩ => show 0 + 1 * e.val = e.val; omega)
theorem rk1_idx (u0 u1 : Fin 1) (j : Fin 2048) (e : Fin 64) : r1_k1.idx (ix4 u0 u1 j e) = ix4 (0 : Fin 1) (1 : Fin 2) j e :=
  funext fun a => Fin.ext (by
    match a with
    | ⟨0, _⟩ => show 0 + 1 * u0.val = 0; omega
    | ⟨1, _⟩ => show 1 + 1 * u1.val = 1; omega
    | ⟨2, _⟩ => show 0 + 1 * j.val = j.val; omega
    | ⟨3, _⟩ => show 0 + 1 * e.val = e.val; omega)

/-! ## The two stored slabs, entry by entry -/

/-- Batch entry 0's stored slab at (r, d): the row formula on entry 0's slabs of the three blocks. -/
theorem piece0_apply (xq : Vec Ideal S1x2x512x64 .bf16) (xk xv : Vec Ideal S1x2x2048x64 .bf16) (u0 u1 : Fin 1) (r : Fin 512) (d : Fin 64) :
    k1_pay2 (View.ld xq r1_q0) (View.ld xk r1_k0) (View.ld xv r1_k0) (ix4 u0 u1 r d)
      = rowAttn (fun e => xq (ix4 (0 : Fin 1) (0 : Fin 2) r e)) (fun j e => xk (ix4 (0 : Fin 1) (0 : Fin 2) j e)) (fun j e => xv (ix4 (0 : Fin 1) (0 : Fin 2) j e)) d := by
  rw [k1_pay2_eq]
  refine (Cert.LibSlabCast.shapeCast_ab_11ab_apply _ _ u0 u1 r d).trans ?_
  refine (coreOut_apply _ _ _ r d).trans ?_
  exact rowAttn_congr
    (fun e => (Cert.LibSlabCast.shapeCast_11ab_ab_apply _ _ r e).trans (congrArg xq (rq0_idx 0 0 r e)))
    (fun j e => (Cert.LibSlabCast.shapeCast_11ab_ab_apply _ _ j e).trans (congrArg xk (rk0_idx 0 0 j e)))
    (fun j e => (Cert.LibSlabCast.shapeCast_11ab_ab_apply _ _ j e).trans (congrArg xv (rk0_idx 0 0 j e))) d

/-- Batch entry 1's stored slab at (r, d): the same on entry 1's slabs. -/
theorem piece1_apply (xq : Vec Ideal S1x2x512x64 .bf16) (xk xv : Vec Ideal S1x2x2048x64 .bf16) (u0 u1 : Fin 1) (r : Fin 512) (d : Fin 64) :
    k1_pay1 (k1_pay3 (View.ld xq r1_q1)) (k1_pay4 (View.ld xk r1_k1)) (View.ld xv r1_k1) (ix4 u0 u1 r d)
      = rowAttn (fun e => xq (ix4 (0 : Fin 1) (1 : Fin 2) r e)) (fun j e => xk (ix4 (0 : Fin 1) (1 : Fin 2) j e)) (fun j e => xv (ix4 (0 : Fin 1) (1 : Fin 2) j e)) d := by
  rw [k1_pay1_eq]
  refine (Cert.LibSlabCast.shapeCast_ab_11ab_apply _ _ u0 u1 r d).trans ?_
  refine (coreOut_apply _ _ _ r d).trans ?_
  exact rowAttn_congr
    (fun e => (Cert.LibSlabCast.shapeCast_11ab_ab_apply (View.ld xq r1_q1) shapeCasts_S1x1x512x64_S512x64 r e).trans (congrArg xq (rq1_idx 0 0 r e)))
    (fun j e => (Cert.LibSlabCast.shapeCast_11ab_ab_apply (View.ld xk r1_k1) shapeCasts_S1x1x2048x64_S2048x64 j e).trans (congrArg xk (rk1_idx 0 0 j e)))
    (fun j e => (Cert.LibSlabCast.shapeCast_11ab_ab_apply _ _ j e).trans (congrArg xv (rk1_idx 0 0 j e))) d

/-! ## The output block as one function of the input blocks -/

/-- Entry (·, b, r, d) of the output block: the row formula on row r of batch entry b of the query block against
    batch entry b of the key and value blocks. -/
def blockOut (xq : Vec Ideal S1x2x512x64 .bf16) (xk xv : Vec Ideal S1x2x2048x64 .bf16) : S1x2x512x64.Idx → EReal := fun y =>
  rowAttn (fun e => xq (ix4 (0 : Fin 1) (y 1 : Fin 2) (y 2 : Fin 512) e)) (fun j e => xk (ix4 (0 : Fin 1) (y 1 : Fin 2) j e))
    (fun j e => xv (ix4 (0 : Fin 1) (y 1 : Fin 2) j e)) (y 3 : Fin 64)

/-- What the body leaves in the output block is that function: each of the two stored slabs is its restriction to the
    slab, and the slabs cover the block. -/
theorem out1_3_eq (xq : Vec Ideal S1x2x512x64 .bf16) (xk xv : Vec Ideal S1x2x2048x64 .bf16) :
    out1_3 xq xk xv = blockOut xq xk xv := by
  funext y
  unfold out1_3
  refine View.canon_apply_of_pieces (Val := Elt Ideal) (e := EltTy.bf16) (blockOut xq xk xv) _ (List.forall_mem_cons.2 ⟨?_, List.forall_mem_cons.2 ⟨?_, fun _ h => absurd h List.not_mem_nil⟩⟩) y (cover1_3 _ _ y)
  · intro x
    obtain ⟨u0, u1, r, d, rfl⟩ : ∃ (u0 u1 : Fin 1) (r : Fin 512) (d : Fin 64), x = ix4 u0 u1 r d := ⟨x 0, x 1, x 2, x 3, eq_ix4 x⟩
    show k1_pay1 (F := Ideal) _ _ _ (ix4 u0 u1 r d) = blockOut xq xk xv (r1_q1.idx (ix4 u0 u1 r d))
    rw [rq1_idx]
    exact piece1_apply xq xk xv u0 u1 r d
  · intro x
    obtain ⟨u0, u1, r, d, rfl⟩ : ∃ (u0 u1 : Fin 1) (r : Fin 512) (d : Fin 64), x = ix4 u0 u1 r d := ⟨x 0, x 1, x 2, x 3, eq_ix4 x⟩
    show k1_pay2 (F := Ideal) _ _ _ (ix4 u0 u1 r d) = blockOut xq xk xv (r1_q0.idx (ix4 u0 u1 r d))
    rw [rq0_idx]
    exact piece0_apply xq xk xv u0 u1 r d

/-- The output block's entry, once each input block's entries are known as entries of three arrays at head h and
    position s. -/
theorem blockOut_apply_of (xq : Vec Ideal S1x2x512x64 .bf16) (xk xv : Vec Ideal S1x2x2048x64 .bf16)
    (A0 A1 A2 : S12x2x2048x64.Idx → EReal) (h : Fin 12) (s : Fin 2048) (u : Fin 1) (b : Fin 2) (r : Fin 512) (d : Fin 64)
    (hq : ∀ e, xq (ix4 (0 : Fin 1) b r e) = A0 (ix4 h b s e)) (hk : ∀ j e, xk (ix4 (0 : Fin 1) b j e) = A1 (ix4 h b j e))
    (hv : ∀ j e, xv (ix4 (0 : Fin 1) b j e) = A2 (ix4 h b j e)) :
    blockOut xq xk xv (ix4 u b r d) = rowAttn (fun e => A0 (ix4 h b s e)) (fun j e => A1 (ix4 h b j e)) (fun j e => A2 (ix4 h b j e)) d :=
  rowAttn_congr hq hk hv d

section Region

variable (V : (c : Dev nD) → (b : Ref sig .tc) → Buf (Elt Ideal) ((c : Thread nD τ).loc b))

/-! ## The blocks' positions in their arrays -/

/-- The printed index maps over the grid: point t is head t / 4 and query block t % 4; the queries' and the output's
    blocks move with both, the keys' and values' with the head only. -/
theorem idx_facts1 : ∀ t : Fin cfg1.N,
    win1_0.index t (0 : Fin 4) = t.val / 4 ∧ win1_0.index t (1 : Fin 4) = 0 ∧ win1_0.index t (2 : Fin 4) = t.val % 4 ∧ win1_0.index t (3 : Fin 4) = 0
    ∧ win1_1.index t (0 : Fin 4) = t.val / 4 ∧ win1_1.index t (1 : Fin 4) = 0 ∧ win1_1.index t (2 : Fin 4) = 0 ∧ win1_1.index t (3 : Fin 4) = 0
    ∧ win1_2.index t (0 : Fin 4) = t.val / 4 ∧ win1_2.index t (1 : Fin 4) = 0 ∧ win1_2.index t (2 : Fin 4) = 0 ∧ win1_2.index t (3 : Fin 4) = 0
    ∧ win1_3.index t (0 : Fin 4) = t.val / 4 ∧ win1_3.index t (1 : Fin 4) = 0 ∧ win1_3.index t (2 : Fin 4) = t.val % 4 ∧ win1_3.index t (3 : Fin 4) = 0 :=
  (by decide +kernel : ∀ t : Fin grid1.N, _)

/-- The query block's entry (·, b, r, e) at point t is the queries' entry (t / 4, b, 512·(t % 4) + r, e). -/
theorem iblk1_0_apply (c : Dev nD) (t : Fin cfg1.N) (u : Fin 1) (b : Fin 2) (r : Fin 512) (e : Fin 64) (k : S12x2x2048x64.Idx)
    (h0 : (k 0).val = t.val / 4) (h1 : (k 1).val = b.val) (h2 : (k 2).val = 512 * (t.val % 4) + r.val) (h3 : (k 3).val = e.val) :
    (iblk1 V c 0 t : Vec Ideal S1x2x512x64 .bf16) (ix4 u b r e) = (V c main_v16_0 : S12x2x2048x64.Idx → EReal) k := by
  obtain ⟨e0, e1, e2, e3, -⟩ := idx_facts1 t
  unfold iblk1
  rw [View.read_apply]
  show V c main_v16_0 _ = V c main_v16_0 _
  congr 1
  funext a
  apply Fin.ext
  match a with
  | ⟨0, _⟩ => show win1_0.index t (0 : Fin 4) * 1 + 1 * u.val = (k 0).val; rw [e0, h0]; omega
  | ⟨1, _⟩ => show win1_0.index t (1 : Fin 4) * 2 + 1 * b.val = (k 1).val; rw [e1, h1]; omega
  | ⟨2, _⟩ => show win1_0.index t (2 : Fin 4) * 512 + 1 * r.val = (k 2).val; rw [e2, h2]; omega
  | ⟨3, _⟩ => show win1_0.index t (3 : Fin 4) * 64 + 1 * e.val = (k 3).val; rw [e3, h3]; omega

/-- The key block's entry (·, b, j, e) at point t is the keys' entry (t / 4, b, j, e). -/
theorem iblk1_1_apply (c : Dev nD) (t : Fin cfg1.N) (u : Fin 1) (b : Fin 2) (j : Fin 2048) (e : Fin 64) (k : S12x2x2048x64.Idx)
    (h0 : (k 0).val = t.val / 4) (h1 : (k 1).val = b.val) (h2 : (k 2).val = j.val) (h3 : (k 3).val = e.val) :
    (iblk1 V c 1 t : Vec Ideal S1x2x2048x64 .bf16) (ix4 u b j e) = (V c main_v16_1 : S12x2x2048x64.Idx → EReal) k := by
  obtain ⟨-, -, -, -, e0, e1, e2, e3, -⟩ := idx_facts1 t
  unfold iblk1
  rw [View.read_apply]
  show V c main_v16_1 _ = V c main_v16_1 _
  congr 1
  funext a
  apply Fin.ext
  match a with
  | ⟨0, _⟩ => show win1_1.index t (0 : Fin 4) * 1 + 1 * u.val = (k 0).val; rw [e0, h0]; omega
  | ⟨1, _⟩ => show win1_1.index t (1 : Fin 4) * 2 + 1 * b.val = (k 1).val; rw [e1, h1]; omega
  | ⟨2, _⟩ => show win1_1.index t (2 : Fin 4) * 2048 + 1 * j.val = (k 2).val; rw [e2, h2]; omega
  | ⟨3, _⟩ => show win1_1.index t (3 : Fin 4) * 64 + 1 * e.val = (k 3).val; rw [e3, h3]; omega

/-- The value block's entry (·, b, j, e) at point t is the values' entry (t / 4, b, j, e). -/
theorem iblk1_2_apply (c : Dev nD) (t : Fin cfg1.N) (u : Fin 1) (b : Fin 2) (j : Fin 2048) (e : Fin 64) (k : S12x2x2048x64.Idx)
    (h0 : (k 0).val = t.val / 4) (h1 : (k 1).val = b.val) (h2 : (k 2).val = j.val) (h3 : (k 3).val = e.val) :
    (iblk1 V c 2 t : Vec Ideal S1x2x2048x64 .bf16) (ix4 u b j e) = (V c main_v16_2 : S12x2x2048x64.Idx → EReal) k := by
  obtain ⟨-, -, -, -, -, -, -, -, e0, e1, e2, e3, -⟩ := idx_facts1 t
  unfold iblk1
  rw [View.read_apply]
  show V c main_v16_2 _ = V c main_v16_2 _
  congr 1
  funext a
  apply Fin.ext
  match a with
  | ⟨0, _⟩ => show win1_2.index t (0 : Fin 4) * 1 + 1 * u.val = (k 0).val; rw [e0, h0]; omega
  | ⟨1, _⟩ => show win1_2.index t (1 : Fin 4) * 2 + 1 * b.val = (k 1).val; rw [e1, h1]; omega
  | ⟨2, _⟩ => show win1_2.index t (2 : Fin 4) * 2048 + 1 * j.val = (k 2).val; rw [e2, h2]; omega
  | ⟨3, _⟩ => show win1_2.index t (3 : Fin 4) * 64 + 1 * e.val = (k 3).val; rw [e3, h3]; omega

/-! ## The array the region leaves -/

/-- Attention of the entry contents of the three operand arrays, as a function of the output array's index. -/
def G1 (c : Dev nD) : S12x2x2048x64.Idx → EReal := fun i =>
  rowAttn (fun e => (V c main_v16_0 : S12x2x2048x64.Idx → EReal) (ix4 (i 0 : Fin 12) (i 1 : Fin 2) (i 2 : Fin 2048) e))
    (fun j e => (V c main_v16_1 : S12x2x2048x64.Idx → EReal) (ix4 (i 0 : Fin 12) (i 1 : Fin 2) j e))
    (fun j e => (V c main_v16_2 : S12x2x2048x64.Idx → EReal) (ix4 (i 0 : Fin 12) (i 1 : Fin 2) j e)) (i 3 : Fin 64)

/-- It is read at an index through the index's coordinates. -/
theorem G1_of_coords (c : Dev nD) (i : S12x2x2048x64.Idx) (h : Fin 12) (b : Fin 2) (s : Fin 2048) (d : Fin 64)
    (h0 : (i 0).val = h.val) (h1 : (i 1).val = b.val) (h2 : (i 2).val = s.val) (h3 : (i 3).val = d.val) :
    G1 V c i = rowAttn (fun e => (V c main_v16_0 : S12x2x2048x64.Idx → EReal) (ix4 h b s e))
      (fun j e => (V c main_v16_1 : S12x2x2048x64.Idx → EReal) (ix4 h b j e))
      (fun j e => (V c main_v16_2 : S12x2x2048x64.Idx → EReal) (ix4 h b j e)) d := by
  obtain rfl : i = ix4 h b s d := funext fun a => Fin.ext (by
    match a with
    | ⟨0, _⟩ => exact h0
    | ⟨1, _⟩ => exact h1
    | ⟨2, _⟩ => exact h2
    | ⟨3, _⟩ => exact h3)
  rfl

/-- WHAT POINT t WRITES BACK is block t of that array. -/
theorem flushed1_3_eq (c : Dev nD) (t : Fin cfg1.N) :
    (dat1 (F := Ideal) V c).flushed 3 t = ((cfg1.win 3).blk t).view.read (Elt Ideal) (G1 V c) := by
  show (cfg1.win 3).cut (grid1.coords t) ((dat1 V c).after 3 t) = _
  rw [after1_3, out1_3_eq]
  have hN : cfg1.N = 48 := N_1
  have ht : t.val < 48 := hN ▸ t.isLt
  obtain ⟨-, -, -, -, -, -, -, -, -, -, -, -, f0, f1, f2, f3⟩ := idx_facts1 t
  funext y
  obtain ⟨u, b, r, d, rfl⟩ : ∃ (u : Fin 1) (b : Fin 2) (r : Fin 512) (d : Fin 64), y = ix4 u b r d := ⟨y 0, y 1, y 2, y 3, eq_ix4 y⟩
  show blockOut (iblk1 V c 0 t) (iblk1 V c 1 t) (iblk1 V c 2 t) (ix4 u b r d) = G1 V c (((cfg1.win 3).blk t).view.emb (ix4 u b r d))
  have hI0 : ((((cfg1.win 3).blk t).view.emb (ix4 u b r d) : S12x2x2048x64.Idx) 0).val = t.val / 4 := by
    show win1_3.index t (0 : Fin 4) * 1 + 1 * u.val = _; rw [f0]; omega
  have hI1 : ((((cfg1.win 3).blk t).view.emb (ix4 u b r d) : S12x2x2048x64.Idx) 1).val = b.val := by
    show win1_3.index t (1 : Fin 4) * 2 + 1 * b.val = _; rw [f1]; omega
  have hI2 : ((((cfg1.win 3).blk t).view.emb (ix4 u b r d) : S12x2x2048x64.Idx) 2).val = 512 * (t.val % 4) + r.val := by
    show win1_3.index t (2 : Fin 4) * 512 + 1 * r.val = _; rw [f2]; omega
  have hI3 : ((((cfg1.win 3).blk t).view.emb (ix4 u b r d) : S12x2x2048x64.Idx) 3).val = d.val := by
    show win1_3.index t (3 : Fin 4) * 64 + 1 * d.val = _; rw [f3]; omega
  rw [G1_of_coords V c (((cfg1.win 3).blk t).view.emb (ix4 u b r d)) ⟨t.val / 4, by omega⟩ b ⟨512 * (t.val % 4) + r.val, by omega⟩ d hI0 hI1 hI2 hI3]
  exact blockOut_apply_of (iblk1 V c 0 t) (iblk1 V c 1 t) (iblk1 V c 2 t) (V c main_v16_0) (V c main_v16_1) (V c main_v16_2)
    ⟨t.val / 4, by omega⟩ ⟨512 * (t.val % 4) + r.val, by omega⟩ u b r d
    (fun e => iblk1_0_apply V c t 0 b r e _ rfl rfl rfl rfl)
    (fun j e => iblk1_1_apply V c t 0 b j e _ rfl rfl rfl rfl)
    (fun j e => iblk1_2_apply V c t 0 b j e _ rfl rfl rfl rfl)

/-- An index of the array is in point t's block iff each coordinate is in the block's range on its axis. -/
theorem mem_blk1_3 (t : Fin cfg1.N) (i : S12x2x2048x64.Idx) :
    i ∈ ((cfg1.win 3).blk t).view.set ↔ ∀ a : Fin 4, win1_3.index t a * S1x2x512x64.size a ≤ (i a).val ∧ (i a).val < win1_3.index t a * S1x2x512x64.size a + S1x2x512x64.size a := by
  show i ∈ ((View.whole main_v17).slice (win1_3.rect t)).set ↔ _
  rw [View.set_slice_whole, Rect.mem_set_unit]
  exact Iff.rfl

/-- Every index is in the block of the point of its head and query block. -/
theorem cover1_arr (i : S12x2x2048x64.Idx) :
    ∃ t : Fin cfg1.N, (cfg1.win 3).flush t = true ∧ i ∈ ((cfg1.win 3).blk t).view.set := by
  have hN : cfg1.N = 48 := N_1
  have hi0 : (i 0).val < 12 := (i 0).isLt
  have hi1 : (i 1).val < 2 := (i 1).isLt
  have hi2 : (i 2).val < 2048 := (i 2).isLt
  have hi3 : (i 3).val < 64 := (i 3).isLt
  obtain ⟨t, ht⟩ : ∃ t : Fin cfg1.N, t.val = (i 0).val * 4 + (i 2).val / 512 := ⟨⟨(i 0).val * 4 + (i 2).val / 512, by rw [hN]; omega⟩, rfl⟩
  obtain ⟨-, -, -, -, -, -, -, -, -, -, -, -, f0, f1, f2, f3⟩ := idx_facts1 t
  refine ⟨t, flush1_3 t, ?_⟩
  rw [mem_blk1_3]
  intro a
  match a with
  | ⟨0, _⟩ => show win1_3.index t (0 : Fin 4) * 1 ≤ (i 0).val ∧ (i 0).val < win1_3.index t (0 : Fin 4) * 1 + 1; rw [f0]; omega
  | ⟨1, _⟩ => show win1_3.index t (1 : Fin 4) * 2 ≤ (i 1).val ∧ (i 1).val < win1_3.index t (1 : Fin 4) * 2 + 2; rw [f1]; omega
  | ⟨2, _⟩ => show win1_3.index t (2 : Fin 4) * 512 ≤ (i 2).val ∧ (i 2).val < win1_3.index t (2 : Fin 4) * 512 + 512; rw [f2]; omega
  | ⟨3, _⟩ => show win1_3.index t (3 : Fin 4) * 64 ≤ (i 3).val ∧ (i 3).val < win1_3.index t (3 : Fin 4) * 64 + 64; rw [f3]; omega

end Region

end Cert.KernelIdeal.Hand.R1

namespace Cert.KernelIdeal.Hand

open Cert.KernelIdeal Cert.KernelIdeal.Gen
open Idealize.ShloMosaic Idealize.ShloMosaic.TcCoe Idealize.SL.Sem Idealize.ShloMosaic.ValueIdx
open Cert.KernelIdeal.Hand.R1

variable (V : (c : Dev nD) → (b : Ref sig .tc) → Buf (Elt Ideal) ((c : Thread nD τ).loc b))

/-- THE ARRAY after the region: attention of the entry contents, everywhere. -/
theorem final1_3 (c : Dev nD) : (dat1 (F := Ideal) V c).arrAt 3 cfg1.N = G1 V c :=
  (dat1 (F := Ideal) V c).arrAt_eq_of_cover 3 (G1 V c) (fun t _ => flushed1_3_eq V c t) cover1_arr

/-- The same, index by index, as the specification's attention of the three operand arrays. -/
theorem final1_3_apply (c : Dev nD) (h : Fin 12) (b : Fin 2) (i : Fin 2048) (d : Fin 64) :
    (dat1 (F := Ideal) V c).arrAt 3 cfg1.N (ix4 h b i d)
      = Cert.Spec.attn (fun h b s d => V c main_v16_0 (ix4 h b s d)) (fun h b s d => V c main_v16_1 (ix4 h b s d))
          (fun h b s d => V c main_v16_2 (ix4 h b s d)) h b i d :=
  (congrFun (final1_3 V c) (ix4 h b i d)).trans (G1_of_coords V c (ix4 h b i d) h b i d rfl rfl rfl rfl)

end Cert.KernelIdeal.Hand

end
-- ==== Proof.KI.Val2Steps.lean ====
/-
  Region 2 of the kernel program at the exact values, one grid point at a time: the body's stored values read at an
  index, and what the body's stores leave in the scratch and in the output block, as functions of the blocks the
  body is handed.

  A head's step adds to the scratch, at (b, r, e), the inner product over the 64 in-head coordinates of context row
  (b, r) with column e of the head's weight block; the first head starts from the zero fill; the epilogue adds the
  bias row. No grid, no array: the next module reads the blocks off the arrays.
-/
import proofs.«113036_j73607149519274_2_alg».proof.Proof.KI.Reg2
import proofs.«113036_j73607149519274_2_alg».proof.Proof.LibMatProd
import proofs.«113036_j73607149519274_2_alg».proof.Proof.Spec
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

/-! ## The product's dimension record -/

/-- The body's product contracts the context slab's columns with the weight block's rows. -/
theorem contracts2_out : Cert.Linear.Contracts (R := 512) (K := 64) (N := 768) dot_S512x64_S64x768_S512x768_1_0_0_1_n_n where
  rank := rfl
  size := rfl
  lhs0 := fun i q => by
    unfold DotDims.lhsIdx
    rw [dif_neg (show (0 : Fin S512x64.rank) ∉ dot_S512x64_S64x768_S512x768_1_0_0_1_n_n.lhsBatch from by decide),
      dif_pos (show (0 : Fin S512x64.rank) ∈ dot_S512x64_S64x768_S512x768_1_0_0_1_n_n.lhsNonContracting from by decide)]
    rfl
  lhs1 := fun i q => DotDims.lhsIdx_val_of_single _ rfl i q
  rhs0 := fun i q => DotDims.rhsIdx_val_of_single _ rfl i q
  rhs1 := fun i q => by
    unfold DotDims.rhsIdx
    rw [dif_neg (show (1 : Fin S64x768.rank) ∉ dot_S512x64_S64x768_S512x768_1_0_0_1_n_n.rhsBatch from by decide),
      dif_pos (show (1 : Fin S64x768.rank) ∈ dot_S512x64_S64x768_S512x768_1_0_0_1_n_n.rhsNonContracting from by decide)]
    rfl

/-! ## The payloads at an index -/

/-- A context slab `[1, 1, 512, 64]` cast to `[512, 64]` reads, at `(r, d)`, the slab at `(0, 0, r, d)`. -/
theorem cast2_slab_apply (x : Vec Ideal S1x1x512x64 .bf16) (h : S1x1x512x64.ShapeCasts S512x64) (r : Fin 512) (d : Fin 64) :
    shapeCast S512x64 x h (ix2 r d) = x (ix4 (0 : Fin 1) (0 : Fin 1) r d) :=
  shapeCast_apply x h _ _ (by
    rw [Shape.rowMajor_val_four, Shape.rowMajor_val_two]
    show ((0 * 1 + 0) * 512 + r.val) * 64 + d.val = r.val * 64 + d.val
    omega)

/-- A slab's new value: what it held plus the row of the context slab against the column of the weight block. -/
theorem k2_pay6_apply (v3 : Vec Ideal S1x64x768 .bf16) (v5 : Vec Ideal S1x1x512x64 .bf16) (v7 : Vec Ideal S1x512x768 .f32)
    (u : Fin 1) (r : Fin 512) (e : Fin 768) :
    k2_pay6 v3 v5 v7 (ix3 u r e) = v7 (ix3 (0 : Fin 1) r e) + ∑ d : Fin 64, v5 (ix4 (0 : Fin 1) (0 : Fin 1) r d) * v3 (ix3 (0 : Fin 1) d e) := by
  unfold k2_pay6 k2_pay5
  refine (shapeCast_ab_1ab_apply _ _ u r e).trans ?_
  refine congrArg₂ (· + ·) (shapeCast_1ab_ab_apply v7 _ r e) ?_
  refine (congrFun (Cert.Linear.matmul_zero_eq contracts2_out none _ _) (ix2 r e)).trans ?_
  unfold Cert.Linear.matProd
  refine Finset.sum_congr rfl fun d _ => ?_
  exact congrArg₂ (· * ·) (cast2_slab_apply v5 _ r d) (shapeCast_1ab_ab_apply v3 _ d e)

theorem k2_pay7_apply (v3 : Vec Ideal S1x64x768 .bf16) (v14 : Vec Ideal S1x1x512x64 .bf16) (v16 : Vec Ideal S1x512x768 .f32)
    (u : Fin 1) (r : Fin 512) (e : Fin 768) :
    k2_pay7 v3 v14 v16 (ix3 u r e) = v16 (ix3 (0 : Fin 1) r e) + ∑ d : Fin 64, v14 (ix4 (0 : Fin 1) (0 : Fin 1) r d) * v3 (ix3 (0 : Fin 1) d e) := by
  unfold k2_pay7 k2_pay5
  refine (shapeCast_ab_1ab_apply _ _ u r e).trans ?_
  refine congrArg₂ (· + ·) (shapeCast_1ab_ab_apply v16 _ r e) ?_
  refine (congrFun (Cert.Linear.matmul_zero_eq contracts2_out none _ _) (ix2 r e)).trans ?_
  unfold Cert.Linear.matProd
  refine Finset.sum_congr rfl fun d _ => ?_
  exact congrArg₂ (· * ·) (cast2_slab_apply v14 _ r d) (shapeCast_1ab_ab_apply v3 _ d e)

/-- The epilogue: a scratch slab plus the bias row. -/
theorem k2_pay2_apply (v26 : Vec Ideal S1x768 .f32) (v28 : Vec Ideal S1x512x768 .f32) (u : Fin 1) (r : Fin 512) (e : Fin 768) :
    k2_pay2 v26 v28 (ix3 u r e) = v28 (ix3 (0 : Fin 1) r e) + v26 (ix2 (0 : Fin 1) e) := by
  unfold k2_pay2 k2_pay1
  refine (shapeCast_ab_1ab_apply _ _ u r e).trans ?_
  refine congrArg₂ (· + ·) (shapeCast_1ab_ab_apply v28 _ r e) ?_
  refine (broadcastTo_1b_ab_apply _ _ r e).trans ?_
  exact congrFun (shapeCast_self v26 _) _

theorem k2_pay3_apply (v26 : Vec Ideal S1x768 .f32) (v35 : Vec Ideal S1x512x768 .f32) (u : Fin 1) (r : Fin 512) (e : Fin 768) :
    k2_pay3 v26 v35 (ix3 u r e) = v35 (ix3 (0 : Fin 1) r e) + v26 (ix2 (0 : Fin 1) e) := by
  unfold k2_pay3 k2_pay1
  refine (shapeCast_ab_1ab_apply _ _ u r e).trans ?_
  refine congrArg₂ (· + ·) (shapeCast_1ab_ab_apply v35 _ r e) ?_
  refine (broadcastTo_1b_ab_apply _ _ r e).trans ?_
  exact congrFun (shapeCast_self v26 _) _

/-- The fill is zero everywhere. -/
theorem k2_pay4_apply (i : S2x512x768.Idx) : k2_pay4 (F := Ideal) i = 0 := by
  unfold k2_pay4
  refine (congrFun (shapeCast_self _ _) i).trans ?_
  exact Ideal.ofBits_zero_f32

/-! ## The body's rectangles at an index -/

theorem idx_r2W (u : Fin 1) (d : Fin 64) (e : Fin 768) : r2W.idx (ix3 u d e) = (ix3 (0 : Fin 1) d e : S1x64x768.Idx) :=
  funext fun a => Fin.ext (by
    have hu := u.isLt
    match a with
    | ⟨0, _⟩ => show 0 + 1 * u.val = 0; omega
    | ⟨1, _⟩ => show 0 + 1 * d.val = d.val; omega
    | ⟨2, _⟩ => show 0 + 1 * e.val = e.val; omega)

theorem idx_r2B (u : Fin 1) (e : Fin 768) : r2B.idx (ix2 u e) = (ix2 (0 : Fin 1) e : S1x768.Idx) :=
  funext fun a => Fin.ext (by
    have hu := u.isLt
    match a with
    | ⟨0, _⟩ => show 0 + 1 * u.val = 0; omega
    | ⟨1, _⟩ => show 0 + 1 * e.val = e.val; omega)

theorem idx_r2C0 (u v : Fin 1) (r : Fin 512) (d : Fin 64) : r2C0.idx (ix4 u v r d) = (ix4 (0 : Fin 1) (0 : Fin 2) r d : S1x2x512x64.Idx) :=
  funext fun a => Fin.ext (by
    have hu := u.isLt; have hv := v.isLt
    match a with
    | ⟨0, _⟩ => show 0 + 1 * u.val = 0; omega
    | ⟨1, _⟩ => show 0 + 1 * v.val = 0; omega
    | ⟨2, _⟩ => show 0 + 1 * r.val = r.val; omega
    | ⟨3, _⟩ => show 0 + 1 * d.val = d.val; omega)

theorem idx_r2C1 (u v : Fin 1) (r : Fin 512) (d : Fin 64) : r2C1.idx (ix4 u v r d) = (ix4 (0 : Fin 1) (1 : Fin 2) r d : S1x2x512x64.Idx) :=
  funext fun a => Fin.ext (by
    have hu := u.isLt; have hv := v.isLt
    match a with
    | ⟨0, _⟩ => show 0 + 1 * u.val = 0; omega
    | ⟨1, _⟩ => show 1 + 1 * v.val = 1; omega
    | ⟨2, _⟩ => show 0 + 1 * r.val = r.val; omega
    | ⟨3, _⟩ => show 0 + 1 * d.val = d.val; omega)

theorem idx_r2S0 (u : Fin 1) (r : Fin 512) (e : Fin 768) : r2S0.idx (ix3 u r e) = (ix3 (0 : Fin 2) r e : S2x512x768.Idx) :=
  funext fun a => Fin.ext (by
    have hu := u.isLt
    match a with
    | ⟨0, _⟩ => show 0 + 1 * u.val = 0; omega
    | ⟨1, _⟩ => show 0 + 1 * r.val = r.val; omega
    | ⟨2, _⟩ => show 0 + 1 * e.val = e.val; omega)

theorem idx_r2S1 (u : Fin 1) (r : Fin 512) (e : Fin 768) : r2S1.idx (ix3 u r e) = (ix3 (1 : Fin 2) r e : S2x512x768.Idx) :=
  funext fun a => Fin.ext (by
    have hu := u.isLt
    match a with
    | ⟨0, _⟩ => show 1 + 1 * u.val = 1; omega
    | ⟨1, _⟩ => show 0 + 1 * r.val = r.val; omega
    | ⟨2, _⟩ => show 0 + 1 * e.val = e.val; omega)

/-- Slab 0 is not under slab 1's rectangle, nor slab 1 under slab 0's. -/
theorem not_mem_r2S1 (r : Fin 512) (e : Fin 768) : (ix3 (0 : Fin 2) r e : S2x512x768.Idx) ∉ r2S1.set := by
  rw [Rect.mem_set_unit]
  intro h
  have h0 := (h 0).1
  exact absurd h0 (by show ¬(1 ≤ 0); omega)

theorem not_mem_r2S0 (r : Fin 512) (e : Fin 768) : (ix3 (1 : Fin 2) r e : S2x512x768.Idx) ∉ r2S0.set := by
  rw [Rect.mem_set_unit]
  intro h
  have h0 := (h 0).2
  exact absurd h0 (by show ¬(1 < 0 + 1); omega)

/-! ## The steps at an index -/

/-- A batch index is 0 or 1. -/
theorem fin2_cases2 (b : Fin 2) : b = 0 ∨ b = 1 := by
  rcases b with ⟨_ | _ | n, h⟩
  · exact Or.inl rfl
  · exact Or.inr rfl
  · omega

/-- Under a last store into slab 1, slab 1 reads that store's payload, -/
theorem canon2_slab1_apply (p1 : r2S1.shape.Idx → Elt Ideal .f32) (L : List (View.Piece (Elt Ideal) S2x512x768 .f32)) (r : Fin 512) (e : Fin 768) :
    View.canon ((⟨r2S1, p1⟩ : View.Piece (Elt Ideal) S2x512x768 .f32) :: L) (ix3 (1 : Fin 2) r e) = p1 (ix3 (0 : Fin 1) r e) := by
  have he : (ix3 (1 : Fin 2) r e : S2x512x768.Idx) = r2S1.emb (ix3 (0 : Fin 1) r e) := (idx_r2S1 0 r e).symm
  rw [he, View.canon_cons_emb]

/-- and slab 0 what the earlier stores left; -/
theorem canon2_skip1_apply (p1 : r2S1.shape.Idx → Elt Ideal .f32) (L : List (View.Piece (Elt Ideal) S2x512x768 .f32)) (r : Fin 512) (e : Fin 768) :
    View.canon ((⟨r2S1, p1⟩ : View.Piece (Elt Ideal) S2x512x768 .f32) :: L) (ix3 (0 : Fin 2) r e) = View.canon L (ix3 (0 : Fin 2) r e) :=
  View.canon_cons_of_not_mem (Val := Elt Ideal) (⟨r2S1, p1⟩ : View.Piece (Elt Ideal) S2x512x768 .f32) L (not_mem_r2S1 r e)

/-- the same for a store into slab 0. -/
theorem canon2_slab0_apply (p0 : r2S0.shape.Idx → Elt Ideal .f32) (L : List (View.Piece (Elt Ideal) S2x512x768 .f32)) (r : Fin 512) (e : Fin 768) :
    View.canon ((⟨r2S0, p0⟩ : View.Piece (Elt Ideal) S2x512x768 .f32) :: L) (ix3 (0 : Fin 2) r e) = p0 (ix3 (0 : Fin 1) r e) := by
  have he : (ix3 (0 : Fin 2) r e : S2x512x768.Idx) = r2S0.emb (ix3 (0 : Fin 1) r e) := (idx_r2S0 0 r e).symm
  rw [he, View.canon_cons_emb]

theorem canon2_skip0_apply (p0 : r2S0.shape.Idx → Elt Ideal .f32) (L : List (View.Piece (Elt Ideal) S2x512x768 .f32)) (r : Fin 512) (e : Fin 768) :
    View.canon ((⟨r2S0, p0⟩ : View.Piece (Elt Ideal) S2x512x768 .f32) :: L) (ix3 (1 : Fin 2) r e) = View.canon L (ix3 (1 : Fin 2) r e) :=
  View.canon_cons_of_not_mem (Val := Elt Ideal) (⟨r2S0, p0⟩ : View.Piece (Elt Ideal) S2x512x768 .f32) L (not_mem_r2S0 r e)

/-- A later head: the scratch gains, at `(b, r, e)`, row `r` of batch slab `b` of the context block against column `e` of the
    weight block. -/
theorem step2S_apply (x0 : Vec Ideal S1x2x512x64 .bf16) (x1 : Vec Ideal S1x64x768 .bf16) (xs : Vec Ideal S2x512x768 .f32)
    (b : Fin 2) (r : Fin 512) (e : Fin 768) :
    step2S x0 x1 xs (ix3 b r e) = xs (ix3 b r e) + ∑ d : Fin 64, x0 (ix4 (0 : Fin 1) b r d) * x1 (ix3 (0 : Fin 1) d e) := by
  unfold step2S pieces2S
  rcases fin2_cases2 b with rfl | rfl
  · rw [canon2_skip1_apply, canon2_slab0_apply]
    refine (k2_pay6_apply _ _ _ 0 r e).trans ?_
    refine congrArg₂ (· + ·) (congrArg xs (idx_r2S0 0 r e)) (Finset.sum_congr rfl fun d _ => ?_)
    exact congrArg₂ (· * ·) (congrArg x0 (idx_r2C0 0 0 r d)) (congrArg x1 (idx_r2W 0 d e))
  · rw [canon2_slab1_apply]
    refine (k2_pay7_apply _ _ _ 0 r e).trans ?_
    refine congrArg₂ (· + ·) (congrArg xs (idx_r2S1 0 r e)) (Finset.sum_congr rfl fun d _ => ?_)
    exact congrArg₂ (· * ·) (congrArg x0 (idx_r2C1 0 0 r d)) (congrArg x1 (idx_r2W 0 d e))

/-- The fill read back is zero everywhere. -/
theorem canon2_fill_apply (i : S2x512x768.Idx) : View.canon (pieces2A1 (F := Ideal)) i = 0 := by
  unfold pieces2A1
  have hz : (![0, 0, 0] : Fin 3 → Nat) = fun _ => 0 := funext fun a => by fin_cases a <;> rfl
  rw [View.canon_unit_zero hz]
  exact k2_pay4_apply i

/-- The first head: the same from zero. -/
theorem step2A_apply (x0 : Vec Ideal S1x2x512x64 .bf16) (x1 : Vec Ideal S1x64x768 .bf16)
    (b : Fin 2) (r : Fin 512) (e : Fin 768) :
    step2A x0 x1 (ix3 b r e) = 0 + ∑ d : Fin 64, x0 (ix4 (0 : Fin 1) b r d) * x1 (ix3 (0 : Fin 1) d e) := by
  unfold step2A pieces2A3
  rcases fin2_cases2 b with rfl | rfl
  · rw [canon2_skip1_apply]
    unfold pieces2A2
    rw [canon2_slab0_apply]
    refine (k2_pay6_apply _ _ _ 0 r e).trans ?_
    refine congrArg₂ (· + ·) (canon2_fill_apply _) (Finset.sum_congr rfl fun d _ => ?_)
    exact congrArg₂ (· * ·) (congrArg x0 (idx_r2C0 0 0 r d)) (congrArg x1 (idx_r2W 0 d e))
  · rw [canon2_slab1_apply]
    refine (k2_pay7_apply _ _ _ 0 r e).trans ?_
    refine congrArg₂ (· + ·) ?_ (Finset.sum_congr rfl fun d _ => ?_)
    · show View.canon (pieces2A2 x0 x1) (r2S1.idx (ix3 (0 : Fin 1) r e)) = 0
      rw [idx_r2S1]
      unfold pieces2A2
      rw [canon2_skip0_apply]
      exact canon2_fill_apply _
    · exact congrArg₂ (· * ·) (congrArg x0 (idx_r2C1 0 0 r d)) (congrArg x1 (idx_r2W 0 d e))

/-- The epilogue: the output block is the scratch plus the bias, row by row. -/
theorem out2O_apply (x2 : Vec Ideal S1x768 .f32) (s : Vec Ideal S2x512x768 .f32) (b : Fin 2) (r : Fin 512) (e : Fin 768) :
    out2O x2 s (ix3 b r e) = s (ix3 b r e) + x2 (ix2 (0 : Fin 1) e) := by
  unfold out2O pieces2O
  rcases fin2_cases2 b with rfl | rfl
  · rw [canon2_skip1_apply, canon2_slab0_apply]
    refine (k2_pay2_apply _ _ 0 r e).trans ?_
    exact congrArg₂ (· + ·) (congrArg s (idx_r2S0 0 r e)) (congrArg x2 (idx_r2B 0 e))
  · rw [canon2_slab1_apply]
    refine (k2_pay3_apply _ _ 0 r e).trans ?_
    exact congrArg₂ (· + ·) (congrArg s (idx_r2S1 0 r e)) (congrArg x2 (idx_r2B 0 e))

end Cert.KernelIdeal.Hand

end
-- ==== Proof.KI.Val2.lean ====
/-
  Region 2 of the kernel program, read at the exact values: what the output array holds after the region.

  The grid point t is (row block t / 12, head t % 12). The scratch after point t is, at (b, r, e), the sum over the
  heads 0 … t % 12 of the per-head products of context row (b, 512 · (t / 12) + r) with weight column e — by induction
  on the point, the first head starting from zero. The block written back at a last head is that sum over all twelve
  heads plus the bias; the four write-backs tile the output array; so the array ends at the output projection of the
  specification.
-/
import proofs.«113036_j73607149519274_2_alg».proof.Proof.KI.Val2Steps
import proofs.«113036_j73607149519274_2_alg».proof.Proof.Spec
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

/-! ## The windows' block indices over the grid -/

/-- Point `t` is head `t % 12` of row block `t / 12`: the context window moves with both, the weight window with the head,
    the bias window not at all, the output window with the row block. -/
theorem idx_facts2 : ∀ t : Fin cfg2.N,
    win2_0.index t (0 : Fin 4) = t.val % 12 ∧ win2_0.index t (1 : Fin 4) = 0 ∧ win2_0.index t (2 : Fin 4) = t.val / 12 ∧ win2_0.index t (3 : Fin 4) = 0
    ∧ win2_1.index t (0 : Fin 3) = t.val % 12 ∧ win2_1.index t (1 : Fin 3) = 0 ∧ win2_1.index t (2 : Fin 3) = 0
    ∧ win2_2.index t (0 : Fin 2) = 0 ∧ win2_2.index t (1 : Fin 2) = 0
    ∧ win2_3.index t (0 : Fin 3) = 0 ∧ win2_3.index t (1 : Fin 3) = t.val / 12 ∧ win2_3.index t (2 : Fin 3) = 0 :=
  (by decide +kernel : ∀ t : Fin grid2.N, _)

/-! ## The input blocks, read off the arrays -/

/-- The context block at point `t` is head `t % 12`, rows `512 · (t / 12) …` of the context array. -/
theorem iblk2_0_apply (c : Dev nD) (t : Fin cfg2.N) (u : Fin 1) (b : Fin 2) (r : Fin 512) (d : Fin 64) (h : Fin 12) (s : Fin 2048)
    (hh : h.val = t.val % 12) (hs : s.val = t.val / 12 * 512 + r.val) :
    (iblk2 V c 0 t : Vec Ideal S1x2x512x64 .bf16) (ix4 u b r d) = (V c main_v17 : S12x2x2048x64.Idx → EReal) (ix4 h b s d) := by
  obtain ⟨e0, e1, e2, e3, -⟩ := idx_facts2 t
  unfold iblk2
  rw [View.read_apply]
  show V c main_v17 _ = V c main_v17 _
  congr 1
  funext a
  apply Fin.ext
  have hu := u.isLt
  match a with
  | ⟨0, _⟩ => show win2_0.index t (0 : Fin 4) * 1 + 1 * u.val = h.val; rw [e0, hh]; omega
  | ⟨1, _⟩ => show win2_0.index t (1 : Fin 4) * 2 + 1 * b.val = b.val; rw [e1]; omega
  | ⟨2, _⟩ => show win2_0.index t (2 : Fin 4) * 512 + 1 * r.val = s.val; rw [e2, hs]; omega
  | ⟨3, _⟩ => show win2_0.index t (3 : Fin 4) * 64 + 1 * d.val = d.val; rw [e3]; omega

/-- The weight block at point `t` is head `t % 12` of the weight array. -/
theorem iblk2_1_apply (c : Dev nD) (t : Fin cfg2.N) (u : Fin 1) (d : Fin 64) (e : Fin 768) (h : Fin 12)
    (hh : h.val = t.val % 12) :
    (iblk2 V c 1 t : Vec Ideal S1x64x768 .bf16) (ix3 u d e) = (V c main_v11 : S12x64x768.Idx → EReal) (ix3 h d e) := by
  obtain ⟨-, -, -, -, e0, e1, e2, -⟩ := idx_facts2 t
  unfold iblk2
  rw [View.read_apply]
  show V c main_v11 _ = V c main_v11 _
  congr 1
  funext a
  apply Fin.ext
  have hu := u.isLt
  match a with
  | ⟨0, _⟩ => show win2_1.index t (0 : Fin 3) * 1 + 1 * u.val = h.val; rw [e0, hh]; omega
  | ⟨1, _⟩ => show win2_1.index t (1 : Fin 3) * 64 + 1 * d.val = d.val; rw [e1]; omega
  | ⟨2, _⟩ => show win2_1.index t (2 : Fin 3) * 768 + 1 * e.val = e.val; rw [e2]; omega

/-- The bias block is the bias array. -/
theorem iblk2_2_apply (c : Dev nD) (t : Fin cfg2.N) (u : Fin 1) (e : Fin 768) :
    (iblk2 V c 2 t : Vec Ideal S1x768 .f32) (ix2 u e) = (V c main_v15 : S1x768.Idx → EReal) (ix2 (0 : Fin 1) e) := by
  obtain ⟨-, -, -, -, -, -, -, e0, e1, -⟩ := idx_facts2 t
  unfold iblk2
  rw [View.read_apply]
  show V c main_v15 _ = V c main_v15 _
  congr 1
  funext a
  apply Fin.ext
  have hu := u.isLt
  match a with
  | ⟨0, _⟩ => show win2_2.index t (0 : Fin 2) * 1 + 1 * u.val = 0; rw [e0]; omega
  | ⟨1, _⟩ => show win2_2.index t (1 : Fin 2) * 768 + 1 * e.val = e.val; rw [e1]; omega

/-! ## The accumulation in closed form -/

/-- The three input arrays as curried functions of their coordinates: context `(head, batch, position, in-head)`,
    head-major output weight `(head, in-head, column)`, bias `(column)`. -/
def ctx2 (c : Dev nD) (h : Fin 12) (b : Fin 2) (s : Fin 2048) (d : Fin 64) : EReal := V c main_v17 (ix4 h b s d)
def wts2 (c : Dev nD) (h : Fin 12) (d : Fin 64) (e : Fin 768) : EReal := V c main_v11 (ix3 h d e)
def bias2 (c : Dev nD) (e : Fin 768) : EReal := V c main_v15 (ix2 (0 : Fin 1) e)

/-- The blocks the body is handed at a point, at their literal types. -/
abbrev blk2_0 (c : Dev nD) (t : Fin cfg2.N) : Vec Ideal S1x2x512x64 .bf16 := iblk2 V c 0 t
abbrev blk2_1 (c : Dev nD) (t : Fin cfg2.N) : Vec Ideal S1x64x768 .bf16 := iblk2 V c 1 t
abbrev blk2_2 (c : Dev nD) (t : Fin cfg2.N) : Vec Ideal S1x768 .f32 := iblk2 V c 2 t

/-- Head `h`'s product at `(b, s, e)`: context row `(h, b, s)` against column `e` of head `h`'s weight block. -/
def headTerm2 (c : Dev nD) (h : Fin 12) (b : Fin 2) (s : Fin 2048) (e : Fin 768) : EReal :=
  ∑ d : Fin 64, ctx2 V c h b s d * wts2 V c h d e

/-- The sum of the first `n` heads' products. -/
def headSum2 (c : Dev nD) (n : ℕ) (b : Fin 2) (s : Fin 2048) (e : Fin 768) : EReal :=
  ∑ k ∈ Finset.range n, if hk : k < 12 then headTerm2 V c ⟨k, hk⟩ b s e else 0

theorem headSum2_zero (c : Dev nD) (b : Fin 2) (s : Fin 2048) (e : Fin 768) : headSum2 V c 0 b s e = 0 := by
  unfold headSum2; exact Finset.sum_range_zero _

theorem headSum2_succ (c : Dev nD) (k : ℕ) (hk : k < 12) (b : Fin 2) (s : Fin 2048) (e : Fin 768) :
    headSum2 V c (k + 1) b s e = headSum2 V c k b s e + headTerm2 V c ⟨k, hk⟩ b s e := by
  unfold headSum2
  rw [Finset.sum_range_succ, dif_pos hk]

/-- One head's product from the point's blocks: at point `t` the blocks are head `t % 12`'s, rows `512 · (t / 12) …`. -/
theorem blocks_term2 (c : Dev nD) (t : Fin cfg2.N) (b : Fin 2) (r : Fin 512) (e : Fin 768) (s : Fin 2048) (h : Fin 12)
    (hs : s.val = t.val / 12 * 512 + r.val) (hh : h.val = t.val % 12) :
    ∑ d : Fin 64, blk2_0 V c t (ix4 (0 : Fin 1) b r d) * blk2_1 V c t (ix3 (0 : Fin 1) d e)
      = headTerm2 V c h b s e := by
  unfold headTerm2
  refine Finset.sum_congr rfl fun d _ => ?_
  exact congrArg₂ (· * ·) (iblk2_0_apply V c t 0 b r d h s hh hs) (iblk2_1_apply V c t 0 d e h hh)

/-- THE ACCUMULATION: after point `n` the scratch holds, at `(b, r, e)`, the sum of the products of the heads
    `0 … n % 12` at row `512 · (n / 12) + r`. By induction on the point: a first head starts from zero, any other
    adds its product to what the point before left (same row block, one head fewer). -/
theorem acc2_apply (c : Dev nD) : ∀ (n : ℕ) (hn : n < cfg2.N) (b : Fin 2) (r : Fin 512) (e : Fin 768) (s : Fin 2048),
    s.val = n / 12 * 512 + r.val → acc2 V c n hn (ix3 b r e) = headSum2 V c (n % 12 + 1) b s e
  | 0, hn, b, r, e, s, hs => by
    rw [acc2_first V c ⟨0, hn⟩ rfl, step2A_apply]
    refine (congrArg (fun x : EReal => 0 + x) (blocks_term2 V c ⟨0, hn⟩ b r e s ⟨0, by decide⟩ hs rfl)).trans ?_
    rw [show 0 % 12 + 1 = 0 + 1 from rfl, headSum2_succ V c 0 (by decide), headSum2_zero]
  | n + 1, hn, b, r, e, s, hs => by
    have hN : n + 1 < 48 := lt_of_lt_of_eq hn (show cfg2.N = 48 from N_2)
    by_cases h0 : (n + 1) % 12 = 0
    · rw [acc2_first V c ⟨n + 1, hn⟩ h0, step2A_apply]
      refine (congrArg (fun x : EReal => 0 + x) (blocks_term2 V c ⟨n + 1, hn⟩ b r e s ⟨0, by decide⟩ hs h0.symm)).trans ?_
      rw [h0, headSum2_succ V c 0 (by decide), headSum2_zero]
    · have hm : (n + 1) % 12 = n % 12 + 1 := by omega
      have hd : (n + 1) / 12 = n / 12 := by omega
      have hk : n % 12 + 1 < 12 := by omega
      rw [acc2_next V c ⟨n + 1, hn⟩ h0, step2S_apply]
      refine (congrArg₂ (· + ·)
        (acc2_apply c n (Nat.lt_of_succ_lt hn) b r e s (by rw [hs]; show (n + 1) / 12 * 512 + r.val = _; rw [hd]))
        (blocks_term2 V c ⟨n + 1, hn⟩ b r e s ⟨n % 12 + 1, hk⟩ hs hm.symm)).trans ?_
      rw [hm, headSum2_succ V c (n % 12 + 1) hk]

/-! ## What the region leaves in the output array -/

/-- The output projection of the specification at the region's three input arrays. -/
def G2 (c : Dev nD) : S2x2048x768.Idx → EReal := fun i =>
  Cert.Spec.outH (ctx2 V c) (wts2 V c) (bias2 V c) (i 0) (i 1) (i 2)

/-- All twelve heads' products are the specification's double sum. -/
theorem headSum2_full (c : Dev nD) (b : Fin 2) (s : Fin 2048) (e : Fin 768) :
    headSum2 V c 12 b s e = ∑ h : Fin 12, ∑ d : Fin 64, ctx2 V c h b s d * wts2 V c h d e := by
  unfold headSum2
  rw [Finset.sum_range]
  refine Finset.sum_congr rfl fun h _ => ?_
  rw [dif_pos h.isLt]
  rfl

/-- WHAT A LAST HEAD WRITES BACK is its row block of the specification's output projection. -/
theorem flushed2_eq (c : Dev nD) (t : Fin cfg2.N) (hf : (cfg2.win 3).flush t = true) :
    (dat2 V c).flushed 3 t = ((cfg2.win 3).blk t).view.read (Elt Ideal) (G2 V c) := by
  have h11 : t.val % 12 = 11 := (flush2_3 t).mp hf
  have hN : t.val < 48 := lt_of_lt_of_eq t.isLt (show cfg2.N = 48 from N_2)
  obtain ⟨-, -, -, -, -, -, -, -, -, e0, e1, e2⟩ := idx_facts2 t
  show (cfg2.win 3).cut (grid2.coords t) ((dat2 V c).after 3 t) = _
  rw [after2_3]
  funext j
  obtain ⟨b, r, e, rfl⟩ : ∃ (b : Fin 2) (r : Fin 512) (e : Fin 768), j = ix3 b r e := ⟨j 0, j 1, j 2, eq_ix3 j⟩
  have hs : t.val / 12 * 512 + r.val < 2048 := by have := r.isLt; omega
  have hemb : ((cfg2.win 3).blk t).view.emb (ix3 b r e) = (ix3 b (⟨t.val / 12 * 512 + r.val, hs⟩ : Fin 2048) e : S2x2048x768.Idx) := by
    funext a
    apply Fin.ext
    match a with
    | ⟨0, _⟩ => show win2_3.index t (0 : Fin 3) * 2 + 1 * b.val = b.val; rw [e0]; omega
    | ⟨1, _⟩ => show win2_3.index t (1 : Fin 3) * 512 + 1 * r.val = t.val / 12 * 512 + r.val; rw [e1]; omega
    | ⟨2, _⟩ => show win2_3.index t (2 : Fin 3) * 768 + 1 * e.val = e.val; rw [e2]; omega
  show out2O (blk2_2 V c t) (acc2 V c t.val t.isLt) (ix3 b r e) = G2 V c (((cfg2.win 3).blk t).view.emb (ix3 b r e))
  rw [hemb, out2O_apply]
  refine (congrArg₂ (· + ·) (acc2_apply V c t.val t.isLt b r e ⟨t.val / 12 * 512 + r.val, hs⟩ rfl) (iblk2_2_apply V c t 0 e)).trans ?_
  rw [show t.val % 12 + 1 = 12 from by omega, headSum2_full]
  rfl

/-- An index of the output array is in point `t`'s block iff each coordinate is in the block's range on its axis. -/
theorem mem_blk2_3 (t : Fin cfg2.N) (i : S2x2048x768.Idx) :
    i ∈ ((cfg2.win 3).blk t).view.set ↔ ∀ a : Fin 3, win2_3.index t a * S2x512x768.size a ≤ (i a).val ∧ (i a).val < win2_3.index t a * S2x512x768.size a + S2x512x768.size a := by
  show i ∈ ((View.whole main_v18).slice (win2_3.rect t)).set ↔ _
  rw [View.set_slice_whole, Rect.mem_set_unit]
  exact Iff.rfl

/-- Every index of the output array is under the block some last head writes back: that of its row block. -/
theorem cover2_3 (i : S2x2048x768.Idx) : ∃ t : Fin cfg2.N, (cfg2.win 3).flush t = true ∧ i ∈ ((cfg2.win 3).blk t).view.set := by
  have hi0 : (i 0).val < 2 := (i 0).isLt
  have hi1 : (i 1).val < 2048 := (i 1).isLt
  have hi2 : (i 2).val < 768 := (i 2).isLt
  have hN : cfg2.N = 48 := N_2
  have ht : (i 1).val / 512 * 12 + 11 < cfg2.N := by rw [hN]; omega
  refine ⟨⟨(i 1).val / 512 * 12 + 11, ht⟩, (flush2_3 _).mpr (by show ((i 1).val / 512 * 12 + 11) % 12 = 11; omega), ?_⟩
  obtain ⟨-, -, -, -, -, -, -, -, -, e0, e1, e2⟩ := idx_facts2 ⟨(i 1).val / 512 * 12 + 11, ht⟩
  rw [mem_blk2_3]
  intro a
  match a with
  | ⟨0, _⟩ => show win2_3.index _ (0 : Fin 3) * 2 ≤ (i 0).val ∧ (i 0).val < win2_3.index _ (0 : Fin 3) * 2 + 2; rw [e0]; omega
  | ⟨1, _⟩ =>
    show win2_3.index _ (1 : Fin 3) * 512 ≤ (i 1).val ∧ (i 1).val < win2_3.index _ (1 : Fin 3) * 512 + 512
    rw [e1]; show ((i 1).val / 512 * 12 + 11) / 12 * 512 ≤ (i 1).val ∧ (i 1).val < ((i 1).val / 512 * 12 + 11) / 12 * 512 + 512; omega
  | ⟨2, _⟩ => show win2_3.index _ (2 : Fin 3) * 768 ≤ (i 2).val ∧ (i 2).val < win2_3.index _ (2 : Fin 3) * 768 + 768; rw [e2]; omega

/-- THE OUTPUT ARRAY after the region is the specification's output projection of the three input arrays, whatever
    the arrays held at entry. -/
theorem final2_3 (c : Dev nD) : (dat2 (F := Ideal) V c).arrAt 3 cfg2.N = G2 V c :=
  (dat2 V c).arrAt_eq_of_cover 3 (G2 V c) (fun t hf => flushed2_eq V c t hf) cover2_3

/-- The same, index by index. -/
theorem final2_3_apply (c : Dev nD) (b : Fin 2) (s : Fin 2048) (e : Fin 768) :
    (dat2 (F := Ideal) V c).arrAt 3 cfg2.N (ix3 b s e)
      = Cert.Spec.outH (fun h b s d => V c main_v17 (ix4 h b s d)) (fun h d e => V c main_v11 (ix3 h d e)) (fun e => V c main_v15 (ix2 0 e)) b s e := by
  rw [final2_3]
  rfl

end Cert.KernelIdeal.Hand

end
-- ==== Proof.KI.Prelude.lean ====
/-
  The host prelude of the kernel program, read at an index over the extended reals.

  Before the first kernel region the program lays its weights out by head. A square input weight `w (out, in)` is cut
  along its output axis into 12 blocks of 64 rows, each block transposed: entry `(h, k, d)` of the result is
  `w (h * 64 + d, k)`. The output weight is transposed first and then cut along what is now its leading axis: entry
  `(h, d, e)` is `w (e, h * 64 + d)`. A bias is cut into 12 rows of 64. Changes of float format are the identity on
  the extended reals.
-/
import proofs.«113036_j73607149519274_2_alg».proof.Proof.Gen.KernelIdeal.Launch
import proofs.«113036_j73607149519274_2_alg».proof.Proof.Spec
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx

/-! ## The layout steps at an index -/

/-- A 768 x 768 matrix cut into 12 blocks of 64 rows: entry `(h, d, k)` is the matrix at row `h * 64 + d`. -/
theorem cut_rows_apply {α : Type} (w : S768x768.Idx → α) (h : Fin 12) (d : Fin 64) (k : Fin 768) :
    shapeCast S12x64x768 w shapeCasts_S768x768_S12x64x768 (ix3 h d k) = w (ix2 (Cert.Spec.hd h d) k) :=
  shapeCast_apply w _ _ _ (by
    rw [Shape.rowMajor_val_two, Shape.rowMajor_val_three]
    show (h.val * 64 + d.val) * 768 + k.val = (h.val * 64 + d.val) * 768 + k.val
    rfl)

/-- A 768-vector cut into 12 rows of 64 (a unit axis between): entry `(h, 0, d)` is the vector at `h * 64 + d`. -/
theorem cut_vec_apply {α : Type} (b : S768.Idx → α) (h : Fin 12) (u : Fin 1) (d : Fin 64) :
    shapeCast S12x1x64 b shapeCasts_S768_S12x1x64 (ix3 h u d) = b (ix1 (Cert.Spec.hd h d)) :=
  shapeCast_apply b _ _ _ (by
    have hu : u.val = 0 := by omega
    rw [Shape.rowMajor_val_one, Shape.rowMajor_val_three]
    show h.val * 64 + d.val = (h.val * 1 + u.val) * 64 + d.val
    rw [hu]; omega)

/-- A 768-vector as a single row: entry `(0, e)` is the vector at `e`. -/
theorem row_vec_apply {α : Type} (b : S768.Idx → α) (u : Fin 1) (e : Fin 768) :
    shapeCast S1x768 b shapeCasts_S768_S1x768 (ix2 u e) = b (ix1 e) :=
  shapeCast_apply b _ _ _ (by
    have hu : u.val = 0 := by omega
    rw [Shape.rowMajor_val_one, Shape.rowMajor_val_two]
    show e.val = u.val * 768 + e.val
    rw [hu]; omega)

/-! ## What the prelude leaves in each buffer the regions read -/

section

variable (W : Valuation τ sig (Elt Ideal))

/-- An input weight laid out by head. -/
theorem headIn_apply (w : FVec Ideal S768x768 .f32) (h : Fin 12) (k : Fin 768) (d : Fin 64) :
    (truncf (F := Ideal) .bf16 (transpose S12x768x64 [0, 2, 1] (shapeCast S12x64x768 w shapeCasts_S768x768_S12x64x768) transposes_S12x64x768_S12x768x64_0_2_1) bitsLt_bf16_f32 : FVec Ideal S12x768x64 .bf16) (ix3 h k d)
      = w (ix2 (Cert.Spec.hd h d) k) :=
  (transpose_ix3_021_apply _ transposes_S12x64x768_S12x768x64_0_2_1 h k d).trans (cut_rows_apply w h d k)

theorem pre_v2_eq :
    (StableHlo.after (hostOps0 (F := Ideal)) W (Proc.devRef .tc main_v2) : FVec Ideal S12x768x64 .bf16)
      = truncf (F := Ideal) .bf16 (transpose S12x768x64 [0, 2, 1] (shapeCast S12x64x768 (W (Proc.devRef .tc main_arg1) : FVec Ideal S768x768 .f32) shapeCasts_S768x768_S12x64x768) transposes_S12x64x768_S12x768x64_0_2_1) bitsLt_bf16_f32 := by
  after_results; rfl
theorem pre_v5_eq :
    (StableHlo.after (hostOps0 (F := Ideal)) W (Proc.devRef .tc main_v5) : FVec Ideal S12x768x64 .bf16)
      = truncf (F := Ideal) .bf16 (transpose S12x768x64 [0, 2, 1] (shapeCast S12x64x768 (W (Proc.devRef .tc main_arg3) : FVec Ideal S768x768 .f32) shapeCasts_S768x768_S12x64x768) transposes_S12x64x768_S12x768x64_0_2_1) bitsLt_bf16_f32 := by
  after_results; rfl
theorem pre_v8_eq :
    (StableHlo.after (hostOps0 (F := Ideal)) W (Proc.devRef .tc main_v8) : FVec Ideal S12x768x64 .bf16)
      = truncf (F := Ideal) .bf16 (transpose S12x768x64 [0, 2, 1] (shapeCast S12x64x768 (W (Proc.devRef .tc main_arg5) : FVec Ideal S768x768 .f32) shapeCasts_S768x768_S12x64x768) transposes_S12x64x768_S12x768x64_0_2_1) bitsLt_bf16_f32 := by
  after_results; rfl
theorem pre_v11_eq :
    (StableHlo.after (hostOps0 (F := Ideal)) W (Proc.devRef .tc main_v11) : FVec Ideal S12x64x768 .bf16)
      = truncf (F := Ideal) .bf16 (shapeCast S12x64x768 (transpose S768x768 [1, 0] (W (Proc.devRef .tc main_arg7) : FVec Ideal S768x768 .f32) transposes_S768x768_S768x768_1_0) shapeCasts_S768x768_S12x64x768) bitsLt_bf16_f32 := by
  after_results; rfl
theorem pre_v12_eq :
    (StableHlo.after (hostOps0 (F := Ideal)) W (Proc.devRef .tc main_v12) : FVec Ideal S12x1x64 .f32)
      = shapeCast S12x1x64 (W (Proc.devRef .tc main_arg2) : FVec Ideal S768 .f32) shapeCasts_S768_S12x1x64 := by
  after_results; rfl
theorem pre_v13_eq :
    (StableHlo.after (hostOps0 (F := Ideal)) W (Proc.devRef .tc main_v13) : FVec Ideal S12x1x64 .f32)
      = shapeCast S12x1x64 (W (Proc.devRef .tc main_arg4) : FVec Ideal S768 .f32) shapeCasts_S768_S12x1x64 := by
  after_results; rfl
theorem pre_v14_eq :
    (StableHlo.after (hostOps0 (F := Ideal)) W (Proc.devRef .tc main_v14) : FVec Ideal S12x1x64 .f32)
      = shapeCast S12x1x64 (W (Proc.devRef .tc main_arg6) : FVec Ideal S768 .f32) shapeCasts_S768_S12x1x64 := by
  after_results; rfl
theorem pre_v15_eq :
    (StableHlo.after (hostOps0 (F := Ideal)) W (Proc.devRef .tc main_v15) : FVec Ideal S1x768 .f32)
      = shapeCast S1x768 (W (Proc.devRef .tc main_arg8) : FVec Ideal S768 .f32) shapeCasts_S768_S1x768 := by
  after_results; rfl

/-- The query weight by head, at `(h, k, d)`. -/
theorem pre_v2_apply (h : Fin 12) (k : Fin 768) (d : Fin 64) :
    (StableHlo.after (hostOps0 (F := Ideal)) W (Proc.devRef .tc main_v2) : FVec Ideal S12x768x64 .bf16) (ix3 h k d)
      = (W (Proc.devRef .tc main_arg1) : FVec Ideal S768x768 .f32) (ix2 (Cert.Spec.hd h d) k) := by
  rw [pre_v2_eq]; exact headIn_apply _ h k d
/-- The key weight by head. -/
theorem pre_v5_apply (h : Fin 12) (k : Fin 768) (d : Fin 64) :
    (StableHlo.after (hostOps0 (F := Ideal)) W (Proc.devRef .tc main_v5) : FVec Ideal S12x768x64 .bf16) (ix3 h k d)
      = (W (Proc.devRef .tc main_arg3) : FVec Ideal S768x768 .f32) (ix2 (Cert.Spec.hd h d) k) := by
  rw [pre_v5_eq]; exact headIn_apply _ h k d
/-- The value weight by head. -/
theorem pre_v8_apply (h : Fin 12) (k : Fin 768) (d : Fin 64) :
    (StableHlo.after (hostOps0 (F := Ideal)) W (Proc.devRef .tc main_v8) : FVec Ideal S12x768x64 .bf16) (ix3 h k d)
      = (W (Proc.devRef .tc main_arg5) : FVec Ideal S768x768 .f32) (ix2 (Cert.Spec.hd h d) k) := by
  rw [pre_v8_eq]; exact headIn_apply _ h k d
/-- The output weight by head, at `(h, d, e)`. -/
theorem pre_v11_apply (h : Fin 12) (d : Fin 64) (e : Fin 768) :
    (StableHlo.after (hostOps0 (F := Ideal)) W (Proc.devRef .tc main_v11) : FVec Ideal S12x64x768 .bf16) (ix3 h d e)
      = (W (Proc.devRef .tc main_arg7) : FVec Ideal S768x768 .f32) (ix2 e (Cert.Spec.hd h d)) := by
  rw [pre_v11_eq]
  exact (cut_rows_apply _ h d e).trans (transpose_ix2_apply _ transposes_S768x768_S768x768_1_0 (Cert.Spec.hd h d) e)
/-- The three biases by head, at `(h, 0, d)`. -/
theorem pre_v12_apply (h : Fin 12) (u : Fin 1) (d : Fin 64) :
    (StableHlo.after (hostOps0 (F := Ideal)) W (Proc.devRef .tc main_v12) : FVec Ideal S12x1x64 .f32) (ix3 h u d)
      = (W (Proc.devRef .tc main_arg2) : FVec Ideal S768 .f32) (ix1 (Cert.Spec.hd h d)) := by
  rw [pre_v12_eq]; exact cut_vec_apply _ h u d
theorem pre_v13_apply (h : Fin 12) (u : Fin 1) (d : Fin 64) :
    (StableHlo.after (hostOps0 (F := Ideal)) W (Proc.devRef .tc main_v13) : FVec Ideal S12x1x64 .f32) (ix3 h u d)
      = (W (Proc.devRef .tc main_arg4) : FVec Ideal S768 .f32) (ix1 (Cert.Spec.hd h d)) := by
  rw [pre_v13_eq]; exact cut_vec_apply _ h u d
theorem pre_v14_apply (h : Fin 12) (u : Fin 1) (d : Fin 64) :
    (StableHlo.after (hostOps0 (F := Ideal)) W (Proc.devRef .tc main_v14) : FVec Ideal S12x1x64 .f32) (ix3 h u d)
      = (W (Proc.devRef .tc main_arg6) : FVec Ideal S768 .f32) (ix1 (Cert.Spec.hd h d)) := by
  rw [pre_v14_eq]; exact cut_vec_apply _ h u d
/-- The output bias as a row, at `(0, e)`. -/
theorem pre_v15_apply (u : Fin 1) (e : Fin 768) :
    (StableHlo.after (hostOps0 (F := Ideal)) W (Proc.devRef .tc main_v15) : FVec Ideal S1x768 .f32) (ix2 u e)
      = (W (Proc.devRef .tc main_arg8) : FVec Ideal S768 .f32) (ix1 e) := by
  rw [pre_v15_eq]; exact row_vec_apply _ u e

end

end Cert.KernelIdeal.Hand

end
-- ==== Proof.KI.ValueOf.lean ====
/-
  The kernel program's result, composed through the run, for any proof data of the three regions whose arrays end at
  the specification's stages of their entry contents.

  Region 2's output is the head-major output projection of what it finds in its context, weight and bias buffers; the
  context buffer is region 1's output, the attention of what region 1 finds in its three operand buffers; those are
  region 0's outputs, the head-split projections of the input against the weights and biases the host prelude laid out by
  head; and the prelude's buffers, which no region writes, hold the argument arrays re-indexed by head.  Walking each
  buffer back to the launch contents, the result is the specification of the nine argument arrays.
-/
import proofs.«113036_j73607149519274_2_alg».proof.Proof.KI.Args
import proofs.«113036_j73607149519274_2_alg».proof.Proof.KI.Prelude
import proofs.«113036_j73607149519274_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg)
open Cert.Spec

namespace Glue

variable (P : Params Ideal)

/-- Region 0's output 7, as the next region finds it, is the head-split projection of the launch contents of the
    input, of weight `main_arg1` and of bias `main_arg2`. -/
theorem q_of (H : ∀ (V : Conts Ideal) (c : Dev nD) (h : Fin 12) (b : Fin 2) (s : Fin 2048) (d : Fin 64),
      (P.D0 V c).arrAt 7 cfg0.N (ix4 h b s d)
        = projH (fun b s k => V c main_arg0 (ix3 b s k)) (fun h k d => V c main_v2 (ix3 h k d)) (fun h d => V c main_v12 (ix3 h 0 d)) h b s d) (c : Dev nD) :
    (fun h b s d => V2 P c main_v16_0 (ix4 h b s d)) = projH (fun b s k => P.m ((c.tc : Thread nD τ).loc main_arg0) (ix3 b s k)) (headW (fun o k => P.m ((c.tc : Thread nD τ).loc main_arg1) (ix2 o k))) (headB (fun o => P.m ((c.tc : Thread nD τ).loc main_arg2) (ix1 o))) := by
  funext h b s d
  have ea : W2 P c (Proc.devRef .tc main_v16_0) = (P.D0 (V1 P) c).arrAt 7 cfg0.N := W2_arr P c 7
  have ex : (fun b s k => V1 P c main_arg0 (ix3 b s k)) = (fun b s k => P.m ((c.tc : Thread nD τ).loc main_arg0) (ix3 b s k)) := by
    funext b s k; exact congrFun (W1_of P c main_arg0 (by decide)) (ix3 b s k)
  have ew : (fun h k d => V1 P c main_v2 (ix3 h k d)) = headW (fun o k => P.m ((c.tc : Thread nD τ).loc main_arg1) (ix2 o k)) := by
    funext h k d; exact pre_v2_apply (W0 P c) h k d
  have eb : (fun h d => V1 P c main_v12 (ix3 h 0 d)) = headB (fun o => P.m ((c.tc : Thread nD τ).loc main_arg2) (ix1 o)) := by
    funext h d; exact pre_v12_apply (W0 P c) h 0 d
  refine (congrFun ea (ix4 h b s d)).trans ((H (V1 P) c h b s d).trans ?_)
  rw [ex, ew, eb]

/-- Region 0's output 8, as the next region finds it, is the head-split projection of the launch contents of the
    input, of weight `main_arg3` and of bias `main_arg4`. -/
theorem k_of (H : ∀ (V : Conts Ideal) (c : Dev nD) (h : Fin 12) (b : Fin 2) (s : Fin 2048) (d : Fin 64),
      (P.D0 V c).arrAt 8 cfg0.N (ix4 h b s d)
        = projH (fun b s k => V c main_arg0 (ix3 b s k)) (fun h k d => V c main_v5 (ix3 h k d)) (fun h d => V c main_v13 (ix3 h 0 d)) h b s d) (c : Dev nD) :
    (fun h b s d => V2 P c main_v16_1 (ix4 h b s d)) = projH (fun b s k => P.m ((c.tc : Thread nD τ).loc main_arg0) (ix3 b s k)) (headW (fun o k => P.m ((c.tc : Thread nD τ).loc main_arg3) (ix2 o k))) (headB (fun o => P.m ((c.tc : Thread nD τ).loc main_arg4) (ix1 o))) := by
  funext h b s d
  have ea : W2 P c (Proc.devRef .tc main_v16_1) = (P.D0 (V1 P) c).arrAt 8 cfg0.N := W2_arr P c 8
  have ex : (fun b s k => V1 P c main_arg0 (ix3 b s k)) = (fun b s k => P.m ((c.tc : Thread nD τ).loc main_arg0) (ix3 b s k)) := by
    funext b s k; exact congrFun (W1_of P c main_arg0 (by decide)) (ix3 b s k)
  have ew : (fun h k d => V1 P c main_v5 (ix3 h k d)) = headW (fun o k => P.m ((c.tc : Thread nD τ).loc main_arg3) (ix2 o k)) := by
    funext h k d; exact pre_v5_apply (W0 P c) h k d
  have eb : (fun h d => V1 P c main_v13 (ix3 h 0 d)) = headB (fun o => P.m ((c.tc : Thread nD τ).loc main_arg4) (ix1 o)) := by
    funext h d; exact pre_v13_apply (W0 P c) h 0 d
  refine (congrFun ea (ix4 h b s d)).trans ((H (V1 P) c h b s d).trans ?_)
  rw [ex, ew, eb]

/-- Region 0's output 9, as the next region finds it, is the head-split projection of the launch contents of the
    input, of weight `main_arg5` and of bias `main_arg6`. -/
theorem v_of (H : ∀ (V : Conts Ideal) (c : Dev nD) (h : Fin 12) (b : Fin 2) (s : Fin 2048) (d : Fin 64),
      (P.D0 V c).arrAt 9 cfg0.N (ix4 h b s d)
        = projH (fun b s k => V c main_arg0 (ix3 b s k)) (fun h k d => V c main_v8 (ix3 h k d)) (fun h d => V c main_v14 (ix3 h 0 d)) h b s d) (c : Dev nD) :
    (fun h b s d => V2 P c main_v16_2 (ix4 h b s d)) = projH (fun b s k => P.m ((c.tc : Thread nD τ).loc main_arg0) (ix3 b s k)) (headW (fun o k => P.m ((c.tc : Thread nD τ).loc main_arg5) (ix2 o k))) (headB (fun o => P.m ((c.tc : Thread nD τ).loc main_arg6) (ix1 o))) := by
  funext h b s d
  have ea : W2 P c (Proc.devRef .tc main_v16_2) = (P.D0 (V1 P) c).arrAt 9 cfg0.N := W2_arr P c 9
  have ex : (fun b s k => V1 P c main_arg0 (ix3 b s k)) = (fun b s k => P.m ((c.tc : Thread nD τ).loc main_arg0) (ix3 b s k)) := by
    funext b s k; exact congrFun (W1_of P c main_arg0 (by decide)) (ix3 b s k)
  have ew : (fun h k d => V1 P c main_v8 (ix3 h k d)) = headW (fun o k => P.m ((c.tc : Thread nD τ).loc main_arg5) (ix2 o k)) := by
    funext h k d; exact pre_v8_apply (W0 P c) h k d
  have eb : (fun h d => V1 P c main_v14 (ix3 h 0 d)) = headB (fun o => P.m ((c.tc : Thread nD τ).loc main_arg6) (ix1 o)) := by
    funext h d; exact pre_v14_apply (W0 P c) h 0 d
  refine (congrFun ea (ix4 h b s d)).trans ((H (V1 P) c h b s d).trans ?_)
  rw [ex, ew, eb]

/-- The output weight by head, as region 2 finds it: no region writes it, and the prelude cut the transposed argument
    by head. -/
theorem wo_of (c : Dev nD) :
    (fun h d e => V3 P c main_v11 (ix3 h d e)) = headWo (fun o k => P.m ((c.tc : Thread nD τ).loc main_arg7) (ix2 o k)) := by
  funext h d e
  have e1 : W3 P c (Proc.devRef .tc main_v11) = W1 P c (Proc.devRef .tc main_v11) :=
    (W3_of_ne P c main_v11 (by decide)).trans (W2_of_ne P c main_v11 (by decide))
  exact (congrFun e1 (ix3 h d e)).trans (pre_v11_apply (W0 P c) h d e)

/-- The output bias as a row, as region 2 finds it. -/
theorem bo_of (c : Dev nD) :
    (fun e => V3 P c main_v15 (ix2 0 e)) = (fun o => P.m ((c.tc : Thread nD τ).loc main_arg8) (ix1 o)) := by
  funext e
  have e1 : W3 P c (Proc.devRef .tc main_v15) = W1 P c (Proc.devRef .tc main_v15) :=
    (W3_of_ne P c main_v15 (by decide)).trans (W2_of_ne P c main_v15 (by decide))
  exact (congrFun e1 (ix2 0 e)).trans (pre_v15_apply (W0 P c) 0 e)

/-- THE RESULT: the last boundary's contents of the result buffer are the specification of the launch contents of the
    nine argument arrays. -/
theorem out_apply_of (H07 : ∀ (V : Conts Ideal) (c : Dev nD) (h : Fin 12) (b : Fin 2) (s : Fin 2048) (d : Fin 64),
      (P.D0 V c).arrAt 7 cfg0.N (ix4 h b s d)
        = projH (fun b s k => V c main_arg0 (ix3 b s k)) (fun h k d => V c main_v2 (ix3 h k d)) (fun h d => V c main_v12 (ix3 h 0 d)) h b s d)
    (H08 : ∀ (V : Conts Ideal) (c : Dev nD) (h : Fin 12) (b : Fin 2) (s : Fin 2048) (d : Fin 64),
      (P.D0 V c).arrAt 8 cfg0.N (ix4 h b s d)
        = projH (fun b s k => V c main_arg0 (ix3 b s k)) (fun h k d => V c main_v5 (ix3 h k d)) (fun h d => V c main_v13 (ix3 h 0 d)) h b s d)
    (H09 : ∀ (V : Conts Ideal) (c : Dev nD) (h : Fin 12) (b : Fin 2) (s : Fin 2048) (d : Fin 64),
      (P.D0 V c).arrAt 9 cfg0.N (ix4 h b s d)
        = projH (fun b s k => V c main_arg0 (ix3 b s k)) (fun h k d => V c main_v8 (ix3 h k d)) (fun h d => V c main_v14 (ix3 h 0 d)) h b s d)
    (H1 : ∀ (V : Conts Ideal) (c : Dev nD) (h : Fin 12) (b : Fin 2) (i : Fin 2048) (d : Fin 64),
      (P.D1 V c).arrAt 3 cfg1.N (ix4 h b i d)
        = attn (fun h b s d => V c main_v16_0 (ix4 h b s d)) (fun h b s d => V c main_v16_1 (ix4 h b s d))
            (fun h b s d => V c main_v16_2 (ix4 h b s d)) h b i d)
    (H2 : ∀ (V : Conts Ideal) (c : Dev nD) (b : Fin 2) (s : Fin 2048) (e : Fin 768),
      (P.D2 V c).arrAt 3 cfg2.N (ix3 b s e)
        = outH (fun h b s d => V c main_v17 (ix4 h b s d)) (fun h d e => V c main_v11 (ix3 h d e)) (fun e => V c main_v15 (ix2 0 e)) b s e)
    (c : Dev nD) (b : Fin 2) (s : Fin 2048) (e : Fin 768) :
    W4 P c (Proc.devRef .tc main_v18) (ix3 b s e)
      = whole (fun b s k => P.m ((c.tc : Thread nD τ).loc main_arg0) (ix3 b s k)) (fun o k => P.m ((c.tc : Thread nD τ).loc main_arg1) (ix2 o k)) (fun o => P.m ((c.tc : Thread nD τ).loc main_arg2) (ix1 o)) (fun o k => P.m ((c.tc : Thread nD τ).loc main_arg3) (ix2 o k)) (fun o => P.m ((c.tc : Thread nD τ).loc main_arg4) (ix1 o)) (fun o k => P.m ((c.tc : Thread nD τ).loc main_arg5) (ix2 o k)) (fun o => P.m ((c.tc : Thread nD τ).loc main_arg6) (ix1 o)) (fun o k => P.m ((c.tc : Thread nD τ).loc main_arg7) (ix2 o k)) (fun o => P.m ((c.tc : Thread nD τ).loc main_arg8) (ix1 o)) b s e := by
  have e4 : W4 P c (Proc.devRef .tc main_v18) = (P.D2 (V3 P) c).arrAt 3 cfg2.N := W4_arr P c 3
  have e3 : W3 P c (Proc.devRef .tc main_v17) = (P.D1 (V2 P) c).arrAt 3 cfg1.N := W3_arr P c 3
  have hctx : (fun h b s d => V3 P c main_v17 (ix4 h b s d))
      = attn (projH (fun b s k => P.m ((c.tc : Thread nD τ).loc main_arg0) (ix3 b s k)) (headW (fun o k => P.m ((c.tc : Thread nD τ).loc main_arg1) (ix2 o k))) (headB (fun o => P.m ((c.tc : Thread nD τ).loc main_arg2) (ix1 o)))) (projH (fun b s k => P.m ((c.tc : Thread nD τ).loc main_arg0) (ix3 b s k)) (headW (fun o k => P.m ((c.tc : Thread nD τ).loc main_arg3) (ix2 o k))) (headB (fun o => P.m ((c.tc : Thread nD τ).loc main_arg4) (ix1 o)))) (projH (fun b s k => P.m ((c.tc : Thread nD τ).loc main_arg0) (ix3 b s k)) (headW (fun o k => P.m ((c.tc : Thread nD τ).loc main_arg5) (ix2 o k))) (headB (fun o => P.m ((c.tc : Thread nD τ).loc main_arg6) (ix1 o)))) := by
    funext h b s d
    refine (congrFun e3 (ix4 h b s d)).trans ((H1 (V2 P) c h b s d).trans ?_)
    rw [q_of P H07 c, k_of P H08 c, v_of P H09 c]
  refine (congrFun e4 (ix3 b s e)).trans ((H2 (V3 P) c b s e).trans ?_)
  rw [hctx, wo_of P c, bo_of P c]
  rfl

end Glue

end Cert.KernelIdeal.Hand

end
-- ==== Proof.KI.Value.lean ====
/-
  The kernel program's result is the specification of the launch contents of its argument arrays.

  The three regions' arrays end at the head-split projections, the attention and the head-major output projection of
  what each region finds at its entry; composed through the run's boundaries, with the host prelude's layout of the
  weights by head, the result buffer ends at the whole computation of the nine arrays as launched.
-/
import proofs.«113036_j73607149519274_2_alg».proof.Proof.KI.Data
import proofs.«113036_j73607149519274_2_alg».proof.Proof.KI.Val0
import proofs.«113036_j73607149519274_2_alg».proof.Proof.KI.Val1
import proofs.«113036_j73607149519274_2_alg».proof.Proof.KI.Val2
import proofs.«113036_j73607149519274_2_alg».proof.Proof.KI.ValueOf

set_option maxRecDepth 16384

noncomputable section

namespace Cert.KernelIdeal.Hand

open Cert.KernelIdeal Cert.KernelIdeal.Gen
open Idealize.ShloMosaic Idealize.ShloMosaic.TcCoe Idealize.ShloMosaic.ValueIdx
open Cert.Spec

/-- At the run's last boundary the result buffer holds, at `(b, s, e)`, the specification of the nine argument arrays as
    launched. -/
theorem out_apply (m : (ℓ : Loc nD τ sig) → Buf (Elt Ideal) ℓ) (ρ : Dev nD → PrngReg) (c : Dev nD)
    (b : Fin 2) (s : Fin 2048) (e : Fin 768) :
    W4 (params m ρ) c (Proc.devRef .tc main_v18) (ix3 b s e)
      = whole (fun b s k => m ((c.tc : Thread nD τ).loc main_arg0) (ix3 b s k)) (fun o k => m ((c.tc : Thread nD τ).loc main_arg1) (ix2 o k)) (fun o => m ((c.tc : Thread nD τ).loc main_arg2) (ix1 o)) (fun o k => m ((c.tc : Thread nD τ).loc main_arg3) (ix2 o k)) (fun o => m ((c.tc : Thread nD τ).loc main_arg4) (ix1 o)) (fun o k => m ((c.tc : Thread nD τ).loc main_arg5) (ix2 o k)) (fun o => m ((c.tc : Thread nD τ).loc main_arg6) (ix1 o)) (fun o k => m ((c.tc : Thread nD τ).loc main_arg7) (ix2 o k)) (fun o => m ((c.tc : Thread nD τ).loc main_arg8) (ix1 o)) b s e :=
  Glue.out_apply_of (params m ρ) (fun V c => final0_7_apply V c) (fun V c => final0_8_apply V c)
    (fun V c => final0_9_apply V c) (fun V c => final1_3_apply V c) (fun V c => final2_3_apply V c) c b s e

end Cert.KernelIdeal.Hand

end
-- ==== Proof.Ref.Proj.lean ====
/-
  The three input projections of the reference, read at an index.

  Each is a product of the input with a square weight along the weight's second axis, plus a bias along the last axis,
  then the last axis of 768 columns split into 12 heads of 64 and the head axis moved in front of the positions.  At
  `(b, h, s, d)` that is the head-split projection of the specification.
-/
import proofs.«113036_j73607149519274_2_alg».proof.Proof.Gen.ReferenceIdeal.Read
import proofs.«113036_j73607149519274_2_alg».proof.Proof.Spec

noncomputable section

namespace Cert.ReferenceIdeal.RefValue

open Cert.ReferenceIdeal Cert.ReferenceIdeal.Gen Cert.ReferenceIdeal.Read Idealize.ShloMosaic Idealize.ShloMosaic.ValueIdx Cert.Spec

/-- Row `((b·2048 + s)·12 + h)·64 + d` of the flattened array is entry `(b, s, h·64 + d)` before the split of the last axis. -/
theorem splitQ (b : Fin 2) (s : Fin 2048) (h : Fin 12) (d : Fin 64) :
    idx_main_v4 (ix4 b s h d) = ix3 b s (hd h d) :=
  funext fun a => Fin.ext (by
    have hb := b.isLt; have hs := s.isLt; have hh := h.isLt; have hd' := d.isLt
    match a with
    | ⟨0, _⟩ => show ((((b.val * 2048 + s.val) * 12 + h.val) * 64 + d.val) / 1572864) = b.val; omega
    | ⟨1, _⟩ => show ((((b.val * 2048 + s.val) * 12 + h.val) * 64 + d.val) / 768 % 2048) = s.val; omega
    | ⟨2, _⟩ => show ((((b.val * 2048 + s.val) * 12 + h.val) * 64 + d.val) % 768) = h.val * 64 + d.val; omega)

/-- The projection, split by head and moved head-major, at `(b, h, s, d)`: row `(b, s)` of the input against row `h·64 + d`
    of the weight, plus the bias there. -/
theorem projQ (x : (⟨S2x2048x768, .f32⟩ : BufTy).Contents (Elt Ideal)) (w : (⟨S768x768, .f32⟩ : BufTy).Contents (Elt Ideal))
    (c : (⟨S768, .f32⟩ : BufTy).Contents (Elt Ideal)) (b : Fin 2) (h : Fin 12) (s : Fin 2048) (d : Fin 64) :
    val_main_v5 (F := Ideal) x w c (ix4 b h s d)
      = projH (fun b s k => x (ix3 b s k)) (headW fun o k => w (ix2 o k)) (headB fun o => c (ix1 o)) h b s d := by
  have e5 : idx_main_v5 (ix4 b h s d) = ix4 b s h d :=
    funext fun a => by match a with | ⟨0, _⟩ => rfl | ⟨1, _⟩ => rfl | ⟨2, _⟩ => rfl | ⟨3, _⟩ => rfl
  have el : ∀ k : Fin 768, lidx_main_v0 (ix3 b s (hd h d)) k = ix3 b s k := fun k =>
    funext fun a => by match a with | ⟨0, _⟩ => rfl | ⟨1, _⟩ => rfl | ⟨2, _⟩ => rfl
  have er : ∀ k : Fin 768, ridx_main_v0 (ix3 b s (hd h d)) k = ix2 (hd h d) k := fun k =>
    funext fun a => by match a with | ⟨0, _⟩ => rfl | ⟨1, _⟩ => rfl
  have eb : idx_main_v1 (idx_main_v2 (ix3 b s (hd h d))) = ix1 (hd h d) :=
    funext fun a => by match a with | ⟨0, _⟩ => rfl
  rw [val_main_v5_apply, e5, val_main_v4_apply, splitQ, val_main_v3_apply, val_main_v0_apply, val_main_v2_apply,
    val_main_v1_apply, eb]
  simp only [el, er, Ideal.addf_def]
  rfl

/-- Row `((b·2048 + s)·12 + h)·64 + d` of the flattened array is entry `(b, s, h·64 + d)` before the split of the last axis. -/
theorem splitK (b : Fin 2) (s : Fin 2048) (h : Fin 12) (d : Fin 64) :
    idx_main_v10 (ix4 b s h d) = ix3 b s (hd h d) :=
  funext fun a => Fin.ext (by
    have hb := b.isLt; have hs := s.isLt; have hh := h.isLt; have hd' := d.isLt
    match a with
    | ⟨0, _⟩ => show ((((b.val * 2048 + s.val) * 12 + h.val) * 64 + d.val) / 1572864) = b.val; omega
    | ⟨1, _⟩ => show ((((b.val * 2048 + s.val) * 12 + h.val) * 64 + d.val) / 768 % 2048) = s.val; omega
    | ⟨2, _⟩ => show ((((b.val * 2048 + s.val) * 12 + h.val) * 64 + d.val) % 768) = h.val * 64 + d.val; omega)

/-- The projection, split by head and moved head-major, at `(b, h, s, d)`: row `(b, s)` of the input against row `h·64 + d`
    of the weight, plus the bias there. -/
theorem projK (x : (⟨S2x2048x768, .f32⟩ : BufTy).Contents (Elt Ideal)) (w : (⟨S768x768, .f32⟩ : BufTy).Contents (Elt Ideal))
    (c : (⟨S768, .f32⟩ : BufTy).Contents (Elt Ideal)) (b : Fin 2) (h : Fin 12) (s : Fin 2048) (d : Fin 64) :
    val_main_v11 (F := Ideal) x w c (ix4 b h s d)
      = projH (fun b s k => x (ix3 b s k)) (headW fun o k => w (ix2 o k)) (headB fun o => c (ix1 o)) h b s d := by
  have e5 : idx_main_v11 (ix4 b h s d) = ix4 b s h d :=
    funext fun a => by match a with | ⟨0, _⟩ => rfl | ⟨1, _⟩ => rfl | ⟨2, _⟩ => rfl | ⟨3, _⟩ => rfl
  have el : ∀ k : Fin 768, lidx_main_v6 (ix3 b s (hd h d)) k = ix3 b s k := fun k =>
    funext fun a => by match a with | ⟨0, _⟩ => rfl | ⟨1, _⟩ => rfl | ⟨2, _⟩ => rfl
  have er : ∀ k : Fin 768, ridx_main_v6 (ix3 b s (hd h d)) k = ix2 (hd h d) k := fun k =>
    funext fun a => by match a with | ⟨0, _⟩ => rfl | ⟨1, _⟩ => rfl
  have eb : idx_main_v7 (idx_main_v8 (ix3 b s (hd h d))) = ix1 (hd h d) :=
    funext fun a => by match a with | ⟨0, _⟩ => rfl
  rw [val_main_v11_apply, e5, val_main_v10_apply, splitK, val_main_v9_apply, val_main_v6_apply, val_main_v8_apply,
    val_main_v7_apply, eb]
  simp only [el, er, Ideal.addf_def]
  rfl

/-- Row `((b·2048 + s)·12 + h)·64 + d` of the flattened array is entry `(b, s, h·64 + d)` before the split of the last axis. -/
theorem splitV (b : Fin 2) (s : Fin 2048) (h : Fin 12) (d : Fin 64) :
    idx_main_v16 (ix4 b s h d) = ix3 b s (hd h d) :=
  funext fun a => Fin.ext (by
    have hb := b.isLt; have hs := s.isLt; have hh := h.isLt; have hd' := d.isLt
    match a with
    | ⟨0, _⟩ => show ((((b.val * 2048 + s.val) * 12 + h.val) * 64 + d.val) / 1572864) = b.val; omega
    | ⟨1, _⟩ => show ((((b.val * 2048 + s.val) * 12 + h.val) * 64 + d.val) / 768 % 2048) = s.val; omega
    | ⟨2, _⟩ => show ((((b.val * 2048 + s.val) * 12 + h.val) * 64 + d.val) % 768) = h.val * 64 + d.val; omega)

/-- The projection, split by head and moved head-major, at `(b, h, s, d)`: row `(b, s)` of the input against row `h·64 + d`
    of the weight, plus the bias there. -/
theorem projV (x : (⟨S2x2048x768, .f32⟩ : BufTy).Contents (Elt Ideal)) (w : (⟨S768x768, .f32⟩ : BufTy).Contents (Elt Ideal))
    (c : (⟨S768, .f32⟩ : BufTy).Contents (Elt Ideal)) (b : Fin 2) (h : Fin 12) (s : Fin 2048) (d : Fin 64) :
    val_main_v17 (F := Ideal) x w c (ix4 b h s d)
      = projH (fun b s k => x (ix3 b s k)) (headW fun o k => w (ix2 o k)) (headB fun o => c (ix1 o)) h b s d := by
  have e5 : idx_main_v17 (ix4 b h s d) = ix4 b s h d :=
    funext fun a => by match a with | ⟨0, _⟩ => rfl | ⟨1, _⟩ => rfl | ⟨2, _⟩ => rfl | ⟨3, _⟩ => rfl
  have el : ∀ k : Fin 768, lidx_main_v12 (ix3 b s (hd h d)) k = ix3 b s k := fun k =>
    funext fun a => by match a with | ⟨0, _⟩ => rfl | ⟨1, _⟩ => rfl | ⟨2, _⟩ => rfl
  have er : ∀ k : Fin 768, ridx_main_v12 (ix3 b s (hd h d)) k = ix2 (hd h d) k := fun k =>
    funext fun a => by match a with | ⟨0, _⟩ => rfl | ⟨1, _⟩ => rfl
  have eb : idx_main_v13 (idx_main_v14 (ix3 b s (hd h d))) = ix1 (hd h d) :=
    funext fun a => by match a with | ⟨0, _⟩ => rfl
  rw [val_main_v17_apply, e5, val_main_v16_apply, splitV, val_main_v15_apply, val_main_v12_apply, val_main_v14_apply,
    val_main_v13_apply, eb]
  simp only [el, er, Ideal.addf_def]
  rfl

end Cert.ReferenceIdeal.RefValue

end
-- ==== Proof.Ref.Score.lean ====
/-
  The scaled scores of the reference, read at an index.

  Per batch entry and head, the product of the queries with the keys along the in-head coordinate, times one eighth:
  at `(b, h, i, j)` the scaled inner product of query row `i` and key row `j`.
-/
import proofs.«113036_j73607149519274_2_alg».proof.Proof.Gen.ReferenceIdeal.Read
import proofs.«113036_j73607149519274_2_alg».proof.Proof.Spec

noncomputable section

namespace Cert.ReferenceIdeal.RefValue

open Cert.ReferenceIdeal Cert.ReferenceIdeal.Gen Cert.ReferenceIdeal.Read Idealize.ShloMosaic Idealize.ShloMosaic.ValueIdx Cert.Spec

/-- The scaled score at `(b, h, i, j)`, over the head-major queries and keys. -/
theorem score_apply (x0 : (⟨S2x2048x768, .f32⟩ : BufTy).Contents (Elt Ideal)) (x1 : (⟨S768x768, .f32⟩ : BufTy).Contents (Elt Ideal)) (x2 : (⟨S768, .f32⟩ : BufTy).Contents (Elt Ideal)) (x3 : (⟨S768x768, .f32⟩ : BufTy).Contents (Elt Ideal)) (x4 : (⟨S768, .f32⟩ : BufTy).Contents (Elt Ideal)) (b : Fin 2) (h : Fin 12) (i j : Fin 2048) :
    val_main_v20 (F := Ideal) x0 x1 x2 x3 x4 (ix4 b h i j)
      = score (fun h b s d => val_main_v5 (F := Ideal) x0 x1 x2 (ix4 b h s d))
          (fun h b s d => val_main_v11 (F := Ideal) x0 x3 x4 (ix4 b h s d)) h b i j := by
  have el : ∀ k : Fin 64, lidx_main_v18 (ix4 b h i j) k = ix4 b h i k := fun k =>
    funext fun a => by match a with | ⟨0, _⟩ => rfl | ⟨1, _⟩ => rfl | ⟨2, _⟩ => rfl | ⟨3, _⟩ => rfl
  have er : ∀ k : Fin 64, ridx_main_v18 (ix4 b h i j) k = ix4 b h j k := fun k =>
    funext fun a => by match a with | ⟨0, _⟩ => rfl | ⟨1, _⟩ => rfl | ⟨2, _⟩ => rfl | ⟨3, _⟩ => rfl
  rw [val_main_v20_apply, val_main_v18_apply, val_main_v19_apply, val_main_cst_apply]
  simp only [el, er, Ideal.mulf_def, Ideal.ofBits_def]
  rfl

end Cert.ReferenceIdeal.RefValue

end
-- ==== Proof.LibMaxLast4.lean ====
/-
  Last-axis maxima of a rank-4 float array, read at the extended reals with indices given by coordinates.

  The maximum of an `a × b × c × d` array along its last axis, taken from a starting value, is at `(i, j, k)` the
  maximum of that value and the `d` entries `(i, j, k, n)` — written here as the fold of `max` from the starting
  value over `n`, for a host reduction with a `maximum` body (whose starting value is its scalar operand).  Indices are
  written with the literal-size constructors `ix3`, `ix4`, so that the lemma applies to a printed operation by
  unification.
-/
import Idealize.ShloMosaic.Lib.ValueIdx
import Idealize.ShloMosaic.PureOps.Ideal.Laws

namespace Cert.LibMaxLast4

open Idealize.ShloMosaic Idealize.ShloMosaic.ValueIdx

variable {φ : FTy}

/-- Inserting `n` into the rank-3 index `(i, j, k)` at the last axis gives the index `(i, j, k, n)`. -/
theorem lift_last {a b c d : ℕ} (h : (⟨4, ![a, b, c, d]⟩ : Shape).Reduces [3] ⟨3, ![a, b, c]⟩)
    (i : Fin a) (j : Fin b) (k : Fin c) (n : Fin d) :
    h.lift (ix3 i j k) n = ix4 i j k n :=
  funext fun ax => Fin.ext (by
    refine (h.lift_val (ix3 i j k) n ax).trans ?_
    unfold Shape.Reduces.liftVal
    match ax with
    | ⟨0, _⟩ => rfl
    | ⟨1, _⟩ => rfl
    | ⟨2, _⟩ => rfl
    | ⟨3, _⟩ => rfl)

/-- LAST-AXIS MAXIMA of a host reduction with a `maximum` body: at `(i, j, k)`, the fold of `max` from the initial
    value over the last coordinate. -/
theorem hostReduce_maximumf_last {a b c d : ℕ} {u : Shape} (x : FVec Ideal ⟨4, ![a, b, c, d]⟩ φ)
    (init : u.Idx → Ideal φ)
    (h' : (⟨4, ![a, b, c, d]⟩ : Shape).ReducesTo [3] ⟨3, ![a, b, c]⟩)
    (h : (⟨4, ![a, b, c, d]⟩ : Shape).Reduces [3] ⟨3, ![a, b, c]⟩)
    (hu : 0 < u.numel) (i : Fin a) (j : Fin b) (k : Fin c) :
    Host.reduce (FloatOps.maximumf (F := Ideal) (φ := φ)) x init h' hu (ix3 i j k)
      = (Finset.univ : Finset (Fin d)).fold max (init (Shape.Idx.first hu)) (fun n => x (ix4 i j k n)) := by
  refine (Host.reduce_eq_fold_single (FloatOps.maximumf (F := Ideal) (φ := φ)) x init h' h hu (ix3 i j k)).trans ?_
  exact congrArg (fun f => (Finset.univ : Finset (Fin d)).fold max (init (Shape.Idx.first hu)) f)
    (funext fun n => congrArg x (lift_last h i j k n))

end Cert.LibMaxLast4
-- ==== Proof.Ref.Softmax.lean ====
/-
  The softmax of the reference, read at an index.

  Along the last axis of the scores: the maximum from minus infinity, once more the maximum with minus infinity (which
  changes nothing, the fold already lying above its starting value), the shifted exponentials, their sum from zero, the
  quotient.  At `(b, h, i, j)` that is the one-row softmax of row `(b, h, i)` of the scores, at `j`.
-/
import proofs.«113036_j73607149519274_2_alg».proof.Proof.Gen.ReferenceIdeal.Read
import proofs.«113036_j73607149519274_2_alg».proof.Proof.Spec
import proofs.«113036_j73607149519274_2_alg».proof.Proof.LibMaxLast4

noncomputable section

namespace Cert.ReferenceIdeal.RefValue

open Cert.ReferenceIdeal Cert.ReferenceIdeal.Gen Cert.ReferenceIdeal.Read Idealize.ShloMosaic Idealize.ShloMosaic.ValueIdx Cert.Spec

open Cert.LibRowSoftmax

/-- The row maximum at `(b, h, i)`: the fold of `max` from minus infinity over the row's scores. -/
theorem max_apply (x0 : (⟨S2x2048x768, .f32⟩ : BufTy).Contents (Elt Ideal)) (x1 : (⟨S768x768, .f32⟩ : BufTy).Contents (Elt Ideal)) (x2 : (⟨S768, .f32⟩ : BufTy).Contents (Elt Ideal)) (x3 : (⟨S768x768, .f32⟩ : BufTy).Contents (Elt Ideal)) (x4 : (⟨S768, .f32⟩ : BufTy).Contents (Elt Ideal)) (b : Fin 2) (h : Fin 12) (i : Fin 2048) :
    val_main_v23 (F := Ideal) x0 x1 x2 x3 x4 (ix3 b h i)
      = rowMax (fun n => val_main_v20 (F := Ideal) x0 x1 x2 x3 x4 (ix4 b h i n)) := by
  rw [val_main_v23_apply, val_main_v22_apply, val_main_cst_1_apply]
  unfold val_main_v21
  generalize val_main_v20 (F := Ideal) x0 x1 x2 x3 x4 = y
  rw [Cert.LibMaxLast4.hostReduce_maximumf_last y _ reducesTo_S2x12x2048x2048_S2x12x2048_d3 (by decide) h_S_ b h i,
    val_main_cst_0_apply]
  simp only [Ideal.maximumf_def, Ideal.ofBits_def]
  exact max_eq_right ((Finset.le_fold_max _).mpr (Or.inl le_rfl))

/-- The shifted exponential at `(b, h, i, j)`. -/
theorem exp_apply (x0 : (⟨S2x2048x768, .f32⟩ : BufTy).Contents (Elt Ideal)) (x1 : (⟨S768x768, .f32⟩ : BufTy).Contents (Elt Ideal)) (x2 : (⟨S768, .f32⟩ : BufTy).Contents (Elt Ideal)) (x3 : (⟨S768x768, .f32⟩ : BufTy).Contents (Elt Ideal)) (x4 : (⟨S768, .f32⟩ : BufTy).Contents (Elt Ideal)) (b : Fin 2) (h : Fin 12) (i j : Fin 2048) :
    val_main_v27 (F := Ideal) x0 x1 x2 x3 x4 (ix4 b h i j)
      = Ideal.exp (val_main_v20 (F := Ideal) x0 x1 x2 x3 x4 (ix4 b h i j)
          - rowMax (fun n => val_main_v20 (F := Ideal) x0 x1 x2 x3 x4 (ix4 b h i n))) := by
  have e : idx_main_v24 (idx_main_v25 (ix4 b h i j)) = ix3 b h i :=
    funext fun a => by match a with | ⟨0, _⟩ => rfl | ⟨1, _⟩ => rfl | ⟨2, _⟩ => rfl
  rw [val_main_v27_apply, val_main_v26_apply, val_main_v25_apply, val_main_v24_apply, e, max_apply]
  rfl

/-- The softmax weight at `(b, h, i, j)`: the one-row softmax of the scores of row `(b, h, i)`. -/
theorem soft_apply (x0 : (⟨S2x2048x768, .f32⟩ : BufTy).Contents (Elt Ideal)) (x1 : (⟨S768x768, .f32⟩ : BufTy).Contents (Elt Ideal)) (x2 : (⟨S768, .f32⟩ : BufTy).Contents (Elt Ideal)) (x3 : (⟨S768x768, .f32⟩ : BufTy).Contents (Elt Ideal)) (x4 : (⟨S768, .f32⟩ : BufTy).Contents (Elt Ideal)) (b : Fin 2) (h : Fin 12) (i j : Fin 2048) :
    val_main_v31 (F := Ideal) x0 x1 x2 x3 x4 (ix4 b h i j)
      = soft (fun n => val_main_v20 (F := Ideal) x0 x1 x2 x3 x4 (ix4 b h i n)) j := by
  have e : idx_main_v29 (idx_main_v30 (ix4 b h i j)) = ix3 b h i :=
    funext fun a => by match a with | ⟨0, _⟩ => rfl | ⟨1, _⟩ => rfl | ⟨2, _⟩ => rfl
  have ek : ∀ k : Fin 2048, idx_main_v28 (ix3 b h i) k = ix4 b h i k := fun k =>
    funext fun a => by match a with | ⟨0, _⟩ => rfl | ⟨1, _⟩ => rfl | ⟨2, _⟩ => rfl | ⟨3, _⟩ => rfl
  rw [val_main_v31_apply, val_main_v30_apply, val_main_v29_apply, e, val_main_v28_apply, val_main_cst_2_apply]
  simp only [ek, exp_apply, Ideal.hostDivf_def, Ideal.ofBits_def, Ideal.ofBits_zero_f32, zero_add]
  rfl

end Cert.ReferenceIdeal.RefValue

end
-- ==== Proof.Ref.Context.lean ====
/-
  The weighted sum of the values and the return to the model layout, read at an index.

  Per batch entry and head, the softmax weights times the values along the key positions; then the head axis moved
  back behind the positions and merged with the in-head coordinate: column `h·64 + d` of the merged array is entry
  `(h, d)`.
-/
import proofs.«113036_j73607149519274_2_alg».proof.Proof.Gen.ReferenceIdeal.Read
import proofs.«113036_j73607149519274_2_alg».proof.Proof.Spec

noncomputable section

namespace Cert.ReferenceIdeal.RefValue

open Cert.ReferenceIdeal Cert.ReferenceIdeal.Gen Cert.ReferenceIdeal.Read Idealize.ShloMosaic Idealize.ShloMosaic.ValueIdx Cert.Spec

/-- The weighted sum at `(b, h, i, d)`: over the key positions, weight times value. -/
theorem ctx_apply (x0 : (⟨S2x2048x768, .f32⟩ : BufTy).Contents (Elt Ideal)) (x1 : (⟨S768x768, .f32⟩ : BufTy).Contents (Elt Ideal)) (x2 : (⟨S768, .f32⟩ : BufTy).Contents (Elt Ideal)) (x3 : (⟨S768x768, .f32⟩ : BufTy).Contents (Elt Ideal)) (x4 : (⟨S768, .f32⟩ : BufTy).Contents (Elt Ideal)) (x5 : (⟨S768x768, .f32⟩ : BufTy).Contents (Elt Ideal)) (x6 : (⟨S768, .f32⟩ : BufTy).Contents (Elt Ideal)) (b : Fin 2) (h : Fin 12) (i : Fin 2048) (d : Fin 64) :
    val_main_v32 (F := Ideal) x0 x1 x2 x3 x4 x5 x6 (ix4 b h i d)
      = ∑ j : Fin 2048, val_main_v31 (F := Ideal) x0 x1 x2 x3 x4 (ix4 b h i j) * val_main_v17 (F := Ideal) x0 x5 x6 (ix4 b h j d) := by
  have el : ∀ k : Fin 2048, lidx_main_v32 (ix4 b h i d) k = ix4 b h i k := fun k =>
    funext fun a => by match a with | ⟨0, _⟩ => rfl | ⟨1, _⟩ => rfl | ⟨2, _⟩ => rfl | ⟨3, _⟩ => rfl
  have er : ∀ k : Fin 2048, ridx_main_v32 (ix4 b h i d) k = ix4 b h k d := fun k =>
    funext fun a => by match a with | ⟨0, _⟩ => rfl | ⟨1, _⟩ => rfl | ⟨2, _⟩ => rfl | ⟨3, _⟩ => rfl
  rw [val_main_v32_apply]
  simp only [el, er]

/-- Entry `(b, s, h·64 + d)` of the merged array is entry `(b, s, h, d)` before the merge. -/
theorem merge_idx (b : Fin 2) (s : Fin 2048) (h : Fin 12) (d : Fin 64) :
    idx_main_v34 (ix3 b s (hd h d)) = ix4 b s h d :=
  funext fun a => Fin.ext (by
    have hb := b.isLt; have hs := s.isLt; have hh := h.isLt; have hd' := d.isLt
    match a with
    | ⟨0, _⟩ => show (((b.val * 2048 + s.val) * 768 + (h.val * 64 + d.val)) / 1572864) = b.val; omega
    | ⟨1, _⟩ => show (((b.val * 2048 + s.val) * 768 + (h.val * 64 + d.val)) / 768 % 2048) = s.val; omega
    | ⟨2, _⟩ => show (((b.val * 2048 + s.val) * 768 + (h.val * 64 + d.val)) / 64 % 12) = h.val; omega
    | ⟨3, _⟩ => show (((b.val * 2048 + s.val) * 768 + (h.val * 64 + d.val)) % 64) = d.val; omega)

/-- The merged array at `(b, s, h·64 + d)` is the weighted sum at `(b, h, s, d)`. -/
theorem merge_apply (x0 : (⟨S2x2048x768, .f32⟩ : BufTy).Contents (Elt Ideal)) (x1 : (⟨S768x768, .f32⟩ : BufTy).Contents (Elt Ideal)) (x2 : (⟨S768, .f32⟩ : BufTy).Contents (Elt Ideal)) (x3 : (⟨S768x768, .f32⟩ : BufTy).Contents (Elt Ideal)) (x4 : (⟨S768, .f32⟩ : BufTy).Contents (Elt Ideal)) (x5 : (⟨S768x768, .f32⟩ : BufTy).Contents (Elt Ideal)) (x6 : (⟨S768, .f32⟩ : BufTy).Contents (Elt Ideal)) (b : Fin 2) (s : Fin 2048) (h : Fin 12) (d : Fin 64) :
    val_main_v34 (F := Ideal) x0 x1 x2 x3 x4 x5 x6 (ix3 b s (hd h d))
      = val_main_v32 (F := Ideal) x0 x1 x2 x3 x4 x5 x6 (ix4 b h s d) := by
  have e : idx_main_v33 (ix4 b s h d) = ix4 b h s d :=
    funext fun a => by match a with | ⟨0, _⟩ => rfl | ⟨1, _⟩ => rfl | ⟨2, _⟩ => rfl | ⟨3, _⟩ => rfl
  rw [val_main_v34_apply, merge_idx, val_main_v33_apply, e]

end Cert.ReferenceIdeal.RefValue

end
-- ==== Proof.Ref.HeadSum.lean ====
/-
  A sum over the 768 columns of the model axis is the sum over the 12 heads of the sums over each head's 64 columns.

  Column `k` is `hd (k / 64) (k % 64)`; the correspondence between columns and pairs (head, in-head coordinate) is a
  bijection, and a sum in a commutative monoid may be taken along any bijection.  No finiteness of the terms is used.
-/
import proofs.«113036_j73607149519274_2_alg».proof.Proof.Spec

open scoped BigOperators

namespace Cert.Spec

/-- Pairs (head, in-head coordinate) against columns. -/
def hdEquiv : Fin 12 × Fin 64 ≃ Fin 768 where
  toFun p := hd p.1 p.2
  invFun k := (⟨k.val / 64, by have := k.isLt; omega⟩, ⟨k.val % 64, by omega⟩)
  left_inv p := by
    have h1 := p.1.isLt; have h2 := p.2.isLt
    refine Prod.ext (Fin.ext ?_) (Fin.ext ?_)
    · show (p.1.val * 64 + p.2.val) / 64 = p.1.val; omega
    · show (p.1.val * 64 + p.2.val) % 64 = p.2.val; omega
  right_inv k := Fin.ext (by show k.val / 64 * 64 + k.val % 64 = k.val; omega)

/-- A sum over the columns, head by head. -/
theorem sum_hd {M : Type*} [AddCommMonoid M] (g : Fin 768 → M) :
    ∑ k : Fin 768, g k = ∑ h : Fin 12, ∑ d : Fin 64, g (hd h d) := by
  rw [← Fintype.sum_prod_type' (fun h d => g (hd h d))]
  exact (Equiv.sum_comp hdEquiv g).symm

end Cert.Spec
-- ==== Proof.Ref.Output.lean ====
/-
  The output projection of the reference, read at an index, with its contraction regrouped head by head.

  The merged weighted sums against the output weight along the weight's second axis, plus the bias: at `(b, s, e)` a
  sum over the 768 columns.  Column `h·64 + d` of the merged array being entry `(h, d)` of the head-major one, the sum
  is the specification's double sum over heads and in-head coordinates.
-/
import proofs.«113036_j73607149519274_2_alg».proof.Proof.Gen.ReferenceIdeal.Read
import proofs.«113036_j73607149519274_2_alg».proof.Proof.Spec
import proofs.«113036_j73607149519274_2_alg».proof.Proof.Ref.Context
import proofs.«113036_j73607149519274_2_alg».proof.Proof.Ref.HeadSum

noncomputable section

namespace Cert.ReferenceIdeal.RefValue

open Cert.ReferenceIdeal Cert.ReferenceIdeal.Gen Cert.ReferenceIdeal.Read Idealize.ShloMosaic Idealize.ShloMosaic.ValueIdx Cert.Spec

/-- The result at `(b, s, e)`: the merged array's row `(b, s)` against row `e` of the output weight, plus the bias at `e`. -/
theorem out_apply (x0 : (⟨S2x2048x768, .f32⟩ : BufTy).Contents (Elt Ideal)) (x1 : (⟨S768x768, .f32⟩ : BufTy).Contents (Elt Ideal)) (x2 : (⟨S768, .f32⟩ : BufTy).Contents (Elt Ideal)) (x3 : (⟨S768x768, .f32⟩ : BufTy).Contents (Elt Ideal)) (x4 : (⟨S768, .f32⟩ : BufTy).Contents (Elt Ideal)) (x5 : (⟨S768x768, .f32⟩ : BufTy).Contents (Elt Ideal)) (x6 : (⟨S768, .f32⟩ : BufTy).Contents (Elt Ideal)) (x7 : (⟨S768x768, .f32⟩ : BufTy).Contents (Elt Ideal)) (x8 : (⟨S768, .f32⟩ : BufTy).Contents (Elt Ideal)) (b : Fin 2) (s : Fin 2048) (e : Fin 768) :
    val_main_v38 (F := Ideal) x0 x1 x2 x3 x4 x5 x6 x7 x8 (ix3 b s e)
      = (∑ k : Fin 768, val_main_v34 (F := Ideal) x0 x1 x2 x3 x4 x5 x6 (ix3 b s k) * x7 (ix2 e k)) + x8 (ix1 e) := by
  have el : ∀ k : Fin 768, lidx_main_v35 (ix3 b s e) k = ix3 b s k := fun k =>
    funext fun a => by match a with | ⟨0, _⟩ => rfl | ⟨1, _⟩ => rfl | ⟨2, _⟩ => rfl
  have er : ∀ k : Fin 768, ridx_main_v35 (ix3 b s e) k = ix2 e k := fun k =>
    funext fun a => by match a with | ⟨0, _⟩ => rfl | ⟨1, _⟩ => rfl
  have eb : idx_main_v36 (idx_main_v37 (ix3 b s e)) = ix1 e :=
    funext fun a => by match a with | ⟨0, _⟩ => rfl
  rw [val_main_v38_apply, val_main_v35_apply, val_main_v37_apply, val_main_v36_apply, eb]
  simp only [el, er, Ideal.addf_def]

/-- The result at `(b, s, e)` as the head-major output projection of the weighted sums. -/
theorem out_heads (x0 : (⟨S2x2048x768, .f32⟩ : BufTy).Contents (Elt Ideal)) (x1 : (⟨S768x768, .f32⟩ : BufTy).Contents (Elt Ideal)) (x2 : (⟨S768, .f32⟩ : BufTy).Contents (Elt Ideal)) (x3 : (⟨S768x768, .f32⟩ : BufTy).Contents (Elt Ideal)) (x4 : (⟨S768, .f32⟩ : BufTy).Contents (Elt Ideal)) (x5 : (⟨S768x768, .f32⟩ : BufTy).Contents (Elt Ideal)) (x6 : (⟨S768, .f32⟩ : BufTy).Contents (Elt Ideal)) (x7 : (⟨S768x768, .f32⟩ : BufTy).Contents (Elt Ideal)) (x8 : (⟨S768, .f32⟩ : BufTy).Contents (Elt Ideal)) (b : Fin 2) (s : Fin 2048) (e : Fin 768) :
    val_main_v38 (F := Ideal) x0 x1 x2 x3 x4 x5 x6 x7 x8 (ix3 b s e)
      = outH (fun h b s d => val_main_v32 (F := Ideal) x0 x1 x2 x3 x4 x5 x6 (ix4 b h s d)) (headWo fun o k => x7 (ix2 o k))
          (fun o => x8 (ix1 o)) b s e := by
  rw [out_apply, sum_hd]
  simp only [merge_apply]
  rfl

end Cert.ReferenceIdeal.RefValue

end
-- ==== Proof.Ref.Result.lean ====
/-
  The reference computes the specification.

  Index by index, the result of the reference program is the specification's function of the nine argument arrays: the
  three head-split projections, the scaled scores, their row softmax, the weighted sums of the values and the output
  projection regrouped head by head compose to it.  Hence every run of the reference ends with its result at the
  specification of the launch contents of its arguments, and the arguments unchanged.
-/
import proofs.«113036_j73607149519274_2_alg».proof.Proof.Gen.ReferenceIdeal.Read
import proofs.«113036_j73607149519274_2_alg».proof.Proof.Spec
import proofs.«113036_j73607149519274_2_alg».proof.Proof.Ref.Proj
import proofs.«113036_j73607149519274_2_alg».proof.Proof.Ref.Score
import proofs.«113036_j73607149519274_2_alg».proof.Proof.Ref.Softmax
import proofs.«113036_j73607149519274_2_alg».proof.Proof.Ref.Context
import proofs.«113036_j73607149519274_2_alg».proof.Proof.Ref.Output

noncomputable section

namespace Cert.ReferenceIdeal.RefValue

open Cert.ReferenceIdeal Cert.ReferenceIdeal.Gen Cert.ReferenceIdeal.Read Idealize.ShloMosaic Idealize.ShloMosaic.ValueIdx Cert.Spec

open Cert.LibRowSoftmax Idealize.ShloMosaic.TcCoe Idealize.SL.Sem Idealize.ShloMosaic.StableHlo

/-- The reference's last stage at `(b, s, e)` is the specification of the nine arrays. -/
theorem ref_apply (a0 : (⟨S2x2048x768, .f32⟩ : BufTy).Contents (Elt Ideal)) (a1 : (⟨S768x768, .f32⟩ : BufTy).Contents (Elt Ideal)) (a2 : (⟨S768, .f32⟩ : BufTy).Contents (Elt Ideal)) (a3 : (⟨S768x768, .f32⟩ : BufTy).Contents (Elt Ideal)) (a4 : (⟨S768, .f32⟩ : BufTy).Contents (Elt Ideal)) (a5 : (⟨S768x768, .f32⟩ : BufTy).Contents (Elt Ideal)) (a6 : (⟨S768, .f32⟩ : BufTy).Contents (Elt Ideal)) (a7 : (⟨S768x768, .f32⟩ : BufTy).Contents (Elt Ideal)) (a8 : (⟨S768, .f32⟩ : BufTy).Contents (Elt Ideal)) (b : Fin 2) (s : Fin 2048) (e : Fin 768) :
    val_main_v38 (F := Ideal) a0 a1 a2 a3 a4 a5 a6 a7 a8 (ix3 b s e)
      = whole (fun b s k => a0 (ix3 b s k)) (fun o k => a1 (ix2 o k)) (fun o => a2 (ix1 o)) (fun o k => a3 (ix2 o k)) (fun o => a4 (ix1 o)) (fun o k => a5 (ix2 o k)) (fun o => a6 (ix1 o)) (fun o k => a7 (ix2 o k)) (fun o => a8 (ix1 o)) b s e := by
  have hq : (fun h b s d => val_main_v5 (F := Ideal) a0 a1 a2 (ix4 b h s d)) = projH (fun b s k => a0 (ix3 b s k)) (headW fun o k => a1 (ix2 o k)) (headB fun o => a2 (ix1 o)) :=
    funext fun h => funext fun b => funext fun s => funext fun d => projQ a0 a1 a2 b h s d
  have hk : (fun h b s d => val_main_v11 (F := Ideal) a0 a3 a4 (ix4 b h s d)) = projH (fun b s k => a0 (ix3 b s k)) (headW fun o k => a3 (ix2 o k)) (headB fun o => a4 (ix1 o)) :=
    funext fun h => funext fun b => funext fun s => funext fun d => projK a0 a3 a4 b h s d
  have hv : (fun h b s d => val_main_v17 (F := Ideal) a0 a5 a6 (ix4 b h s d)) = projH (fun b s k => a0 (ix3 b s k)) (headW fun o k => a5 (ix2 o k)) (headB fun o => a6 (ix1 o)) :=
    funext fun h => funext fun b => funext fun s => funext fun d => projV a0 a5 a6 b h s d
  have hc : (fun h b s d => val_main_v32 (F := Ideal) a0 a1 a2 a3 a4 a5 a6 (ix4 b h s d))
      = attn (projH (fun b s k => a0 (ix3 b s k)) (headW fun o k => a1 (ix2 o k)) (headB fun o => a2 (ix1 o))) (projH (fun b s k => a0 (ix3 b s k)) (headW fun o k => a3 (ix2 o k)) (headB fun o => a4 (ix1 o))) (projH (fun b s k => a0 (ix3 b s k)) (headW fun o k => a5 (ix2 o k)) (headB fun o => a6 (ix1 o))) := by
    funext h b s d
    rw [ctx_apply, ← hv]
    simp only [soft_apply, score_apply, hq, hk]
    rfl
  rw [out_heads, hc]
  rfl

/-- The run's result term at `(b, s, e)` is the specification of the launch contents of the arguments. -/
theorem res_apply (m : (ℓ : Loc nD τ sig) → Buf (Elt Ideal) ℓ) (c : Dev nD) (b : Fin 2) (s : Fin 2048) (e : Fin 768) :
    Cert.ReferenceIdeal.Value.res_main_v38 m c (ix3 b s e)
      = whole (fun b s k => m ((c.tc : Thread nD τ).loc main_arg0) (ix3 b s k)) (fun o k => m ((c.tc : Thread nD τ).loc main_arg1) (ix2 o k)) (fun o => m ((c.tc : Thread nD τ).loc main_arg2) (ix1 o)) (fun o k => m ((c.tc : Thread nD τ).loc main_arg3) (ix2 o k)) (fun o => m ((c.tc : Thread nD τ).loc main_arg4) (ix1 o)) (fun o k => m ((c.tc : Thread nD τ).loc main_arg5) (ix2 o k)) (fun o => m ((c.tc : Thread nD τ).loc main_arg6) (ix1 o)) (fun o k => m ((c.tc : Thread nD τ).loc main_arg7) (ix2 o k)) (fun o => m ((c.tc : Thread nD τ).loc main_arg8) (ix1 o)) b s e := by
  rw [val_main_v38_eq]
  exact ref_apply _ _ _ _ _ _ _ _ _ b s e

/-- Every weakly fair run of the reference from a memory with zero counters terminates with its result, index by index,
    at the specification of the launch contents of its arguments, and the arguments unchanged. -/
theorem run_spec (m' : (ℓ : Loc nD τ sig) → Buf (Elt Ideal) ℓ) (ρ' : Dev nD → PrngReg) :
    θ_run (defs (F := Ideal)) (onTc (τ := τ) (main (F := Ideal))) ⟨m', fun _ => 0, ρ'⟩ (fun r => ∀ c : Dev nD,
      (∀ (b : Fin 2) (s : Fin 2048) (e : Fin 768), r.2.mem ((c.tc : Thread nD τ).loc main_v38) (ix3 b s e)
        = whole (fun b s k => m' ((c.tc : Thread nD τ).loc main_arg0) (ix3 b s k)) (fun o k => m' ((c.tc : Thread nD τ).loc main_arg1) (ix2 o k)) (fun o => m' ((c.tc : Thread nD τ).loc main_arg2) (ix1 o)) (fun o k => m' ((c.tc : Thread nD τ).loc main_arg3) (ix2 o k)) (fun o => m' ((c.tc : Thread nD τ).loc main_arg4) (ix1 o)) (fun o k => m' ((c.tc : Thread nD τ).loc main_arg5) (ix2 o k)) (fun o => m' ((c.tc : Thread nD τ).loc main_arg6) (ix1 o)) (fun o k => m' ((c.tc : Thread nD τ).loc main_arg7) (ix2 o k)) (fun o => m' ((c.tc : Thread nD τ).loc main_arg8) (ix1 o)) b s e)
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)) :=
  (θ_run defs _ _).mono (fun r h c => ⟨fun b s e => (congrFun (h c).1 (ix3 b s e)).trans (res_apply m' c b s e), (h c).2⟩)
    (Cert.ReferenceIdeal.Value.run (F := Ideal) m' ρ')

end Cert.ReferenceIdeal.RefValue

end
-- ==== Proof.lean ====
/-
  The certificate's claims, assembled.

  The kernel program is three kernel regions after a host prelude; its run (the same text at the word level and over the
  extended reals) names every buffer at every boundary, which gives both frames at once. Over the extended reals the
  last boundary's result buffer is, index by index, the attention specification of the launch contents of the nine
  arguments; the reference's generated run ends at the same specification of its own arguments, which agree with the
  kernel's. Nothing is owed for the idealization: the ideal pass rewrote no operation.
-/
import proofs.«113036_j73607149519274_2_alg».proof.Defs
import proofs.«113036_j73607149519274_2_alg».proof.Proof.Gen.Kernel
import proofs.«113036_j73607149519274_2_alg».proof.Proof.Gen.KernelIdeal
import proofs.«113036_j73607149519274_2_alg».proof.Proof.Gen.ReferenceIdeal
import proofs.«113036_j73607149519274_2_alg».proof.Proof.Gen.ReferenceIdeal.Run
import proofs.«113036_j73607149519274_2_alg».proof.Proof.Gen.ReferenceIdeal.Read
import proofs.«113036_j73607149519274_2_alg».proof.Proof.Gen.Pre_finite_inputs
import proofs.«113036_j73607149519274_2_alg».proof.Proof.K.Data
import proofs.«113036_j73607149519274_2_alg».proof.Proof.K.Args
import proofs.«113036_j73607149519274_2_alg».proof.Proof.KI.Data
import proofs.«113036_j73607149519274_2_alg».proof.Proof.KI.Args
import proofs.«113036_j73607149519274_2_alg».proof.Proof.KI.Value
import proofs.«113036_j73607149519274_2_alg».proof.Proof.Ref.Result
import Idealize.ShloMosaic.Adequacy
import Idealize.ShloMosaic.Init

noncomputable section

namespace Cert.Proof

open Idealize.ShloMosaic Idealize.ShloMosaic.ValueIdx Idealize.SL.Sem

/-- The word-level kernel program runs and leaves its arguments alone. -/
theorem frame_k : Cert.frame_Kernel := fun m ρ _ =>
  Cert.Kernel.Hand.frame_of_run (Cert.Kernel.Hand.params m ρ) Cert.Kernel.Hand.rd0 Cert.Kernel.Hand.rd1 Cert.Kernel.Hand.rd2

/-- So does its reading over the extended reals. -/
theorem frame_ki : Cert.frame_KernelIdeal := fun m ρ _ =>
  Cert.KernelIdeal.Hand.frame_of_run (Cert.KernelIdeal.Hand.params m ρ) Cert.KernelIdeal.Hand.rd0 Cert.KernelIdeal.Hand.rd1 Cert.KernelIdeal.Hand.rd2

/-- The reference's frame is its run with the result dropped. -/
theorem frame_ri : Cert.frame_ReferenceIdeal := fun m ρ _ =>
  (θ_run Cert.ReferenceIdeal.defs _ _).mono (fun _ h c => (h c).2) (Cert.ReferenceIdeal.RefValue.run_spec m ρ)

/-- Both programs end, from memories agreeing on the arguments, with the same result: each is the attention
    specification of the nine argument arrays, index by index. -/
theorem algebraic : Cert.algebraic_KernelIdeal_ReferenceIdeal := by
  intro m ρ m' ρ' _ hagree
  refine ⟨fun c => Cert.KernelIdeal.Hand.W4 (Cert.KernelIdeal.Hand.params m ρ) c (Proc.devRef .tc Cert.KernelIdeal.main_v18), ?_, ?_⟩
  · refine (θ_run Cert.KernelIdeal.defs _ _).mono (fun r h c => ?_)
      (Cert.KernelIdeal.Hand.run_all (Cert.KernelIdeal.Hand.params m ρ) Cert.KernelIdeal.Hand.rd0 Cert.KernelIdeal.Hand.rd1 Cert.KernelIdeal.Hand.rd2)
    exact ⟨h c _ (Cert.KernelIdeal.Hand.mem_uc Cert.KernelIdeal.main_v18 (by decide)),
      (h c _ (Cert.KernelIdeal.Hand.mem_uc Cert.KernelIdeal.main_arg0 (by decide))).trans (Cert.KernelIdeal.Hand.W4_main_arg0 _ Cert.KernelIdeal.Hand.rd0 c),
      (h c _ (Cert.KernelIdeal.Hand.mem_uc Cert.KernelIdeal.main_arg1 (by decide))).trans (Cert.KernelIdeal.Hand.W4_main_arg1 _ c),
      (h c _ (Cert.KernelIdeal.Hand.mem_uc Cert.KernelIdeal.main_arg2 (by decide))).trans (Cert.KernelIdeal.Hand.W4_main_arg2 _ c),
      (h c _ (Cert.KernelIdeal.Hand.mem_uc Cert.KernelIdeal.main_arg3 (by decide))).trans (Cert.KernelIdeal.Hand.W4_main_arg3 _ c),
      (h c _ (Cert.KernelIdeal.Hand.mem_uc Cert.KernelIdeal.main_arg4 (by decide))).trans (Cert.KernelIdeal.Hand.W4_main_arg4 _ c),
      (h c _ (Cert.KernelIdeal.Hand.mem_uc Cert.KernelIdeal.main_arg5 (by decide))).trans (Cert.KernelIdeal.Hand.W4_main_arg5 _ c),
      (h c _ (Cert.KernelIdeal.Hand.mem_uc Cert.KernelIdeal.main_arg6 (by decide))).trans (Cert.KernelIdeal.Hand.W4_main_arg6 _ c),
      (h c _ (Cert.KernelIdeal.Hand.mem_uc Cert.KernelIdeal.main_arg7 (by decide))).trans (Cert.KernelIdeal.Hand.W4_main_arg7 _ c),
      (h c _ (Cert.KernelIdeal.Hand.mem_uc Cert.KernelIdeal.main_arg8 (by decide))).trans (Cert.KernelIdeal.Hand.W4_main_arg8 _ c)⟩
  · refine (θ_run Cert.ReferenceIdeal.defs _ _).mono (fun r h c => ⟨?_, (h c).2⟩) (Cert.ReferenceIdeal.RefValue.run_spec m' ρ')
    funext i
    obtain ⟨b, s, e, rfl⟩ : ∃ (b : Fin 2) (s : Fin 2048) (e : Fin 768), i = ix3 b s e := ⟨i 0, i 1, i 2, eq_ix3 i⟩
    beta_reduce
    rw [(h c).1 b s e, Cert.KernelIdeal.Hand.out_apply m ρ c b s e,
      (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
